-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200x64 : Shape := ⟨3, ![4096, 200, 64]⟩
abbrev S202x64 : Shape := ⟨2, ![202, 64]⟩
abbrev S_ : Shape := ⟨0, ![]⟩

class Facts : Prop where
  bcast_S_S4096x200x64 : S_.BroadcastsInDim S4096x200x64 (![] : Fin 0 → Fin S4096x200x64.rank)
  reducesTo_S4096x200x64_S_d0_1_2 : S4096x200x64.ReducesTo [0, 1, 2] S_
  h_S_ : 0 < S_.numel
  bcast_S_S202x64 : S_.BroadcastsInDim S202x64 (![] : Fin 0 → Fin S202x64.rank)
  reducesTo_S202x64_S_d0_1 : S202x64.ReducesTo [0, 1] S_

variable [Facts]

def fn {F : FTy → Type} [FloatOps F] (main_arg0 : FVec F S4096x200x64 .f32) (main_arg1 : FVec F S202x64 .f32) : IVec S_ 1 :=
  let main_v0 : FVec F S4096x200x64 .f32 := Host.absf main_arg0
  let main_cst : FVec F S_ .f32 := constant S_ .f32 0x7F800000#32
  let main_v1 : FVec F S4096x200x64 .f32 := broadcastInDim S4096x200x64 ![] bcast_S_S4096x200x64 main_cst
  let main_v2 : IVec S4096x200x64 1 := cmpf .olt main_v0 main_v1
  let main_c : IVec S_ 1 := constantI S_ 1 1#1
  let main_v3 : IVec S_ 1 := (fun x v => Host.reduce IntOp.andi x v reducesTo_S4096x200x64_S_d0_1_2 h_S_) main_v2 main_c
  let main_v4 : FVec F S202x64 .f32 := Host.absf main_arg1
  let main_cst_0 : FVec F S_ .f32 := constant S_ .f32 0x7F800000#32
  let main_v5 : FVec F S202x64 .f32 := broadcastInDim S202x64 ![] bcast_S_S202x64 main_cst_0
  let main_v6 : IVec S202x64 1 := cmpf .olt main_v4 main_v5
  let main_c_1 : IVec S_ 1 := constantI S_ 1 1#1
  let main_v7 : IVec S_ 1 := (fun x v => Host.reduce IntOp.andi x v reducesTo_S202x64_S_d0_1 h_S_) main_v6 main_c_1
  let main_v8 : IVec S_ 1 := andi main_v3 main_v7
  main_v8
-- ==== Kernel.lean ====
abbrev S4096x200x64 : Shape := ⟨3, ![4096, 200, 64]⟩
abbrev S202x64 : Shape := ⟨2, ![202, 64]⟩
abbrev S200x64 : Shape := ⟨2, ![200, 64]⟩
abbrev S_ : Shape := ⟨0, ![]⟩
abbrev S200x128 : Shape := ⟨2, ![200, 128]⟩
abbrev S4096x12800 : Shape := ⟨2, ![4096, 12800]⟩
abbrev S4096x200x128 : Shape := ⟨3, ![4096, 200, 128]⟩
abbrev S12800 : Shape := ⟨1, ![12800]⟩
abbrev S2 : Shape := ⟨1, ![2]⟩
abbrev S1x12800 : Shape := ⟨2, ![1, 12800]⟩
abbrev S1 : Shape := ⟨1, ![1]⟩
abbrev S1x200x128 : Shape := ⟨3, ![1, 200, 128]⟩
abbrev S16 : Shape := ⟨1, ![16]⟩
abbrev S1x16 : Shape := ⟨2, ![1, 16]⟩

abbrev nBuf : Table → Nat
  | .hbm => 8
  | .local .scVector .vmem => 4
  | _ => 0

abbrev bufTy : (tb : Table) → Fin (nBuf tb) → BufTy
  | .hbm, ⟨0, _⟩ => ⟨S4096x200x64, .f32⟩
  | .hbm, ⟨1, _⟩ => ⟨S202x64, .f32⟩
  | .hbm, ⟨2, _⟩ => ⟨S200x64, .f32⟩
  | .hbm, ⟨3, _⟩ => ⟨S_, .f32⟩
  | .hbm, ⟨4, _⟩ => ⟨S200x64, .f32⟩
  | .hbm, ⟨5, _⟩ => ⟨S200x128, .f32⟩
  | .hbm, ⟨6, _⟩ => ⟨S4096x12800, .f32⟩
  | .hbm, ⟨7, _⟩ => ⟨S4096x200x128, .f32⟩
  | .local .scVector .vmem, ⟨0, _⟩ => ⟨S12800, .f32⟩
  | .local .scVector .vmem, ⟨1, _⟩ => ⟨S12800, .f32⟩
  | .local .scVector .vmem, ⟨2, _⟩ => ⟨S200x128, .f32⟩
  | .local .scVector .vmem, ⟨3, _⟩ => ⟨S200x128, .f32⟩
  | _, _ => ⟨S4096x200x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v3_scv : Ref sig .scVector := ⟨.hbm, 6, rfl⟩
abbrev main_v2_scv : Ref sig .scVector := ⟨.hbm, 5, rfl⟩
abbrev main_v4_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_0 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32 : BitVec 32 := 1#32
  let v9 : BitVec 32 := Scalar.addi v2 c1_i32
  let c0_i32_3 : BitVec 32 := 0#32
  ![v9.toNat, 0]
@[reducible] def k0_t1_loop : Scf.Loop 32 :=
  let c0_i32_6 : BitVec 32 := 0#32
  let c64_i32 : BitVec 32 := 64#32
  let v16 : BitVec 32 := Scalar.addi c0_i32_6 c64_i32
  let c1_i32_7 : BitVec 32 := 1#32
  ⟨c0_i32_6, v16, c1_i32_7⟩
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_23 : BitVec 32 := 2#32
  let c0_i32_6 : BitVec 32 := 0#32
  let c1_i32_7 : BitVec 32 := 1#32
  let arg11 : BitVec 32 := Scf.iv c0_i32_6 c1_i32_7 k0_t1
  let v33 : BitVec 32 := Scalar.muli c2_i32_23 arg11
  let v34 : BitVec 32 := Scalar.addi v2 v33
  let c0_i32_25 : BitVec 32 := 0#32
  ![v34.toNat, 0]
def k0_cond1 (k0_t1 : Fin k0_t1_loop.trips) : BitVec 1 :=
  let c2_i32_23 : BitVec 32 := 2#32
  let c0_i32_6 : BitVec 32 := 0#32
  let c1_i32_7 : BitVec 32 := 1#32
  let arg11 : BitVec 32 := Scf.iv c0_i32_6 c1_i32_7 k0_t1
  let v33 : BitVec 32 := Scalar.muli c2_i32_23 arg11
  let c2_i32_27 : BitVec 32 := 2#32
  let v41 : BitVec 1 := Scalar.cmpi .sge v33 c2_i32_27
  let v42 : BitVec 32 := Scalar.extui v41
  let c0_i32_29 : BitVec 32 := 0#32
  let v43 : BitVec 1 := Scalar.cmpi .ne v42 c0_i32_29
  v43

def k0_off4 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_23 : BitVec 32 := 2#32
  let c0_i32_6 : BitVec 32 := 0#32
  let c1_i32_7 : BitVec 32 := 1#32
  let arg11 : BitVec 32 := Scf.iv c0_i32_6 c1_i32_7 k0_t1
  let v33 : BitVec 32 := Scalar.muli c2_i32_23 arg11
  let v9677 : BitVec 32 := Scalar.addi v2 v33
  let c2_i32_3860 : BitVec 32 := 2#32
  let v9678 : BitVec 32 := Scalar.subi v9677 c2_i32_3860
  let c0_i32_3861 : BitVec 32 := 0#32
  let c0_i32_3862 : BitVec 32 := 0#32
  ![v9678.toNat, 0, 0]
def k0_off5 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_23 : BitVec 32 := 2#32
  let c0_i32_6 : BitVec 32 := 0#32
  let c1_i32_7 : BitVec 32 := 1#32
  let arg11 : BitVec 32 := Scf.iv c0_i32_6 c1_i32_7 k0_t1
  let v33 : BitVec 32 := Scalar.muli c2_i32_23 arg11
  let v4844 : BitVec 32 := Scalar.addi v2 v33
  let c0_i32_1436 : BitVec 32 := 0#32
  let c0_i32_1437 : BitVec 32 := 0#32
  ![v4844.toNat, 0, 0]
def k0_cond2 (k0_t1 : Fin k0_t1_loop.trips) : BitVec 1 :=
  let c2_i32_23 : BitVec 32 := 2#32
  let c0_i32_6 : BitVec 32 := 0#32
  let c1_i32_7 : BitVec 32 := 1#32
  let arg11 : BitVec 32 := Scf.iv c0_i32_6 c1_i32_7 k0_t1
  let v33 : BitVec 32 := Scalar.muli c2_i32_23 arg11
  let c2_i32_1440 : BitVec 32 := 2#32
  let v4851 : BitVec 32 := Scalar.addi v33 c2_i32_1440
  let c128_i32_1441 : BitVec 32 := 128#32
  let v4852 : BitVec 1 := Scalar.cmpi .slt v4851 c128_i32_1441
  let v4853 : BitVec 32 := Scalar.extui v4852
  let c0_i32_1443 : BitVec 32 := 0#32
  let v4854 : BitVec 1 := Scalar.cmpi .ne v4853 c0_i32_1443
  v4854

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_23 : BitVec 32 := 2#32
  let c0_i32_6 : BitVec 32 := 0#32
  let c1_i32_7 : BitVec 32 := 1#32
  let arg11 : BitVec 32 := Scf.iv c0_i32_6 c1_i32_7 k0_t1
  let v33 : BitVec 32 := Scalar.muli c2_i32_23 arg11
  let v9677 : BitVec 32 := Scalar.addi v2 v33
  let c2_i32_3860 : BitVec 32 := 2#32
  let v9678 : BitVec 32 := Scalar.addi v9677 c2_i32_3860
  let c0_i32_3861 : BitVec 32 := 0#32
  ![v9678.toNat, 0]
def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_23 : BitVec 32 := 2#32
  let c0_i32_6 : BitVec 32 := 0#32
  let c1_i32_7 : BitVec 32 := 1#32
  let arg11 : BitVec 32 := Scf.iv c0_i32_6 c1_i32_7 k0_t1
  let v33 : BitVec 32 := Scalar.muli c2_i32_23 arg11
  let c1_i32_1444 : BitVec 32 := 1#32
  let v4855 : BitVec 32 := Scalar.addi v33 c1_i32_1444
  let v4856 : BitVec 32 := Scalar.addi v2 v4855
  let c0_i32_1446 : BitVec 32 := 0#32
  ![v4856.toNat, 0]
def k0_cond3 (k0_t1 : Fin k0_t1_loop.trips) : BitVec 1 :=
  let c2_i32_23 : BitVec 32 := 2#32
  let c0_i32_6 : BitVec 32 := 0#32
  let c1_i32_7 : BitVec 32 := 1#32
  let arg11 : BitVec 32 := Scf.iv c0_i32_6 c1_i32_7 k0_t1
  let v33 : BitVec 32 := Scalar.muli c2_i32_23 arg11
  let c1_i32_1444 : BitVec 32 := 1#32
  let v4855 : BitVec 32 := Scalar.addi v33 c1_i32_1444
  let c2_i32_1448 : BitVec 32 := 2#32
  let v4863 : BitVec 1 := Scalar.cmpi .sge v4855 c2_i32_1448
  let v4864 : BitVec 32 := Scalar.extui v4863
  let c0_i32_1450 : BitVec 32 := 0#32
  let v4865 : BitVec 1 := Scalar.cmpi .ne v4864 c0_i32_1450
  v4865

def k0_off8 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_23 : BitVec 32 := 2#32
  let c0_i32_6 : BitVec 32 := 0#32
  let c1_i32_7 : BitVec 32 := 1#32
  let arg11 : BitVec 32 := Scf.iv c0_i32_6 c1_i32_7 k0_t1
  let v33 : BitVec 32 := Scalar.muli c2_i32_23 arg11
  let c1_i32_1444 : BitVec 32 := 1#32
  let v4855 : BitVec 32 := Scalar.addi v33 c1_i32_1444
  let v9677 : BitVec 32 := Scalar.addi v2 v4855
  let c2_i32_3860 : BitVec 32 := 2#32
  let v9678 : BitVec 32 := Scalar.subi v9677 c2_i32_3860
  let c0_i32_3861 : BitVec 32 := 0#32
  let c0_i32_3862 : BitVec 32 := 0#32
  ![v9678.toNat, 0, 0]
def k0_off9 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_23 : BitVec 32 := 2#32
  let c0_i32_6 : BitVec 32 := 0#32
  let c1_i32_7 : BitVec 32 := 1#32
  let arg11 : BitVec 32 := Scf.iv c0_i32_6 c1_i32_7 k0_t1
  let v33 : BitVec 32 := Scalar.muli c2_i32_23 arg11
  let c1_i32_1444 : BitVec 32 := 1#32
  let v4855 : BitVec 32 := Scalar.addi v33 c1_i32_1444
  let v9666 : BitVec 32 := Scalar.addi v2 v4855
  let c0_i32_3852 : BitVec 32 := 0#32
  let c0_i32_3853 : BitVec 32 := 0#32
  ![v9666.toNat, 0, 0]
def k0_cond4 (k0_t1 : Fin k0_t1_loop.trips) : BitVec 1 :=
  let c2_i32_23 : BitVec 32 := 2#32
  let c0_i32_6 : BitVec 32 := 0#32
  let c1_i32_7 : BitVec 32 := 1#32
  let arg11 : BitVec 32 := Scf.iv c0_i32_6 c1_i32_7 k0_t1
  let v33 : BitVec 32 := Scalar.muli c2_i32_23 arg11
  let c1_i32_1444 : BitVec 32 := 1#32
  let v4855 : BitVec 32 := Scalar.addi v33 c1_i32_1444
  let c2_i32_3856 : BitVec 32 := 2#32
  let v9673 : BitVec 32 := Scalar.addi v4855 c2_i32_3856
  let c128_i32_3857 : BitVec 32 := 128#32
  let v9674 : BitVec 1 := Scalar.cmpi .slt v9673 c128_i32_3857
  let v9675 : BitVec 32 := Scalar.extui v9674
  let c0_i32_3859 : BitVec 32 := 0#32
  let v9676 : BitVec 1 := Scalar.cmpi .ne v9675 c0_i32_3859
  v9676

def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_23 : BitVec 32 := 2#32
  let c0_i32_6 : BitVec 32 := 0#32
  let c1_i32_7 : BitVec 32 := 1#32
  let arg11 : BitVec 32 := Scf.iv c0_i32_6 c1_i32_7 k0_t1
  let v33 : BitVec 32 := Scalar.muli c2_i32_23 arg11
  let c1_i32_1444 : BitVec 32 := 1#32
  let v4855 : BitVec 32 := Scalar.addi v33 c1_i32_1444
  let v9677 : BitVec 32 := Scalar.addi v2 v4855
  let c2_i32_3860 : BitVec 32 := 2#32
  let v9678 : BitVec 32 := Scalar.addi v9677 c2_i32_3860
  let c0_i32_3861 : BitVec 32 := 0#32
  ![v9678.toNat, 0]
def k0_off11 (i : grid0.Coords) (c2_i32_10 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c128_i32_9 : BitVec 32 := 128#32
  let v17 : BitVec 32 := Scalar.addi v2 c128_i32_9
  let v18 : BitVec 32 := Scalar.subi v17 c2_i32_10
  let c0_i32_12 : BitVec 32 := 0#32
  let c0_i32_13 : BitVec 32 := 0#32
  ![v18.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class K0.Facts₀ : Prop where
  hcore0 : grid0.bound 0 ≤ τ.nSC
  hsub0 : grid0.bound 1 ≤ τ.nSub
  k0_off1_inb : ∀ i : grid0.Coords, ∀ a, (k0_off1 i) a + S1x12800.size a ≤ S4096x12800.size a
  k0_off2_inb : ∀ i : grid0.Coords, ∀ a, (k0_off2 i) a + S1x12800.size a ≤ S4096x12800.size a
  k0_t1_ok : k0_t1_loop.OK
  k0_off3_inb : ∀ (i : grid0.Coords) (k0_t1 : Fin k0_t1_loop.trips), ∀ a, (k0_off3 i k0_t1) a + S1x12800.size a ≤ S4096x12800.size a
  k0_off4_inb : ∀ (i : grid0.Coords) (k0_t1 : Fin k0_t1_loop.trips), ∀ (k0_h1 : k0_cond1 k0_t1 = 1#1), ∀ a, (k0_off4 i k0_t1) a + S1x200x128.size a ≤ S4096x200x128.size a
  k0_off5_inb : ∀ (i : grid0.Coords) (k0_t1 : Fin k0_t1_loop.trips), ∀ a, (k0_off5 i k0_t1) a + S1x200x128.size a ≤ S4096x200x128.size a
  k0_off6_inb : ∀ (i : grid0.Coords) (k0_t1 : Fin k0_t1_loop.trips), ∀ (k0_h2 : k0_cond2 k0_t1 = 1#1), ∀ a, (k0_off6 i k0_t1) a + S1x12800.size a ≤ S4096x12800.size a
  k0_off7_inb : ∀ (i : grid0.Coords) (k0_t1 : Fin k0_t1_loop.trips), ∀ a, (k0_off7 i k0_t1) a + S1x12800.size a ≤ S4096x12800.size a
  k0_off8_inb : ∀ (i : grid0.Coords) (k0_t1 : Fin k0_t1_loop.trips), ∀ (k0_h3 : k0_cond3 k0_t1 = 1#1), ∀ a, (k0_off8 i k0_t1) a + S1x200x128.size a ≤ S4096x200x128.size a
  k0_off9_inb : ∀ (i : grid0.Coords) (k0_t1 : Fin k0_t1_loop.trips), ∀ a, (k0_off9 i k0_t1) a + S1x200x128.size a ≤ S4096x200x128.size a
  k0_off10_inb : ∀ (i : grid0.Coords) (k0_t1 : Fin k0_t1_loop.trips), ∀ (k0_h4 : k0_cond4 k0_t1 = 1#1), ∀ a, (k0_off10 i k0_t1) a + S1x12800.size a ≤ S4096x12800.size a
  k0_off11_inb : ∀ i : grid0.Coords, ∀ (r : Fin 2), ∀ a, (k0_off11 i (BitVec.ofNat 32 (1 + r.val))) a + S1x200x128.size a ≤ S4096x200x128.size a

class Shapes1.Facts₀ : Prop where
  slices_S202x64_S200x64_0_0 : S202x64.Slices ![0, 0] S200x64
  bcast_S_S200x64 : S_.BroadcastsInDim S200x64 (![] : Fin 0 → Fin S200x64.rank)
  concatenates_S200x64_S200x64_S200x128_d1 : Shape.Concatenates [S200x64, S200x64] S200x128 1
  shapeCasts_S4096x200x64_S4096x12800 : S4096x200x64.ShapeCasts S4096x12800
  squeezes_S1x12800_S12800 : S1x12800.Squeezes S12800
  inb_S2_S1_0 : ∀ a, (![0] : Fin 1 → Nat) a + S1.size a ≤ S2.size a
  squeezes_S1_S_ : S1.Squeezes S_
  inb_S2_S1_1 : ∀ a, (![1] : Fin 1 → Nat) a + S1.size a ≤ S2.size a
  squeezes_S1x200x128_S200x128 : S1x200x128.Squeezes S200x128
  inb_S12800_S16_0 : ∀ a, (![0] : Fin 1 → Nat) a + S16.size a ≤ S12800.size a
  h_S16 : 0 < S16.numel
  shapeCasts_S16_S16 : S16.ShapeCasts S16
  inb_S200x128_S1x16_0_0 : ∀ a, (![0, 0] : Fin 2 → Nat) a + S1x16.size a ≤ S200x128.size a
  h_S1x16 : 0 < S1x16.numel
  shapeCasts_S1x16_S16 : S1x16.ShapeCasts S16
  shapeCasts_S16_S1x16 : S16.ShapeCasts S1x16
  inb_S12800_S16_16 : ∀ a, (![16] : Fin 1 → Nat) a + S16.size a ≤ S12800.size a
  inb_S200x128_S1x16_0_16 : ∀ a, (![0, 16] : Fin 2 → Nat) a + S1x16.size a ≤ S200x128.size a
  inb_S12800_S16_32 : ∀ a, (![32] : Fin 1 → Nat) a + S16.size a ≤ S12800.size a
  inb_S200x128_S1x16_0_32 : ∀ a, (![0, 32] : Fin 2 → Nat) a + S1x16.size a ≤ S200x128.size a
  inb_S12800_S16_48 : ∀ a, (![48] : Fin 1 → Nat) a + S16.size a ≤ S12800.size a
  inb_S200x128_S1x16_0_48 : ∀ a, (![0, 48] : Fin 2 → Nat) a + S1x16.size a ≤ S200x128.size a
  inb_S12800_S16_64 : ∀ a, (![64] : Fin 1 → Nat) a + S16.size a ≤ S12800.size a
  inb_S200x128_S1x16_1_0 : ∀ a, (![1, 0] : Fin 2 → Nat) a + S1x16.size a ≤ S200x128.size a
  inb_S12800_S16_80 : ∀ a, (![80] : Fin 1 → Nat) a + S16.size a ≤ S12800.size a
  inb_S200x128_S1x16_1_16 : ∀ a, (![1, 16] : Fin 2 → Nat) a + S1x16.size a ≤ S200x128.size a
  inb_S12800_S16_96 : ∀ a, (![96] : Fin 1 → Nat) a + S16.size a ≤ S12800.size a
  inb_S200x128_S1x16_1_32 : ∀ a, (![1, 32] : Fin 2 → Nat) a + S1x16.size a ≤ S200x128.size a
  inb_S12800_S16_112 : ∀ a, (![112] : Fin 1 → Nat) a + S16.size a ≤ S12800.size a
  inb_S200x128_S1x16_1_48 : ∀ a, (![1, 48] : Fin 2 → Nat) a + S1x16.size a ≤ S200x128.size a
  inb_S12800_S16_128 : ∀ a, (![128] : Fin 1 → Nat) a + S16.size a ≤ S12800.size a
  inb_S200x128_S1x16_2_0 : ∀ a, (![2, 0] : Fin 2 → Nat) a + S1x16.size a ≤ S200x128.size a
  inb_S12800_S16_144 : ∀ a, (![144] : Fin 1 → Nat) a + S16.size a ≤ S12800.size a
  inb_S200x128_S1x16_2_16 : ∀ a, (![2, 16] : Fin 2 → Nat) a + S1x16.size a ≤ S200x128.size a
  inb_S12800_S16_160 : ∀ a, (![160] : Fin 1 → Nat) a + S16.size a ≤ S12800.size a
  inb_S200x128_S1x16_2_32 : ∀ a, (![2, 32] : Fin 2 → Nat) a + S1x16.size a ≤ S200x128.size a
  inb_S12800_S16_176 : ∀ a, (![176] : Fin 1 → Nat) a + S16.size a ≤ S12800.size a
  inb_S200x128_S1x16_2_48 : ∀ a, (![2, 48] : Fin 2 → Nat) a + S1x16.size a ≤ S200x128.size a
  inb_S12800_S16_192 : ∀ a, (![192] : Fin 1 → Nat) a + S16.size a ≤ S12800.size a
  inb_S200x128_S1x16_3_0 : ∀ a, (![3, 0] : Fin 2 → Nat) a + S1x16.size a ≤ S200x128.size a
  inb_S12800_S16_208 : ∀ a, (![208] : Fin 1 → Nat) a + S16.size a ≤ S12800.size a
  inb_S200x128_S1x16_3_16 : ∀ a, (![3, 16] : Fin 2 → Nat) a + S1x16.size a ≤ S200x128.size a
  inb_S12800_S16_224 : ∀ a, (![224] : Fin 1 → Nat) a + S16.size a ≤ S12800.size a
  inb_S200x128_S1x16_3_32 : ∀ a, (![3, 32] : Fin 2 → Nat) a + S1x16.size a ≤ S200x128.size a
  inb_S12800_S16_240 : ∀ a, (![240] : Fin 1 → Nat) a + S16.size a ≤ S12800.size a
  inb_S200x128_S1x16_3_48 : ∀ a, (![3, 48] : Fin 2 → Nat) a + S1x16.size a ≤ S200x128.size a
  inb_S12800_S16_256 : ∀ a, (![256] : Fin 1 → Nat) a + S16.size a ≤ S12800.size a
  inb_S200x128_S1x16_4_0 : ∀ a, (![4, 0] : Fin 2 → Nat) a + S1x16.size a ≤ S200x128.size a
  inb_S12800_S16_272 : ∀ a, (![272] : Fin 1 → Nat) a + S16.size a ≤ S12800.size a
  inb_S200x128_S1x16_4_16 : ∀ a, (![4, 16] : Fin 2 → Nat) a + S1x16.size a ≤ S200x128.size a
  inb_S12800_S16_288 : ∀ a, (![288] : Fin 1 → Nat) a + S16.size a ≤ S12800.size a
  inb_S200x128_S1x16_4_32 : ∀ a, (![4, 32] : Fin 2 → Nat) a + S1x16.size a ≤ S200x128.size a
  inb_S12800_S16_304 : ∀ a, (![304] : Fin 1 → Nat) a + S16.size a ≤ S12800.size a
  inb_S200x128_S1x16_4_48 : ∀ a, (![4, 48] : Fin 2 → Nat) a + S1x16.size a ≤ S200x128.size a
  inb_S12800_S16_320 : ∀ a, (![320] : Fin 1 → Nat) a + S16.size a ≤ S12800.size a
  inb_S200x128_S1x16_5_0 : ∀ a, (![5, 0] : Fin 2 → Nat) a + S1x16.size a ≤ S200x128.size a
  inb_S12800_S16_336 : ∀ a, (![336] : Fin 1 → Nat) a + S16.size a ≤ S12800.size a
  inb_S200x128_S1x16_5_16 : ∀ a, (![5, 16] : Fin 2 → Nat) a + S1x16.size a ≤ S200x128.size a
  inb_S12800_S16_352 : ∀ a, (![352] : Fin 1 → Nat) a + S16.size a ≤ S12800.size a
  inb_S200x128_S1x16_5_32 : ∀ a, (![5, 32] : Fin 2 → Nat) a + S1x16.size a ≤ S200x128.size a
  inb_S12800_S16_368 : ∀ a, (![368] : Fin 1 → Nat) a + S16.size a ≤ S12800.size a
  inb_S200x128_S1x16_5_48 : ∀ a, (![5, 48] : Fin 2 → Nat) a + S1x16.size a ≤ S200x128.size a
  inb_S12800_S16_384 : ∀ a, (![384] : Fin 1 → Nat) a + S16.size a ≤ S12800.size a
  inb_S200x128_S1x16_6_0 : ∀ a, (![6, 0] : Fin 2 → Nat) a + S1x16.size a ≤ S200x128.size a
  inb_S12800_S16_400 : ∀ a, (![400] : Fin 1 → Nat) a + S16.size a ≤ S12800.size a
  inb_S200x128_S1x16_6_16 : ∀ a, (![6, 16] : Fin 2 → Nat) a + S1x16.size a ≤ S200x128.size a
  inb_S12800_S16_416 : ∀ a, (![416] : Fin 1 → Nat) a + S16.size a ≤ S12800.size a
  inb_S200x128_S1x16_6_32 : ∀ a, (![6, 32] : Fin 2 → Nat) a + S1x16.size a ≤ S200x128.size a
  inb_S12800_S16_432 : ∀ a, (![432] : Fin 1 → Nat) a + S16.size a ≤ S12800.size a
  inb_S200x128_S1x16_6_48 : ∀ a, (![6, 48] : Fin 2 → Nat) a + S1x16.size a ≤ S200x128.size a
  inb_S12800_S16_448 : ∀ a, (![448] : Fin 1 → Nat) a + S16.size a ≤ S12800.size a
  inb_S200x128_S1x16_7_0 : ∀ a, (![7, 0] : Fin 2 → Nat) a + S1x16.size a ≤ S200x128.size a
  inb_S12800_S16_464 : ∀ a, (![464] : Fin 1 → Nat) a + S16.size a ≤ S12800.size a
  inb_S200x128_S1x16_7_16 : ∀ a, (![7, 16] : Fin 2 → Nat) a + S1x16.size a ≤ S200x128.size a
  inb_S12800_S16_480 : ∀ a, (![480] : Fin 1 → Nat) a + S16.size a ≤ S12800.size a
  inb_S200x128_S1x16_7_32 : ∀ a, (![7, 32] : Fin 2 → Nat) a + S1x16.size a ≤ S200x128.size a
  inb_S12800_S16_496 : ∀ a, (![496] : Fin 1 → Nat) a + S16.size a ≤ S12800.size a
  inb_S200x128_S1x16_7_48 : ∀ a, (![7, 48] : Fin 2 → Nat) a + S1x16.size a ≤ S200x128.size a
  inb_S12800_S16_512 : ∀ a, (![512] : Fin 1 → Nat) a + S16.size a ≤ S12800.size a
  inb_S200x128_S1x16_8_0 : ∀ a, (![8, 0] : Fin 2 → Nat) a + S1x16.size a ≤ S200x128.size a
  inb_S12800_S16_528 : ∀ a, (![528] : Fin 1 → Nat) a + S16.size a ≤ S12800.size a
  inb_S200x128_S1x16_8_16 : ∀ a, (![8, 16] : Fin 2 → Nat) a + S1x16.size a ≤ S200x128.size a
  inb_S12800_S16_544 : ∀ a, (![544] : Fin 1 → Nat) a + S16.size a ≤ S12800.size a
  inb_S200x128_S1x16_8_32 : ∀ a, (![8, 32] : Fin 2 → Nat) a + S1x16.size a ≤ S200x128.size a
  inb_S12800_S16_560 : ∀ a, (![560] : Fin 1 → Nat) a + S16.size a ≤ S12800.size a
  inb_S200x128_S1x16_8_48 : ∀ a, (![8, 48] : Fin 2 → Nat) a + S1x16.size a ≤ S200x128.size a
  inb_S12800_S16_576 : ∀ a, (![576] : Fin 1 → Nat) a + S16.size a ≤ S12800.size a
  inb_S200x128_S1x16_9_0 : ∀ a, (![9, 0] : Fin 2 → Nat) a + S1x16.size a ≤ S200x128.size a
  inb_S12800_S16_592 : ∀ a, (![592] : Fin 1 → Nat) a + S16.size a ≤ S12800.size a
  inb_S200x128_S1x16_9_16 : ∀ a, (![9, 16] : Fin 2 → Nat) a + S1x16.size a ≤ S200x128.size a
  inb_S12800_S16_608 : ∀ a, (![608] : Fin 1 → Nat) a + S16.size a ≤ S12800.size a
  inb_S200x128_S1x16_9_32 : ∀ a, (![9, 32] : Fin 2 → Nat) a + S1x16.size a ≤ S200x128.size a
  inb_S12800_S16_624 : ∀ a, (![624] : Fin 1 → Nat) a + S16.size a ≤ S12800.size a
  inb_S200x128_S1x16_9_48 : ∀ a, (![9, 48] : Fin 2 → Nat) a + S1x16.size a ≤ S200x128.size a
  inb_S12800_S16_640 : ∀ a, (![640] : Fin 1 → Nat) a + S16.size a ≤ S12800.size a
  inb_S200x128_S1x16_10_0 : ∀ a, (![10, 0] : Fin 2 → Nat) a + S1x16.size a ≤ S200x128.size a
  inb_S12800_S16_656 : ∀ a, (![656] : Fin 1 → Nat) a + S16.size a ≤ S12800.size a
  inb_S200x128_S1x16_10_16 : ∀ a, (![10, 16] : Fin 2 → Nat) a + S1x16.size a ≤ S200x128.size a
  inb_S12800_S16_672 : ∀ a, (![672] : Fin 1 → Nat) a + S16.size a ≤ S12800.size a
  inb_S200x128_S1x16_10_32 : ∀ a, (![10, 32] : Fin 2 → Nat) a + S1x16.size a ≤ S200x128.size a
  inb_S12800_S16_688 : ∀ a, (![688] : Fin 1 → Nat) a + S16.size a ≤ S12800.size a
  inb_S200x128_S1x16_10_48 : ∀ a, (![10, 48] : Fin 2 → Nat) a + S1x16.size a ≤ S200x128.size a
  inb_S12800_S16_704 : ∀ a, (![704] : Fin 1 → Nat) a + S16.size a ≤ S12800.size a
  inb_S200x128_S1x16_11_0 : ∀ a, (![11, 0] : Fin 2 → Nat) a + S1x16.size a ≤ S200x128.size a
  inb_S12800_S16_720 : ∀ a, (![720] : Fin 1 → Nat) a + S16.size a ≤ S12800.size a
  inb_S200x128_S1x16_11_16 : ∀ a, (![11, 16] : Fin 2 → Nat) a + S1x16.size a ≤ S200x128.size a
  inb_S12800_S16_736 : ∀ a, (![736] : Fin 1 → Nat) a + S16.size a ≤ S12800.size a
  inb_S200x128_S1x16_11_32 : ∀ a, (![11, 32] : Fin 2 → Nat) a + S1x16.size a ≤ S200x128.size a
  inb_S12800_S16_752 : ∀ a, (![752] : Fin 1 → Nat) a + S16.size a ≤ S12800.size a
  inb_S200x128_S1x16_11_48 : ∀ a, (![11, 48] : Fin 2 → Nat) a + S1x16.size a ≤ S200x128.size a
  inb_S12800_S16_768 : ∀ a, (![768] : Fin 1 → Nat) a + S16.size a ≤ S12800.size a
  inb_S200x128_S1x16_12_0 : ∀ a, (![12, 0] : Fin 2 → Nat) a + S1x16.size a ≤ S200x128.size a
  inb_S12800_S16_784 : ∀ a, (![784] : Fin 1 → Nat) a + S16.size a ≤ S12800.size a
  inb_S200x128_S1x16_12_16 : ∀ a, (![12, 16] : Fin 2 → Nat) a + S1x16.size a ≤ S200x128.size a
  inb_S12800_S16_800 : ∀ a, (![800] : Fin 1 → Nat) a + S16.size a ≤ S12800.size a
  inb_S200x128_S1x16_12_32 : ∀ a, (![12, 32] : Fin 2 → Nat) a + S1x16.size a ≤ S200x128.size a
  inb_S12800_S16_816 : ∀ a, (![816] : Fin 1 → Nat) a + S16.size a ≤ S12800.size a
  inb_S200x128_S1x16_12_48 : ∀ a, (![12, 48] : Fin 2 → Nat) a + S1x16.size a ≤ S200x128.size a
  inb_S12800_S16_832 : ∀ a, (![832] : Fin 1 → Nat) a + S16.size a ≤ S12800.size a
  inb_S200x128_S1x16_13_0 : ∀ a, (![13, 0] : Fin 2 → Nat) a + S1x16.size a ≤ S200x128.size a
  inb_S12800_S16_848 : ∀ a, (![848] : Fin 1 → Nat) a + S16.size a ≤ S12800.size a
  inb_S200x128_S1x16_13_16 : ∀ a, (![13, 16] : Fin 2 → Nat) a + S1x16.size a ≤ S200x128.size a
  inb_S12800_S16_864 : ∀ a, (![864] : Fin 1 → Nat) a + S16.size a ≤ S12800.size a
  inb_S200x128_S1x16_13_32 : ∀ a, (![13, 32] : Fin 2 → Nat) a + S1x16.size a ≤ S200x128.size a
  inb_S12800_S16_880 : ∀ a, (![880] : Fin 1 → Nat) a + S16.size a ≤ S12800.size a
  inb_S200x128_S1x16_13_48 : ∀ a, (![13, 48] : Fin 2 → Nat) a + S1x16.size a ≤ S200x128.size a
  inb_S12800_S16_896 : ∀ a, (![896] : Fin 1 → Nat) a + S16.size a ≤ S12800.size a
  inb_S200x128_S1x16_14_0 : ∀ a, (![14, 0] : Fin 2 → Nat) a + S1x16.size a ≤ S200x128.size a
  inb_S12800_S16_912 : ∀ a, (![912] : Fin 1 → Nat) a + S16.size a ≤ S12800.size a
  inb_S200x128_S1x16_14_16 : ∀ a, (![14, 16] : Fin 2 → Nat) a + S1x16.size a ≤ S200x128.size a
  inb_S12800_S16_928 : ∀ a, (![928] : Fin 1 → Nat) a + S16.size a ≤ S12800.size a
  inb_S200x128_S1x16_14_32 : ∀ a, (![14, 32] : Fin 2 → Nat) a + S1x16.size a ≤ S200x128.size a
  inb_S12800_S16_944 : ∀ a, (![944] : Fin 1 → Nat) a + S16.size a ≤ S12800.size a
  inb_S200x128_S1x16_14_48 : ∀ a, (![14, 48] : Fin 2 → Nat) a + S1x16.size a ≤ S200x128.size a
  inb_S12800_S16_960 : ∀ a, (![960] : Fin 1 → Nat) a + S16.size a ≤ S12800.size a
  inb_S200x128_S1x16_15_0 : ∀ a, (![15, 0] : Fin 2 → Nat) a + S1x16.size a ≤ S200x128.size a
  inb_S12800_S16_976 : ∀ a, (![976] : Fin 1 → Nat) a + S16.size a ≤ S12800.size a
  inb_S200x128_S1x16_15_16 : ∀ a, (![15, 16] : Fin 2 → Nat) a + S1x16.size a ≤ S200x128.size a
  inb_S12800_S16_992 : ∀ a, (![992] : Fin 1 → Nat) a + S16.size a ≤ S12800.size a
  inb_S200x128_S1x16_15_32 : ∀ a, (![15, 32] : Fin 2 → Nat) a + S1x16.size a ≤ S200x128.size a
  inb_S12800_S16_1008 : ∀ a, (![1008] : Fin 1 → Nat) a + S16.size a ≤ S12800.size a
  inb_S200x128_S1x16_15_48 : ∀ a, (![15, 48] : Fin 2 → Nat) a + S1x16.size a ≤ S200x128.size a
  inb_S12800_S16_1024 : ∀ a, (![1024] : Fin 1 → Nat) a + S16.size a ≤ S12800.size a
  inb_S200x128_S1x16_16_0 : ∀ a, (![16, 0] : Fin 2 → Nat) a + S1x16.size a ≤ S200x128.size a
  inb_S12800_S16_1040 : ∀ a, (![1040] : Fin 1 → Nat) a + S16.size a ≤ S12800.size a
  inb_S200x128_S1x16_16_16 : ∀ a, (![16, 16] : Fin 2 → Nat) a + S1x16.size a ≤ S200x128.size a
  inb_S12800_S16_1056 : ∀ a, (![1056] : Fin 1 → Nat) a + S16.size a ≤ S12800.size a
  inb_S200x128_S1x16_16_32 : ∀ a, (![16, 32] : Fin 2 → Nat) a + S1x16.size a ≤ S200x128.size a
  inb_S12800_S16_1072 : ∀ a, (![1072] : Fin 1 → Nat) a + S16.size a ≤ S12800.size a
  inb_S200x128_S1x16_16_48 : ∀ a, (![16, 48] : Fin 2 → Nat) a + S1x16.size a ≤ S200x128.size a
  inb_S12800_S16_1088 : ∀ a, (![1088] : Fin 1 → Nat) a + S16.size a ≤ S12800.size a
  inb_S200x128_S1x16_17_0 : ∀ a, (![17, 0] : Fin 2 → Nat) a + S1x16.size a ≤ S200x128.size a
  inb_S12800_S16_1104 : ∀ a, (![1104] : Fin 1 → Nat) a + S16.size a ≤ S12800.size a
  inb_S200x128_S1x16_17_16 : ∀ a, (![17, 16] : Fin 2 → Nat) a + S1x16.size a ≤ S200x128.size a
  inb_S12800_S16_1120 : ∀ a, (![1120] : Fin 1 → Nat) a + S16.size a ≤ S12800.size a
  inb_S200x128_S1x16_17_32 : ∀ a, (![17, 32] : Fin 2 → Nat) a + S1x16.size a ≤ S200x128.size a
  inb_S12800_S16_1136 : ∀ a, (![1136] : Fin 1 → Nat) a + S16.size a ≤ S12800.size a
  inb_S200x128_S1x16_17_48 : ∀ a, (![17, 48] : Fin 2 → Nat) a + S1x16.size a ≤ S200x128.size a
  inb_S12800_S16_1152 : ∀ a, (![1152] : Fin 1 → Nat) a + S16.size a ≤ S12800.size a
  inb_S200x128_S1x16_18_0 : ∀ a, (![18, 0] : Fin 2 → Nat) a + S1x16.size a ≤ S200x128.size a
  inb_S12800_S16_1168 : ∀ a, (![1168] : Fin 1 → Nat) a + S16.size a ≤ S12800.size a
  inb_S200x128_S1x16_18_16 : ∀ a, (![18, 16] : Fin 2 → Nat) a + S1x16.size a ≤ S200x128.size a
  inb_S12800_S16_1184 : ∀ a, (![1184] : Fin 1 → Nat) a + S16.size a ≤ S12800.size a
  inb_S200x128_S1x16_18_32 : ∀ a, (![18, 32] : Fin 2 → Nat) a + S1x16.size a ≤ S200x128.size a
  inb_S12800_S16_1200 : ∀ a, (![1200] : Fin 1 → Nat) a + S16.size a ≤ S12800.size a
  inb_S200x128_S1x16_18_48 : ∀ a, (![18, 48] : Fin 2 → Nat) a + S1x16.size a ≤ S200x128.size a
  inb_S12800_S16_1216 : ∀ a, (![1216] : Fin 1 → Nat) a + S16.size a ≤ S12800.size a
  inb_S200x128_S1x16_19_0 : ∀ a, (![19, 0] : Fin 2 → Nat) a + S1x16.size a ≤ S200x128.size a
  inb_S12800_S16_1232 : ∀ a, (![1232] : Fin 1 → Nat) a + S16.size a ≤ S12800.size a
  inb_S200x128_S1x16_19_16 : ∀ a, (![19, 16] : Fin 2 → Nat) a + S1x16.size a ≤ S200x128.size a
  inb_S12800_S16_1248 : ∀ a, (![1248] : Fin 1 → Nat) a + S16.size a ≤ S12800.size a
  inb_S200x128_S1x16_19_32 : ∀ a, (![19, 32] : Fin 2 → Nat) a + S1x16.size a ≤ S200x128.size a
  inb_S12800_S16_1264 : ∀ a, (![1264] : Fin 1 → Nat) a + S16.size a ≤ S12800.size a
  inb_S200x128_S1x16_19_48 : ∀ a, (![19, 48] : Fin 2 → Nat) a + S1x16.size a ≤ S200x128.size a
  inb_S12800_S16_1280 : ∀ a, (![1280] : Fin 1 → Nat) a + S16.size a ≤ S12800.size a
  inb_S200x128_S1x16_20_0 : ∀ a, (![20, 0] : Fin 2 → Nat) a + S1x16.size a ≤ S200x128.size a
  inb_S12800_S16_1296 : ∀ a, (![1296] : Fin 1 → Nat) a + S16.size a ≤ S12800.size a
  inb_S200x128_S1x16_20_16 : ∀ a, (![20, 16] : Fin 2 → Nat) a + S1x16.size a ≤ S200x128.size a
  inb_S12800_S16_1312 : ∀ a, (![1312] : Fin 1 → Nat) a + S16.size a ≤ S12800.size a
  inb_S200x128_S1x16_20_32 : ∀ a, (![20, 32] : Fin 2 → Nat) a + S1x16.size a ≤ S200x128.size a
  inb_S12800_S16_1328 : ∀ a, (![1328] : Fin 1 → Nat) a + S16.size a ≤ S12800.size a
  inb_S200x128_S1x16_20_48 : ∀ a, (![20, 48] : Fin 2 → Nat) a + S1x16.size a ≤ S200x128.size a
  inb_S12800_S16_1344 : ∀ a, (![1344] : Fin 1 → Nat) a + S16.size a ≤ S12800.size a
  inb_S200x128_S1x16_21_0 : ∀ a, (![21, 0] : Fin 2 → Nat) a + S1x16.size a ≤ S200x128.size a
  inb_S12800_S16_1360 : ∀ a, (![1360] : Fin 1 → Nat) a + S16.size a ≤ S12800.size a
  inb_S200x128_S1x16_21_16 : ∀ a, (![21, 16] : Fin 2 → Nat) a + S1x16.size a ≤ S200x128.size a
  inb_S12800_S16_1376 : ∀ a, (![1376] : Fin 1 → Nat) a + S16.size a ≤ S12800.size a
  inb_S200x128_S1x16_21_32 : ∀ a, (![21, 32] : Fin 2 → Nat) a + S1x16.size a ≤ S200x128.size a
  inb_S12800_S16_1392 : ∀ a, (![1392] : Fin 1 → Nat) a + S16.size a ≤ S12800.size a
  inb_S200x128_S1x16_21_48 : ∀ a, (![21, 48] : Fin 2 → Nat) a + S1x16.size a ≤ S200x128.size a
  inb_S12800_S16_1408 : ∀ a, (![1408] : Fin 1 → Nat) a + S16.size a ≤ S12800.size a
  inb_S200x128_S1x16_22_0 : ∀ a, (![22, 0] : Fin 2 → Nat) a + S1x16.size a ≤ S200x128.size a
  inb_S12800_S16_1424 : ∀ a, (![1424] : Fin 1 → Nat) a + S16.size a ≤ S12800.size a
  inb_S200x128_S1x16_22_16 : ∀ a, (![22, 16] : Fin 2 → Nat) a + S1x16.size a ≤ S200x128.size a
  inb_S12800_S16_1440 : ∀ a, (![1440] : Fin 1 → Nat) a + S16.size a ≤ S12800.size a
  inb_S200x128_S1x16_22_32 : ∀ a, (![22, 32] : Fin 2 → Nat) a + S1x16.size a ≤ S200x128.size a
  inb_S12800_S16_1456 : ∀ a, (![1456] : Fin 1 → Nat) a + S16.size a ≤ S12800.size a
  inb_S200x128_S1x16_22_48 : ∀ a, (![22, 48] : Fin 2 → Nat) a + S1x16.size a ≤ S200x128.size a
  inb_S12800_S16_1472 : ∀ a, (![1472] : Fin 1 → Nat) a + S16.size a ≤ S12800.size a
  inb_S200x128_S1x16_23_0 : ∀ a, (![23, 0] : Fin 2 → Nat) a + S1x16.size a ≤ S200x128.size a
  inb_S12800_S16_1488 : ∀ a, (![1488] : Fin 1 → Nat) a + S16.size a ≤ S12800.size a
  inb_S200x128_S1x16_23_16 : ∀ a, (![23, 16] : Fin 2 → Nat) a + S1x16.size a ≤ S200x128.size a
  inb_S12800_S16_1504 : ∀ a, (![1504] : Fin 1 → Nat) a + S16.size a ≤ S12800.size a
  inb_S200x128_S1x16_23_32 : ∀ a, (![23, 32] : Fin 2 → Nat) a + S1x16.size a ≤ S200x128.size a
  inb_S12800_S16_1520 : ∀ a, (![1520] : Fin 1 → Nat) a + S16.size a ≤ S12800.size a
  inb_S200x128_S1x16_23_48 : ∀ a, (![23, 48] : Fin 2 → Nat) a + S1x16.size a ≤ S200x128.size a
  inb_S12800_S16_1536 : ∀ a, (![1536] : Fin 1 → Nat) a + S16.size a ≤ S12800.size a
  inb_S200x128_S1x16_24_0 : ∀ a, (![24, 0] : Fin 2 → Nat) a + S1x16.size a ≤ S200x128.size a
  inb_S12800_S16_1552 : ∀ a, (![1552] : Fin 1 → Nat) a + S16.size a ≤ S12800.size a
  inb_S200x128_S1x16_24_16 : ∀ a, (![24, 16] : Fin 2 → Nat) a + S1x16.size a ≤ S200x128.size a
  inb_S12800_S16_1568 : ∀ a, (![1568] : Fin 1 → Nat) a + S16.size a ≤ S12800.size a
  inb_S200x128_S1x16_24_32 : ∀ a, (![24, 32] : Fin 2 → Nat) a + S1x16.size a ≤ S200x128.size a
  inb_S12800_S16_1584 : ∀ a, (![1584] : Fin 1 → Nat) a + S16.size a ≤ S12800.size a
  inb_S200x128_S1x16_24_48 : ∀ a, (![24, 48] : Fin 2 → Nat) a + S1x16.size a ≤ S200x128.size a
  inb_S12800_S16_1600 : ∀ a, (![1600] : Fin 1 → Nat) a + S16.size a ≤ S12800.size a
  inb_S200x128_S1x16_25_0 : ∀ a, (![25, 0] : Fin 2 → Nat) a + S1x16.size a ≤ S200x128.size a
  inb_S12800_S16_1616 : ∀ a, (![1616] : Fin 1 → Nat) a + S16.size a ≤ S12800.size a
  inb_S200x128_S1x16_25_16 : ∀ a, (![25, 16] : Fin 2 → Nat) a + S1x16.size a ≤ S200x128.size a
  inb_S12800_S16_1632 : ∀ a, (![1632] : Fin 1 → Nat) a + S16.size a ≤ S12800.size a
  inb_S200x128_S1x16_25_32 : ∀ a, (![25, 32] : Fin 2 → Nat) a + S1x16.size a ≤ S200x128.size a
  inb_S12800_S16_1648 : ∀ a, (![1648] : Fin 1 → Nat) a + S16.size a ≤ S12800.size a
  inb_S200x128_S1x16_25_48 : ∀ a, (![25, 48] : Fin 2 → Nat) a + S1x16.size a ≤ S200x128.size a
  inb_S12800_S16_1664 : ∀ a, (![1664] : Fin 1 → Nat) a + S16.size a ≤ S12800.size a
  inb_S200x128_S1x16_26_0 : ∀ a, (![26, 0] : Fin 2 → Nat) a + S1x16.size a ≤ S200x128.size a
  inb_S12800_S16_1680 : ∀ a, (![1680] : Fin 1 → Nat) a + S16.size a ≤ S12800.size a
  inb_S200x128_S1x16_26_16 : ∀ a, (![26, 16] : Fin 2 → Nat) a + S1x16.size a ≤ S200x128.size a
  inb_S12800_S16_1696 : ∀ a, (![1696] : Fin 1 → Nat) a + S16.size a ≤ S12800.size a
  inb_S200x128_S1x16_26_32 : ∀ a, (![26, 32] : Fin 2 → Nat) a + S1x16.size a ≤ S200x128.size a
  inb_S12800_S16_1712 : ∀ a, (![1712] : Fin 1 → Nat) a + S16.size a ≤ S12800.size a
  inb_S200x128_S1x16_26_48 : ∀ a, (![26, 48] : Fin 2 → Nat) a + S1x16.size a ≤ S200x128.size a
  inb_S12800_S16_1728 : ∀ a, (![1728] : Fin 1 → Nat) a + S16.size a ≤ S12800.size a
  inb_S200x128_S1x16_27_0 : ∀ a, (![27, 0] : Fin 2 → Nat) a + S1x16.size a ≤ S200x128.size a
  inb_S12800_S16_1744 : ∀ a, (![1744] : Fin 1 → Nat) a + S16.size a ≤ S12800.size a
  inb_S200x128_S1x16_27_16 : ∀ a, (![27, 16] : Fin 2 → Nat) a + S1x16.size a ≤ S200x128.size a
  inb_S12800_S16_1760 : ∀ a, (![1760] : Fin 1 → Nat) a + S16.size a ≤ S12800.size a
  inb_S200x128_S1x16_27_32 : ∀ a, (![27, 32] : Fin 2 → Nat) a + S1x16.size a ≤ S200x128.size a
  inb_S12800_S16_1776 : ∀ a, (![1776] : Fin 1 → Nat) a + S16.size a ≤ S12800.size a
  inb_S200x128_S1x16_27_48 : ∀ a, (![27, 48] : Fin 2 → Nat) a + S1x16.size a ≤ S200x128.size a
  inb_S12800_S16_1792 : ∀ a, (![1792] : Fin 1 → Nat) a + S16.size a ≤ S12800.size a
  inb_S200x128_S1x16_28_0 : ∀ a, (![28, 0] : Fin 2 → Nat) a + S1x16.size a ≤ S200x128.size a
  inb_S12800_S16_1808 : ∀ a, (![1808] : Fin 1 → Nat) a + S16.size a ≤ S12800.size a
  inb_S200x128_S1x16_28_16 : ∀ a, (![28, 16] : Fin 2 → Nat) a + S1x16.size a ≤ S200x128.size a
  inb_S12800_S16_1824 : ∀ a, (![1824] : Fin 1 → Nat) a + S16.size a ≤ S12800.size a
  inb_S200x128_S1x16_28_32 : ∀ a, (![28, 32] : Fin 2 → Nat) a + S1x16.size a ≤ S200x128.size a
  inb_S12800_S16_1840 : ∀ a, (![1840] : Fin 1 → Nat) a + S16.size a ≤ S12800.size a
  inb_S200x128_S1x16_28_48 : ∀ a, (![28, 48] : Fin 2 → Nat) a + S1x16.size a ≤ S200x128.size a
  inb_S12800_S16_1856 : ∀ a, (![1856] : Fin 1 → Nat) a + S16.size a ≤ S12800.size a
  inb_S200x128_S1x16_29_0 : ∀ a, (![29, 0] : Fin 2 → Nat) a + S1x16.size a ≤ S200x128.size a
  inb_S12800_S16_1872 : ∀ a, (![1872] : Fin 1 → Nat) a + S16.size a ≤ S12800.size a
  inb_S200x128_S1x16_29_16 : ∀ a, (![29, 16] : Fin 2 → Nat) a + S1x16.size a ≤ S200x128.size a
  inb_S12800_S16_1888 : ∀ a, (![1888] : Fin 1 → Nat) a + S16.size a ≤ S12800.size a
  inb_S200x128_S1x16_29_32 : ∀ a, (![29, 32] : Fin 2 → Nat) a + S1x16.size a ≤ S200x128.size a
  inb_S12800_S16_1904 : ∀ a, (![1904] : Fin 1 → Nat) a + S16.size a ≤ S12800.size a
  inb_S200x128_S1x16_29_48 : ∀ a, (![29, 48] : Fin 2 → Nat) a + S1x16.size a ≤ S200x128.size a
  inb_S12800_S16_1920 : ∀ a, (![1920] : Fin 1 → Nat) a + S16.size a ≤ S12800.size a
  inb_S200x128_S1x16_30_0 : ∀ a, (![30, 0] : Fin 2 → Nat) a + S1x16.size a ≤ S200x128.size a
  inb_S12800_S16_1936 : ∀ a, (![1936] : Fin 1 → Nat) a + S16.size a ≤ S12800.size a
  inb_S200x128_S1x16_30_16 : ∀ a, (![30, 16] : Fin 2 → Nat) a + S1x16.size a ≤ S200x128.size a
  inb_S12800_S16_1952 : ∀ a, (![1952] : Fin 1 → Nat) a + S16.size a ≤ S12800.size a
  inb_S200x128_S1x16_30_32 : ∀ a, (![30, 32] : Fin 2 → Nat) a + S1x16.size a ≤ S200x128.size a
  inb_S12800_S16_1968 : ∀ a, (![1968] : Fin 1 → Nat) a + S16.size a ≤ S12800.size a
  inb_S200x128_S1x16_30_48 : ∀ a, (![30, 48] : Fin 2 → Nat) a + S1x16.size a ≤ S200x128.size a
  inb_S12800_S16_1984 : ∀ a, (![1984] : Fin 1 → Nat) a + S16.size a ≤ S12800.size a
  inb_S200x128_S1x16_31_0 : ∀ a, (![31, 0] : Fin 2 → Nat) a + S1x16.size a ≤ S200x128.size a
  inb_S12800_S16_2000 : ∀ a, (![2000] : Fin 1 → Nat) a + S16.size a ≤ S12800.size a
  inb_S200x128_S1x16_31_16 : ∀ a, (![31, 16] : Fin 2 → Nat) a + S1x16.size a ≤ S200x128.size a
  inb_S12800_S16_2016 : ∀ a, (![2016] : Fin 1 → Nat) a + S16.size a ≤ S12800.size a
  inb_S200x128_S1x16_31_32 : ∀ a, (![31, 32] : Fin 2 → Nat) a + S1x16.size a ≤ S200x128.size a
  inb_S12800_S16_2032 : ∀ a, (![2032] : Fin 1 → Nat) a + S16.size a ≤ S12800.size a
  inb_S200x128_S1x16_31_48 : ∀ a, (![31, 48] : Fin 2 → Nat) a + S1x16.size a ≤ S200x128.size a
  inb_S12800_S16_2048 : ∀ a, (![2048] : Fin 1 → Nat) a + S16.size a ≤ S12800.size a
  inb_S200x128_S1x16_32_0 : ∀ a, (![32, 0] : Fin 2 → Nat) a + S1x16.size a ≤ S200x128.size a
  inb_S12800_S16_2064 : ∀ a, (![2064] : Fin 1 → Nat) a + S16.size a ≤ S12800.size a
  inb_S200x128_S1x16_32_16 : ∀ a, (![32, 16] : Fin 2 → Nat) a + S1x16.size a ≤ S200x128.size a
  inb_S12800_S16_2080 : ∀ a, (![2080] : Fin 1 → Nat) a + S16.size a ≤ S12800.size a
  inb_S200x128_S1x16_32_32 : ∀ a, (![32, 32] : Fin 2 → Nat) a + S1x16.size a ≤ S200x128.size a
  inb_S12800_S16_2096 : ∀ a, (![2096] : Fin 1 → Nat) a + S16.size a ≤ S12800.size a
  inb_S200x128_S1x16_32_48 : ∀ a, (![32, 48] : Fin 2 → Nat) a + S1x16.size a ≤ S200x128.size a
  inb_S12800_S16_2112 : ∀ a, (![2112] : Fin 1 → Nat) a + S16.size a ≤ S12800.size a
  inb_S200x128_S1x16_33_0 : ∀ a, (![33, 0] : Fin 2 → Nat) a + S1x16.size a ≤ S200x128.size a
  inb_S12800_S16_2128 : ∀ a, (![2128] : Fin 1 → Nat) a + S16.size a ≤ S12800.size a
  inb_S200x128_S1x16_33_16 : ∀ a, (![33, 16] : Fin 2 → Nat) a + S1x16.size a ≤ S200x128.size a
  inb_S12800_S16_2144 : ∀ a, (![2144] : Fin 1 → Nat) a + S16.size a ≤ S12800.size a
  inb_S200x128_S1x16_33_32 : ∀ a, (![33, 32] : Fin 2 → Nat) a + S1x16.size a ≤ S200x128.size a
  inb_S12800_S16_2160 : ∀ a, (![2160] : Fin 1 → Nat) a + S16.size a ≤ S12800.size a
  inb_S200x128_S1x16_33_48 : ∀ a, (![33, 48] : Fin 2 → Nat) a + S1x16.size a ≤ S200x128.size a
  inb_S12800_S16_2176 : ∀ a, (![2176] : Fin 1 → Nat) a + S16.size a ≤ S12800.size a
  inb_S200x128_S1x16_34_0 : ∀ a, (![34, 0] : Fin 2 → Nat) a + S1x16.size a ≤ S200x128.size a
  inb_S12800_S16_2192 : ∀ a, (![2192] : Fin 1 → Nat) a + S16.size a ≤ S12800.size a
  inb_S200x128_S1x16_34_16 : ∀ a, (![34, 16] : Fin 2 → Nat) a + S1x16.size a ≤ S200x128.size a
  inb_S12800_S16_2208 : ∀ a, (![2208] : Fin 1 → Nat) a + S16.size a ≤ S12800.size a
  inb_S200x128_S1x16_34_32 : ∀ a, (![34, 32] : Fin 2 → Nat) a + S1x16.size a ≤ S200x128.size a
  inb_S12800_S16_2224 : ∀ a, (![2224] : Fin 1 → Nat) a + S16.size a ≤ S12800.size a
  inb_S200x128_S1x16_34_48 : ∀ a, (![34, 48] : Fin 2 → Nat) a + S1x16.size a ≤ S200x128.size a
  inb_S12800_S16_2240 : ∀ a, (![2240] : Fin 1 → Nat) a + S16.size a ≤ S12800.size a
  inb_S200x128_S1x16_35_0 : ∀ a, (![35, 0] : Fin 2 → Nat) a + S1x16.size a ≤ S200x128.size a
  inb_S12800_S16_2256 : ∀ a, (![2256] : Fin 1 → Nat) a + S16.size a ≤ S12800.size a
  inb_S200x128_S1x16_35_16 : ∀ a, (![35, 16] : Fin 2 → Nat) a + S1x16.size a ≤ S200x128.size a
  inb_S12800_S16_2272 : ∀ a, (![2272] : Fin 1 → Nat) a + S16.size a ≤ S12800.size a
  inb_S200x128_S1x16_35_32 : ∀ a, (![35, 32] : Fin 2 → Nat) a + S1x16.size a ≤ S200x128.size a
  inb_S12800_S16_2288 : ∀ a, (![2288] : Fin 1 → Nat) a + S16.size a ≤ S12800.size a
  inb_S200x128_S1x16_35_48 : ∀ a, (![35, 48] : Fin 2 → Nat) a + S1x16.size a ≤ S200x128.size a
  inb_S12800_S16_2304 : ∀ a, (![2304] : Fin 1 → Nat) a + S16.size a ≤ S12800.size a
  inb_S200x128_S1x16_36_0 : ∀ a, (![36, 0] : Fin 2 → Nat) a + S1x16.size a ≤ S200x128.size a
  inb_S12800_S16_2320 : ∀ a, (![2320] : Fin 1 → Nat) a + S16.size a ≤ S12800.size a
  inb_S200x128_S1x16_36_16 : ∀ a, (![36, 16] : Fin 2 → Nat) a + S1x16.size a ≤ S200x128.size a
  inb_S12800_S16_2336 : ∀ a, (![2336] : Fin 1 → Nat) a + S16.size a ≤ S12800.size a
  inb_S200x128_S1x16_36_32 : ∀ a, (![36, 32] : Fin 2 → Nat) a + S1x16.size a ≤ S200x128.size a
  inb_S12800_S16_2352 : ∀ a, (![2352] : Fin 1 → Nat) a + S16.size a ≤ S12800.size a
  inb_S200x128_S1x16_36_48 : ∀ a, (![36, 48] : Fin 2 → Nat) a + S1x16.size a ≤ S200x128.size a
  inb_S12800_S16_2368 : ∀ a, (![2368] : Fin 1 → Nat) a + S16.size a ≤ S12800.size a
  inb_S200x128_S1x16_37_0 : ∀ a, (![37, 0] : Fin 2 → Nat) a + S1x16.size a ≤ S200x128.size a
  inb_S12800_S16_2384 : ∀ a, (![2384] : Fin 1 → Nat) a + S16.size a ≤ S12800.size a
  inb_S200x128_S1x16_37_16 : ∀ a, (![37, 16] : Fin 2 → Nat) a + S1x16.size a ≤ S200x128.size a
  inb_S12800_S16_2400 : ∀ a, (![2400] : Fin 1 → Nat) a + S16.size a ≤ S12800.size a
  inb_S200x128_S1x16_37_32 : ∀ a, (![37, 32] : Fin 2 → Nat) a + S1x16.size a ≤ S200x128.size a
  inb_S12800_S16_2416 : ∀ a, (![2416] : Fin 1 → Nat) a + S16.size a ≤ S12800.size a
  inb_S200x128_S1x16_37_48 : ∀ a, (![37, 48] : Fin 2 → Nat) a + S1x16.size a ≤ S200x128.size a
  inb_S12800_S16_2432 : ∀ a, (![2432] : Fin 1 → Nat) a + S16.size a ≤ S12800.size a
  inb_S200x128_S1x16_38_0 : ∀ a, (![38, 0] : Fin 2 → Nat) a + S1x16.size a ≤ S200x128.size a
  inb_S12800_S16_2448 : ∀ a, (![2448] : Fin 1 → Nat) a + S16.size a ≤ S12800.size a
  inb_S200x128_S1x16_38_16 : ∀ a, (![38, 16] : Fin 2 → Nat) a + S1x16.size a ≤ S200x128.size a
  inb_S12800_S16_2464 : ∀ a, (![2464] : Fin 1 → Nat) a + S16.size a ≤ S12800.size a
  inb_S200x128_S1x16_38_32 : ∀ a, (![38, 32] : Fin 2 → Nat) a + S1x16.size a ≤ S200x128.size a
  inb_S12800_S16_2480 : ∀ a, (![2480] : Fin 1 → Nat) a + S16.size a ≤ S12800.size a
  inb_S200x128_S1x16_38_48 : ∀ a, (![38, 48] : Fin 2 → Nat) a + S1x16.size a ≤ S200x128.size a
  inb_S12800_S16_2496 : ∀ a, (![2496] : Fin 1 → Nat) a + S16.size a ≤ S12800.size a
  inb_S200x128_S1x16_39_0 : ∀ a, (![39, 0] : Fin 2 → Nat) a + S1x16.size a ≤ S200x128.size a
  inb_S12800_S16_2512 : ∀ a, (![2512] : Fin 1 → Nat) a + S16.size a ≤ S12800.size a
  inb_S200x128_S1x16_39_16 : ∀ a, (![39, 16] : Fin 2 → Nat) a + S1x16.size a ≤ S200x128.size a
  inb_S12800_S16_2528 : ∀ a, (![2528] : Fin 1 → Nat) a + S16.size a ≤ S12800.size a
  inb_S200x128_S1x16_39_32 : ∀ a, (![39, 32] : Fin 2 → Nat) a + S1x16.size a ≤ S200x128.size a
  inb_S12800_S16_2544 : ∀ a, (![2544] : Fin 1 → Nat) a + S16.size a ≤ S12800.size a
  inb_S200x128_S1x16_39_48 : ∀ a, (![39, 48] : Fin 2 → Nat) a + S1x16.size a ≤ S200x128.size a
  inb_S12800_S16_2560 : ∀ a, (![2560] : Fin 1 → Nat) a + S16.size a ≤ S12800.size a
  inb_S200x128_S1x16_40_0 : ∀ a, (![40, 0] : Fin 2 → Nat) a + S1x16.size a ≤ S200x128.size a
  inb_S12800_S16_2576 : ∀ a, (![2576] : Fin 1 → Nat) a + S16.size a ≤ S12800.size a
  inb_S200x128_S1x16_40_16 : ∀ a, (![40, 16] : Fin 2 → Nat) a + S1x16.size a ≤ S200x128.size a
  inb_S12800_S16_2592 : ∀ a, (![2592] : Fin 1 → Nat) a + S16.size a ≤ S12800.size a
  inb_S200x128_S1x16_40_32 : ∀ a, (![40, 32] : Fin 2 → Nat) a + S1x16.size a ≤ S200x128.size a
  inb_S12800_S16_2608 : ∀ a, (![2608] : Fin 1 → Nat) a + S16.size a ≤ S12800.size a
  inb_S200x128_S1x16_40_48 : ∀ a, (![40, 48] : Fin 2 → Nat) a + S1x16.size a ≤ S200x128.size a
  inb_S12800_S16_2624 : ∀ a, (![2624] : Fin 1 → Nat) a + S16.size a ≤ S12800.size a
  inb_S200x128_S1x16_41_0 : ∀ a, (![41, 0] : Fin 2 → Nat) a + S1x16.size a ≤ S200x128.size a
  inb_S12800_S16_2640 : ∀ a, (![2640] : Fin 1 → Nat) a + S16.size a ≤ S12800.size a
  inb_S200x128_S1x16_41_16 : ∀ a, (![41, 16] : Fin 2 → Nat) a + S1x16.size a ≤ S200x128.size a
  inb_S12800_S16_2656 : ∀ a, (![2656] : Fin 1 → Nat) a + S16.size a ≤ S12800.size a
  inb_S200x128_S1x16_41_32 : ∀ a, (![41, 32] : Fin 2 → Nat) a + S1x16.size a ≤ S200x128.size a
  inb_S12800_S16_2672 : ∀ a, (![2672] : Fin 1 → Nat) a + S16.size a ≤ S12800.size a
  inb_S200x128_S1x16_41_48 : ∀ a, (![41, 48] : Fin 2 → Nat) a + S1x16.size a ≤ S200x128.size a
  inb_S12800_S16_2688 : ∀ a, (![2688] : Fin 1 → Nat) a + S16.size a ≤ S12800.size a
  inb_S200x128_S1x16_42_0 : ∀ a, (![42, 0] : Fin 2 → Nat) a + S1x16.size a ≤ S200x128.size a
  inb_S12800_S16_2704 : ∀ a, (![2704] : Fin 1 → Nat) a + S16.size a ≤ S12800.size a
  inb_S200x128_S1x16_42_16 : ∀ a, (![42, 16] : Fin 2 → Nat) a + S1x16.size a ≤ S200x128.size a
  inb_S12800_S16_2720 : ∀ a, (![2720] : Fin 1 → Nat) a + S16.size a ≤ S12800.size a
  inb_S200x128_S1x16_42_32 : ∀ a, (![42, 32] : Fin 2 → Nat) a + S1x16.size a ≤ S200x128.size a
  inb_S12800_S16_2736 : ∀ a, (![2736] : Fin 1 → Nat) a + S16.size a ≤ S12800.size a
  inb_S200x128_S1x16_42_48 : ∀ a, (![42, 48] : Fin 2 → Nat) a + S1x16.size a ≤ S200x128.size a
  inb_S12800_S16_2752 : ∀ a, (![2752] : Fin 1 → Nat) a + S16.size a ≤ S12800.size a
  inb_S200x128_S1x16_43_0 : ∀ a, (![43, 0] : Fin 2 → Nat) a + S1x16.size a ≤ S200x128.size a
  inb_S12800_S16_2768 : ∀ a, (![2768] : Fin 1 → Nat) a + S16.size a ≤ S12800.size a
  inb_S200x128_S1x16_43_16 : ∀ a, (![43, 16] : Fin 2 → Nat) a + S1x16.size a ≤ S200x128.size a
  inb_S12800_S16_2784 : ∀ a, (![2784] : Fin 1 → Nat) a + S16.size a ≤ S12800.size a
  inb_S200x128_S1x16_43_32 : ∀ a, (![43, 32] : Fin 2 → Nat) a + S1x16.size a ≤ S200x128.size a
  inb_S12800_S16_2800 : ∀ a, (![2800] : Fin 1 → Nat) a + S16.size a ≤ S12800.size a
  inb_S200x128_S1x16_43_48 : ∀ a, (![43, 48] : Fin 2 → Nat) a + S1x16.size a ≤ S200x128.size a
  inb_S12800_S16_2816 : ∀ a, (![2816] : Fin 1 → Nat) a + S16.size a ≤ S12800.size a
  inb_S200x128_S1x16_44_0 : ∀ a, (![44, 0] : Fin 2 → Nat) a + S1x16.size a ≤ S200x128.size a
  inb_S12800_S16_2832 : ∀ a, (![2832] : Fin 1 → Nat) a + S16.size a ≤ S12800.size a
  inb_S200x128_S1x16_44_16 : ∀ a, (![44, 16] : Fin 2 → Nat) a + S1x16.size a ≤ S200x128.size a
  inb_S12800_S16_2848 : ∀ a, (![2848] : Fin 1 → Nat) a + S16.size a ≤ S12800.size a
  inb_S200x128_S1x16_44_32 : ∀ a, (![44, 32] : Fin 2 → Nat) a + S1x16.size a ≤ S200x128.size a
  inb_S12800_S16_2864 : ∀ a, (![2864] : Fin 1 → Nat) a + S16.size a ≤ S12800.size a
  inb_S200x128_S1x16_44_48 : ∀ a, (![44, 48] : Fin 2 → Nat) a + S1x16.size a ≤ S200x128.size a
  inb_S12800_S16_2880 : ∀ a, (![2880] : Fin 1 → Nat) a + S16.size a ≤ S12800.size a
  inb_S200x128_S1x16_45_0 : ∀ a, (![45, 0] : Fin 2 → Nat) a + S1x16.size a ≤ S200x128.size a
  inb_S12800_S16_2896 : ∀ a, (![2896] : Fin 1 → Nat) a + S16.size a ≤ S12800.size a
  inb_S200x128_S1x16_45_16 : ∀ a, (![45, 16] : Fin 2 → Nat) a + S1x16.size a ≤ S200x128.size a
  inb_S12800_S16_2912 : ∀ a, (![2912] : Fin 1 → Nat) a + S16.size a ≤ S12800.size a
  inb_S200x128_S1x16_45_32 : ∀ a, (![45, 32] : Fin 2 → Nat) a + S1x16.size a ≤ S200x128.size a
  inb_S12800_S16_2928 : ∀ a, (![2928] : Fin 1 → Nat) a + S16.size a ≤ S12800.size a
  inb_S200x128_S1x16_45_48 : ∀ a, (![45, 48] : Fin 2 → Nat) a + S1x16.size a ≤ S200x128.size a
  inb_S12800_S16_2944 : ∀ a, (![2944] : Fin 1 → Nat) a + S16.size a ≤ S12800.size a
  inb_S200x128_S1x16_46_0 : ∀ a, (![46, 0] : Fin 2 → Nat) a + S1x16.size a ≤ S200x128.size a
  inb_S12800_S16_2960 : ∀ a, (![2960] : Fin 1 → Nat) a + S16.size a ≤ S12800.size a
  inb_S200x128_S1x16_46_16 : ∀ a, (![46, 16] : Fin 2 → Nat) a + S1x16.size a ≤ S200x128.size a
  inb_S12800_S16_2976 : ∀ a, (![2976] : Fin 1 → Nat) a + S16.size a ≤ S12800.size a
  inb_S200x128_S1x16_46_32 : ∀ a, (![46, 32] : Fin 2 → Nat) a + S1x16.size a ≤ S200x128.size a
  inb_S12800_S16_2992 : ∀ a, (![2992] : Fin 1 → Nat) a + S16.size a ≤ S12800.size a
  inb_S200x128_S1x16_46_48 : ∀ a, (![46, 48] : Fin 2 → Nat) a + S1x16.size a ≤ S200x128.size a
  inb_S12800_S16_3008 : ∀ a, (![3008] : Fin 1 → Nat) a + S16.size a ≤ S12800.size a
  inb_S200x128_S1x16_47_0 : ∀ a, (![47, 0] : Fin 2 → Nat) a + S1x16.size a ≤ S200x128.size a
  inb_S12800_S16_3024 : ∀ a, (![3024] : Fin 1 → Nat) a + S16.size a ≤ S12800.size a
  inb_S200x128_S1x16_47_16 : ∀ a, (![47, 16] : Fin 2 → Nat) a + S1x16.size a ≤ S200x128.size a
  inb_S12800_S16_3040 : ∀ a, (![3040] : Fin 1 → Nat) a + S16.size a ≤ S12800.size a
  inb_S200x128_S1x16_47_32 : ∀ a, (![47, 32] : Fin 2 → Nat) a + S1x16.size a ≤ S200x128.size a
  inb_S12800_S16_3056 : ∀ a, (![3056] : Fin 1 → Nat) a + S16.size a ≤ S12800.size a
  inb_S200x128_S1x16_47_48 : ∀ a, (![47, 48] : Fin 2 → Nat) a + S1x16.size a ≤ S200x128.size a
  inb_S12800_S16_3072 : ∀ a, (![3072] : Fin 1 → Nat) a + S16.size a ≤ S12800.size a
  inb_S200x128_S1x16_48_0 : ∀ a, (![48, 0] : Fin 2 → Nat) a + S1x16.size a ≤ S200x128.size a
  inb_S12800_S16_3088 : ∀ a, (![3088] : Fin 1 → Nat) a + S16.size a ≤ S12800.size a
  inb_S200x128_S1x16_48_16 : ∀ a, (![48, 16] : Fin 2 → Nat) a + S1x16.size a ≤ S200x128.size a
  inb_S12800_S16_3104 : ∀ a, (![3104] : Fin 1 → Nat) a + S16.size a ≤ S12800.size a
  inb_S200x128_S1x16_48_32 : ∀ a, (![48, 32] : Fin 2 → Nat) a + S1x16.size a ≤ S200x128.size a
  inb_S12800_S16_3120 : ∀ a, (![3120] : Fin 1 → Nat) a + S16.size a ≤ S12800.size a
  inb_S200x128_S1x16_48_48 : ∀ a, (![48, 48] : Fin 2 → Nat) a + S1x16.size a ≤ S200x128.size a
  inb_S12800_S16_3136 : ∀ a, (![3136] : Fin 1 → Nat) a + S16.size a ≤ S12800.size a
  inb_S200x128_S1x16_49_0 : ∀ a, (![49, 0] : Fin 2 → Nat) a + S1x16.size a ≤ S200x128.size a
  inb_S12800_S16_3152 : ∀ a, (![3152] : Fin 1 → Nat) a + S16.size a ≤ S12800.size a
  inb_S200x128_S1x16_49_16 : ∀ a, (![49, 16] : Fin 2 → Nat) a + S1x16.size a ≤ S200x128.size a
  inb_S12800_S16_3168 : ∀ a, (![3168] : Fin 1 → Nat) a + S16.size a ≤ S12800.size a
  inb_S200x128_S1x16_49_32 : ∀ a, (![49, 32] : Fin 2 → Nat) a + S1x16.size a ≤ S200x128.size a
  inb_S12800_S16_3184 : ∀ a, (![3184] : Fin 1 → Nat) a + S16.size a ≤ S12800.size a
  inb_S200x128_S1x16_49_48 : ∀ a, (![49, 48] : Fin 2 → Nat) a + S1x16.size a ≤ S200x128.size a
  inb_S12800_S16_3200 : ∀ a, (![3200] : Fin 1 → Nat) a + S16.size a ≤ S12800.size a
  inb_S200x128_S1x16_50_0 : ∀ a, (![50, 0] : Fin 2 → Nat) a + S1x16.size a ≤ S200x128.size a
  inb_S12800_S16_3216 : ∀ a, (![3216] : Fin 1 → Nat) a + S16.size a ≤ S12800.size a
  inb_S200x128_S1x16_50_16 : ∀ a, (![50, 16] : Fin 2 → Nat) a + S1x16.size a ≤ S200x128.size a
  inb_S12800_S16_3232 : ∀ a, (![3232] : Fin 1 → Nat) a + S16.size a ≤ S12800.size a
  inb_S200x128_S1x16_50_32 : ∀ a, (![50, 32] : Fin 2 → Nat) a + S1x16.size a ≤ S200x128.size a
  inb_S12800_S16_3248 : ∀ a, (![3248] : Fin 1 → Nat) a + S16.size a ≤ S12800.size a
  inb_S200x128_S1x16_50_48 : ∀ a, (![50, 48] : Fin 2 → Nat) a + S1x16.size a ≤ S200x128.size a
  inb_S12800_S16_3264 : ∀ a, (![3264] : Fin 1 → Nat) a + S16.size a ≤ S12800.size a
  inb_S200x128_S1x16_51_0 : ∀ a, (![51, 0] : Fin 2 → Nat) a + S1x16.size a ≤ S200x128.size a
  inb_S12800_S16_3280 : ∀ a, (![3280] : Fin 1 → Nat) a + S16.size a ≤ S12800.size a
  inb_S200x128_S1x16_51_16 : ∀ a, (![51, 16] : Fin 2 → Nat) a + S1x16.size a ≤ S200x128.size a
  inb_S12800_S16_3296 : ∀ a, (![3296] : Fin 1 → Nat) a + S16.size a ≤ S12800.size a
  inb_S200x128_S1x16_51_32 : ∀ a, (![51, 32] : Fin 2 → Nat) a + S1x16.size a ≤ S200x128.size a
  inb_S12800_S16_3312 : ∀ a, (![3312] : Fin 1 → Nat) a + S16.size a ≤ S12800.size a
  inb_S200x128_S1x16_51_48 : ∀ a, (![51, 48] : Fin 2 → Nat) a + S1x16.size a ≤ S200x128.size a
  inb_S12800_S16_3328 : ∀ a, (![3328] : Fin 1 → Nat) a + S16.size a ≤ S12800.size a
  inb_S200x128_S1x16_52_0 : ∀ a, (![52, 0] : Fin 2 → Nat) a + S1x16.size a ≤ S200x128.size a
  inb_S12800_S16_3344 : ∀ a, (![3344] : Fin 1 → Nat) a + S16.size a ≤ S12800.size a
  inb_S200x128_S1x16_52_16 : ∀ a, (![52, 16] : Fin 2 → Nat) a + S1x16.size a ≤ S200x128.size a
  inb_S12800_S16_3360 : ∀ a, (![3360] : Fin 1 → Nat) a + S16.size a ≤ S12800.size a
  inb_S200x128_S1x16_52_32 : ∀ a, (![52, 32] : Fin 2 → Nat) a + S1x16.size a ≤ S200x128.size a
  inb_S12800_S16_3376 : ∀ a, (![3376] : Fin 1 → Nat) a + S16.size a ≤ S12800.size a
  inb_S200x128_S1x16_52_48 : ∀ a, (![52, 48] : Fin 2 → Nat) a + S1x16.size a ≤ S200x128.size a
  inb_S12800_S16_3392 : ∀ a, (![3392] : Fin 1 → Nat) a + S16.size a ≤ S12800.size a
  inb_S200x128_S1x16_53_0 : ∀ a, (![53, 0] : Fin 2 → Nat) a + S1x16.size a ≤ S200x128.size a
  inb_S12800_S16_3408 : ∀ a, (![3408] : Fin 1 → Nat) a + S16.size a ≤ S12800.size a
  inb_S200x128_S1x16_53_16 : ∀ a, (![53, 16] : Fin 2 → Nat) a + S1x16.size a ≤ S200x128.size a
  inb_S12800_S16_3424 : ∀ a, (![3424] : Fin 1 → Nat) a + S16.size a ≤ S12800.size a
  inb_S200x128_S1x16_53_32 : ∀ a, (![53, 32] : Fin 2 → Nat) a + S1x16.size a ≤ S200x128.size a
  inb_S12800_S16_3440 : ∀ a, (![3440] : Fin 1 → Nat) a + S16.size a ≤ S12800.size a
  inb_S200x128_S1x16_53_48 : ∀ a, (![53, 48] : Fin 2 → Nat) a + S1x16.size a ≤ S200x128.size a
  inb_S12800_S16_3456 : ∀ a, (![3456] : Fin 1 → Nat) a + S16.size a ≤ S12800.size a
  inb_S200x128_S1x16_54_0 : ∀ a, (![54, 0] : Fin 2 → Nat) a + S1x16.size a ≤ S200x128.size a
  inb_S12800_S16_3472 : ∀ a, (![3472] : Fin 1 → Nat) a + S16.size a ≤ S12800.size a
  inb_S200x128_S1x16_54_16 : ∀ a, (![54, 16] : Fin 2 → Nat) a + S1x16.size a ≤ S200x128.size a
  inb_S12800_S16_3488 : ∀ a, (![3488] : Fin 1 → Nat) a + S16.size a ≤ S12800.size a
  inb_S200x128_S1x16_54_32 : ∀ a, (![54, 32] : Fin 2 → Nat) a + S1x16.size a ≤ S200x128.size a
  inb_S12800_S16_3504 : ∀ a, (![3504] : Fin 1 → Nat) a + S16.size a ≤ S12800.size a
  inb_S200x128_S1x16_54_48 : ∀ a, (![54, 48] : Fin 2 → Nat) a + S1x16.size a ≤ S200x128.size a
  inb_S12800_S16_3520 : ∀ a, (![3520] : Fin 1 → Nat) a + S16.size a ≤ S12800.size a
  inb_S200x128_S1x16_55_0 : ∀ a, (![55, 0] : Fin 2 → Nat) a + S1x16.size a ≤ S200x128.size a
  inb_S12800_S16_3536 : ∀ a, (![3536] : Fin 1 → Nat) a + S16.size a ≤ S12800.size a
  inb_S200x128_S1x16_55_16 : ∀ a, (![55, 16] : Fin 2 → Nat) a + S1x16.size a ≤ S200x128.size a
  inb_S12800_S16_3552 : ∀ a, (![3552] : Fin 1 → Nat) a + S16.size a ≤ S12800.size a
  inb_S200x128_S1x16_55_32 : ∀ a, (![55, 32] : Fin 2 → Nat) a + S1x16.size a ≤ S200x128.size a
  inb_S12800_S16_3568 : ∀ a, (![3568] : Fin 1 → Nat) a + S16.size a ≤ S12800.size a
  inb_S200x128_S1x16_55_48 : ∀ a, (![55, 48] : Fin 2 → Nat) a + S1x16.size a ≤ S200x128.size a
  inb_S12800_S16_3584 : ∀ a, (![3584] : Fin 1 → Nat) a + S16.size a ≤ S12800.size a
  inb_S200x128_S1x16_56_0 : ∀ a, (![56, 0] : Fin 2 → Nat) a + S1x16.size a ≤ S200x128.size a
  inb_S12800_S16_3600 : ∀ a, (![3600] : Fin 1 → Nat) a + S16.size a ≤ S12800.size a
  inb_S200x128_S1x16_56_16 : ∀ a, (![56, 16] : Fin 2 → Nat) a + S1x16.size a ≤ S200x128.size a
  inb_S12800_S16_3616 : ∀ a, (![3616] : Fin 1 → Nat) a + S16.size a ≤ S12800.size a
  inb_S200x128_S1x16_56_32 : ∀ a, (![56, 32] : Fin 2 → Nat) a + S1x16.size a ≤ S200x128.size a
  inb_S12800_S16_3632 : ∀ a, (![3632] : Fin 1 → Nat) a + S16.size a ≤ S12800.size a
  inb_S200x128_S1x16_56_48 : ∀ a, (![56, 48] : Fin 2 → Nat) a + S1x16.size a ≤ S200x128.size a
  inb_S12800_S16_3648 : ∀ a, (![3648] : Fin 1 → Nat) a + S16.size a ≤ S12800.size a
  inb_S200x128_S1x16_57_0 : ∀ a, (![57, 0] : Fin 2 → Nat) a + S1x16.size a ≤ S200x128.size a
  inb_S12800_S16_3664 : ∀ a, (![3664] : Fin 1 → Nat) a + S16.size a ≤ S12800.size a
  inb_S200x128_S1x16_57_16 : ∀ a, (![57, 16] : Fin 2 → Nat) a + S1x16.size a ≤ S200x128.size a
  inb_S12800_S16_3680 : ∀ a, (![3680] : Fin 1 → Nat) a + S16.size a ≤ S12800.size a
  inb_S200x128_S1x16_57_32 : ∀ a, (![57, 32] : Fin 2 → Nat) a + S1x16.size a ≤ S200x128.size a
  inb_S12800_S16_3696 : ∀ a, (![3696] : Fin 1 → Nat) a + S16.size a ≤ S12800.size a
  inb_S200x128_S1x16_57_48 : ∀ a, (![57, 48] : Fin 2 → Nat) a + S1x16.size a ≤ S200x128.size a
  inb_S12800_S16_3712 : ∀ a, (![3712] : Fin 1 → Nat) a + S16.size a ≤ S12800.size a
  inb_S200x128_S1x16_58_0 : ∀ a, (![58, 0] : Fin 2 → Nat) a + S1x16.size a ≤ S200x128.size a
  inb_S12800_S16_3728 : ∀ a, (![3728] : Fin 1 → Nat) a + S16.size a ≤ S12800.size a
  inb_S200x128_S1x16_58_16 : ∀ a, (![58, 16] : Fin 2 → Nat) a + S1x16.size a ≤ S200x128.size a
  inb_S12800_S16_3744 : ∀ a, (![3744] : Fin 1 → Nat) a + S16.size a ≤ S12800.size a
  inb_S200x128_S1x16_58_32 : ∀ a, (![58, 32] : Fin 2 → Nat) a + S1x16.size a ≤ S200x128.size a
  inb_S12800_S16_3760 : ∀ a, (![3760] : Fin 1 → Nat) a + S16.size a ≤ S12800.size a
  inb_S200x128_S1x16_58_48 : ∀ a, (![58, 48] : Fin 2 → Nat) a + S1x16.size a ≤ S200x128.size a
  inb_S12800_S16_3776 : ∀ a, (![3776] : Fin 1 → Nat) a + S16.size a ≤ S12800.size a
  inb_S200x128_S1x16_59_0 : ∀ a, (![59, 0] : Fin 2 → Nat) a + S1x16.size a ≤ S200x128.size a
  inb_S12800_S16_3792 : ∀ a, (![3792] : Fin 1 → Nat) a + S16.size a ≤ S12800.size a
  inb_S200x128_S1x16_59_16 : ∀ a, (![59, 16] : Fin 2 → Nat) a + S1x16.size a ≤ S200x128.size a
  inb_S12800_S16_3808 : ∀ a, (![3808] : Fin 1 → Nat) a + S16.size a ≤ S12800.size a
  inb_S200x128_S1x16_59_32 : ∀ a, (![59, 32] : Fin 2 → Nat) a + S1x16.size a ≤ S200x128.size a
  inb_S12800_S16_3824 : ∀ a, (![3824] : Fin 1 → Nat) a + S16.size a ≤ S12800.size a
  inb_S200x128_S1x16_59_48 : ∀ a, (![59, 48] : Fin 2 → Nat) a + S1x16.size a ≤ S200x128.size a
  inb_S12800_S16_3840 : ∀ a, (![3840] : Fin 1 → Nat) a + S16.size a ≤ S12800.size a
  inb_S200x128_S1x16_60_0 : ∀ a, (![60, 0] : Fin 2 → Nat) a + S1x16.size a ≤ S200x128.size a
  inb_S12800_S16_3856 : ∀ a, (![3856] : Fin 1 → Nat) a + S16.size a ≤ S12800.size a
  inb_S200x128_S1x16_60_16 : ∀ a, (![60, 16] : Fin 2 → Nat) a + S1x16.size a ≤ S200x128.size a
  inb_S12800_S16_3872 : ∀ a, (![3872] : Fin 1 → Nat) a + S16.size a ≤ S12800.size a
  inb_S200x128_S1x16_60_32 : ∀ a, (![60, 32] : Fin 2 → Nat) a + S1x16.size a ≤ S200x128.size a
  inb_S12800_S16_3888 : ∀ a, (![3888] : Fin 1 → Nat) a + S16.size a ≤ S12800.size a
  inb_S200x128_S1x16_60_48 : ∀ a, (![60, 48] : Fin 2 → Nat) a + S1x16.size a ≤ S200x128.size a
  inb_S12800_S16_3904 : ∀ a, (![3904] : Fin 1 → Nat) a + S16.size a ≤ S12800.size a
  inb_S200x128_S1x16_61_0 : ∀ a, (![61, 0] : Fin 2 → Nat) a + S1x16.size a ≤ S200x128.size a
  inb_S12800_S16_3920 : ∀ a, (![3920] : Fin 1 → Nat) a + S16.size a ≤ S12800.size a
  inb_S200x128_S1x16_61_16 : ∀ a, (![61, 16] : Fin 2 → Nat) a + S1x16.size a ≤ S200x128.size a
  inb_S12800_S16_3936 : ∀ a, (![3936] : Fin 1 → Nat) a + S16.size a ≤ S12800.size a
  inb_S200x128_S1x16_61_32 : ∀ a, (![61, 32] : Fin 2 → Nat) a + S1x16.size a ≤ S200x128.size a
  inb_S12800_S16_3952 : ∀ a, (![3952] : Fin 1 → Nat) a + S16.size a ≤ S12800.size a
  inb_S200x128_S1x16_61_48 : ∀ a, (![61, 48] : Fin 2 → Nat) a + S1x16.size a ≤ S200x128.size a
  inb_S12800_S16_3968 : ∀ a, (![3968] : Fin 1 → Nat) a + S16.size a ≤ S12800.size a
  inb_S200x128_S1x16_62_0 : ∀ a, (![62, 0] : Fin 2 → Nat) a + S1x16.size a ≤ S200x128.size a
  inb_S12800_S16_3984 : ∀ a, (![3984] : Fin 1 → Nat) a + S16.size a ≤ S12800.size a
  inb_S200x128_S1x16_62_16 : ∀ a, (![62, 16] : Fin 2 → Nat) a + S1x16.size a ≤ S200x128.size a
  inb_S12800_S16_4000 : ∀ a, (![4000] : Fin 1 → Nat) a + S16.size a ≤ S12800.size a
  inb_S200x128_S1x16_62_32 : ∀ a, (![62, 32] : Fin 2 → Nat) a + S1x16.size a ≤ S200x128.size a
  inb_S12800_S16_4016 : ∀ a, (![4016] : Fin 1 → Nat) a + S16.size a ≤ S12800.size a
  inb_S200x128_S1x16_62_48 : ∀ a, (![62, 48] : Fin 2 → Nat) a + S1x16.size a ≤ S200x128.size a
  inb_S12800_S16_4032 : ∀ a, (![4032] : Fin 1 → Nat) a + S16.size a ≤ S12800.size a
  inb_S200x128_S1x16_63_0 : ∀ a, (![63, 0] : Fin 2 → Nat) a + S1x16.size a ≤ S200x128.size a
  inb_S12800_S16_4048 : ∀ a, (![4048] : Fin 1 → Nat) a + S16.size a ≤ S12800.size a
  inb_S200x128_S1x16_63_16 : ∀ a, (![63, 16] : Fin 2 → Nat) a + S1x16.size a ≤ S200x128.size a
  inb_S12800_S16_4064 : ∀ a, (![4064] : Fin 1 → Nat) a + S16.size a ≤ S12800.size a
  inb_S200x128_S1x16_63_32 : ∀ a, (![63, 32] : Fin 2 → Nat) a + S1x16.size a ≤ S200x128.size a
  inb_S12800_S16_4080 : ∀ a, (![4080] : Fin 1 → Nat) a + S16.size a ≤ S12800.size a
  inb_S200x128_S1x16_63_48 : ∀ a, (![63, 48] : Fin 2 → Nat) a + S1x16.size a ≤ S200x128.size a
  inb_S12800_S16_4096 : ∀ a, (![4096] : Fin 1 → Nat) a + S16.size a ≤ S12800.size a
  inb_S200x128_S1x16_64_0 : ∀ a, (![64, 0] : Fin 2 → Nat) a + S1x16.size a ≤ S200x128.size a
  inb_S12800_S16_4112 : ∀ a, (![4112] : Fin 1 → Nat) a + S16.size a ≤ S12800.size a
  inb_S200x128_S1x16_64_16 : ∀ a, (![64, 16] : Fin 2 → Nat) a + S1x16.size a ≤ S200x128.size a
  inb_S12800_S16_4128 : ∀ a, (![4128] : Fin 1 → Nat) a + S16.size a ≤ S12800.size a
  inb_S200x128_S1x16_64_32 : ∀ a, (![64, 32] : Fin 2 → Nat) a + S1x16.size a ≤ S200x128.size a
  inb_S12800_S16_4144 : ∀ a, (![4144] : Fin 1 → Nat) a + S16.size a ≤ S12800.size a
  inb_S200x128_S1x16_64_48 : ∀ a, (![64, 48] : Fin 2 → Nat) a + S1x16.size a ≤ S200x128.size a
  inb_S12800_S16_4160 : ∀ a, (![4160] : Fin 1 → Nat) a + S16.size a ≤ S12800.size a
  inb_S200x128_S1x16_65_0 : ∀ a, (![65, 0] : Fin 2 → Nat) a + S1x16.size a ≤ S200x128.size a
  inb_S12800_S16_4176 : ∀ a, (![4176] : Fin 1 → Nat) a + S16.size a ≤ S12800.size a
  inb_S200x128_S1x16_65_16 : ∀ a, (![65, 16] : Fin 2 → Nat) a + S1x16.size a ≤ S200x128.size a
  inb_S12800_S16_4192 : ∀ a, (![4192] : Fin 1 → Nat) a + S16.size a ≤ S12800.size a
  inb_S200x128_S1x16_65_32 : ∀ a, (![65, 32] : Fin 2 → Nat) a + S1x16.size a ≤ S200x128.size a
  inb_S12800_S16_4208 : ∀ a, (![4208] : Fin 1 → Nat) a + S16.size a ≤ S12800.size a
  inb_S200x128_S1x16_65_48 : ∀ a, (![65, 48] : Fin 2 → Nat) a + S1x16.size a ≤ S200x128.size a
  inb_S12800_S16_4224 : ∀ a, (![4224] : Fin 1 → Nat) a + S16.size a ≤ S12800.size a
  inb_S200x128_S1x16_66_0 : ∀ a, (![66, 0] : Fin 2 → Nat) a + S1x16.size a ≤ S200x128.size a
  inb_S12800_S16_4240 : ∀ a, (![4240] : Fin 1 → Nat) a + S16.size a ≤ S12800.size a
  inb_S200x128_S1x16_66_16 : ∀ a, (![66, 16] : Fin 2 → Nat) a + S1x16.size a ≤ S200x128.size a
  inb_S12800_S16_4256 : ∀ a, (![4256] : Fin 1 → Nat) a + S16.size a ≤ S12800.size a
  inb_S200x128_S1x16_66_32 : ∀ a, (![66, 32] : Fin 2 → Nat) a + S1x16.size a ≤ S200x128.size a
  inb_S12800_S16_4272 : ∀ a, (![4272] : Fin 1 → Nat) a + S16.size a ≤ S12800.size a
  inb_S200x128_S1x16_66_48 : ∀ a, (![66, 48] : Fin 2 → Nat) a + S1x16.size a ≤ S200x128.size a
  inb_S12800_S16_4288 : ∀ a, (![4288] : Fin 1 → Nat) a + S16.size a ≤ S12800.size a
  inb_S200x128_S1x16_67_0 : ∀ a, (![67, 0] : Fin 2 → Nat) a + S1x16.size a ≤ S200x128.size a
  inb_S12800_S16_4304 : ∀ a, (![4304] : Fin 1 → Nat) a + S16.size a ≤ S12800.size a
  inb_S200x128_S1x16_67_16 : ∀ a, (![67, 16] : Fin 2 → Nat) a + S1x16.size a ≤ S200x128.size a
  inb_S12800_S16_4320 : ∀ a, (![4320] : Fin 1 → Nat) a + S16.size a ≤ S12800.size a
  inb_S200x128_S1x16_67_32 : ∀ a, (![67, 32] : Fin 2 → Nat) a + S1x16.size a ≤ S200x128.size a
  inb_S12800_S16_4336 : ∀ a, (![4336] : Fin 1 → Nat) a + S16.size a ≤ S12800.size a
  inb_S200x128_S1x16_67_48 : ∀ a, (![67, 48] : Fin 2 → Nat) a + S1x16.size a ≤ S200x128.size a
  inb_S12800_S16_4352 : ∀ a, (![4352] : Fin 1 → Nat) a + S16.size a ≤ S12800.size a
  inb_S200x128_S1x16_68_0 : ∀ a, (![68, 0] : Fin 2 → Nat) a + S1x16.size a ≤ S200x128.size a
  inb_S12800_S16_4368 : ∀ a, (![4368] : Fin 1 → Nat) a + S16.size a ≤ S12800.size a
  inb_S200x128_S1x16_68_16 : ∀ a, (![68, 16] : Fin 2 → Nat) a + S1x16.size a ≤ S200x128.size a
  inb_S12800_S16_4384 : ∀ a, (![4384] : Fin 1 → Nat) a + S16.size a ≤ S12800.size a
  inb_S200x128_S1x16_68_32 : ∀ a, (![68, 32] : Fin 2 → Nat) a + S1x16.size a ≤ S200x128.size a
  inb_S12800_S16_4400 : ∀ a, (![4400] : Fin 1 → Nat) a + S16.size a ≤ S12800.size a
  inb_S200x128_S1x16_68_48 : ∀ a, (![68, 48] : Fin 2 → Nat) a + S1x16.size a ≤ S200x128.size a
  inb_S12800_S16_4416 : ∀ a, (![4416] : Fin 1 → Nat) a + S16.size a ≤ S12800.size a
  inb_S200x128_S1x16_69_0 : ∀ a, (![69, 0] : Fin 2 → Nat) a + S1x16.size a ≤ S200x128.size a
  inb_S12800_S16_4432 : ∀ a, (![4432] : Fin 1 → Nat) a + S16.size a ≤ S12800.size a
  inb_S200x128_S1x16_69_16 : ∀ a, (![69, 16] : Fin 2 → Nat) a + S1x16.size a ≤ S200x128.size a
  inb_S12800_S16_4448 : ∀ a, (![4448] : Fin 1 → Nat) a + S16.size a ≤ S12800.size a
  inb_S200x128_S1x16_69_32 : ∀ a, (![69, 32] : Fin 2 → Nat) a + S1x16.size a ≤ S200x128.size a
  inb_S12800_S16_4464 : ∀ a, (![4464] : Fin 1 → Nat) a + S16.size a ≤ S12800.size a
  inb_S200x128_S1x16_69_48 : ∀ a, (![69, 48] : Fin 2 → Nat) a + S1x16.size a ≤ S200x128.size a
  inb_S12800_S16_4480 : ∀ a, (![4480] : Fin 1 → Nat) a + S16.size a ≤ S12800.size a
  inb_S200x128_S1x16_70_0 : ∀ a, (![70, 0] : Fin 2 → Nat) a + S1x16.size a ≤ S200x128.size a
  inb_S12800_S16_4496 : ∀ a, (![4496] : Fin 1 → Nat) a + S16.size a ≤ S12800.size a
  inb_S200x128_S1x16_70_16 : ∀ a, (![70, 16] : Fin 2 → Nat) a + S1x16.size a ≤ S200x128.size a
  inb_S12800_S16_4512 : ∀ a, (![4512] : Fin 1 → Nat) a + S16.size a ≤ S12800.size a
  inb_S200x128_S1x16_70_32 : ∀ a, (![70, 32] : Fin 2 → Nat) a + S1x16.size a ≤ S200x128.size a
  inb_S12800_S16_4528 : ∀ a, (![4528] : Fin 1 → Nat) a + S16.size a ≤ S12800.size a
  inb_S200x128_S1x16_70_48 : ∀ a, (![70, 48] : Fin 2 → Nat) a + S1x16.size a ≤ S200x128.size a
  inb_S12800_S16_4544 : ∀ a, (![4544] : Fin 1 → Nat) a + S16.size a ≤ S12800.size a
  inb_S200x128_S1x16_71_0 : ∀ a, (![71, 0] : Fin 2 → Nat) a + S1x16.size a ≤ S200x128.size a
  inb_S12800_S16_4560 : ∀ a, (![4560] : Fin 1 → Nat) a + S16.size a ≤ S12800.size a
  inb_S200x128_S1x16_71_16 : ∀ a, (![71, 16] : Fin 2 → Nat) a + S1x16.size a ≤ S200x128.size a
  inb_S12800_S16_4576 : ∀ a, (![4576] : Fin 1 → Nat) a + S16.size a ≤ S12800.size a
  inb_S200x128_S1x16_71_32 : ∀ a, (![71, 32] : Fin 2 → Nat) a + S1x16.size a ≤ S200x128.size a
  inb_S12800_S16_4592 : ∀ a, (![4592] : Fin 1 → Nat) a + S16.size a ≤ S12800.size a
  inb_S200x128_S1x16_71_48 : ∀ a, (![71, 48] : Fin 2 → Nat) a + S1x16.size a ≤ S200x128.size a
  inb_S12800_S16_4608 : ∀ a, (![4608] : Fin 1 → Nat) a + S16.size a ≤ S12800.size a
  inb_S200x128_S1x16_72_0 : ∀ a, (![72, 0] : Fin 2 → Nat) a + S1x16.size a ≤ S200x128.size a
  inb_S12800_S16_4624 : ∀ a, (![4624] : Fin 1 → Nat) a + S16.size a ≤ S12800.size a
  inb_S200x128_S1x16_72_16 : ∀ a, (![72, 16] : Fin 2 → Nat) a + S1x16.size a ≤ S200x128.size a
  inb_S12800_S16_4640 : ∀ a, (![4640] : Fin 1 → Nat) a + S16.size a ≤ S12800.size a
  inb_S200x128_S1x16_72_32 : ∀ a, (![72, 32] : Fin 2 → Nat) a + S1x16.size a ≤ S200x128.size a
  inb_S12800_S16_4656 : ∀ a, (![4656] : Fin 1 → Nat) a + S16.size a ≤ S12800.size a
  inb_S200x128_S1x16_72_48 : ∀ a, (![72, 48] : Fin 2 → Nat) a + S1x16.size a ≤ S200x128.size a
  inb_S12800_S16_4672 : ∀ a, (![4672] : Fin 1 → Nat) a + S16.size a ≤ S12800.size a
  inb_S200x128_S1x16_73_0 : ∀ a, (![73, 0] : Fin 2 → Nat) a + S1x16.size a ≤ S200x128.size a
  inb_S12800_S16_4688 : ∀ a, (![4688] : Fin 1 → Nat) a + S16.size a ≤ S12800.size a
  inb_S200x128_S1x16_73_16 : ∀ a, (![73, 16] : Fin 2 → Nat) a + S1x16.size a ≤ S200x128.size a
  inb_S12800_S16_4704 : ∀ a, (![4704] : Fin 1 → Nat) a + S16.size a ≤ S12800.size a
  inb_S200x128_S1x16_73_32 : ∀ a, (![73, 32] : Fin 2 → Nat) a + S1x16.size a ≤ S200x128.size a
  inb_S12800_S16_4720 : ∀ a, (![4720] : Fin 1 → Nat) a + S16.size a ≤ S12800.size a
  inb_S200x128_S1x16_73_48 : ∀ a, (![73, 48] : Fin 2 → Nat) a + S1x16.size a ≤ S200x128.size a
  inb_S12800_S16_4736 : ∀ a, (![4736] : Fin 1 → Nat) a + S16.size a ≤ S12800.size a
  inb_S200x128_S1x16_74_0 : ∀ a, (![74, 0] : Fin 2 → Nat) a + S1x16.size a ≤ S200x128.size a
  inb_S12800_S16_4752 : ∀ a, (![4752] : Fin 1 → Nat) a + S16.size a ≤ S12800.size a
  inb_S200x128_S1x16_74_16 : ∀ a, (![74, 16] : Fin 2 → Nat) a + S1x16.size a ≤ S200x128.size a
  inb_S12800_S16_4768 : ∀ a, (![4768] : Fin 1 → Nat) a + S16.size a ≤ S12800.size a
  inb_S200x128_S1x16_74_32 : ∀ a, (![74, 32] : Fin 2 → Nat) a + S1x16.size a ≤ S200x128.size a
  inb_S12800_S16_4784 : ∀ a, (![4784] : Fin 1 → Nat) a + S16.size a ≤ S12800.size a
  inb_S200x128_S1x16_74_48 : ∀ a, (![74, 48] : Fin 2 → Nat) a + S1x16.size a ≤ S200x128.size a
  inb_S12800_S16_4800 : ∀ a, (![4800] : Fin 1 → Nat) a + S16.size a ≤ S12800.size a
  inb_S200x128_S1x16_75_0 : ∀ a, (![75, 0] : Fin 2 → Nat) a + S1x16.size a ≤ S200x128.size a
  inb_S12800_S16_4816 : ∀ a, (![4816] : Fin 1 → Nat) a + S16.size a ≤ S12800.size a
  inb_S200x128_S1x16_75_16 : ∀ a, (![75, 16] : Fin 2 → Nat) a + S1x16.size a ≤ S200x128.size a
  inb_S12800_S16_4832 : ∀ a, (![4832] : Fin 1 → Nat) a + S16.size a ≤ S12800.size a
  inb_S200x128_S1x16_75_32 : ∀ a, (![75, 32] : Fin 2 → Nat) a + S1x16.size a ≤ S200x128.size a
  inb_S12800_S16_4848 : ∀ a, (![4848] : Fin 1 → Nat) a + S16.size a ≤ S12800.size a
  inb_S200x128_S1x16_75_48 : ∀ a, (![75, 48] : Fin 2 → Nat) a + S1x16.size a ≤ S200x128.size a
  inb_S12800_S16_4864 : ∀ a, (![4864] : Fin 1 → Nat) a + S16.size a ≤ S12800.size a
  inb_S200x128_S1x16_76_0 : ∀ a, (![76, 0] : Fin 2 → Nat) a + S1x16.size a ≤ S200x128.size a
  inb_S12800_S16_4880 : ∀ a, (![4880] : Fin 1 → Nat) a + S16.size a ≤ S12800.size a
  inb_S200x128_S1x16_76_16 : ∀ a, (![76, 16] : Fin 2 → Nat) a + S1x16.size a ≤ S200x128.size a
  inb_S12800_S16_4896 : ∀ a, (![4896] : Fin 1 → Nat) a + S16.size a ≤ S12800.size a
  inb_S200x128_S1x16_76_32 : ∀ a, (![76, 32] : Fin 2 → Nat) a + S1x16.size a ≤ S200x128.size a
  inb_S12800_S16_4912 : ∀ a, (![4912] : Fin 1 → Nat) a + S16.size a ≤ S12800.size a
  inb_S200x128_S1x16_76_48 : ∀ a, (![76, 48] : Fin 2 → Nat) a + S1x16.size a ≤ S200x128.size a
  inb_S12800_S16_4928 : ∀ a, (![4928] : Fin 1 → Nat) a + S16.size a ≤ S12800.size a
  inb_S200x128_S1x16_77_0 : ∀ a, (![77, 0] : Fin 2 → Nat) a + S1x16.size a ≤ S200x128.size a
  inb_S12800_S16_4944 : ∀ a, (![4944] : Fin 1 → Nat) a + S16.size a ≤ S12800.size a
  inb_S200x128_S1x16_77_16 : ∀ a, (![77, 16] : Fin 2 → Nat) a + S1x16.size a ≤ S200x128.size a
  inb_S12800_S16_4960 : ∀ a, (![4960] : Fin 1 → Nat) a + S16.size a ≤ S12800.size a
  inb_S200x128_S1x16_77_32 : ∀ a, (![77, 32] : Fin 2 → Nat) a + S1x16.size a ≤ S200x128.size a
  inb_S12800_S16_4976 : ∀ a, (![4976] : Fin 1 → Nat) a + S16.size a ≤ S12800.size a
  inb_S200x128_S1x16_77_48 : ∀ a, (![77, 48] : Fin 2 → Nat) a + S1x16.size a ≤ S200x128.size a
  inb_S12800_S16_4992 : ∀ a, (![4992] : Fin 1 → Nat) a + S16.size a ≤ S12800.size a
  inb_S200x128_S1x16_78_0 : ∀ a, (![78, 0] : Fin 2 → Nat) a + S1x16.size a ≤ S200x128.size a
  inb_S12800_S16_5008 : ∀ a, (![5008] : Fin 1 → Nat) a + S16.size a ≤ S12800.size a
  inb_S200x128_S1x16_78_16 : ∀ a, (![78, 16] : Fin 2 → Nat) a + S1x16.size a ≤ S200x128.size a
  inb_S12800_S16_5024 : ∀ a, (![5024] : Fin 1 → Nat) a + S16.size a ≤ S12800.size a
  inb_S200x128_S1x16_78_32 : ∀ a, (![78, 32] : Fin 2 → Nat) a + S1x16.size a ≤ S200x128.size a
  inb_S12800_S16_5040 : ∀ a, (![5040] : Fin 1 → Nat) a + S16.size a ≤ S12800.size a
  inb_S200x128_S1x16_78_48 : ∀ a, (![78, 48] : Fin 2 → Nat) a + S1x16.size a ≤ S200x128.size a
  inb_S12800_S16_5056 : ∀ a, (![5056] : Fin 1 → Nat) a + S16.size a ≤ S12800.size a
  inb_S200x128_S1x16_79_0 : ∀ a, (![79, 0] : Fin 2 → Nat) a + S1x16.size a ≤ S200x128.size a
  inb_S12800_S16_5072 : ∀ a, (![5072] : Fin 1 → Nat) a + S16.size a ≤ S12800.size a
  inb_S200x128_S1x16_79_16 : ∀ a, (![79, 16] : Fin 2 → Nat) a + S1x16.size a ≤ S200x128.size a
  inb_S12800_S16_5088 : ∀ a, (![5088] : Fin 1 → Nat) a + S16.size a ≤ S12800.size a
  inb_S200x128_S1x16_79_32 : ∀ a, (![79, 32] : Fin 2 → Nat) a + S1x16.size a ≤ S200x128.size a
  inb_S12800_S16_5104 : ∀ a, (![5104] : Fin 1 → Nat) a + S16.size a ≤ S12800.size a
  inb_S200x128_S1x16_79_48 : ∀ a, (![79, 48] : Fin 2 → Nat) a + S1x16.size a ≤ S200x128.size a
  inb_S12800_S16_5120 : ∀ a, (![5120] : Fin 1 → Nat) a + S16.size a ≤ S12800.size a
  inb_S200x128_S1x16_80_0 : ∀ a, (![80, 0] : Fin 2 → Nat) a + S1x16.size a ≤ S200x128.size a
  inb_S12800_S16_5136 : ∀ a, (![5136] : Fin 1 → Nat) a + S16.size a ≤ S12800.size a
  inb_S200x128_S1x16_80_16 : ∀ a, (![80, 16] : Fin 2 → Nat) a + S1x16.size a ≤ S200x128.size a
  inb_S12800_S16_5152 : ∀ a, (![5152] : Fin 1 → Nat) a + S16.size a ≤ S12800.size a
  inb_S200x128_S1x16_80_32 : ∀ a, (![80, 32] : Fin 2 → Nat) a + S1x16.size a ≤ S200x128.size a
  inb_S12800_S16_5168 : ∀ a, (![5168] : Fin 1 → Nat) a + S16.size a ≤ S12800.size a
  inb_S200x128_S1x16_80_48 : ∀ a, (![80, 48] : Fin 2 → Nat) a + S1x16.size a ≤ S200x128.size a
  inb_S12800_S16_5184 : ∀ a, (![5184] : Fin 1 → Nat) a + S16.size a ≤ S12800.size a
  inb_S200x128_S1x16_81_0 : ∀ a, (![81, 0] : Fin 2 → Nat) a + S1x16.size a ≤ S200x128.size a
  inb_S12800_S16_5200 : ∀ a, (![5200] : Fin 1 → Nat) a + S16.size a ≤ S12800.size a
  inb_S200x128_S1x16_81_16 : ∀ a, (![81, 16] : Fin 2 → Nat) a + S1x16.size a ≤ S200x128.size a
  inb_S12800_S16_5216 : ∀ a, (![5216] : Fin 1 → Nat) a + S16.size a ≤ S12800.size a
  inb_S200x128_S1x16_81_32 : ∀ a, (![81, 32] : Fin 2 → Nat) a + S1x16.size a ≤ S200x128.size a
  inb_S12800_S16_5232 : ∀ a, (![5232] : Fin 1 → Nat) a + S16.size a ≤ S12800.size a
  inb_S200x128_S1x16_81_48 : ∀ a, (![81, 48] : Fin 2 → Nat) a + S1x16.size a ≤ S200x128.size a
  inb_S12800_S16_5248 : ∀ a, (![5248] : Fin 1 → Nat) a + S16.size a ≤ S12800.size a
  inb_S200x128_S1x16_82_0 : ∀ a, (![82, 0] : Fin 2 → Nat) a + S1x16.size a ≤ S200x128.size a
  inb_S12800_S16_5264 : ∀ a, (![5264] : Fin 1 → Nat) a + S16.size a ≤ S12800.size a
  inb_S200x128_S1x16_82_16 : ∀ a, (![82, 16] : Fin 2 → Nat) a + S1x16.size a ≤ S200x128.size a
  inb_S12800_S16_5280 : ∀ a, (![5280] : Fin 1 → Nat) a + S16.size a ≤ S12800.size a
  inb_S200x128_S1x16_82_32 : ∀ a, (![82, 32] : Fin 2 → Nat) a + S1x16.size a ≤ S200x128.size a
  inb_S12800_S16_5296 : ∀ a, (![5296] : Fin 1 → Nat) a + S16.size a ≤ S12800.size a
  inb_S200x128_S1x16_82_48 : ∀ a, (![82, 48] : Fin 2 → Nat) a + S1x16.size a ≤ S200x128.size a
  inb_S12800_S16_5312 : ∀ a, (![5312] : Fin 1 → Nat) a + S16.size a ≤ S12800.size a
  inb_S200x128_S1x16_83_0 : ∀ a, (![83, 0] : Fin 2 → Nat) a + S1x16.size a ≤ S200x128.size a
  inb_S12800_S16_5328 : ∀ a, (![5328] : Fin 1 → Nat) a + S16.size a ≤ S12800.size a
  inb_S200x128_S1x16_83_16 : ∀ a, (![83, 16] : Fin 2 → Nat) a + S1x16.size a ≤ S200x128.size a
  inb_S12800_S16_5344 : ∀ a, (![5344] : Fin 1 → Nat) a + S16.size a ≤ S12800.size a
  inb_S200x128_S1x16_83_32 : ∀ a, (![83, 32] : Fin 2 → Nat) a + S1x16.size a ≤ S200x128.size a
  inb_S12800_S16_5360 : ∀ a, (![5360] : Fin 1 → Nat) a + S16.size a ≤ S12800.size a
  inb_S200x128_S1x16_83_48 : ∀ a, (![83, 48] : Fin 2 → Nat) a + S1x16.size a ≤ S200x128.size a
  inb_S12800_S16_5376 : ∀ a, (![5376] : Fin 1 → Nat) a + S16.size a ≤ S12800.size a
  inb_S200x128_S1x16_84_0 : ∀ a, (![84, 0] : Fin 2 → Nat) a + S1x16.size a ≤ S200x128.size a
  inb_S12800_S16_5392 : ∀ a, (![5392] : Fin 1 → Nat) a + S16.size a ≤ S12800.size a
  inb_S200x128_S1x16_84_16 : ∀ a, (![84, 16] : Fin 2 → Nat) a + S1x16.size a ≤ S200x128.size a
  inb_S12800_S16_5408 : ∀ a, (![5408] : Fin 1 → Nat) a + S16.size a ≤ S12800.size a
  inb_S200x128_S1x16_84_32 : ∀ a, (![84, 32] : Fin 2 → Nat) a + S1x16.size a ≤ S200x128.size a
  inb_S12800_S16_5424 : ∀ a, (![5424] : Fin 1 → Nat) a + S16.size a ≤ S12800.size a
  inb_S200x128_S1x16_84_48 : ∀ a, (![84, 48] : Fin 2 → Nat) a + S1x16.size a ≤ S200x128.size a
  inb_S12800_S16_5440 : ∀ a, (![5440] : Fin 1 → Nat) a + S16.size a ≤ S12800.size a
  inb_S200x128_S1x16_85_0 : ∀ a, (![85, 0] : Fin 2 → Nat) a + S1x16.size a ≤ S200x128.size a
  inb_S12800_S16_5456 : ∀ a, (![5456] : Fin 1 → Nat) a + S16.size a ≤ S12800.size a
  inb_S200x128_S1x16_85_16 : ∀ a, (![85, 16] : Fin 2 → Nat) a + S1x16.size a ≤ S200x128.size a
  inb_S12800_S16_5472 : ∀ a, (![5472] : Fin 1 → Nat) a + S16.size a ≤ S12800.size a
  inb_S200x128_S1x16_85_32 : ∀ a, (![85, 32] : Fin 2 → Nat) a + S1x16.size a ≤ S200x128.size a
  inb_S12800_S16_5488 : ∀ a, (![5488] : Fin 1 → Nat) a + S16.size a ≤ S12800.size a
  inb_S200x128_S1x16_85_48 : ∀ a, (![85, 48] : Fin 2 → Nat) a + S1x16.size a ≤ S200x128.size a
  inb_S12800_S16_5504 : ∀ a, (![5504] : Fin 1 → Nat) a + S16.size a ≤ S12800.size a
  inb_S200x128_S1x16_86_0 : ∀ a, (![86, 0] : Fin 2 → Nat) a + S1x16.size a ≤ S200x128.size a
  inb_S12800_S16_5520 : ∀ a, (![5520] : Fin 1 → Nat) a + S16.size a ≤ S12800.size a
  inb_S200x128_S1x16_86_16 : ∀ a, (![86, 16] : Fin 2 → Nat) a + S1x16.size a ≤ S200x128.size a
  inb_S12800_S16_5536 : ∀ a, (![5536] : Fin 1 → Nat) a + S16.size a ≤ S12800.size a
  inb_S200x128_S1x16_86_32 : ∀ a, (![86, 32] : Fin 2 → Nat) a + S1x16.size a ≤ S200x128.size a
  inb_S12800_S16_5552 : ∀ a, (![5552] : Fin 1 → Nat) a + S16.size a ≤ S12800.size a
  inb_S200x128_S1x16_86_48 : ∀ a, (![86, 48] : Fin 2 → Nat) a + S1x16.size a ≤ S200x128.size a
  inb_S12800_S16_5568 : ∀ a, (![5568] : Fin 1 → Nat) a + S16.size a ≤ S12800.size a
  inb_S200x128_S1x16_87_0 : ∀ a, (![87, 0] : Fin 2 → Nat) a + S1x16.size a ≤ S200x128.size a
  inb_S12800_S16_5584 : ∀ a, (![5584] : Fin 1 → Nat) a + S16.size a ≤ S12800.size a
  inb_S200x128_S1x16_87_16 : ∀ a, (![87, 16] : Fin 2 → Nat) a + S1x16.size a ≤ S200x128.size a
  inb_S12800_S16_5600 : ∀ a, (![5600] : Fin 1 → Nat) a + S16.size a ≤ S12800.size a
  inb_S200x128_S1x16_87_32 : ∀ a, (![87, 32] : Fin 2 → Nat) a + S1x16.size a ≤ S200x128.size a
  inb_S12800_S16_5616 : ∀ a, (![5616] : Fin 1 → Nat) a + S16.size a ≤ S12800.size a
  inb_S200x128_S1x16_87_48 : ∀ a, (![87, 48] : Fin 2 → Nat) a + S1x16.size a ≤ S200x128.size a
  inb_S12800_S16_5632 : ∀ a, (![5632] : Fin 1 → Nat) a + S16.size a ≤ S12800.size a
  inb_S200x128_S1x16_88_0 : ∀ a, (![88, 0] : Fin 2 → Nat) a + S1x16.size a ≤ S200x128.size a
  inb_S12800_S16_5648 : ∀ a, (![5648] : Fin 1 → Nat) a + S16.size a ≤ S12800.size a
  inb_S200x128_S1x16_88_16 : ∀ a, (![88, 16] : Fin 2 → Nat) a + S1x16.size a ≤ S200x128.size a
  inb_S12800_S16_5664 : ∀ a, (![5664] : Fin 1 → Nat) a + S16.size a ≤ S12800.size a
  inb_S200x128_S1x16_88_32 : ∀ a, (![88, 32] : Fin 2 → Nat) a + S1x16.size a ≤ S200x128.size a
  inb_S12800_S16_5680 : ∀ a, (![5680] : Fin 1 → Nat) a + S16.size a ≤ S12800.size a
  inb_S200x128_S1x16_88_48 : ∀ a, (![88, 48] : Fin 2 → Nat) a + S1x16.size a ≤ S200x128.size a
  inb_S12800_S16_5696 : ∀ a, (![5696] : Fin 1 → Nat) a + S16.size a ≤ S12800.size a
  inb_S200x128_S1x16_89_0 : ∀ a, (![89, 0] : Fin 2 → Nat) a + S1x16.size a ≤ S200x128.size a
  inb_S12800_S16_5712 : ∀ a, (![5712] : Fin 1 → Nat) a + S16.size a ≤ S12800.size a
  inb_S200x128_S1x16_89_16 : ∀ a, (![89, 16] : Fin 2 → Nat) a + S1x16.size a ≤ S200x128.size a
  inb_S12800_S16_5728 : ∀ a, (![5728] : Fin 1 → Nat) a + S16.size a ≤ S12800.size a
  inb_S200x128_S1x16_89_32 : ∀ a, (![89, 32] : Fin 2 → Nat) a + S1x16.size a ≤ S200x128.size a
  inb_S12800_S16_5744 : ∀ a, (![5744] : Fin 1 → Nat) a + S16.size a ≤ S12800.size a
  inb_S200x128_S1x16_89_48 : ∀ a, (![89, 48] : Fin 2 → Nat) a + S1x16.size a ≤ S200x128.size a
  inb_S12800_S16_5760 : ∀ a, (![5760] : Fin 1 → Nat) a + S16.size a ≤ S12800.size a
  inb_S200x128_S1x16_90_0 : ∀ a, (![90, 0] : Fin 2 → Nat) a + S1x16.size a ≤ S200x128.size a
  inb_S12800_S16_5776 : ∀ a, (![5776] : Fin 1 → Nat) a + S16.size a ≤ S12800.size a
  inb_S200x128_S1x16_90_16 : ∀ a, (![90, 16] : Fin 2 → Nat) a + S1x16.size a ≤ S200x128.size a
  inb_S12800_S16_5792 : ∀ a, (![5792] : Fin 1 → Nat) a + S16.size a ≤ S12800.size a
  inb_S200x128_S1x16_90_32 : ∀ a, (![90, 32] : Fin 2 → Nat) a + S1x16.size a ≤ S200x128.size a
  inb_S12800_S16_5808 : ∀ a, (![5808] : Fin 1 → Nat) a + S16.size a ≤ S12800.size a
  inb_S200x128_S1x16_90_48 : ∀ a, (![90, 48] : Fin 2 → Nat) a + S1x16.size a ≤ S200x128.size a
  inb_S12800_S16_5824 : ∀ a, (![5824] : Fin 1 → Nat) a + S16.size a ≤ S12800.size a
  inb_S200x128_S1x16_91_0 : ∀ a, (![91, 0] : Fin 2 → Nat) a + S1x16.size a ≤ S200x128.size a
  inb_S12800_S16_5840 : ∀ a, (![5840] : Fin 1 → Nat) a + S16.size a ≤ S12800.size a
  inb_S200x128_S1x16_91_16 : ∀ a, (![91, 16] : Fin 2 → Nat) a + S1x16.size a ≤ S200x128.size a
  inb_S12800_S16_5856 : ∀ a, (![5856] : Fin 1 → Nat) a + S16.size a ≤ S12800.size a
  inb_S200x128_S1x16_91_32 : ∀ a, (![91, 32] : Fin 2 → Nat) a + S1x16.size a ≤ S200x128.size a
  inb_S12800_S16_5872 : ∀ a, (![5872] : Fin 1 → Nat) a + S16.size a ≤ S12800.size a
  inb_S200x128_S1x16_91_48 : ∀ a, (![91, 48] : Fin 2 → Nat) a + S1x16.size a ≤ S200x128.size a
  inb_S12800_S16_5888 : ∀ a, (![5888] : Fin 1 → Nat) a + S16.size a ≤ S12800.size a
  inb_S200x128_S1x16_92_0 : ∀ a, (![92, 0] : Fin 2 → Nat) a + S1x16.size a ≤ S200x128.size a
  inb_S12800_S16_5904 : ∀ a, (![5904] : Fin 1 → Nat) a + S16.size a ≤ S12800.size a
  inb_S200x128_S1x16_92_16 : ∀ a, (![92, 16] : Fin 2 → Nat) a + S1x16.size a ≤ S200x128.size a
  inb_S12800_S16_5920 : ∀ a, (![5920] : Fin 1 → Nat) a + S16.size a ≤ S12800.size a
  inb_S200x128_S1x16_92_32 : ∀ a, (![92, 32] : Fin 2 → Nat) a + S1x16.size a ≤ S200x128.size a
  inb_S12800_S16_5936 : ∀ a, (![5936] : Fin 1 → Nat) a + S16.size a ≤ S12800.size a
  inb_S200x128_S1x16_92_48 : ∀ a, (![92, 48] : Fin 2 → Nat) a + S1x16.size a ≤ S200x128.size a
  inb_S12800_S16_5952 : ∀ a, (![5952] : Fin 1 → Nat) a + S16.size a ≤ S12800.size a
  inb_S200x128_S1x16_93_0 : ∀ a, (![93, 0] : Fin 2 → Nat) a + S1x16.size a ≤ S200x128.size a
  inb_S12800_S16_5968 : ∀ a, (![5968] : Fin 1 → Nat) a + S16.size a ≤ S12800.size a
  inb_S200x128_S1x16_93_16 : ∀ a, (![93, 16] : Fin 2 → Nat) a + S1x16.size a ≤ S200x128.size a
  inb_S12800_S16_5984 : ∀ a, (![5984] : Fin 1 → Nat) a + S16.size a ≤ S12800.size a
  inb_S200x128_S1x16_93_32 : ∀ a, (![93, 32] : Fin 2 → Nat) a + S1x16.size a ≤ S200x128.size a
  inb_S12800_S16_6000 : ∀ a, (![6000] : Fin 1 → Nat) a + S16.size a ≤ S12800.size a
  inb_S200x128_S1x16_93_48 : ∀ a, (![93, 48] : Fin 2 → Nat) a + S1x16.size a ≤ S200x128.size a
  inb_S12800_S16_6016 : ∀ a, (![6016] : Fin 1 → Nat) a + S16.size a ≤ S12800.size a
  inb_S200x128_S1x16_94_0 : ∀ a, (![94, 0] : Fin 2 → Nat) a + S1x16.size a ≤ S200x128.size a
  inb_S12800_S16_6032 : ∀ a, (![6032] : Fin 1 → Nat) a + S16.size a ≤ S12800.size a
  inb_S200x128_S1x16_94_16 : ∀ a, (![94, 16] : Fin 2 → Nat) a + S1x16.size a ≤ S200x128.size a
  inb_S12800_S16_6048 : ∀ a, (![6048] : Fin 1 → Nat) a + S16.size a ≤ S12800.size a
  inb_S200x128_S1x16_94_32 : ∀ a, (![94, 32] : Fin 2 → Nat) a + S1x16.size a ≤ S200x128.size a
  inb_S12800_S16_6064 : ∀ a, (![6064] : Fin 1 → Nat) a + S16.size a ≤ S12800.size a
  inb_S200x128_S1x16_94_48 : ∀ a, (![94, 48] : Fin 2 → Nat) a + S1x16.size a ≤ S200x128.size a
  inb_S12800_S16_6080 : ∀ a, (![6080] : Fin 1 → Nat) a + S16.size a ≤ S12800.size a
  inb_S200x128_S1x16_95_0 : ∀ a, (![95, 0] : Fin 2 → Nat) a + S1x16.size a ≤ S200x128.size a
  inb_S12800_S16_6096 : ∀ a, (![6096] : Fin 1 → Nat) a + S16.size a ≤ S12800.size a
  inb_S200x128_S1x16_95_16 : ∀ a, (![95, 16] : Fin 2 → Nat) a + S1x16.size a ≤ S200x128.size a
  inb_S12800_S16_6112 : ∀ a, (![6112] : Fin 1 → Nat) a + S16.size a ≤ S12800.size a
  inb_S200x128_S1x16_95_32 : ∀ a, (![95, 32] : Fin 2 → Nat) a + S1x16.size a ≤ S200x128.size a
  inb_S12800_S16_6128 : ∀ a, (![6128] : Fin 1 → Nat) a + S16.size a ≤ S12800.size a
  inb_S200x128_S1x16_95_48 : ∀ a, (![95, 48] : Fin 2 → Nat) a + S1x16.size a ≤ S200x128.size a
  inb_S12800_S16_6144 : ∀ a, (![6144] : Fin 1 → Nat) a + S16.size a ≤ S12800.size a
  inb_S200x128_S1x16_96_0 : ∀ a, (![96, 0] : Fin 2 → Nat) a + S1x16.size a ≤ S200x128.size a
  inb_S12800_S16_6160 : ∀ a, (![6160] : Fin 1 → Nat) a + S16.size a ≤ S12800.size a
  inb_S200x128_S1x16_96_16 : ∀ a, (![96, 16] : Fin 2 → Nat) a + S1x16.size a ≤ S200x128.size a
  inb_S12800_S16_6176 : ∀ a, (![6176] : Fin 1 → Nat) a + S16.size a ≤ S12800.size a
  inb_S200x128_S1x16_96_32 : ∀ a, (![96, 32] : Fin 2 → Nat) a + S1x16.size a ≤ S200x128.size a
  inb_S12800_S16_6192 : ∀ a, (![6192] : Fin 1 → Nat) a + S16.size a ≤ S12800.size a
  inb_S200x128_S1x16_96_48 : ∀ a, (![96, 48] : Fin 2 → Nat) a + S1x16.size a ≤ S200x128.size a
  inb_S12800_S16_6208 : ∀ a, (![6208] : Fin 1 → Nat) a + S16.size a ≤ S12800.size a
  inb_S200x128_S1x16_97_0 : ∀ a, (![97, 0] : Fin 2 → Nat) a + S1x16.size a ≤ S200x128.size a
  inb_S12800_S16_6224 : ∀ a, (![6224] : Fin 1 → Nat) a + S16.size a ≤ S12800.size a
  inb_S200x128_S1x16_97_16 : ∀ a, (![97, 16] : Fin 2 → Nat) a + S1x16.size a ≤ S200x128.size a
  inb_S12800_S16_6240 : ∀ a, (![6240] : Fin 1 → Nat) a + S16.size a ≤ S12800.size a
  inb_S200x128_S1x16_97_32 : ∀ a, (![97, 32] : Fin 2 → Nat) a + S1x16.size a ≤ S200x128.size a
  inb_S12800_S16_6256 : ∀ a, (![6256] : Fin 1 → Nat) a + S16.size a ≤ S12800.size a
  inb_S200x128_S1x16_97_48 : ∀ a, (![97, 48] : Fin 2 → Nat) a + S1x16.size a ≤ S200x128.size a
  inb_S12800_S16_6272 : ∀ a, (![6272] : Fin 1 → Nat) a + S16.size a ≤ S12800.size a
  inb_S200x128_S1x16_98_0 : ∀ a, (![98, 0] : Fin 2 → Nat) a + S1x16.size a ≤ S200x128.size a
  inb_S12800_S16_6288 : ∀ a, (![6288] : Fin 1 → Nat) a + S16.size a ≤ S12800.size a
  inb_S200x128_S1x16_98_16 : ∀ a, (![98, 16] : Fin 2 → Nat) a + S1x16.size a ≤ S200x128.size a
  inb_S12800_S16_6304 : ∀ a, (![6304] : Fin 1 → Nat) a + S16.size a ≤ S12800.size a
  inb_S200x128_S1x16_98_32 : ∀ a, (![98, 32] : Fin 2 → Nat) a + S1x16.size a ≤ S200x128.size a
  inb_S12800_S16_6320 : ∀ a, (![6320] : Fin 1 → Nat) a + S16.size a ≤ S12800.size a
  inb_S200x128_S1x16_98_48 : ∀ a, (![98, 48] : Fin 2 → Nat) a + S1x16.size a ≤ S200x128.size a
  inb_S12800_S16_6336 : ∀ a, (![6336] : Fin 1 → Nat) a + S16.size a ≤ S12800.size a
  inb_S200x128_S1x16_99_0 : ∀ a, (![99, 0] : Fin 2 → Nat) a + S1x16.size a ≤ S200x128.size a
  inb_S12800_S16_6352 : ∀ a, (![6352] : Fin 1 → Nat) a + S16.size a ≤ S12800.size a
  inb_S200x128_S1x16_99_16 : ∀ a, (![99, 16] : Fin 2 → Nat) a + S1x16.size a ≤ S200x128.size a
  inb_S12800_S16_6368 : ∀ a, (![6368] : Fin 1 → Nat) a + S16.size a ≤ S12800.size a
  inb_S200x128_S1x16_99_32 : ∀ a, (![99, 32] : Fin 2 → Nat) a + S1x16.size a ≤ S200x128.size a
  inb_S12800_S16_6384 : ∀ a, (![6384] : Fin 1 → Nat) a + S16.size a ≤ S12800.size a
  inb_S200x128_S1x16_99_48 : ∀ a, (![99, 48] : Fin 2 → Nat) a + S1x16.size a ≤ S200x128.size a
  inb_S12800_S16_6400 : ∀ a, (![6400] : Fin 1 → Nat) a + S16.size a ≤ S12800.size a
  inb_S200x128_S1x16_100_0 : ∀ a, (![100, 0] : Fin 2 → Nat) a + S1x16.size a ≤ S200x128.size a
  inb_S12800_S16_6416 : ∀ a, (![6416] : Fin 1 → Nat) a + S16.size a ≤ S12800.size a
  inb_S200x128_S1x16_100_16 : ∀ a, (![100, 16] : Fin 2 → Nat) a + S1x16.size a ≤ S200x128.size a
  inb_S12800_S16_6432 : ∀ a, (![6432] : Fin 1 → Nat) a + S16.size a ≤ S12800.size a
  inb_S200x128_S1x16_100_32 : ∀ a, (![100, 32] : Fin 2 → Nat) a + S1x16.size a ≤ S200x128.size a
  inb_S12800_S16_6448 : ∀ a, (![6448] : Fin 1 → Nat) a + S16.size a ≤ S12800.size a
  inb_S200x128_S1x16_100_48 : ∀ a, (![100, 48] : Fin 2 → Nat) a + S1x16.size a ≤ S200x128.size a
  inb_S12800_S16_6464 : ∀ a, (![6464] : Fin 1 → Nat) a + S16.size a ≤ S12800.size a
  inb_S200x128_S1x16_101_0 : ∀ a, (![101, 0] : Fin 2 → Nat) a + S1x16.size a ≤ S200x128.size a
  inb_S12800_S16_6480 : ∀ a, (![6480] : Fin 1 → Nat) a + S16.size a ≤ S12800.size a
  inb_S200x128_S1x16_101_16 : ∀ a, (![101, 16] : Fin 2 → Nat) a + S1x16.size a ≤ S200x128.size a
  inb_S12800_S16_6496 : ∀ a, (![6496] : Fin 1 → Nat) a + S16.size a ≤ S12800.size a
  inb_S200x128_S1x16_101_32 : ∀ a, (![101, 32] : Fin 2 → Nat) a + S1x16.size a ≤ S200x128.size a
  inb_S12800_S16_6512 : ∀ a, (![6512] : Fin 1 → Nat) a + S16.size a ≤ S12800.size a
  inb_S200x128_S1x16_101_48 : ∀ a, (![101, 48] : Fin 2 → Nat) a + S1x16.size a ≤ S200x128.size a
  inb_S12800_S16_6528 : ∀ a, (![6528] : Fin 1 → Nat) a + S16.size a ≤ S12800.size a
  inb_S200x128_S1x16_102_0 : ∀ a, (![102, 0] : Fin 2 → Nat) a + S1x16.size a ≤ S200x128.size a
  inb_S12800_S16_6544 : ∀ a, (![6544] : Fin 1 → Nat) a + S16.size a ≤ S12800.size a
  inb_S200x128_S1x16_102_16 : ∀ a, (![102, 16] : Fin 2 → Nat) a + S1x16.size a ≤ S200x128.size a
  inb_S12800_S16_6560 : ∀ a, (![6560] : Fin 1 → Nat) a + S16.size a ≤ S12800.size a
  inb_S200x128_S1x16_102_32 : ∀ a, (![102, 32] : Fin 2 → Nat) a + S1x16.size a ≤ S200x128.size a
  inb_S12800_S16_6576 : ∀ a, (![6576] : Fin 1 → Nat) a + S16.size a ≤ S12800.size a
  inb_S200x128_S1x16_102_48 : ∀ a, (![102, 48] : Fin 2 → Nat) a + S1x16.size a ≤ S200x128.size a
  inb_S12800_S16_6592 : ∀ a, (![6592] : Fin 1 → Nat) a + S16.size a ≤ S12800.size a
  inb_S200x128_S1x16_103_0 : ∀ a, (![103, 0] : Fin 2 → Nat) a + S1x16.size a ≤ S200x128.size a
  inb_S12800_S16_6608 : ∀ a, (![6608] : Fin 1 → Nat) a + S16.size a ≤ S12800.size a
  inb_S200x128_S1x16_103_16 : ∀ a, (![103, 16] : Fin 2 → Nat) a + S1x16.size a ≤ S200x128.size a
  inb_S12800_S16_6624 : ∀ a, (![6624] : Fin 1 → Nat) a + S16.size a ≤ S12800.size a
  inb_S200x128_S1x16_103_32 : ∀ a, (![103, 32] : Fin 2 → Nat) a + S1x16.size a ≤ S200x128.size a
  inb_S12800_S16_6640 : ∀ a, (![6640] : Fin 1 → Nat) a + S16.size a ≤ S12800.size a
  inb_S200x128_S1x16_103_48 : ∀ a, (![103, 48] : Fin 2 → Nat) a + S1x16.size a ≤ S200x128.size a
  inb_S12800_S16_6656 : ∀ a, (![6656] : Fin 1 → Nat) a + S16.size a ≤ S12800.size a
  inb_S200x128_S1x16_104_0 : ∀ a, (![104, 0] : Fin 2 → Nat) a + S1x16.size a ≤ S200x128.size a
  inb_S12800_S16_6672 : ∀ a, (![6672] : Fin 1 → Nat) a + S16.size a ≤ S12800.size a
  inb_S200x128_S1x16_104_16 : ∀ a, (![104, 16] : Fin 2 → Nat) a + S1x16.size a ≤ S200x128.size a
  inb_S12800_S16_6688 : ∀ a, (![6688] : Fin 1 → Nat) a + S16.size a ≤ S12800.size a
  inb_S200x128_S1x16_104_32 : ∀ a, (![104, 32] : Fin 2 → Nat) a + S1x16.size a ≤ S200x128.size a
  inb_S12800_S16_6704 : ∀ a, (![6704] : Fin 1 → Nat) a + S16.size a ≤ S12800.size a
  inb_S200x128_S1x16_104_48 : ∀ a, (![104, 48] : Fin 2 → Nat) a + S1x16.size a ≤ S200x128.size a
  inb_S12800_S16_6720 : ∀ a, (![6720] : Fin 1 → Nat) a + S16.size a ≤ S12800.size a
  inb_S200x128_S1x16_105_0 : ∀ a, (![105, 0] : Fin 2 → Nat) a + S1x16.size a ≤ S200x128.size a
  inb_S12800_S16_6736 : ∀ a, (![6736] : Fin 1 → Nat) a + S16.size a ≤ S12800.size a
  inb_S200x128_S1x16_105_16 : ∀ a, (![105, 16] : Fin 2 → Nat) a + S1x16.size a ≤ S200x128.size a
  inb_S12800_S16_6752 : ∀ a, (![6752] : Fin 1 → Nat) a + S16.size a ≤ S12800.size a
  inb_S200x128_S1x16_105_32 : ∀ a, (![105, 32] : Fin 2 → Nat) a + S1x16.size a ≤ S200x128.size a
  inb_S12800_S16_6768 : ∀ a, (![6768] : Fin 1 → Nat) a + S16.size a ≤ S12800.size a
  inb_S200x128_S1x16_105_48 : ∀ a, (![105, 48] : Fin 2 → Nat) a + S1x16.size a ≤ S200x128.size a
  inb_S12800_S16_6784 : ∀ a, (![6784] : Fin 1 → Nat) a + S16.size a ≤ S12800.size a
  inb_S200x128_S1x16_106_0 : ∀ a, (![106, 0] : Fin 2 → Nat) a + S1x16.size a ≤ S200x128.size a
  inb_S12800_S16_6800 : ∀ a, (![6800] : Fin 1 → Nat) a + S16.size a ≤ S12800.size a
  inb_S200x128_S1x16_106_16 : ∀ a, (![106, 16] : Fin 2 → Nat) a + S1x16.size a ≤ S200x128.size a
  inb_S12800_S16_6816 : ∀ a, (![6816] : Fin 1 → Nat) a + S16.size a ≤ S12800.size a
  inb_S200x128_S1x16_106_32 : ∀ a, (![106, 32] : Fin 2 → Nat) a + S1x16.size a ≤ S200x128.size a
  inb_S12800_S16_6832 : ∀ a, (![6832] : Fin 1 → Nat) a + S16.size a ≤ S12800.size a
  inb_S200x128_S1x16_106_48 : ∀ a, (![106, 48] : Fin 2 → Nat) a + S1x16.size a ≤ S200x128.size a
  inb_S12800_S16_6848 : ∀ a, (![6848] : Fin 1 → Nat) a + S16.size a ≤ S12800.size a
  inb_S200x128_S1x16_107_0 : ∀ a, (![107, 0] : Fin 2 → Nat) a + S1x16.size a ≤ S200x128.size a
  inb_S12800_S16_6864 : ∀ a, (![6864] : Fin 1 → Nat) a + S16.size a ≤ S12800.size a
  inb_S200x128_S1x16_107_16 : ∀ a, (![107, 16] : Fin 2 → Nat) a + S1x16.size a ≤ S200x128.size a
  inb_S12800_S16_6880 : ∀ a, (![6880] : Fin 1 → Nat) a + S16.size a ≤ S12800.size a
  inb_S200x128_S1x16_107_32 : ∀ a, (![107, 32] : Fin 2 → Nat) a + S1x16.size a ≤ S200x128.size a
  inb_S12800_S16_6896 : ∀ a, (![6896] : Fin 1 → Nat) a + S16.size a ≤ S12800.size a
  inb_S200x128_S1x16_107_48 : ∀ a, (![107, 48] : Fin 2 → Nat) a + S1x16.size a ≤ S200x128.size a
  inb_S12800_S16_6912 : ∀ a, (![6912] : Fin 1 → Nat) a + S16.size a ≤ S12800.size a
  inb_S200x128_S1x16_108_0 : ∀ a, (![108, 0] : Fin 2 → Nat) a + S1x16.size a ≤ S200x128.size a
  inb_S12800_S16_6928 : ∀ a, (![6928] : Fin 1 → Nat) a + S16.size a ≤ S12800.size a
  inb_S200x128_S1x16_108_16 : ∀ a, (![108, 16] : Fin 2 → Nat) a + S1x16.size a ≤ S200x128.size a
  inb_S12800_S16_6944 : ∀ a, (![6944] : Fin 1 → Nat) a + S16.size a ≤ S12800.size a
  inb_S200x128_S1x16_108_32 : ∀ a, (![108, 32] : Fin 2 → Nat) a + S1x16.size a ≤ S200x128.size a
  inb_S12800_S16_6960 : ∀ a, (![6960] : Fin 1 → Nat) a + S16.size a ≤ S12800.size a
  inb_S200x128_S1x16_108_48 : ∀ a, (![108, 48] : Fin 2 → Nat) a + S1x16.size a ≤ S200x128.size a
  inb_S12800_S16_6976 : ∀ a, (![6976] : Fin 1 → Nat) a + S16.size a ≤ S12800.size a
  inb_S200x128_S1x16_109_0 : ∀ a, (![109, 0] : Fin 2 → Nat) a + S1x16.size a ≤ S200x128.size a
  inb_S12800_S16_6992 : ∀ a, (![6992] : Fin 1 → Nat) a + S16.size a ≤ S12800.size a
  inb_S200x128_S1x16_109_16 : ∀ a, (![109, 16] : Fin 2 → Nat) a + S1x16.size a ≤ S200x128.size a
  inb_S12800_S16_7008 : ∀ a, (![7008] : Fin 1 → Nat) a + S16.size a ≤ S12800.size a
  inb_S200x128_S1x16_109_32 : ∀ a, (![109, 32] : Fin 2 → Nat) a + S1x16.size a ≤ S200x128.size a
  inb_S12800_S16_7024 : ∀ a, (![7024] : Fin 1 → Nat) a + S16.size a ≤ S12800.size a
  inb_S200x128_S1x16_109_48 : ∀ a, (![109, 48] : Fin 2 → Nat) a + S1x16.size a ≤ S200x128.size a
  inb_S12800_S16_7040 : ∀ a, (![7040] : Fin 1 → Nat) a + S16.size a ≤ S12800.size a
  inb_S200x128_S1x16_110_0 : ∀ a, (![110, 0] : Fin 2 → Nat) a + S1x16.size a ≤ S200x128.size a
  inb_S12800_S16_7056 : ∀ a, (![7056] : Fin 1 → Nat) a + S16.size a ≤ S12800.size a
  inb_S200x128_S1x16_110_16 : ∀ a, (![110, 16] : Fin 2 → Nat) a + S1x16.size a ≤ S200x128.size a
  inb_S12800_S16_7072 : ∀ a, (![7072] : Fin 1 → Nat) a + S16.size a ≤ S12800.size a
  inb_S200x128_S1x16_110_32 : ∀ a, (![110, 32] : Fin 2 → Nat) a + S1x16.size a ≤ S200x128.size a
  inb_S12800_S16_7088 : ∀ a, (![7088] : Fin 1 → Nat) a + S16.size a ≤ S12800.size a
  inb_S200x128_S1x16_110_48 : ∀ a, (![110, 48] : Fin 2 → Nat) a + S1x16.size a ≤ S200x128.size a
  inb_S12800_S16_7104 : ∀ a, (![7104] : Fin 1 → Nat) a + S16.size a ≤ S12800.size a
  inb_S200x128_S1x16_111_0 : ∀ a, (![111, 0] : Fin 2 → Nat) a + S1x16.size a ≤ S200x128.size a
  inb_S12800_S16_7120 : ∀ a, (![7120] : Fin 1 → Nat) a + S16.size a ≤ S12800.size a
  inb_S200x128_S1x16_111_16 : ∀ a, (![111, 16] : Fin 2 → Nat) a + S1x16.size a ≤ S200x128.size a
  inb_S12800_S16_7136 : ∀ a, (![7136] : Fin 1 → Nat) a + S16.size a ≤ S12800.size a
  inb_S200x128_S1x16_111_32 : ∀ a, (![111, 32] : Fin 2 → Nat) a + S1x16.size a ≤ S200x128.size a
  inb_S12800_S16_7152 : ∀ a, (![7152] : Fin 1 → Nat) a + S16.size a ≤ S12800.size a
  inb_S200x128_S1x16_111_48 : ∀ a, (![111, 48] : Fin 2 → Nat) a + S1x16.size a ≤ S200x128.size a
  inb_S12800_S16_7168 : ∀ a, (![7168] : Fin 1 → Nat) a + S16.size a ≤ S12800.size a
  inb_S200x128_S1x16_112_0 : ∀ a, (![112, 0] : Fin 2 → Nat) a + S1x16.size a ≤ S200x128.size a
  inb_S12800_S16_7184 : ∀ a, (![7184] : Fin 1 → Nat) a + S16.size a ≤ S12800.size a
  inb_S200x128_S1x16_112_16 : ∀ a, (![112, 16] : Fin 2 → Nat) a + S1x16.size a ≤ S200x128.size a
  inb_S12800_S16_7200 : ∀ a, (![7200] : Fin 1 → Nat) a + S16.size a ≤ S12800.size a
  inb_S200x128_S1x16_112_32 : ∀ a, (![112, 32] : Fin 2 → Nat) a + S1x16.size a ≤ S200x128.size a
  inb_S12800_S16_7216 : ∀ a, (![7216] : Fin 1 → Nat) a + S16.size a ≤ S12800.size a
  inb_S200x128_S1x16_112_48 : ∀ a, (![112, 48] : Fin 2 → Nat) a + S1x16.size a ≤ S200x128.size a
  inb_S12800_S16_7232 : ∀ a, (![7232] : Fin 1 → Nat) a + S16.size a ≤ S12800.size a
  inb_S200x128_S1x16_113_0 : ∀ a, (![113, 0] : Fin 2 → Nat) a + S1x16.size a ≤ S200x128.size a
  inb_S12800_S16_7248 : ∀ a, (![7248] : Fin 1 → Nat) a + S16.size a ≤ S12800.size a
  inb_S200x128_S1x16_113_16 : ∀ a, (![113, 16] : Fin 2 → Nat) a + S1x16.size a ≤ S200x128.size a
  inb_S12800_S16_7264 : ∀ a, (![7264] : Fin 1 → Nat) a + S16.size a ≤ S12800.size a
  inb_S200x128_S1x16_113_32 : ∀ a, (![113, 32] : Fin 2 → Nat) a + S1x16.size a ≤ S200x128.size a
  inb_S12800_S16_7280 : ∀ a, (![7280] : Fin 1 → Nat) a + S16.size a ≤ S12800.size a
  inb_S200x128_S1x16_113_48 : ∀ a, (![113, 48] : Fin 2 → Nat) a + S1x16.size a ≤ S200x128.size a
  inb_S12800_S16_7296 : ∀ a, (![7296] : Fin 1 → Nat) a + S16.size a ≤ S12800.size a
  inb_S200x128_S1x16_114_0 : ∀ a, (![114, 0] : Fin 2 → Nat) a + S1x16.size a ≤ S200x128.size a
  inb_S12800_S16_7312 : ∀ a, (![7312] : Fin 1 → Nat) a + S16.size a ≤ S12800.size a
  inb_S200x128_S1x16_114_16 : ∀ a, (![114, 16] : Fin 2 → Nat) a + S1x16.size a ≤ S200x128.size a
  inb_S12800_S16_7328 : ∀ a, (![7328] : Fin 1 → Nat) a + S16.size a ≤ S12800.size a
  inb_S200x128_S1x16_114_32 : ∀ a, (![114, 32] : Fin 2 → Nat) a + S1x16.size a ≤ S200x128.size a
  inb_S12800_S16_7344 : ∀ a, (![7344] : Fin 1 → Nat) a + S16.size a ≤ S12800.size a
  inb_S200x128_S1x16_114_48 : ∀ a, (![114, 48] : Fin 2 → Nat) a + S1x16.size a ≤ S200x128.size a
  inb_S12800_S16_7360 : ∀ a, (![7360] : Fin 1 → Nat) a + S16.size a ≤ S12800.size a
  inb_S200x128_S1x16_115_0 : ∀ a, (![115, 0] : Fin 2 → Nat) a + S1x16.size a ≤ S200x128.size a
  inb_S12800_S16_7376 : ∀ a, (![7376] : Fin 1 → Nat) a + S16.size a ≤ S12800.size a
  inb_S200x128_S1x16_115_16 : ∀ a, (![115, 16] : Fin 2 → Nat) a + S1x16.size a ≤ S200x128.size a
  inb_S12800_S16_7392 : ∀ a, (![7392] : Fin 1 → Nat) a + S16.size a ≤ S12800.size a
  inb_S200x128_S1x16_115_32 : ∀ a, (![115, 32] : Fin 2 → Nat) a + S1x16.size a ≤ S200x128.size a
  inb_S12800_S16_7408 : ∀ a, (![7408] : Fin 1 → Nat) a + S16.size a ≤ S12800.size a
  inb_S200x128_S1x16_115_48 : ∀ a, (![115, 48] : Fin 2 → Nat) a + S1x16.size a ≤ S200x128.size a
  inb_S12800_S16_7424 : ∀ a, (![7424] : Fin 1 → Nat) a + S16.size a ≤ S12800.size a
  inb_S200x128_S1x16_116_0 : ∀ a, (![116, 0] : Fin 2 → Nat) a + S1x16.size a ≤ S200x128.size a
  inb_S12800_S16_7440 : ∀ a, (![7440] : Fin 1 → Nat) a + S16.size a ≤ S12800.size a
  inb_S200x128_S1x16_116_16 : ∀ a, (![116, 16] : Fin 2 → Nat) a + S1x16.size a ≤ S200x128.size a
  inb_S12800_S16_7456 : ∀ a, (![7456] : Fin 1 → Nat) a + S16.size a ≤ S12800.size a
  inb_S200x128_S1x16_116_32 : ∀ a, (![116, 32] : Fin 2 → Nat) a + S1x16.size a ≤ S200x128.size a
  inb_S12800_S16_7472 : ∀ a, (![7472] : Fin 1 → Nat) a + S16.size a ≤ S12800.size a
  inb_S200x128_S1x16_116_48 : ∀ a, (![116, 48] : Fin 2 → Nat) a + S1x16.size a ≤ S200x128.size a
  inb_S12800_S16_7488 : ∀ a, (![7488] : Fin 1 → Nat) a + S16.size a ≤ S12800.size a
  inb_S200x128_S1x16_117_0 : ∀ a, (![117, 0] : Fin 2 → Nat) a + S1x16.size a ≤ S200x128.size a
  inb_S12800_S16_7504 : ∀ a, (![7504] : Fin 1 → Nat) a + S16.size a ≤ S12800.size a
  inb_S200x128_S1x16_117_16 : ∀ a, (![117, 16] : Fin 2 → Nat) a + S1x16.size a ≤ S200x128.size a
  inb_S12800_S16_7520 : ∀ a, (![7520] : Fin 1 → Nat) a + S16.size a ≤ S12800.size a
  inb_S200x128_S1x16_117_32 : ∀ a, (![117, 32] : Fin 2 → Nat) a + S1x16.size a ≤ S200x128.size a
  inb_S12800_S16_7536 : ∀ a, (![7536] : Fin 1 → Nat) a + S16.size a ≤ S12800.size a
  inb_S200x128_S1x16_117_48 : ∀ a, (![117, 48] : Fin 2 → Nat) a + S1x16.size a ≤ S200x128.size a
  inb_S12800_S16_7552 : ∀ a, (![7552] : Fin 1 → Nat) a + S16.size a ≤ S12800.size a
  inb_S200x128_S1x16_118_0 : ∀ a, (![118, 0] : Fin 2 → Nat) a + S1x16.size a ≤ S200x128.size a
  inb_S12800_S16_7568 : ∀ a, (![7568] : Fin 1 → Nat) a + S16.size a ≤ S12800.size a
  inb_S200x128_S1x16_118_16 : ∀ a, (![118, 16] : Fin 2 → Nat) a + S1x16.size a ≤ S200x128.size a
  inb_S12800_S16_7584 : ∀ a, (![7584] : Fin 1 → Nat) a + S16.size a ≤ S12800.size a
  inb_S200x128_S1x16_118_32 : ∀ a, (![118, 32] : Fin 2 → Nat) a + S1x16.size a ≤ S200x128.size a
  inb_S12800_S16_7600 : ∀ a, (![7600] : Fin 1 → Nat) a + S16.size a ≤ S12800.size a
  inb_S200x128_S1x16_118_48 : ∀ a, (![118, 48] : Fin 2 → Nat) a + S1x16.size a ≤ S200x128.size a
  inb_S12800_S16_7616 : ∀ a, (![7616] : Fin 1 → Nat) a + S16.size a ≤ S12800.size a
  inb_S200x128_S1x16_119_0 : ∀ a, (![119, 0] : Fin 2 → Nat) a + S1x16.size a ≤ S200x128.size a
  inb_S12800_S16_7632 : ∀ a, (![7632] : Fin 1 → Nat) a + S16.size a ≤ S12800.size a
  inb_S200x128_S1x16_119_16 : ∀ a, (![119, 16] : Fin 2 → Nat) a + S1x16.size a ≤ S200x128.size a
  inb_S12800_S16_7648 : ∀ a, (![7648] : Fin 1 → Nat) a + S16.size a ≤ S12800.size a
  inb_S200x128_S1x16_119_32 : ∀ a, (![119, 32] : Fin 2 → Nat) a + S1x16.size a ≤ S200x128.size a
  inb_S12800_S16_7664 : ∀ a, (![7664] : Fin 1 → Nat) a + S16.size a ≤ S12800.size a
  inb_S200x128_S1x16_119_48 : ∀ a, (![119, 48] : Fin 2 → Nat) a + S1x16.size a ≤ S200x128.size a
  inb_S12800_S16_7680 : ∀ a, (![7680] : Fin 1 → Nat) a + S16.size a ≤ S12800.size a
  inb_S200x128_S1x16_120_0 : ∀ a, (![120, 0] : Fin 2 → Nat) a + S1x16.size a ≤ S200x128.size a
  inb_S12800_S16_7696 : ∀ a, (![7696] : Fin 1 → Nat) a + S16.size a ≤ S12800.size a
  inb_S200x128_S1x16_120_16 : ∀ a, (![120, 16] : Fin 2 → Nat) a + S1x16.size a ≤ S200x128.size a
  inb_S12800_S16_7712 : ∀ a, (![7712] : Fin 1 → Nat) a + S16.size a ≤ S12800.size a
  inb_S200x128_S1x16_120_32 : ∀ a, (![120, 32] : Fin 2 → Nat) a + S1x16.size a ≤ S200x128.size a
  inb_S12800_S16_7728 : ∀ a, (![7728] : Fin 1 → Nat) a + S16.size a ≤ S12800.size a
  inb_S200x128_S1x16_120_48 : ∀ a, (![120, 48] : Fin 2 → Nat) a + S1x16.size a ≤ S200x128.size a
  inb_S12800_S16_7744 : ∀ a, (![7744] : Fin 1 → Nat) a + S16.size a ≤ S12800.size a
  inb_S200x128_S1x16_121_0 : ∀ a, (![121, 0] : Fin 2 → Nat) a + S1x16.size a ≤ S200x128.size a
  inb_S12800_S16_7760 : ∀ a, (![7760] : Fin 1 → Nat) a + S16.size a ≤ S12800.size a
  inb_S200x128_S1x16_121_16 : ∀ a, (![121, 16] : Fin 2 → Nat) a + S1x16.size a ≤ S200x128.size a
  inb_S12800_S16_7776 : ∀ a, (![7776] : Fin 1 → Nat) a + S16.size a ≤ S12800.size a
  inb_S200x128_S1x16_121_32 : ∀ a, (![121, 32] : Fin 2 → Nat) a + S1x16.size a ≤ S200x128.size a
  inb_S12800_S16_7792 : ∀ a, (![7792] : Fin 1 → Nat) a + S16.size a ≤ S12800.size a
  inb_S200x128_S1x16_121_48 : ∀ a, (![121, 48] : Fin 2 → Nat) a + S1x16.size a ≤ S200x128.size a
  inb_S12800_S16_7808 : ∀ a, (![7808] : Fin 1 → Nat) a + S16.size a ≤ S12800.size a
  inb_S200x128_S1x16_122_0 : ∀ a, (![122, 0] : Fin 2 → Nat) a + S1x16.size a ≤ S200x128.size a
  inb_S12800_S16_7824 : ∀ a, (![7824] : Fin 1 → Nat) a + S16.size a ≤ S12800.size a
  inb_S200x128_S1x16_122_16 : ∀ a, (![122, 16] : Fin 2 → Nat) a + S1x16.size a ≤ S200x128.size a
  inb_S12800_S16_7840 : ∀ a, (![7840] : Fin 1 → Nat) a + S16.size a ≤ S12800.size a
  inb_S200x128_S1x16_122_32 : ∀ a, (![122, 32] : Fin 2 → Nat) a + S1x16.size a ≤ S200x128.size a
  inb_S12800_S16_7856 : ∀ a, (![7856] : Fin 1 → Nat) a + S16.size a ≤ S12800.size a
  inb_S200x128_S1x16_122_48 : ∀ a, (![122, 48] : Fin 2 → Nat) a + S1x16.size a ≤ S200x128.size a
  inb_S12800_S16_7872 : ∀ a, (![7872] : Fin 1 → Nat) a + S16.size a ≤ S12800.size a
  inb_S200x128_S1x16_123_0 : ∀ a, (![123, 0] : Fin 2 → Nat) a + S1x16.size a ≤ S200x128.size a

class Shapes2.Facts₀ : Prop where
  inb_S12800_S16_7888 : ∀ a, (![7888] : Fin 1 → Nat) a + S16.size a ≤ S12800.size a
  inb_S200x128_S1x16_123_16 : ∀ a, (![123, 16] : Fin 2 → Nat) a + S1x16.size a ≤ S200x128.size a
  inb_S12800_S16_7904 : ∀ a, (![7904] : Fin 1 → Nat) a + S16.size a ≤ S12800.size a
  inb_S200x128_S1x16_123_32 : ∀ a, (![123, 32] : Fin 2 → Nat) a + S1x16.size a ≤ S200x128.size a
  inb_S12800_S16_7920 : ∀ a, (![7920] : Fin 1 → Nat) a + S16.size a ≤ S12800.size a
  inb_S200x128_S1x16_123_48 : ∀ a, (![123, 48] : Fin 2 → Nat) a + S1x16.size a ≤ S200x128.size a
  inb_S12800_S16_7936 : ∀ a, (![7936] : Fin 1 → Nat) a + S16.size a ≤ S12800.size a
  inb_S200x128_S1x16_124_0 : ∀ a, (![124, 0] : Fin 2 → Nat) a + S1x16.size a ≤ S200x128.size a
  inb_S12800_S16_7952 : ∀ a, (![7952] : Fin 1 → Nat) a + S16.size a ≤ S12800.size a
  inb_S200x128_S1x16_124_16 : ∀ a, (![124, 16] : Fin 2 → Nat) a + S1x16.size a ≤ S200x128.size a
  inb_S12800_S16_7968 : ∀ a, (![7968] : Fin 1 → Nat) a + S16.size a ≤ S12800.size a
  inb_S200x128_S1x16_124_32 : ∀ a, (![124, 32] : Fin 2 → Nat) a + S1x16.size a ≤ S200x128.size a
  inb_S12800_S16_7984 : ∀ a, (![7984] : Fin 1 → Nat) a + S16.size a ≤ S12800.size a
  inb_S200x128_S1x16_124_48 : ∀ a, (![124, 48] : Fin 2 → Nat) a + S1x16.size a ≤ S200x128.size a
  inb_S12800_S16_8000 : ∀ a, (![8000] : Fin 1 → Nat) a + S16.size a ≤ S12800.size a
  inb_S200x128_S1x16_125_0 : ∀ a, (![125, 0] : Fin 2 → Nat) a + S1x16.size a ≤ S200x128.size a
  inb_S12800_S16_8016 : ∀ a, (![8016] : Fin 1 → Nat) a + S16.size a ≤ S12800.size a
  inb_S200x128_S1x16_125_16 : ∀ a, (![125, 16] : Fin 2 → Nat) a + S1x16.size a ≤ S200x128.size a
  inb_S12800_S16_8032 : ∀ a, (![8032] : Fin 1 → Nat) a + S16.size a ≤ S12800.size a
  inb_S200x128_S1x16_125_32 : ∀ a, (![125, 32] : Fin 2 → Nat) a + S1x16.size a ≤ S200x128.size a
  inb_S12800_S16_8048 : ∀ a, (![8048] : Fin 1 → Nat) a + S16.size a ≤ S12800.size a
  inb_S200x128_S1x16_125_48 : ∀ a, (![125, 48] : Fin 2 → Nat) a + S1x16.size a ≤ S200x128.size a
  inb_S12800_S16_8064 : ∀ a, (![8064] : Fin 1 → Nat) a + S16.size a ≤ S12800.size a
  inb_S200x128_S1x16_126_0 : ∀ a, (![126, 0] : Fin 2 → Nat) a + S1x16.size a ≤ S200x128.size a
  inb_S12800_S16_8080 : ∀ a, (![8080] : Fin 1 → Nat) a + S16.size a ≤ S12800.size a
  inb_S200x128_S1x16_126_16 : ∀ a, (![126, 16] : Fin 2 → Nat) a + S1x16.size a ≤ S200x128.size a
  inb_S12800_S16_8096 : ∀ a, (![8096] : Fin 1 → Nat) a + S16.size a ≤ S12800.size a
  inb_S200x128_S1x16_126_32 : ∀ a, (![126, 32] : Fin 2 → Nat) a + S1x16.size a ≤ S200x128.size a
  inb_S12800_S16_8112 : ∀ a, (![8112] : Fin 1 → Nat) a + S16.size a ≤ S12800.size a
  inb_S200x128_S1x16_126_48 : ∀ a, (![126, 48] : Fin 2 → Nat) a + S1x16.size a ≤ S200x128.size a
  inb_S12800_S16_8128 : ∀ a, (![8128] : Fin 1 → Nat) a + S16.size a ≤ S12800.size a
  inb_S200x128_S1x16_127_0 : ∀ a, (![127, 0] : Fin 2 → Nat) a + S1x16.size a ≤ S200x128.size a
  inb_S12800_S16_8144 : ∀ a, (![8144] : Fin 1 → Nat) a + S16.size a ≤ S12800.size a
  inb_S200x128_S1x16_127_16 : ∀ a, (![127, 16] : Fin 2 → Nat) a + S1x16.size a ≤ S200x128.size a
  inb_S12800_S16_8160 : ∀ a, (![8160] : Fin 1 → Nat) a + S16.size a ≤ S12800.size a
  inb_S200x128_S1x16_127_32 : ∀ a, (![127, 32] : Fin 2 → Nat) a + S1x16.size a ≤ S200x128.size a
  inb_S12800_S16_8176 : ∀ a, (![8176] : Fin 1 → Nat) a + S16.size a ≤ S12800.size a
  inb_S200x128_S1x16_127_48 : ∀ a, (![127, 48] : Fin 2 → Nat) a + S1x16.size a ≤ S200x128.size a
  inb_S12800_S16_8192 : ∀ a, (![8192] : Fin 1 → Nat) a + S16.size a ≤ S12800.size a
  inb_S200x128_S1x16_128_0 : ∀ a, (![128, 0] : Fin 2 → Nat) a + S1x16.size a ≤ S200x128.size a
  inb_S12800_S16_8208 : ∀ a, (![8208] : Fin 1 → Nat) a + S16.size a ≤ S12800.size a
  inb_S200x128_S1x16_128_16 : ∀ a, (![128, 16] : Fin 2 → Nat) a + S1x16.size a ≤ S200x128.size a
  inb_S12800_S16_8224 : ∀ a, (![8224] : Fin 1 → Nat) a + S16.size a ≤ S12800.size a
  inb_S200x128_S1x16_128_32 : ∀ a, (![128, 32] : Fin 2 → Nat) a + S1x16.size a ≤ S200x128.size a
  inb_S12800_S16_8240 : ∀ a, (![8240] : Fin 1 → Nat) a + S16.size a ≤ S12800.size a
  inb_S200x128_S1x16_128_48 : ∀ a, (![128, 48] : Fin 2 → Nat) a + S1x16.size a ≤ S200x128.size a
  inb_S12800_S16_8256 : ∀ a, (![8256] : Fin 1 → Nat) a + S16.size a ≤ S12800.size a
  inb_S200x128_S1x16_129_0 : ∀ a, (![129, 0] : Fin 2 → Nat) a + S1x16.size a ≤ S200x128.size a
  inb_S12800_S16_8272 : ∀ a, (![8272] : Fin 1 → Nat) a + S16.size a ≤ S12800.size a
  inb_S200x128_S1x16_129_16 : ∀ a, (![129, 16] : Fin 2 → Nat) a + S1x16.size a ≤ S200x128.size a
  inb_S12800_S16_8288 : ∀ a, (![8288] : Fin 1 → Nat) a + S16.size a ≤ S12800.size a
  inb_S200x128_S1x16_129_32 : ∀ a, (![129, 32] : Fin 2 → Nat) a + S1x16.size a ≤ S200x128.size a
  inb_S12800_S16_8304 : ∀ a, (![8304] : Fin 1 → Nat) a + S16.size a ≤ S12800.size a
  inb_S200x128_S1x16_129_48 : ∀ a, (![129, 48] : Fin 2 → Nat) a + S1x16.size a ≤ S200x128.size a
  inb_S12800_S16_8320 : ∀ a, (![8320] : Fin 1 → Nat) a + S16.size a ≤ S12800.size a
  inb_S200x128_S1x16_130_0 : ∀ a, (![130, 0] : Fin 2 → Nat) a + S1x16.size a ≤ S200x128.size a
  inb_S12800_S16_8336 : ∀ a, (![8336] : Fin 1 → Nat) a + S16.size a ≤ S12800.size a
  inb_S200x128_S1x16_130_16 : ∀ a, (![130, 16] : Fin 2 → Nat) a + S1x16.size a ≤ S200x128.size a
  inb_S12800_S16_8352 : ∀ a, (![8352] : Fin 1 → Nat) a + S16.size a ≤ S12800.size a
  inb_S200x128_S1x16_130_32 : ∀ a, (![130, 32] : Fin 2 → Nat) a + S1x16.size a ≤ S200x128.size a
  inb_S12800_S16_8368 : ∀ a, (![8368] : Fin 1 → Nat) a + S16.size a ≤ S12800.size a
  inb_S200x128_S1x16_130_48 : ∀ a, (![130, 48] : Fin 2 → Nat) a + S1x16.size a ≤ S200x128.size a
  inb_S12800_S16_8384 : ∀ a, (![8384] : Fin 1 → Nat) a + S16.size a ≤ S12800.size a
  inb_S200x128_S1x16_131_0 : ∀ a, (![131, 0] : Fin 2 → Nat) a + S1x16.size a ≤ S200x128.size a
  inb_S12800_S16_8400 : ∀ a, (![8400] : Fin 1 → Nat) a + S16.size a ≤ S12800.size a
  inb_S200x128_S1x16_131_16 : ∀ a, (![131, 16] : Fin 2 → Nat) a + S1x16.size a ≤ S200x128.size a
  inb_S12800_S16_8416 : ∀ a, (![8416] : Fin 1 → Nat) a + S16.size a ≤ S12800.size a
  inb_S200x128_S1x16_131_32 : ∀ a, (![131, 32] : Fin 2 → Nat) a + S1x16.size a ≤ S200x128.size a
  inb_S12800_S16_8432 : ∀ a, (![8432] : Fin 1 → Nat) a + S16.size a ≤ S12800.size a
  inb_S200x128_S1x16_131_48 : ∀ a, (![131, 48] : Fin 2 → Nat) a + S1x16.size a ≤ S200x128.size a
  inb_S12800_S16_8448 : ∀ a, (![8448] : Fin 1 → Nat) a + S16.size a ≤ S12800.size a
  inb_S200x128_S1x16_132_0 : ∀ a, (![132, 0] : Fin 2 → Nat) a + S1x16.size a ≤ S200x128.size a
  inb_S12800_S16_8464 : ∀ a, (![8464] : Fin 1 → Nat) a + S16.size a ≤ S12800.size a
  inb_S200x128_S1x16_132_16 : ∀ a, (![132, 16] : Fin 2 → Nat) a + S1x16.size a ≤ S200x128.size a
  inb_S12800_S16_8480 : ∀ a, (![8480] : Fin 1 → Nat) a + S16.size a ≤ S12800.size a
  inb_S200x128_S1x16_132_32 : ∀ a, (![132, 32] : Fin 2 → Nat) a + S1x16.size a ≤ S200x128.size a
  inb_S12800_S16_8496 : ∀ a, (![8496] : Fin 1 → Nat) a + S16.size a ≤ S12800.size a
  inb_S200x128_S1x16_132_48 : ∀ a, (![132, 48] : Fin 2 → Nat) a + S1x16.size a ≤ S200x128.size a
  inb_S12800_S16_8512 : ∀ a, (![8512] : Fin 1 → Nat) a + S16.size a ≤ S12800.size a
  inb_S200x128_S1x16_133_0 : ∀ a, (![133, 0] : Fin 2 → Nat) a + S1x16.size a ≤ S200x128.size a
  inb_S12800_S16_8528 : ∀ a, (![8528] : Fin 1 → Nat) a + S16.size a ≤ S12800.size a
  inb_S200x128_S1x16_133_16 : ∀ a, (![133, 16] : Fin 2 → Nat) a + S1x16.size a ≤ S200x128.size a
  inb_S12800_S16_8544 : ∀ a, (![8544] : Fin 1 → Nat) a + S16.size a ≤ S12800.size a
  inb_S200x128_S1x16_133_32 : ∀ a, (![133, 32] : Fin 2 → Nat) a + S1x16.size a ≤ S200x128.size a
  inb_S12800_S16_8560 : ∀ a, (![8560] : Fin 1 → Nat) a + S16.size a ≤ S12800.size a
  inb_S200x128_S1x16_133_48 : ∀ a, (![133, 48] : Fin 2 → Nat) a + S1x16.size a ≤ S200x128.size a
  inb_S12800_S16_8576 : ∀ a, (![8576] : Fin 1 → Nat) a + S16.size a ≤ S12800.size a
  inb_S200x128_S1x16_134_0 : ∀ a, (![134, 0] : Fin 2 → Nat) a + S1x16.size a ≤ S200x128.size a
  inb_S12800_S16_8592 : ∀ a, (![8592] : Fin 1 → Nat) a + S16.size a ≤ S12800.size a
  inb_S200x128_S1x16_134_16 : ∀ a, (![134, 16] : Fin 2 → Nat) a + S1x16.size a ≤ S200x128.size a
  inb_S12800_S16_8608 : ∀ a, (![8608] : Fin 1 → Nat) a + S16.size a ≤ S12800.size a
  inb_S200x128_S1x16_134_32 : ∀ a, (![134, 32] : Fin 2 → Nat) a + S1x16.size a ≤ S200x128.size a
  inb_S12800_S16_8624 : ∀ a, (![8624] : Fin 1 → Nat) a + S16.size a ≤ S12800.size a
  inb_S200x128_S1x16_134_48 : ∀ a, (![134, 48] : Fin 2 → Nat) a + S1x16.size a ≤ S200x128.size a
  inb_S12800_S16_8640 : ∀ a, (![8640] : Fin 1 → Nat) a + S16.size a ≤ S12800.size a
  inb_S200x128_S1x16_135_0 : ∀ a, (![135, 0] : Fin 2 → Nat) a + S1x16.size a ≤ S200x128.size a
  inb_S12800_S16_8656 : ∀ a, (![8656] : Fin 1 → Nat) a + S16.size a ≤ S12800.size a
  inb_S200x128_S1x16_135_16 : ∀ a, (![135, 16] : Fin 2 → Nat) a + S1x16.size a ≤ S200x128.size a
  inb_S12800_S16_8672 : ∀ a, (![8672] : Fin 1 → Nat) a + S16.size a ≤ S12800.size a
  inb_S200x128_S1x16_135_32 : ∀ a, (![135, 32] : Fin 2 → Nat) a + S1x16.size a ≤ S200x128.size a
  inb_S12800_S16_8688 : ∀ a, (![8688] : Fin 1 → Nat) a + S16.size a ≤ S12800.size a
  inb_S200x128_S1x16_135_48 : ∀ a, (![135, 48] : Fin 2 → Nat) a + S1x16.size a ≤ S200x128.size a
  inb_S12800_S16_8704 : ∀ a, (![8704] : Fin 1 → Nat) a + S16.size a ≤ S12800.size a
  inb_S200x128_S1x16_136_0 : ∀ a, (![136, 0] : Fin 2 → Nat) a + S1x16.size a ≤ S200x128.size a
  inb_S12800_S16_8720 : ∀ a, (![8720] : Fin 1 → Nat) a + S16.size a ≤ S12800.size a
  inb_S200x128_S1x16_136_16 : ∀ a, (![136, 16] : Fin 2 → Nat) a + S1x16.size a ≤ S200x128.size a
  inb_S12800_S16_8736 : ∀ a, (![8736] : Fin 1 → Nat) a + S16.size a ≤ S12800.size a
  inb_S200x128_S1x16_136_32 : ∀ a, (![136, 32] : Fin 2 → Nat) a + S1x16.size a ≤ S200x128.size a
  inb_S12800_S16_8752 : ∀ a, (![8752] : Fin 1 → Nat) a + S16.size a ≤ S12800.size a
  inb_S200x128_S1x16_136_48 : ∀ a, (![136, 48] : Fin 2 → Nat) a + S1x16.size a ≤ S200x128.size a
  inb_S12800_S16_8768 : ∀ a, (![8768] : Fin 1 → Nat) a + S16.size a ≤ S12800.size a
  inb_S200x128_S1x16_137_0 : ∀ a, (![137, 0] : Fin 2 → Nat) a + S1x16.size a ≤ S200x128.size a
  inb_S12800_S16_8784 : ∀ a, (![8784] : Fin 1 → Nat) a + S16.size a ≤ S12800.size a
  inb_S200x128_S1x16_137_16 : ∀ a, (![137, 16] : Fin 2 → Nat) a + S1x16.size a ≤ S200x128.size a
  inb_S12800_S16_8800 : ∀ a, (![8800] : Fin 1 → Nat) a + S16.size a ≤ S12800.size a
  inb_S200x128_S1x16_137_32 : ∀ a, (![137, 32] : Fin 2 → Nat) a + S1x16.size a ≤ S200x128.size a
  inb_S12800_S16_8816 : ∀ a, (![8816] : Fin 1 → Nat) a + S16.size a ≤ S12800.size a
  inb_S200x128_S1x16_137_48 : ∀ a, (![137, 48] : Fin 2 → Nat) a + S1x16.size a ≤ S200x128.size a
  inb_S12800_S16_8832 : ∀ a, (![8832] : Fin 1 → Nat) a + S16.size a ≤ S12800.size a
  inb_S200x128_S1x16_138_0 : ∀ a, (![138, 0] : Fin 2 → Nat) a + S1x16.size a ≤ S200x128.size a
  inb_S12800_S16_8848 : ∀ a, (![8848] : Fin 1 → Nat) a + S16.size a ≤ S12800.size a
  inb_S200x128_S1x16_138_16 : ∀ a, (![138, 16] : Fin 2 → Nat) a + S1x16.size a ≤ S200x128.size a
  inb_S12800_S16_8864 : ∀ a, (![8864] : Fin 1 → Nat) a + S16.size a ≤ S12800.size a
  inb_S200x128_S1x16_138_32 : ∀ a, (![138, 32] : Fin 2 → Nat) a + S1x16.size a ≤ S200x128.size a
  inb_S12800_S16_8880 : ∀ a, (![8880] : Fin 1 → Nat) a + S16.size a ≤ S12800.size a
  inb_S200x128_S1x16_138_48 : ∀ a, (![138, 48] : Fin 2 → Nat) a + S1x16.size a ≤ S200x128.size a
  inb_S12800_S16_8896 : ∀ a, (![8896] : Fin 1 → Nat) a + S16.size a ≤ S12800.size a
  inb_S200x128_S1x16_139_0 : ∀ a, (![139, 0] : Fin 2 → Nat) a + S1x16.size a ≤ S200x128.size a
  inb_S12800_S16_8912 : ∀ a, (![8912] : Fin 1 → Nat) a + S16.size a ≤ S12800.size a
  inb_S200x128_S1x16_139_16 : ∀ a, (![139, 16] : Fin 2 → Nat) a + S1x16.size a ≤ S200x128.size a
  inb_S12800_S16_8928 : ∀ a, (![8928] : Fin 1 → Nat) a + S16.size a ≤ S12800.size a
  inb_S200x128_S1x16_139_32 : ∀ a, (![139, 32] : Fin 2 → Nat) a + S1x16.size a ≤ S200x128.size a
  inb_S12800_S16_8944 : ∀ a, (![8944] : Fin 1 → Nat) a + S16.size a ≤ S12800.size a
  inb_S200x128_S1x16_139_48 : ∀ a, (![139, 48] : Fin 2 → Nat) a + S1x16.size a ≤ S200x128.size a
  inb_S12800_S16_8960 : ∀ a, (![8960] : Fin 1 → Nat) a + S16.size a ≤ S12800.size a
  inb_S200x128_S1x16_140_0 : ∀ a, (![140, 0] : Fin 2 → Nat) a + S1x16.size a ≤ S200x128.size a
  inb_S12800_S16_8976 : ∀ a, (![8976] : Fin 1 → Nat) a + S16.size a ≤ S12800.size a
  inb_S200x128_S1x16_140_16 : ∀ a, (![140, 16] : Fin 2 → Nat) a + S1x16.size a ≤ S200x128.size a
  inb_S12800_S16_8992 : ∀ a, (![8992] : Fin 1 → Nat) a + S16.size a ≤ S12800.size a
  inb_S200x128_S1x16_140_32 : ∀ a, (![140, 32] : Fin 2 → Nat) a + S1x16.size a ≤ S200x128.size a
  inb_S12800_S16_9008 : ∀ a, (![9008] : Fin 1 → Nat) a + S16.size a ≤ S12800.size a
  inb_S200x128_S1x16_140_48 : ∀ a, (![140, 48] : Fin 2 → Nat) a + S1x16.size a ≤ S200x128.size a
  inb_S12800_S16_9024 : ∀ a, (![9024] : Fin 1 → Nat) a + S16.size a ≤ S12800.size a
  inb_S200x128_S1x16_141_0 : ∀ a, (![141, 0] : Fin 2 → Nat) a + S1x16.size a ≤ S200x128.size a
  inb_S12800_S16_9040 : ∀ a, (![9040] : Fin 1 → Nat) a + S16.size a ≤ S12800.size a
  inb_S200x128_S1x16_141_16 : ∀ a, (![141, 16] : Fin 2 → Nat) a + S1x16.size a ≤ S200x128.size a
  inb_S12800_S16_9056 : ∀ a, (![9056] : Fin 1 → Nat) a + S16.size a ≤ S12800.size a
  inb_S200x128_S1x16_141_32 : ∀ a, (![141, 32] : Fin 2 → Nat) a + S1x16.size a ≤ S200x128.size a
  inb_S12800_S16_9072 : ∀ a, (![9072] : Fin 1 → Nat) a + S16.size a ≤ S12800.size a
  inb_S200x128_S1x16_141_48 : ∀ a, (![141, 48] : Fin 2 → Nat) a + S1x16.size a ≤ S200x128.size a
  inb_S12800_S16_9088 : ∀ a, (![9088] : Fin 1 → Nat) a + S16.size a ≤ S12800.size a
  inb_S200x128_S1x16_142_0 : ∀ a, (![142, 0] : Fin 2 → Nat) a + S1x16.size a ≤ S200x128.size a
  inb_S12800_S16_9104 : ∀ a, (![9104] : Fin 1 → Nat) a + S16.size a ≤ S12800.size a
  inb_S200x128_S1x16_142_16 : ∀ a, (![142, 16] : Fin 2 → Nat) a + S1x16.size a ≤ S200x128.size a
  inb_S12800_S16_9120 : ∀ a, (![9120] : Fin 1 → Nat) a + S16.size a ≤ S12800.size a
  inb_S200x128_S1x16_142_32 : ∀ a, (![142, 32] : Fin 2 → Nat) a + S1x16.size a ≤ S200x128.size a
  inb_S12800_S16_9136 : ∀ a, (![9136] : Fin 1 → Nat) a + S16.size a ≤ S12800.size a
  inb_S200x128_S1x16_142_48 : ∀ a, (![142, 48] : Fin 2 → Nat) a + S1x16.size a ≤ S200x128.size a
  inb_S12800_S16_9152 : ∀ a, (![9152] : Fin 1 → Nat) a + S16.size a ≤ S12800.size a
  inb_S200x128_S1x16_143_0 : ∀ a, (![143, 0] : Fin 2 → Nat) a + S1x16.size a ≤ S200x128.size a
  inb_S12800_S16_9168 : ∀ a, (![9168] : Fin 1 → Nat) a + S16.size a ≤ S12800.size a
  inb_S200x128_S1x16_143_16 : ∀ a, (![143, 16] : Fin 2 → Nat) a + S1x16.size a ≤ S200x128.size a
  inb_S12800_S16_9184 : ∀ a, (![9184] : Fin 1 → Nat) a + S16.size a ≤ S12800.size a
  inb_S200x128_S1x16_143_32 : ∀ a, (![143, 32] : Fin 2 → Nat) a + S1x16.size a ≤ S200x128.size a
  inb_S12800_S16_9200 : ∀ a, (![9200] : Fin 1 → Nat) a + S16.size a ≤ S12800.size a
  inb_S200x128_S1x16_143_48 : ∀ a, (![143, 48] : Fin 2 → Nat) a + S1x16.size a ≤ S200x128.size a
  inb_S12800_S16_9216 : ∀ a, (![9216] : Fin 1 → Nat) a + S16.size a ≤ S12800.size a
  inb_S200x128_S1x16_144_0 : ∀ a, (![144, 0] : Fin 2 → Nat) a + S1x16.size a ≤ S200x128.size a
  inb_S12800_S16_9232 : ∀ a, (![9232] : Fin 1 → Nat) a + S16.size a ≤ S12800.size a
  inb_S200x128_S1x16_144_16 : ∀ a, (![144, 16] : Fin 2 → Nat) a + S1x16.size a ≤ S200x128.size a
  inb_S12800_S16_9248 : ∀ a, (![9248] : Fin 1 → Nat) a + S16.size a ≤ S12800.size a
  inb_S200x128_S1x16_144_32 : ∀ a, (![144, 32] : Fin 2 → Nat) a + S1x16.size a ≤ S200x128.size a
  inb_S12800_S16_9264 : ∀ a, (![9264] : Fin 1 → Nat) a + S16.size a ≤ S12800.size a
  inb_S200x128_S1x16_144_48 : ∀ a, (![144, 48] : Fin 2 → Nat) a + S1x16.size a ≤ S200x128.size a
  inb_S12800_S16_9280 : ∀ a, (![9280] : Fin 1 → Nat) a + S16.size a ≤ S12800.size a
  inb_S200x128_S1x16_145_0 : ∀ a, (![145, 0] : Fin 2 → Nat) a + S1x16.size a ≤ S200x128.size a
  inb_S12800_S16_9296 : ∀ a, (![9296] : Fin 1 → Nat) a + S16.size a ≤ S12800.size a
  inb_S200x128_S1x16_145_16 : ∀ a, (![145, 16] : Fin 2 → Nat) a + S1x16.size a ≤ S200x128.size a
  inb_S12800_S16_9312 : ∀ a, (![9312] : Fin 1 → Nat) a + S16.size a ≤ S12800.size a
  inb_S200x128_S1x16_145_32 : ∀ a, (![145, 32] : Fin 2 → Nat) a + S1x16.size a ≤ S200x128.size a
  inb_S12800_S16_9328 : ∀ a, (![9328] : Fin 1 → Nat) a + S16.size a ≤ S12800.size a
  inb_S200x128_S1x16_145_48 : ∀ a, (![145, 48] : Fin 2 → Nat) a + S1x16.size a ≤ S200x128.size a
  inb_S12800_S16_9344 : ∀ a, (![9344] : Fin 1 → Nat) a + S16.size a ≤ S12800.size a
  inb_S200x128_S1x16_146_0 : ∀ a, (![146, 0] : Fin 2 → Nat) a + S1x16.size a ≤ S200x128.size a
  inb_S12800_S16_9360 : ∀ a, (![9360] : Fin 1 → Nat) a + S16.size a ≤ S12800.size a
  inb_S200x128_S1x16_146_16 : ∀ a, (![146, 16] : Fin 2 → Nat) a + S1x16.size a ≤ S200x128.size a
  inb_S12800_S16_9376 : ∀ a, (![9376] : Fin 1 → Nat) a + S16.size a ≤ S12800.size a
  inb_S200x128_S1x16_146_32 : ∀ a, (![146, 32] : Fin 2 → Nat) a + S1x16.size a ≤ S200x128.size a
  inb_S12800_S16_9392 : ∀ a, (![9392] : Fin 1 → Nat) a + S16.size a ≤ S12800.size a
  inb_S200x128_S1x16_146_48 : ∀ a, (![146, 48] : Fin 2 → Nat) a + S1x16.size a ≤ S200x128.size a
  inb_S12800_S16_9408 : ∀ a, (![9408] : Fin 1 → Nat) a + S16.size a ≤ S12800.size a
  inb_S200x128_S1x16_147_0 : ∀ a, (![147, 0] : Fin 2 → Nat) a + S1x16.size a ≤ S200x128.size a
  inb_S12800_S16_9424 : ∀ a, (![9424] : Fin 1 → Nat) a + S16.size a ≤ S12800.size a
  inb_S200x128_S1x16_147_16 : ∀ a, (![147, 16] : Fin 2 → Nat) a + S1x16.size a ≤ S200x128.size a
  inb_S12800_S16_9440 : ∀ a, (![9440] : Fin 1 → Nat) a + S16.size a ≤ S12800.size a
  inb_S200x128_S1x16_147_32 : ∀ a, (![147, 32] : Fin 2 → Nat) a + S1x16.size a ≤ S200x128.size a
  inb_S12800_S16_9456 : ∀ a, (![9456] : Fin 1 → Nat) a + S16.size a ≤ S12800.size a
  inb_S200x128_S1x16_147_48 : ∀ a, (![147, 48] : Fin 2 → Nat) a + S1x16.size a ≤ S200x128.size a
  inb_S12800_S16_9472 : ∀ a, (![9472] : Fin 1 → Nat) a + S16.size a ≤ S12800.size a
  inb_S200x128_S1x16_148_0 : ∀ a, (![148, 0] : Fin 2 → Nat) a + S1x16.size a ≤ S200x128.size a
  inb_S12800_S16_9488 : ∀ a, (![9488] : Fin 1 → Nat) a + S16.size a ≤ S12800.size a
  inb_S200x128_S1x16_148_16 : ∀ a, (![148, 16] : Fin 2 → Nat) a + S1x16.size a ≤ S200x128.size a
  inb_S12800_S16_9504 : ∀ a, (![9504] : Fin 1 → Nat) a + S16.size a ≤ S12800.size a
  inb_S200x128_S1x16_148_32 : ∀ a, (![148, 32] : Fin 2 → Nat) a + S1x16.size a ≤ S200x128.size a
  inb_S12800_S16_9520 : ∀ a, (![9520] : Fin 1 → Nat) a + S16.size a ≤ S12800.size a
  inb_S200x128_S1x16_148_48 : ∀ a, (![148, 48] : Fin 2 → Nat) a + S1x16.size a ≤ S200x128.size a
  inb_S12800_S16_9536 : ∀ a, (![9536] : Fin 1 → Nat) a + S16.size a ≤ S12800.size a
  inb_S200x128_S1x16_149_0 : ∀ a, (![149, 0] : Fin 2 → Nat) a + S1x16.size a ≤ S200x128.size a
  inb_S12800_S16_9552 : ∀ a, (![9552] : Fin 1 → Nat) a + S16.size a ≤ S12800.size a
  inb_S200x128_S1x16_149_16 : ∀ a, (![149, 16] : Fin 2 → Nat) a + S1x16.size a ≤ S200x128.size a
  inb_S12800_S16_9568 : ∀ a, (![9568] : Fin 1 → Nat) a + S16.size a ≤ S12800.size a
  inb_S200x128_S1x16_149_32 : ∀ a, (![149, 32] : Fin 2 → Nat) a + S1x16.size a ≤ S200x128.size a
  inb_S12800_S16_9584 : ∀ a, (![9584] : Fin 1 → Nat) a + S16.size a ≤ S12800.size a
  inb_S200x128_S1x16_149_48 : ∀ a, (![149, 48] : Fin 2 → Nat) a + S1x16.size a ≤ S200x128.size a
  inb_S12800_S16_9600 : ∀ a, (![9600] : Fin 1 → Nat) a + S16.size a ≤ S12800.size a
  inb_S200x128_S1x16_150_0 : ∀ a, (![150, 0] : Fin 2 → Nat) a + S1x16.size a ≤ S200x128.size a
  inb_S12800_S16_9616 : ∀ a, (![9616] : Fin 1 → Nat) a + S16.size a ≤ S12800.size a
  inb_S200x128_S1x16_150_16 : ∀ a, (![150, 16] : Fin 2 → Nat) a + S1x16.size a ≤ S200x128.size a
  inb_S12800_S16_9632 : ∀ a, (![9632] : Fin 1 → Nat) a + S16.size a ≤ S12800.size a
  inb_S200x128_S1x16_150_32 : ∀ a, (![150, 32] : Fin 2 → Nat) a + S1x16.size a ≤ S200x128.size a
  inb_S12800_S16_9648 : ∀ a, (![9648] : Fin 1 → Nat) a + S16.size a ≤ S12800.size a
  inb_S200x128_S1x16_150_48 : ∀ a, (![150, 48] : Fin 2 → Nat) a + S1x16.size a ≤ S200x128.size a
  inb_S12800_S16_9664 : ∀ a, (![9664] : Fin 1 → Nat) a + S16.size a ≤ S12800.size a
  inb_S200x128_S1x16_151_0 : ∀ a, (![151, 0] : Fin 2 → Nat) a + S1x16.size a ≤ S200x128.size a
  inb_S12800_S16_9680 : ∀ a, (![9680] : Fin 1 → Nat) a + S16.size a ≤ S12800.size a
  inb_S200x128_S1x16_151_16 : ∀ a, (![151, 16] : Fin 2 → Nat) a + S1x16.size a ≤ S200x128.size a
  inb_S12800_S16_9696 : ∀ a, (![9696] : Fin 1 → Nat) a + S16.size a ≤ S12800.size a
  inb_S200x128_S1x16_151_32 : ∀ a, (![151, 32] : Fin 2 → Nat) a + S1x16.size a ≤ S200x128.size a
  inb_S12800_S16_9712 : ∀ a, (![9712] : Fin 1 → Nat) a + S16.size a ≤ S12800.size a
  inb_S200x128_S1x16_151_48 : ∀ a, (![151, 48] : Fin 2 → Nat) a + S1x16.size a ≤ S200x128.size a
  inb_S12800_S16_9728 : ∀ a, (![9728] : Fin 1 → Nat) a + S16.size a ≤ S12800.size a
  inb_S200x128_S1x16_152_0 : ∀ a, (![152, 0] : Fin 2 → Nat) a + S1x16.size a ≤ S200x128.size a
  inb_S12800_S16_9744 : ∀ a, (![9744] : Fin 1 → Nat) a + S16.size a ≤ S12800.size a
  inb_S200x128_S1x16_152_16 : ∀ a, (![152, 16] : Fin 2 → Nat) a + S1x16.size a ≤ S200x128.size a
  inb_S12800_S16_9760 : ∀ a, (![9760] : Fin 1 → Nat) a + S16.size a ≤ S12800.size a
  inb_S200x128_S1x16_152_32 : ∀ a, (![152, 32] : Fin 2 → Nat) a + S1x16.size a ≤ S200x128.size a
  inb_S12800_S16_9776 : ∀ a, (![9776] : Fin 1 → Nat) a + S16.size a ≤ S12800.size a
  inb_S200x128_S1x16_152_48 : ∀ a, (![152, 48] : Fin 2 → Nat) a + S1x16.size a ≤ S200x128.size a
  inb_S12800_S16_9792 : ∀ a, (![9792] : Fin 1 → Nat) a + S16.size a ≤ S12800.size a
  inb_S200x128_S1x16_153_0 : ∀ a, (![153, 0] : Fin 2 → Nat) a + S1x16.size a ≤ S200x128.size a
  inb_S12800_S16_9808 : ∀ a, (![9808] : Fin 1 → Nat) a + S16.size a ≤ S12800.size a
  inb_S200x128_S1x16_153_16 : ∀ a, (![153, 16] : Fin 2 → Nat) a + S1x16.size a ≤ S200x128.size a
  inb_S12800_S16_9824 : ∀ a, (![9824] : Fin 1 → Nat) a + S16.size a ≤ S12800.size a
  inb_S200x128_S1x16_153_32 : ∀ a, (![153, 32] : Fin 2 → Nat) a + S1x16.size a ≤ S200x128.size a
  inb_S12800_S16_9840 : ∀ a, (![9840] : Fin 1 → Nat) a + S16.size a ≤ S12800.size a
  inb_S200x128_S1x16_153_48 : ∀ a, (![153, 48] : Fin 2 → Nat) a + S1x16.size a ≤ S200x128.size a
  inb_S12800_S16_9856 : ∀ a, (![9856] : Fin 1 → Nat) a + S16.size a ≤ S12800.size a
  inb_S200x128_S1x16_154_0 : ∀ a, (![154, 0] : Fin 2 → Nat) a + S1x16.size a ≤ S200x128.size a
  inb_S12800_S16_9872 : ∀ a, (![9872] : Fin 1 → Nat) a + S16.size a ≤ S12800.size a
  inb_S200x128_S1x16_154_16 : ∀ a, (![154, 16] : Fin 2 → Nat) a + S1x16.size a ≤ S200x128.size a
  inb_S12800_S16_9888 : ∀ a, (![9888] : Fin 1 → Nat) a + S16.size a ≤ S12800.size a
  inb_S200x128_S1x16_154_32 : ∀ a, (![154, 32] : Fin 2 → Nat) a + S1x16.size a ≤ S200x128.size a
  inb_S12800_S16_9904 : ∀ a, (![9904] : Fin 1 → Nat) a + S16.size a ≤ S12800.size a
  inb_S200x128_S1x16_154_48 : ∀ a, (![154, 48] : Fin 2 → Nat) a + S1x16.size a ≤ S200x128.size a
  inb_S12800_S16_9920 : ∀ a, (![9920] : Fin 1 → Nat) a + S16.size a ≤ S12800.size a
  inb_S200x128_S1x16_155_0 : ∀ a, (![155, 0] : Fin 2 → Nat) a + S1x16.size a ≤ S200x128.size a
  inb_S12800_S16_9936 : ∀ a, (![9936] : Fin 1 → Nat) a + S16.size a ≤ S12800.size a
  inb_S200x128_S1x16_155_16 : ∀ a, (![155, 16] : Fin 2 → Nat) a + S1x16.size a ≤ S200x128.size a
  inb_S12800_S16_9952 : ∀ a, (![9952] : Fin 1 → Nat) a + S16.size a ≤ S12800.size a
  inb_S200x128_S1x16_155_32 : ∀ a, (![155, 32] : Fin 2 → Nat) a + S1x16.size a ≤ S200x128.size a
  inb_S12800_S16_9968 : ∀ a, (![9968] : Fin 1 → Nat) a + S16.size a ≤ S12800.size a
  inb_S200x128_S1x16_155_48 : ∀ a, (![155, 48] : Fin 2 → Nat) a + S1x16.size a ≤ S200x128.size a
  inb_S12800_S16_9984 : ∀ a, (![9984] : Fin 1 → Nat) a + S16.size a ≤ S12800.size a
  inb_S200x128_S1x16_156_0 : ∀ a, (![156, 0] : Fin 2 → Nat) a + S1x16.size a ≤ S200x128.size a
  inb_S12800_S16_10000 : ∀ a, (![10000] : Fin 1 → Nat) a + S16.size a ≤ S12800.size a
  inb_S200x128_S1x16_156_16 : ∀ a, (![156, 16] : Fin 2 → Nat) a + S1x16.size a ≤ S200x128.size a
  inb_S12800_S16_10016 : ∀ a, (![10016] : Fin 1 → Nat) a + S16.size a ≤ S12800.size a
  inb_S200x128_S1x16_156_32 : ∀ a, (![156, 32] : Fin 2 → Nat) a + S1x16.size a ≤ S200x128.size a
  inb_S12800_S16_10032 : ∀ a, (![10032] : Fin 1 → Nat) a + S16.size a ≤ S12800.size a
  inb_S200x128_S1x16_156_48 : ∀ a, (![156, 48] : Fin 2 → Nat) a + S1x16.size a ≤ S200x128.size a
  inb_S12800_S16_10048 : ∀ a, (![10048] : Fin 1 → Nat) a + S16.size a ≤ S12800.size a
  inb_S200x128_S1x16_157_0 : ∀ a, (![157, 0] : Fin 2 → Nat) a + S1x16.size a ≤ S200x128.size a
  inb_S12800_S16_10064 : ∀ a, (![10064] : Fin 1 → Nat) a + S16.size a ≤ S12800.size a
  inb_S200x128_S1x16_157_16 : ∀ a, (![157, 16] : Fin 2 → Nat) a + S1x16.size a ≤ S200x128.size a
  inb_S12800_S16_10080 : ∀ a, (![10080] : Fin 1 → Nat) a + S16.size a ≤ S12800.size a
  inb_S200x128_S1x16_157_32 : ∀ a, (![157, 32] : Fin 2 → Nat) a + S1x16.size a ≤ S200x128.size a
  inb_S12800_S16_10096 : ∀ a, (![10096] : Fin 1 → Nat) a + S16.size a ≤ S12800.size a
  inb_S200x128_S1x16_157_48 : ∀ a, (![157, 48] : Fin 2 → Nat) a + S1x16.size a ≤ S200x128.size a
  inb_S12800_S16_10112 : ∀ a, (![10112] : Fin 1 → Nat) a + S16.size a ≤ S12800.size a
  inb_S200x128_S1x16_158_0 : ∀ a, (![158, 0] : Fin 2 → Nat) a + S1x16.size a ≤ S200x128.size a
  inb_S12800_S16_10128 : ∀ a, (![10128] : Fin 1 → Nat) a + S16.size a ≤ S12800.size a
  inb_S200x128_S1x16_158_16 : ∀ a, (![158, 16] : Fin 2 → Nat) a + S1x16.size a ≤ S200x128.size a
  inb_S12800_S16_10144 : ∀ a, (![10144] : Fin 1 → Nat) a + S16.size a ≤ S12800.size a
  inb_S200x128_S1x16_158_32 : ∀ a, (![158, 32] : Fin 2 → Nat) a + S1x16.size a ≤ S200x128.size a
  inb_S12800_S16_10160 : ∀ a, (![10160] : Fin 1 → Nat) a + S16.size a ≤ S12800.size a
  inb_S200x128_S1x16_158_48 : ∀ a, (![158, 48] : Fin 2 → Nat) a + S1x16.size a ≤ S200x128.size a
  inb_S12800_S16_10176 : ∀ a, (![10176] : Fin 1 → Nat) a + S16.size a ≤ S12800.size a
  inb_S200x128_S1x16_159_0 : ∀ a, (![159, 0] : Fin 2 → Nat) a + S1x16.size a ≤ S200x128.size a
  inb_S12800_S16_10192 : ∀ a, (![10192] : Fin 1 → Nat) a + S16.size a ≤ S12800.size a
  inb_S200x128_S1x16_159_16 : ∀ a, (![159, 16] : Fin 2 → Nat) a + S1x16.size a ≤ S200x128.size a
  inb_S12800_S16_10208 : ∀ a, (![10208] : Fin 1 → Nat) a + S16.size a ≤ S12800.size a
  inb_S200x128_S1x16_159_32 : ∀ a, (![159, 32] : Fin 2 → Nat) a + S1x16.size a ≤ S200x128.size a
  inb_S12800_S16_10224 : ∀ a, (![10224] : Fin 1 → Nat) a + S16.size a ≤ S12800.size a
  inb_S200x128_S1x16_159_48 : ∀ a, (![159, 48] : Fin 2 → Nat) a + S1x16.size a ≤ S200x128.size a
  inb_S12800_S16_10240 : ∀ a, (![10240] : Fin 1 → Nat) a + S16.size a ≤ S12800.size a
  inb_S200x128_S1x16_160_0 : ∀ a, (![160, 0] : Fin 2 → Nat) a + S1x16.size a ≤ S200x128.size a
  inb_S12800_S16_10256 : ∀ a, (![10256] : Fin 1 → Nat) a + S16.size a ≤ S12800.size a
  inb_S200x128_S1x16_160_16 : ∀ a, (![160, 16] : Fin 2 → Nat) a + S1x16.size a ≤ S200x128.size a
  inb_S12800_S16_10272 : ∀ a, (![10272] : Fin 1 → Nat) a + S16.size a ≤ S12800.size a
  inb_S200x128_S1x16_160_32 : ∀ a, (![160, 32] : Fin 2 → Nat) a + S1x16.size a ≤ S200x128.size a
  inb_S12800_S16_10288 : ∀ a, (![10288] : Fin 1 → Nat) a + S16.size a ≤ S12800.size a
  inb_S200x128_S1x16_160_48 : ∀ a, (![160, 48] : Fin 2 → Nat) a + S1x16.size a ≤ S200x128.size a
  inb_S12800_S16_10304 : ∀ a, (![10304] : Fin 1 → Nat) a + S16.size a ≤ S12800.size a
  inb_S200x128_S1x16_161_0 : ∀ a, (![161, 0] : Fin 2 → Nat) a + S1x16.size a ≤ S200x128.size a
  inb_S12800_S16_10320 : ∀ a, (![10320] : Fin 1 → Nat) a + S16.size a ≤ S12800.size a
  inb_S200x128_S1x16_161_16 : ∀ a, (![161, 16] : Fin 2 → Nat) a + S1x16.size a ≤ S200x128.size a
  inb_S12800_S16_10336 : ∀ a, (![10336] : Fin 1 → Nat) a + S16.size a ≤ S12800.size a
  inb_S200x128_S1x16_161_32 : ∀ a, (![161, 32] : Fin 2 → Nat) a + S1x16.size a ≤ S200x128.size a
  inb_S12800_S16_10352 : ∀ a, (![10352] : Fin 1 → Nat) a + S16.size a ≤ S12800.size a
  inb_S200x128_S1x16_161_48 : ∀ a, (![161, 48] : Fin 2 → Nat) a + S1x16.size a ≤ S200x128.size a
  inb_S12800_S16_10368 : ∀ a, (![10368] : Fin 1 → Nat) a + S16.size a ≤ S12800.size a
  inb_S200x128_S1x16_162_0 : ∀ a, (![162, 0] : Fin 2 → Nat) a + S1x16.size a ≤ S200x128.size a
  inb_S12800_S16_10384 : ∀ a, (![10384] : Fin 1 → Nat) a + S16.size a ≤ S12800.size a
  inb_S200x128_S1x16_162_16 : ∀ a, (![162, 16] : Fin 2 → Nat) a + S1x16.size a ≤ S200x128.size a
  inb_S12800_S16_10400 : ∀ a, (![10400] : Fin 1 → Nat) a + S16.size a ≤ S12800.size a
  inb_S200x128_S1x16_162_32 : ∀ a, (![162, 32] : Fin 2 → Nat) a + S1x16.size a ≤ S200x128.size a
  inb_S12800_S16_10416 : ∀ a, (![10416] : Fin 1 → Nat) a + S16.size a ≤ S12800.size a
  inb_S200x128_S1x16_162_48 : ∀ a, (![162, 48] : Fin 2 → Nat) a + S1x16.size a ≤ S200x128.size a
  inb_S12800_S16_10432 : ∀ a, (![10432] : Fin 1 → Nat) a + S16.size a ≤ S12800.size a
  inb_S200x128_S1x16_163_0 : ∀ a, (![163, 0] : Fin 2 → Nat) a + S1x16.size a ≤ S200x128.size a
  inb_S12800_S16_10448 : ∀ a, (![10448] : Fin 1 → Nat) a + S16.size a ≤ S12800.size a
  inb_S200x128_S1x16_163_16 : ∀ a, (![163, 16] : Fin 2 → Nat) a + S1x16.size a ≤ S200x128.size a
  inb_S12800_S16_10464 : ∀ a, (![10464] : Fin 1 → Nat) a + S16.size a ≤ S12800.size a
  inb_S200x128_S1x16_163_32 : ∀ a, (![163, 32] : Fin 2 → Nat) a + S1x16.size a ≤ S200x128.size a
  inb_S12800_S16_10480 : ∀ a, (![10480] : Fin 1 → Nat) a + S16.size a ≤ S12800.size a
  inb_S200x128_S1x16_163_48 : ∀ a, (![163, 48] : Fin 2 → Nat) a + S1x16.size a ≤ S200x128.size a
  inb_S12800_S16_10496 : ∀ a, (![10496] : Fin 1 → Nat) a + S16.size a ≤ S12800.size a
  inb_S200x128_S1x16_164_0 : ∀ a, (![164, 0] : Fin 2 → Nat) a + S1x16.size a ≤ S200x128.size a
  inb_S12800_S16_10512 : ∀ a, (![10512] : Fin 1 → Nat) a + S16.size a ≤ S12800.size a
  inb_S200x128_S1x16_164_16 : ∀ a, (![164, 16] : Fin 2 → Nat) a + S1x16.size a ≤ S200x128.size a
  inb_S12800_S16_10528 : ∀ a, (![10528] : Fin 1 → Nat) a + S16.size a ≤ S12800.size a
  inb_S200x128_S1x16_164_32 : ∀ a, (![164, 32] : Fin 2 → Nat) a + S1x16.size a ≤ S200x128.size a
  inb_S12800_S16_10544 : ∀ a, (![10544] : Fin 1 → Nat) a + S16.size a ≤ S12800.size a
  inb_S200x128_S1x16_164_48 : ∀ a, (![164, 48] : Fin 2 → Nat) a + S1x16.size a ≤ S200x128.size a
  inb_S12800_S16_10560 : ∀ a, (![10560] : Fin 1 → Nat) a + S16.size a ≤ S12800.size a
  inb_S200x128_S1x16_165_0 : ∀ a, (![165, 0] : Fin 2 → Nat) a + S1x16.size a ≤ S200x128.size a
  inb_S12800_S16_10576 : ∀ a, (![10576] : Fin 1 → Nat) a + S16.size a ≤ S12800.size a
  inb_S200x128_S1x16_165_16 : ∀ a, (![165, 16] : Fin 2 → Nat) a + S1x16.size a ≤ S200x128.size a
  inb_S12800_S16_10592 : ∀ a, (![10592] : Fin 1 → Nat) a + S16.size a ≤ S12800.size a
  inb_S200x128_S1x16_165_32 : ∀ a, (![165, 32] : Fin 2 → Nat) a + S1x16.size a ≤ S200x128.size a
  inb_S12800_S16_10608 : ∀ a, (![10608] : Fin 1 → Nat) a + S16.size a ≤ S12800.size a
  inb_S200x128_S1x16_165_48 : ∀ a, (![165, 48] : Fin 2 → Nat) a + S1x16.size a ≤ S200x128.size a
  inb_S12800_S16_10624 : ∀ a, (![10624] : Fin 1 → Nat) a + S16.size a ≤ S12800.size a
  inb_S200x128_S1x16_166_0 : ∀ a, (![166, 0] : Fin 2 → Nat) a + S1x16.size a ≤ S200x128.size a
  inb_S12800_S16_10640 : ∀ a, (![10640] : Fin 1 → Nat) a + S16.size a ≤ S12800.size a
  inb_S200x128_S1x16_166_16 : ∀ a, (![166, 16] : Fin 2 → Nat) a + S1x16.size a ≤ S200x128.size a
  inb_S12800_S16_10656 : ∀ a, (![10656] : Fin 1 → Nat) a + S16.size a ≤ S12800.size a
  inb_S200x128_S1x16_166_32 : ∀ a, (![166, 32] : Fin 2 → Nat) a + S1x16.size a ≤ S200x128.size a
  inb_S12800_S16_10672 : ∀ a, (![10672] : Fin 1 → Nat) a + S16.size a ≤ S12800.size a
  inb_S200x128_S1x16_166_48 : ∀ a, (![166, 48] : Fin 2 → Nat) a + S1x16.size a ≤ S200x128.size a
  inb_S12800_S16_10688 : ∀ a, (![10688] : Fin 1 → Nat) a + S16.size a ≤ S12800.size a
  inb_S200x128_S1x16_167_0 : ∀ a, (![167, 0] : Fin 2 → Nat) a + S1x16.size a ≤ S200x128.size a
  inb_S12800_S16_10704 : ∀ a, (![10704] : Fin 1 → Nat) a + S16.size a ≤ S12800.size a
  inb_S200x128_S1x16_167_16 : ∀ a, (![167, 16] : Fin 2 → Nat) a + S1x16.size a ≤ S200x128.size a
  inb_S12800_S16_10720 : ∀ a, (![10720] : Fin 1 → Nat) a + S16.size a ≤ S12800.size a
  inb_S200x128_S1x16_167_32 : ∀ a, (![167, 32] : Fin 2 → Nat) a + S1x16.size a ≤ S200x128.size a
  inb_S12800_S16_10736 : ∀ a, (![10736] : Fin 1 → Nat) a + S16.size a ≤ S12800.size a
  inb_S200x128_S1x16_167_48 : ∀ a, (![167, 48] : Fin 2 → Nat) a + S1x16.size a ≤ S200x128.size a
  inb_S12800_S16_10752 : ∀ a, (![10752] : Fin 1 → Nat) a + S16.size a ≤ S12800.size a
  inb_S200x128_S1x16_168_0 : ∀ a, (![168, 0] : Fin 2 → Nat) a + S1x16.size a ≤ S200x128.size a
  inb_S12800_S16_10768 : ∀ a, (![10768] : Fin 1 → Nat) a + S16.size a ≤ S12800.size a
  inb_S200x128_S1x16_168_16 : ∀ a, (![168, 16] : Fin 2 → Nat) a + S1x16.size a ≤ S200x128.size a
  inb_S12800_S16_10784 : ∀ a, (![10784] : Fin 1 → Nat) a + S16.size a ≤ S12800.size a
  inb_S200x128_S1x16_168_32 : ∀ a, (![168, 32] : Fin 2 → Nat) a + S1x16.size a ≤ S200x128.size a
  inb_S12800_S16_10800 : ∀ a, (![10800] : Fin 1 → Nat) a + S16.size a ≤ S12800.size a
  inb_S200x128_S1x16_168_48 : ∀ a, (![168, 48] : Fin 2 → Nat) a + S1x16.size a ≤ S200x128.size a
  inb_S12800_S16_10816 : ∀ a, (![10816] : Fin 1 → Nat) a + S16.size a ≤ S12800.size a
  inb_S200x128_S1x16_169_0 : ∀ a, (![169, 0] : Fin 2 → Nat) a + S1x16.size a ≤ S200x128.size a
  inb_S12800_S16_10832 : ∀ a, (![10832] : Fin 1 → Nat) a + S16.size a ≤ S12800.size a
  inb_S200x128_S1x16_169_16 : ∀ a, (![169, 16] : Fin 2 → Nat) a + S1x16.size a ≤ S200x128.size a
  inb_S12800_S16_10848 : ∀ a, (![10848] : Fin 1 → Nat) a + S16.size a ≤ S12800.size a
  inb_S200x128_S1x16_169_32 : ∀ a, (![169, 32] : Fin 2 → Nat) a + S1x16.size a ≤ S200x128.size a
  inb_S12800_S16_10864 : ∀ a, (![10864] : Fin 1 → Nat) a + S16.size a ≤ S12800.size a
  inb_S200x128_S1x16_169_48 : ∀ a, (![169, 48] : Fin 2 → Nat) a + S1x16.size a ≤ S200x128.size a
  inb_S12800_S16_10880 : ∀ a, (![10880] : Fin 1 → Nat) a + S16.size a ≤ S12800.size a
  inb_S200x128_S1x16_170_0 : ∀ a, (![170, 0] : Fin 2 → Nat) a + S1x16.size a ≤ S200x128.size a
  inb_S12800_S16_10896 : ∀ a, (![10896] : Fin 1 → Nat) a + S16.size a ≤ S12800.size a
  inb_S200x128_S1x16_170_16 : ∀ a, (![170, 16] : Fin 2 → Nat) a + S1x16.size a ≤ S200x128.size a
  inb_S12800_S16_10912 : ∀ a, (![10912] : Fin 1 → Nat) a + S16.size a ≤ S12800.size a
  inb_S200x128_S1x16_170_32 : ∀ a, (![170, 32] : Fin 2 → Nat) a + S1x16.size a ≤ S200x128.size a
  inb_S12800_S16_10928 : ∀ a, (![10928] : Fin 1 → Nat) a + S16.size a ≤ S12800.size a
  inb_S200x128_S1x16_170_48 : ∀ a, (![170, 48] : Fin 2 → Nat) a + S1x16.size a ≤ S200x128.size a
  inb_S12800_S16_10944 : ∀ a, (![10944] : Fin 1 → Nat) a + S16.size a ≤ S12800.size a
  inb_S200x128_S1x16_171_0 : ∀ a, (![171, 0] : Fin 2 → Nat) a + S1x16.size a ≤ S200x128.size a
  inb_S12800_S16_10960 : ∀ a, (![10960] : Fin 1 → Nat) a + S16.size a ≤ S12800.size a
  inb_S200x128_S1x16_171_16 : ∀ a, (![171, 16] : Fin 2 → Nat) a + S1x16.size a ≤ S200x128.size a
  inb_S12800_S16_10976 : ∀ a, (![10976] : Fin 1 → Nat) a + S16.size a ≤ S12800.size a
  inb_S200x128_S1x16_171_32 : ∀ a, (![171, 32] : Fin 2 → Nat) a + S1x16.size a ≤ S200x128.size a
  inb_S12800_S16_10992 : ∀ a, (![10992] : Fin 1 → Nat) a + S16.size a ≤ S12800.size a
  inb_S200x128_S1x16_171_48 : ∀ a, (![171, 48] : Fin 2 → Nat) a + S1x16.size a ≤ S200x128.size a
  inb_S12800_S16_11008 : ∀ a, (![11008] : Fin 1 → Nat) a + S16.size a ≤ S12800.size a
  inb_S200x128_S1x16_172_0 : ∀ a, (![172, 0] : Fin 2 → Nat) a + S1x16.size a ≤ S200x128.size a
  inb_S12800_S16_11024 : ∀ a, (![11024] : Fin 1 → Nat) a + S16.size a ≤ S12800.size a
  inb_S200x128_S1x16_172_16 : ∀ a, (![172, 16] : Fin 2 → Nat) a + S1x16.size a ≤ S200x128.size a
  inb_S12800_S16_11040 : ∀ a, (![11040] : Fin 1 → Nat) a + S16.size a ≤ S12800.size a
  inb_S200x128_S1x16_172_32 : ∀ a, (![172, 32] : Fin 2 → Nat) a + S1x16.size a ≤ S200x128.size a
  inb_S12800_S16_11056 : ∀ a, (![11056] : Fin 1 → Nat) a + S16.size a ≤ S12800.size a
  inb_S200x128_S1x16_172_48 : ∀ a, (![172, 48] : Fin 2 → Nat) a + S1x16.size a ≤ S200x128.size a
  inb_S12800_S16_11072 : ∀ a, (![11072] : Fin 1 → Nat) a + S16.size a ≤ S12800.size a
  inb_S200x128_S1x16_173_0 : ∀ a, (![173, 0] : Fin 2 → Nat) a + S1x16.size a ≤ S200x128.size a
  inb_S12800_S16_11088 : ∀ a, (![11088] : Fin 1 → Nat) a + S16.size a ≤ S12800.size a
  inb_S200x128_S1x16_173_16 : ∀ a, (![173, 16] : Fin 2 → Nat) a + S1x16.size a ≤ S200x128.size a
  inb_S12800_S16_11104 : ∀ a, (![11104] : Fin 1 → Nat) a + S16.size a ≤ S12800.size a
  inb_S200x128_S1x16_173_32 : ∀ a, (![173, 32] : Fin 2 → Nat) a + S1x16.size a ≤ S200x128.size a
  inb_S12800_S16_11120 : ∀ a, (![11120] : Fin 1 → Nat) a + S16.size a ≤ S12800.size a
  inb_S200x128_S1x16_173_48 : ∀ a, (![173, 48] : Fin 2 → Nat) a + S1x16.size a ≤ S200x128.size a
  inb_S12800_S16_11136 : ∀ a, (![11136] : Fin 1 → Nat) a + S16.size a ≤ S12800.size a
  inb_S200x128_S1x16_174_0 : ∀ a, (![174, 0] : Fin 2 → Nat) a + S1x16.size a ≤ S200x128.size a
  inb_S12800_S16_11152 : ∀ a, (![11152] : Fin 1 → Nat) a + S16.size a ≤ S12800.size a
  inb_S200x128_S1x16_174_16 : ∀ a, (![174, 16] : Fin 2 → Nat) a + S1x16.size a ≤ S200x128.size a
  inb_S12800_S16_11168 : ∀ a, (![11168] : Fin 1 → Nat) a + S16.size a ≤ S12800.size a
  inb_S200x128_S1x16_174_32 : ∀ a, (![174, 32] : Fin 2 → Nat) a + S1x16.size a ≤ S200x128.size a
  inb_S12800_S16_11184 : ∀ a, (![11184] : Fin 1 → Nat) a + S16.size a ≤ S12800.size a
  inb_S200x128_S1x16_174_48 : ∀ a, (![174, 48] : Fin 2 → Nat) a + S1x16.size a ≤ S200x128.size a
  inb_S12800_S16_11200 : ∀ a, (![11200] : Fin 1 → Nat) a + S16.size a ≤ S12800.size a
  inb_S200x128_S1x16_175_0 : ∀ a, (![175, 0] : Fin 2 → Nat) a + S1x16.size a ≤ S200x128.size a
  inb_S12800_S16_11216 : ∀ a, (![11216] : Fin 1 → Nat) a + S16.size a ≤ S12800.size a
  inb_S200x128_S1x16_175_16 : ∀ a, (![175, 16] : Fin 2 → Nat) a + S1x16.size a ≤ S200x128.size a
  inb_S12800_S16_11232 : ∀ a, (![11232] : Fin 1 → Nat) a + S16.size a ≤ S12800.size a
  inb_S200x128_S1x16_175_32 : ∀ a, (![175, 32] : Fin 2 → Nat) a + S1x16.size a ≤ S200x128.size a
  inb_S12800_S16_11248 : ∀ a, (![11248] : Fin 1 → Nat) a + S16.size a ≤ S12800.size a
  inb_S200x128_S1x16_175_48 : ∀ a, (![175, 48] : Fin 2 → Nat) a + S1x16.size a ≤ S200x128.size a
  inb_S12800_S16_11264 : ∀ a, (![11264] : Fin 1 → Nat) a + S16.size a ≤ S12800.size a
  inb_S200x128_S1x16_176_0 : ∀ a, (![176, 0] : Fin 2 → Nat) a + S1x16.size a ≤ S200x128.size a
  inb_S12800_S16_11280 : ∀ a, (![11280] : Fin 1 → Nat) a + S16.size a ≤ S12800.size a
  inb_S200x128_S1x16_176_16 : ∀ a, (![176, 16] : Fin 2 → Nat) a + S1x16.size a ≤ S200x128.size a
  inb_S12800_S16_11296 : ∀ a, (![11296] : Fin 1 → Nat) a + S16.size a ≤ S12800.size a
  inb_S200x128_S1x16_176_32 : ∀ a, (![176, 32] : Fin 2 → Nat) a + S1x16.size a ≤ S200x128.size a
  inb_S12800_S16_11312 : ∀ a, (![11312] : Fin 1 → Nat) a + S16.size a ≤ S12800.size a
  inb_S200x128_S1x16_176_48 : ∀ a, (![176, 48] : Fin 2 → Nat) a + S1x16.size a ≤ S200x128.size a
  inb_S12800_S16_11328 : ∀ a, (![11328] : Fin 1 → Nat) a + S16.size a ≤ S12800.size a
  inb_S200x128_S1x16_177_0 : ∀ a, (![177, 0] : Fin 2 → Nat) a + S1x16.size a ≤ S200x128.size a
  inb_S12800_S16_11344 : ∀ a, (![11344] : Fin 1 → Nat) a + S16.size a ≤ S12800.size a
  inb_S200x128_S1x16_177_16 : ∀ a, (![177, 16] : Fin 2 → Nat) a + S1x16.size a ≤ S200x128.size a
  inb_S12800_S16_11360 : ∀ a, (![11360] : Fin 1 → Nat) a + S16.size a ≤ S12800.size a
  inb_S200x128_S1x16_177_32 : ∀ a, (![177, 32] : Fin 2 → Nat) a + S1x16.size a ≤ S200x128.size a
  inb_S12800_S16_11376 : ∀ a, (![11376] : Fin 1 → Nat) a + S16.size a ≤ S12800.size a
  inb_S200x128_S1x16_177_48 : ∀ a, (![177, 48] : Fin 2 → Nat) a + S1x16.size a ≤ S200x128.size a
  inb_S12800_S16_11392 : ∀ a, (![11392] : Fin 1 → Nat) a + S16.size a ≤ S12800.size a
  inb_S200x128_S1x16_178_0 : ∀ a, (![178, 0] : Fin 2 → Nat) a + S1x16.size a ≤ S200x128.size a
  inb_S12800_S16_11408 : ∀ a, (![11408] : Fin 1 → Nat) a + S16.size a ≤ S12800.size a
  inb_S200x128_S1x16_178_16 : ∀ a, (![178, 16] : Fin 2 → Nat) a + S1x16.size a ≤ S200x128.size a
  inb_S12800_S16_11424 : ∀ a, (![11424] : Fin 1 → Nat) a + S16.size a ≤ S12800.size a
  inb_S200x128_S1x16_178_32 : ∀ a, (![178, 32] : Fin 2 → Nat) a + S1x16.size a ≤ S200x128.size a
  inb_S12800_S16_11440 : ∀ a, (![11440] : Fin 1 → Nat) a + S16.size a ≤ S12800.size a
  inb_S200x128_S1x16_178_48 : ∀ a, (![178, 48] : Fin 2 → Nat) a + S1x16.size a ≤ S200x128.size a
  inb_S12800_S16_11456 : ∀ a, (![11456] : Fin 1 → Nat) a + S16.size a ≤ S12800.size a
  inb_S200x128_S1x16_179_0 : ∀ a, (![179, 0] : Fin 2 → Nat) a + S1x16.size a ≤ S200x128.size a
  inb_S12800_S16_11472 : ∀ a, (![11472] : Fin 1 → Nat) a + S16.size a ≤ S12800.size a
  inb_S200x128_S1x16_179_16 : ∀ a, (![179, 16] : Fin 2 → Nat) a + S1x16.size a ≤ S200x128.size a
  inb_S12800_S16_11488 : ∀ a, (![11488] : Fin 1 → Nat) a + S16.size a ≤ S12800.size a
  inb_S200x128_S1x16_179_32 : ∀ a, (![179, 32] : Fin 2 → Nat) a + S1x16.size a ≤ S200x128.size a
  inb_S12800_S16_11504 : ∀ a, (![11504] : Fin 1 → Nat) a + S16.size a ≤ S12800.size a
  inb_S200x128_S1x16_179_48 : ∀ a, (![179, 48] : Fin 2 → Nat) a + S1x16.size a ≤ S200x128.size a
  inb_S12800_S16_11520 : ∀ a, (![11520] : Fin 1 → Nat) a + S16.size a ≤ S12800.size a
  inb_S200x128_S1x16_180_0 : ∀ a, (![180, 0] : Fin 2 → Nat) a + S1x16.size a ≤ S200x128.size a
  inb_S12800_S16_11536 : ∀ a, (![11536] : Fin 1 → Nat) a + S16.size a ≤ S12800.size a
  inb_S200x128_S1x16_180_16 : ∀ a, (![180, 16] : Fin 2 → Nat) a + S1x16.size a ≤ S200x128.size a
  inb_S12800_S16_11552 : ∀ a, (![11552] : Fin 1 → Nat) a + S16.size a ≤ S12800.size a
  inb_S200x128_S1x16_180_32 : ∀ a, (![180, 32] : Fin 2 → Nat) a + S1x16.size a ≤ S200x128.size a
  inb_S12800_S16_11568 : ∀ a, (![11568] : Fin 1 → Nat) a + S16.size a ≤ S12800.size a
  inb_S200x128_S1x16_180_48 : ∀ a, (![180, 48] : Fin 2 → Nat) a + S1x16.size a ≤ S200x128.size a
  inb_S12800_S16_11584 : ∀ a, (![11584] : Fin 1 → Nat) a + S16.size a ≤ S12800.size a
  inb_S200x128_S1x16_181_0 : ∀ a, (![181, 0] : Fin 2 → Nat) a + S1x16.size a ≤ S200x128.size a
  inb_S12800_S16_11600 : ∀ a, (![11600] : Fin 1 → Nat) a + S16.size a ≤ S12800.size a
  inb_S200x128_S1x16_181_16 : ∀ a, (![181, 16] : Fin 2 → Nat) a + S1x16.size a ≤ S200x128.size a
  inb_S12800_S16_11616 : ∀ a, (![11616] : Fin 1 → Nat) a + S16.size a ≤ S12800.size a
  inb_S200x128_S1x16_181_32 : ∀ a, (![181, 32] : Fin 2 → Nat) a + S1x16.size a ≤ S200x128.size a
  inb_S12800_S16_11632 : ∀ a, (![11632] : Fin 1 → Nat) a + S16.size a ≤ S12800.size a
  inb_S200x128_S1x16_181_48 : ∀ a, (![181, 48] : Fin 2 → Nat) a + S1x16.size a ≤ S200x128.size a
  inb_S12800_S16_11648 : ∀ a, (![11648] : Fin 1 → Nat) a + S16.size a ≤ S12800.size a
  inb_S200x128_S1x16_182_0 : ∀ a, (![182, 0] : Fin 2 → Nat) a + S1x16.size a ≤ S200x128.size a
  inb_S12800_S16_11664 : ∀ a, (![11664] : Fin 1 → Nat) a + S16.size a ≤ S12800.size a
  inb_S200x128_S1x16_182_16 : ∀ a, (![182, 16] : Fin 2 → Nat) a + S1x16.size a ≤ S200x128.size a
  inb_S12800_S16_11680 : ∀ a, (![11680] : Fin 1 → Nat) a + S16.size a ≤ S12800.size a
  inb_S200x128_S1x16_182_32 : ∀ a, (![182, 32] : Fin 2 → Nat) a + S1x16.size a ≤ S200x128.size a
  inb_S12800_S16_11696 : ∀ a, (![11696] : Fin 1 → Nat) a + S16.size a ≤ S12800.size a
  inb_S200x128_S1x16_182_48 : ∀ a, (![182, 48] : Fin 2 → Nat) a + S1x16.size a ≤ S200x128.size a
  inb_S12800_S16_11712 : ∀ a, (![11712] : Fin 1 → Nat) a + S16.size a ≤ S12800.size a
  inb_S200x128_S1x16_183_0 : ∀ a, (![183, 0] : Fin 2 → Nat) a + S1x16.size a ≤ S200x128.size a
  inb_S12800_S16_11728 : ∀ a, (![11728] : Fin 1 → Nat) a + S16.size a ≤ S12800.size a
  inb_S200x128_S1x16_183_16 : ∀ a, (![183, 16] : Fin 2 → Nat) a + S1x16.size a ≤ S200x128.size a
  inb_S12800_S16_11744 : ∀ a, (![11744] : Fin 1 → Nat) a + S16.size a ≤ S12800.size a
  inb_S200x128_S1x16_183_32 : ∀ a, (![183, 32] : Fin 2 → Nat) a + S1x16.size a ≤ S200x128.size a
  inb_S12800_S16_11760 : ∀ a, (![11760] : Fin 1 → Nat) a + S16.size a ≤ S12800.size a
  inb_S200x128_S1x16_183_48 : ∀ a, (![183, 48] : Fin 2 → Nat) a + S1x16.size a ≤ S200x128.size a
  inb_S12800_S16_11776 : ∀ a, (![11776] : Fin 1 → Nat) a + S16.size a ≤ S12800.size a
  inb_S200x128_S1x16_184_0 : ∀ a, (![184, 0] : Fin 2 → Nat) a + S1x16.size a ≤ S200x128.size a
  inb_S12800_S16_11792 : ∀ a, (![11792] : Fin 1 → Nat) a + S16.size a ≤ S12800.size a
  inb_S200x128_S1x16_184_16 : ∀ a, (![184, 16] : Fin 2 → Nat) a + S1x16.size a ≤ S200x128.size a
  inb_S12800_S16_11808 : ∀ a, (![11808] : Fin 1 → Nat) a + S16.size a ≤ S12800.size a
  inb_S200x128_S1x16_184_32 : ∀ a, (![184, 32] : Fin 2 → Nat) a + S1x16.size a ≤ S200x128.size a
  inb_S12800_S16_11824 : ∀ a, (![11824] : Fin 1 → Nat) a + S16.size a ≤ S12800.size a
  inb_S200x128_S1x16_184_48 : ∀ a, (![184, 48] : Fin 2 → Nat) a + S1x16.size a ≤ S200x128.size a
  inb_S12800_S16_11840 : ∀ a, (![11840] : Fin 1 → Nat) a + S16.size a ≤ S12800.size a
  inb_S200x128_S1x16_185_0 : ∀ a, (![185, 0] : Fin 2 → Nat) a + S1x16.size a ≤ S200x128.size a
  inb_S12800_S16_11856 : ∀ a, (![11856] : Fin 1 → Nat) a + S16.size a ≤ S12800.size a
  inb_S200x128_S1x16_185_16 : ∀ a, (![185, 16] : Fin 2 → Nat) a + S1x16.size a ≤ S200x128.size a
  inb_S12800_S16_11872 : ∀ a, (![11872] : Fin 1 → Nat) a + S16.size a ≤ S12800.size a
  inb_S200x128_S1x16_185_32 : ∀ a, (![185, 32] : Fin 2 → Nat) a + S1x16.size a ≤ S200x128.size a
  inb_S12800_S16_11888 : ∀ a, (![11888] : Fin 1 → Nat) a + S16.size a ≤ S12800.size a
  inb_S200x128_S1x16_185_48 : ∀ a, (![185, 48] : Fin 2 → Nat) a + S1x16.size a ≤ S200x128.size a
  inb_S12800_S16_11904 : ∀ a, (![11904] : Fin 1 → Nat) a + S16.size a ≤ S12800.size a
  inb_S200x128_S1x16_186_0 : ∀ a, (![186, 0] : Fin 2 → Nat) a + S1x16.size a ≤ S200x128.size a
  inb_S12800_S16_11920 : ∀ a, (![11920] : Fin 1 → Nat) a + S16.size a ≤ S12800.size a
  inb_S200x128_S1x16_186_16 : ∀ a, (![186, 16] : Fin 2 → Nat) a + S1x16.size a ≤ S200x128.size a
  inb_S12800_S16_11936 : ∀ a, (![11936] : Fin 1 → Nat) a + S16.size a ≤ S12800.size a
  inb_S200x128_S1x16_186_32 : ∀ a, (![186, 32] : Fin 2 → Nat) a + S1x16.size a ≤ S200x128.size a
  inb_S12800_S16_11952 : ∀ a, (![11952] : Fin 1 → Nat) a + S16.size a ≤ S12800.size a
  inb_S200x128_S1x16_186_48 : ∀ a, (![186, 48] : Fin 2 → Nat) a + S1x16.size a ≤ S200x128.size a
  inb_S12800_S16_11968 : ∀ a, (![11968] : Fin 1 → Nat) a + S16.size a ≤ S12800.size a
  inb_S200x128_S1x16_187_0 : ∀ a, (![187, 0] : Fin 2 → Nat) a + S1x16.size a ≤ S200x128.size a
  inb_S12800_S16_11984 : ∀ a, (![11984] : Fin 1 → Nat) a + S16.size a ≤ S12800.size a
  inb_S200x128_S1x16_187_16 : ∀ a, (![187, 16] : Fin 2 → Nat) a + S1x16.size a ≤ S200x128.size a
  inb_S12800_S16_12000 : ∀ a, (![12000] : Fin 1 → Nat) a + S16.size a ≤ S12800.size a
  inb_S200x128_S1x16_187_32 : ∀ a, (![187, 32] : Fin 2 → Nat) a + S1x16.size a ≤ S200x128.size a
  inb_S12800_S16_12016 : ∀ a, (![12016] : Fin 1 → Nat) a + S16.size a ≤ S12800.size a
  inb_S200x128_S1x16_187_48 : ∀ a, (![187, 48] : Fin 2 → Nat) a + S1x16.size a ≤ S200x128.size a
  inb_S12800_S16_12032 : ∀ a, (![12032] : Fin 1 → Nat) a + S16.size a ≤ S12800.size a
  inb_S200x128_S1x16_188_0 : ∀ a, (![188, 0] : Fin 2 → Nat) a + S1x16.size a ≤ S200x128.size a
  inb_S12800_S16_12048 : ∀ a, (![12048] : Fin 1 → Nat) a + S16.size a ≤ S12800.size a
  inb_S200x128_S1x16_188_16 : ∀ a, (![188, 16] : Fin 2 → Nat) a + S1x16.size a ≤ S200x128.size a
  inb_S12800_S16_12064 : ∀ a, (![12064] : Fin 1 → Nat) a + S16.size a ≤ S12800.size a
  inb_S200x128_S1x16_188_32 : ∀ a, (![188, 32] : Fin 2 → Nat) a + S1x16.size a ≤ S200x128.size a
  inb_S12800_S16_12080 : ∀ a, (![12080] : Fin 1 → Nat) a + S16.size a ≤ S12800.size a
  inb_S200x128_S1x16_188_48 : ∀ a, (![188, 48] : Fin 2 → Nat) a + S1x16.size a ≤ S200x128.size a
  inb_S12800_S16_12096 : ∀ a, (![12096] : Fin 1 → Nat) a + S16.size a ≤ S12800.size a
  inb_S200x128_S1x16_189_0 : ∀ a, (![189, 0] : Fin 2 → Nat) a + S1x16.size a ≤ S200x128.size a
  inb_S12800_S16_12112 : ∀ a, (![12112] : Fin 1 → Nat) a + S16.size a ≤ S12800.size a
  inb_S200x128_S1x16_189_16 : ∀ a, (![189, 16] : Fin 2 → Nat) a + S1x16.size a ≤ S200x128.size a
  inb_S12800_S16_12128 : ∀ a, (![12128] : Fin 1 → Nat) a + S16.size a ≤ S12800.size a
  inb_S200x128_S1x16_189_32 : ∀ a, (![189, 32] : Fin 2 → Nat) a + S1x16.size a ≤ S200x128.size a
  inb_S12800_S16_12144 : ∀ a, (![12144] : Fin 1 → Nat) a + S16.size a ≤ S12800.size a
  inb_S200x128_S1x16_189_48 : ∀ a, (![189, 48] : Fin 2 → Nat) a + S1x16.size a ≤ S200x128.size a
  inb_S12800_S16_12160 : ∀ a, (![12160] : Fin 1 → Nat) a + S16.size a ≤ S12800.size a
  inb_S200x128_S1x16_190_0 : ∀ a, (![190, 0] : Fin 2 → Nat) a + S1x16.size a ≤ S200x128.size a
  inb_S12800_S16_12176 : ∀ a, (![12176] : Fin 1 → Nat) a + S16.size a ≤ S12800.size a
  inb_S200x128_S1x16_190_16 : ∀ a, (![190, 16] : Fin 2 → Nat) a + S1x16.size a ≤ S200x128.size a
  inb_S12800_S16_12192 : ∀ a, (![12192] : Fin 1 → Nat) a + S16.size a ≤ S12800.size a
  inb_S200x128_S1x16_190_32 : ∀ a, (![190, 32] : Fin 2 → Nat) a + S1x16.size a ≤ S200x128.size a
  inb_S12800_S16_12208 : ∀ a, (![12208] : Fin 1 → Nat) a + S16.size a ≤ S12800.size a
  inb_S200x128_S1x16_190_48 : ∀ a, (![190, 48] : Fin 2 → Nat) a + S1x16.size a ≤ S200x128.size a
  inb_S12800_S16_12224 : ∀ a, (![12224] : Fin 1 → Nat) a + S16.size a ≤ S12800.size a
  inb_S200x128_S1x16_191_0 : ∀ a, (![191, 0] : Fin 2 → Nat) a + S1x16.size a ≤ S200x128.size a
  inb_S12800_S16_12240 : ∀ a, (![12240] : Fin 1 → Nat) a + S16.size a ≤ S12800.size a
  inb_S200x128_S1x16_191_16 : ∀ a, (![191, 16] : Fin 2 → Nat) a + S1x16.size a ≤ S200x128.size a
  inb_S12800_S16_12256 : ∀ a, (![12256] : Fin 1 → Nat) a + S16.size a ≤ S12800.size a
  inb_S200x128_S1x16_191_32 : ∀ a, (![191, 32] : Fin 2 → Nat) a + S1x16.size a ≤ S200x128.size a
  inb_S12800_S16_12272 : ∀ a, (![12272] : Fin 1 → Nat) a + S16.size a ≤ S12800.size a
  inb_S200x128_S1x16_191_48 : ∀ a, (![191, 48] : Fin 2 → Nat) a + S1x16.size a ≤ S200x128.size a
  inb_S12800_S16_12288 : ∀ a, (![12288] : Fin 1 → Nat) a + S16.size a ≤ S12800.size a
  inb_S200x128_S1x16_192_0 : ∀ a, (![192, 0] : Fin 2 → Nat) a + S1x16.size a ≤ S200x128.size a
  inb_S12800_S16_12304 : ∀ a, (![12304] : Fin 1 → Nat) a + S16.size a ≤ S12800.size a
  inb_S200x128_S1x16_192_16 : ∀ a, (![192, 16] : Fin 2 → Nat) a + S1x16.size a ≤ S200x128.size a
  inb_S12800_S16_12320 : ∀ a, (![12320] : Fin 1 → Nat) a + S16.size a ≤ S12800.size a
  inb_S200x128_S1x16_192_32 : ∀ a, (![192, 32] : Fin 2 → Nat) a + S1x16.size a ≤ S200x128.size a
  inb_S12800_S16_12336 : ∀ a, (![12336] : Fin 1 → Nat) a + S16.size a ≤ S12800.size a
  inb_S200x128_S1x16_192_48 : ∀ a, (![192, 48] : Fin 2 → Nat) a + S1x16.size a ≤ S200x128.size a
  inb_S12800_S16_12352 : ∀ a, (![12352] : Fin 1 → Nat) a + S16.size a ≤ S12800.size a
  inb_S200x128_S1x16_193_0 : ∀ a, (![193, 0] : Fin 2 → Nat) a + S1x16.size a ≤ S200x128.size a
  inb_S12800_S16_12368 : ∀ a, (![12368] : Fin 1 → Nat) a + S16.size a ≤ S12800.size a
  inb_S200x128_S1x16_193_16 : ∀ a, (![193, 16] : Fin 2 → Nat) a + S1x16.size a ≤ S200x128.size a
  inb_S12800_S16_12384 : ∀ a, (![12384] : Fin 1 → Nat) a + S16.size a ≤ S12800.size a
  inb_S200x128_S1x16_193_32 : ∀ a, (![193, 32] : Fin 2 → Nat) a + S1x16.size a ≤ S200x128.size a
  inb_S12800_S16_12400 : ∀ a, (![12400] : Fin 1 → Nat) a + S16.size a ≤ S12800.size a
  inb_S200x128_S1x16_193_48 : ∀ a, (![193, 48] : Fin 2 → Nat) a + S1x16.size a ≤ S200x128.size a
  inb_S12800_S16_12416 : ∀ a, (![12416] : Fin 1 → Nat) a + S16.size a ≤ S12800.size a
  inb_S200x128_S1x16_194_0 : ∀ a, (![194, 0] : Fin 2 → Nat) a + S1x16.size a ≤ S200x128.size a
  inb_S12800_S16_12432 : ∀ a, (![12432] : Fin 1 → Nat) a + S16.size a ≤ S12800.size a
  inb_S200x128_S1x16_194_16 : ∀ a, (![194, 16] : Fin 2 → Nat) a + S1x16.size a ≤ S200x128.size a
  inb_S12800_S16_12448 : ∀ a, (![12448] : Fin 1 → Nat) a + S16.size a ≤ S12800.size a
  inb_S200x128_S1x16_194_32 : ∀ a, (![194, 32] : Fin 2 → Nat) a + S1x16.size a ≤ S200x128.size a
  inb_S12800_S16_12464 : ∀ a, (![12464] : Fin 1 → Nat) a + S16.size a ≤ S12800.size a
  inb_S200x128_S1x16_194_48 : ∀ a, (![194, 48] : Fin 2 → Nat) a + S1x16.size a ≤ S200x128.size a
  inb_S12800_S16_12480 : ∀ a, (![12480] : Fin 1 → Nat) a + S16.size a ≤ S12800.size a
  inb_S200x128_S1x16_195_0 : ∀ a, (![195, 0] : Fin 2 → Nat) a + S1x16.size a ≤ S200x128.size a
  inb_S12800_S16_12496 : ∀ a, (![12496] : Fin 1 → Nat) a + S16.size a ≤ S12800.size a
  inb_S200x128_S1x16_195_16 : ∀ a, (![195, 16] : Fin 2 → Nat) a + S1x16.size a ≤ S200x128.size a
  inb_S12800_S16_12512 : ∀ a, (![12512] : Fin 1 → Nat) a + S16.size a ≤ S12800.size a
  inb_S200x128_S1x16_195_32 : ∀ a, (![195, 32] : Fin 2 → Nat) a + S1x16.size a ≤ S200x128.size a
  inb_S12800_S16_12528 : ∀ a, (![12528] : Fin 1 → Nat) a + S16.size a ≤ S12800.size a
  inb_S200x128_S1x16_195_48 : ∀ a, (![195, 48] : Fin 2 → Nat) a + S1x16.size a ≤ S200x128.size a
  inb_S12800_S16_12544 : ∀ a, (![12544] : Fin 1 → Nat) a + S16.size a ≤ S12800.size a
  inb_S200x128_S1x16_196_0 : ∀ a, (![196, 0] : Fin 2 → Nat) a + S1x16.size a ≤ S200x128.size a
  inb_S12800_S16_12560 : ∀ a, (![12560] : Fin 1 → Nat) a + S16.size a ≤ S12800.size a
  inb_S200x128_S1x16_196_16 : ∀ a, (![196, 16] : Fin 2 → Nat) a + S1x16.size a ≤ S200x128.size a
  inb_S12800_S16_12576 : ∀ a, (![12576] : Fin 1 → Nat) a + S16.size a ≤ S12800.size a
  inb_S200x128_S1x16_196_32 : ∀ a, (![196, 32] : Fin 2 → Nat) a + S1x16.size a ≤ S200x128.size a
  inb_S12800_S16_12592 : ∀ a, (![12592] : Fin 1 → Nat) a + S16.size a ≤ S12800.size a
  inb_S200x128_S1x16_196_48 : ∀ a, (![196, 48] : Fin 2 → Nat) a + S1x16.size a ≤ S200x128.size a
  inb_S12800_S16_12608 : ∀ a, (![12608] : Fin 1 → Nat) a + S16.size a ≤ S12800.size a
  inb_S200x128_S1x16_197_0 : ∀ a, (![197, 0] : Fin 2 → Nat) a + S1x16.size a ≤ S200x128.size a
  inb_S12800_S16_12624 : ∀ a, (![12624] : Fin 1 → Nat) a + S16.size a ≤ S12800.size a
  inb_S200x128_S1x16_197_16 : ∀ a, (![197, 16] : Fin 2 → Nat) a + S1x16.size a ≤ S200x128.size a
  inb_S12800_S16_12640 : ∀ a, (![12640] : Fin 1 → Nat) a + S16.size a ≤ S12800.size a
  inb_S200x128_S1x16_197_32 : ∀ a, (![197, 32] : Fin 2 → Nat) a + S1x16.size a ≤ S200x128.size a
  inb_S12800_S16_12656 : ∀ a, (![12656] : Fin 1 → Nat) a + S16.size a ≤ S12800.size a
  inb_S200x128_S1x16_197_48 : ∀ a, (![197, 48] : Fin 2 → Nat) a + S1x16.size a ≤ S200x128.size a
  inb_S12800_S16_12672 : ∀ a, (![12672] : Fin 1 → Nat) a + S16.size a ≤ S12800.size a
  inb_S200x128_S1x16_198_0 : ∀ a, (![198, 0] : Fin 2 → Nat) a + S1x16.size a ≤ S200x128.size a
  inb_S12800_S16_12688 : ∀ a, (![12688] : Fin 1 → Nat) a + S16.size a ≤ S12800.size a
  inb_S200x128_S1x16_198_16 : ∀ a, (![198, 16] : Fin 2 → Nat) a + S1x16.size a ≤ S200x128.size a
  inb_S12800_S16_12704 : ∀ a, (![12704] : Fin 1 → Nat) a + S16.size a ≤ S12800.size a
  inb_S200x128_S1x16_198_32 : ∀ a, (![198, 32] : Fin 2 → Nat) a + S1x16.size a ≤ S200x128.size a
  inb_S12800_S16_12720 : ∀ a, (![12720] : Fin 1 → Nat) a + S16.size a ≤ S12800.size a
  inb_S200x128_S1x16_198_48 : ∀ a, (![198, 48] : Fin 2 → Nat) a + S1x16.size a ≤ S200x128.size a
  inb_S12800_S16_12736 : ∀ a, (![12736] : Fin 1 → Nat) a + S16.size a ≤ S12800.size a
  inb_S200x128_S1x16_199_0 : ∀ a, (![199, 0] : Fin 2 → Nat) a + S1x16.size a ≤ S200x128.size a
  inb_S12800_S16_12752 : ∀ a, (![12752] : Fin 1 → Nat) a + S16.size a ≤ S12800.size a
  inb_S200x128_S1x16_199_16 : ∀ a, (![199, 16] : Fin 2 → Nat) a + S1x16.size a ≤ S200x128.size a
  inb_S12800_S16_12768 : ∀ a, (![12768] : Fin 1 → Nat) a + S16.size a ≤ S12800.size a
  inb_S200x128_S1x16_199_32 : ∀ a, (![199, 32] : Fin 2 → Nat) a + S1x16.size a ≤ S200x128.size a
  inb_S12800_S16_12784 : ∀ a, (![12784] : Fin 1 → Nat) a + S16.size a ≤ S12800.size a
  inb_S200x128_S1x16_199_48 : ∀ a, (![199, 48] : Fin 2 → Nat) a + S1x16.size a ≤ S200x128.size a
  hcc0_scratch4 : 0 + S2.numel ≤ 6
  hcc0_scratch5 : 2 + S2.numel ≤ 6
  hcc0_scoped0 : 4 + S_.numel ≤ 6
  hcc0_scoped1 : 5 + S_.numel ≤ 6
  hscKind : ∀ q, scKind q ≠ .tc
  hscCore : ∀ q, scNCore q ≤ τ.nSC
  hscSub : ∀ q, scNSub q ≤ τ.nSub

class Facts₀ : Prop where
  k0 : K0.Facts₀
  shapes1 : Shapes1.Facts₀
  shapes2 : Shapes2.Facts₀
attribute [instance] Facts₀.k0 Facts₀.shapes1 Facts₀.shapes2

variable [Facts₀]

abbrev cc0_scratch4 : DmaSems sig S2 := SemArray.consecutive 0 S2 hcc0_scratch4
abbrev cc0_scratch5 : DmaSems sig S2 := SemArray.consecutive 2 S2 hcc0_scratch5
abbrev cc0_scoped0 : DmaSems sig S_ := SemArray.consecutive 4 S_ hcc0_scoped0
abbrev cc0_scoped1 : DmaSems sig S_ := SemArray.consecutive 5 S_ hcc0_scoped1

class Facts : Prop extends Facts₀ where

variable [Facts]
-- ==== ReferenceIdeal.lean ====
abbrev S4096x200x64 : Shape := ⟨3, ![4096, 200, 64]⟩
abbrev S202x64 : Shape := ⟨2, ![202, 64]⟩
abbrev S200x64 : Shape := ⟨2, ![200, 64]⟩
abbrev S1x200x64 : Shape := ⟨3, ![1, 200, 64]⟩
abbrev S4096x200x128 : Shape := ⟨3, ![4096, 200, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x200x64, .f32⟩
  | .hbm, ⟨1, _⟩ => ⟨S202x64, .f32⟩
  | .hbm, ⟨2, _⟩ => ⟨S200x64, .f32⟩
  | .hbm, ⟨3, _⟩ => ⟨S1x200x64, .f32⟩
  | .hbm, ⟨4, _⟩ => ⟨S4096x200x64, .f32⟩
  | .hbm, ⟨5, _⟩ => ⟨S4096x200x128, .f32⟩
  | _, _ => ⟨S4096x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  slices_S202x64_S200x64_0_0 : S202x64.Slices ![0, 0] S200x64
  bcast_S200x64_S1x200x64_1_2 : S200x64.BroadcastsInDim S1x200x64 (![1, 2] : Fin 2 → Fin S1x200x64.rank)
  bcast_S1x200x64_S4096x200x64_0_1_2 : S1x200x64.BroadcastsInDim S4096x200x64 (![0, 1, 2] : Fin 3 → Fin S4096x200x64.rank)
  concatenates_S4096x200x64_S4096x200x64_S4096x200x128_d2 : Shape.Concatenates [S4096x200x64, S4096x200x64] S4096x200x128 2

variable [Facts₀]

class Facts : Prop extends Facts₀ where

variable [Facts]
-- ==== Proof.Common.lean ====
/-
  The idealized kernel as the SparseCore launch theorem reads it, and the vocabulary of its proof.

  The kernel runs on the 2 × 16 vector subcores of the device.  Subcore (c, s) owns the 128 consecutive
  batch rows starting at row 256·s + 128·c.  It first copies the 200 × 128 template (zeros on the left
  64 columns, the first 200 rows of the position table on the right 64) into both of its output buffers;
  then, for each of its batch rows in turn, alternating between two pairs of buffers, it waits for the row
  of `x` (12800 numbers, prefetched two rows ahead), overwrites the left 64 columns of the output buffer
  with it (row l of the buffer receives numbers 64·l … 64·l + 63), and copies the buffer out to that batch
  row of the result.  So entry (b, l, j) of the result is x(b, 64·l + j) for j < 64 and the template's
  (l, j) otherwise.
-/
import proofs.«204673_g16922171147058_cont_7to1_1063_26_alg».proof.Defs
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.Writes
import proofs.«204673_g16922171147058_cont_7to1_1063_26_alg».proof.Proof.Gen.KernelIdeal
import proofs.«204673_g16922171147058_cont_7to1_1063_26_alg».proof.Proof.Gen.KernelIdeal.Skeleton

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds beside the local copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flattened `x` (4096 rows of 12800), the template (200 × 128) and the result (4096 × 200 × 128), as
    locations of device `d`. -/
abbrev xLoc (d : Dev nD) : Loc nD τ sig := (SparseCore.T d).loc main_v3
abbrev tLoc (d : Dev nD) : Loc nD τ sig := (SparseCore.T d).loc main_v2
abbrev oLoc (d : Dev nD) : Loc nD τ sig := (SparseCore.T d).loc main_v4

end Cert.Proof.KernelIdealP

end
-- ==== Proof.Spec.lean ====
/-
  The result of the kernel as one function of its two operands.

  The kernel's operands are the flattened `x` (4096 rows of 12800 numbers: row b holds x(b, l, j) at position
  64·l + j) and the 200 × 128 template.  The result's entry (b, l, j) is the flattened x's (b, 64·l + j) on the
  left 64 columns and the template's (l, j) on the right 64.
-/
import Idealize.ShloMosaic.Lib.ValueIdx

noncomputable section

namespace Cert.Proof.Spec

open Idealize.ShloMosaic

/-- Entry (b, l, j) of the result: x(b, 64·l + j) for j < 64, the template's (l, j) for j ≥ 64. -/
def Gout {α : Type} (X : (⟨2, ![4096, 12800]⟩ : Shape).Idx → α) (Tm : (⟨2, ![200, 128]⟩ : Shape).Idx → α) :
    (⟨3, ![4096, 200, 128]⟩ : Shape).Idx → α :=
  fun i =>
    if (i 2).val < 64 then
      X (ValueIdx.ix2 (i 0) (⟨64 * (i 1).val + (i 2).val % 64, by have h200 : (i 1).val < 200 := (i 1).isLt; have := Nat.mod_lt (i 2).val (show 0 < 64 by decide); omega⟩ : Fin 12800))
    else Tm (ValueIdx.ix2 (i 1) (i 2))

end Cert.Proof.Spec

end
-- ==== Proof.TileSpec.lean ====
/-
  What one vector subcore's task does, as a statement: handed its own 128 rows of the flattened `x`, a read
  share of the template and its own 128 batch rows of the result, it gives them back and leaves in
  each of its result rows b the 200 × 128 matrix whose entry (l, j) is x(b, 64·l + j) for j < 64 and the
  template's (l, j) for j ≥ 64.
-/
import proofs.«204673_g16922171147058_cont_7to1_1063_26_alg».proof.Proof.Common
import proofs.«204673_g16922171147058_cont_7to1_1063_26_alg».proof.Proof.Spec

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v3_scv : Memref Cert.KernelIdeal.sig Kind.scVector Space.hbm Cert.KernelIdeal.S4096x12800 EltTy.f32)
local notation "tV" => (Memref.whole Cert.KernelIdeal.main_v2_scv : Memref Cert.KernelIdeal.sig Kind.scVector Space.hbm Cert.KernelIdeal.S200x128 EltTy.f32)
local notation "oV" => (Memref.whole Cert.KernelIdeal.main_v4_scv : Memref Cert.KernelIdeal.sig Kind.scVector Space.hbm Cert.KernelIdeal.S4096x200x128 EltTy.f32)
local notation "xb0" => (Memref.whole Cert.KernelIdeal.cc0_scratch0 : Memref Cert.KernelIdeal.sig Kind.scVector Space.vmem Cert.KernelIdeal.S12800 EltTy.f32)
local notation "xb1" => (Memref.whole Cert.KernelIdeal.cc0_scratch1 : Memref Cert.KernelIdeal.sig Kind.scVector Space.vmem Cert.KernelIdeal.S12800 EltTy.f32)
local notation "ob0" => (Memref.whole Cert.KernelIdeal.cc0_scratch2 : Memref Cert.KernelIdeal.sig Kind.scVector Space.vmem Cert.KernelIdeal.S200x128 EltTy.f32)
local notation "ob1" => (Memref.whole Cert.KernelIdeal.cc0_scratch3 : Memref Cert.KernelIdeal.sig Kind.scVector Space.vmem Cert.KernelIdeal.S200x128 EltTy.f32)

/-- The vector subcore a grid point names. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The first batch row of the subcore at grid point `L`: subcore s of SparseCore c starts at row 256·s + 128·c. -/
def baseRow (L : grid0.Coords) : ℕ := 256 * (L 1).val + 128 * (L 0).val

/-- The entries of the result that lie in batch row `r`. -/
def rowAt (r : ℕ) : Finset S4096x200x128.Idx := Finset.univ.filter fun i => (i 0).val = r

/-- The entries of the result in the 128 batch rows of the subcore at `L`. -/
def blockSet (L : grid0.Coords) : Finset S4096x200x128.Idx :=
  Finset.univ.filter fun i => baseRow L ≤ (i 0).val ∧ (i 0).val < baseRow L + 128

/-- The entries of the flattened `x` in the 128 batch rows of the subcore at `L`. -/
def xBlockSet (L : grid0.Coords) : Finset S4096x12800.Idx :=
  Finset.univ.filter fun i => baseRow L ≤ (i 0).val ∧ (i 0).val < baseRow L + 128

/-- The entries of the flattened `x` that lie in batch row `r`. -/
def xRowAt (r : ℕ) : Finset S4096x12800.Idx := Finset.univ.filter fun i => (i 0).val = r

/-- What the subcore at `L` is handed: its 128 rows of the flattened `x`, a read share of the template, and its block
    of the result at the launch contents `f0`. -/
def tileGo (d : Dev nD) (L : grid0.Coords) (X : Buf (Elt F) (xLoc d)) (Tm : Buf (Elt F) (tLoc d)) (f0 : Buf (Elt F) (oLoc d))
    (qt : PosShare TreeShare) : sProp 𝕄 :=
  iprop((xLoc d ↦[xBlockSet L]{fullShare} X) ∗ (tLoc d ↦{qt} Tm) ∗ (oLoc d ↦[blockSet L]{fullShare} f0))

/-- What it gives back: its rows of `x`, the share, and its block of the result at `Spec.Gout`. -/
def tileTd (d : Dev nD) (L : grid0.Coords) (X : Buf (Elt F) (xLoc d)) (Tm : Buf (Elt F) (tLoc d))
    (qt : PosShare TreeShare) : sProp 𝕄 :=
  iprop((xLoc d ↦[xBlockSet L]{fullShare} X) ∗ (tLoc d ↦{qt} Tm) ∗ (oLoc d ↦[blockSet L]{fullShare} (Spec.Gout X Tm : Buf (Elt F) (oLoc d))))

variable [FloatOps F]

/-- The kernel's function at grid point `L`, on the whole arrays and the subcore's own scratch: the term the body
    table passes. -/
abbrev tileProg (L : grid0.Coords) :=
  cc0_run (F := F) L xV (Memref.isWhole_whole _) tV (Memref.isWhole_whole _) oV (Memref.isWhole_whole _)
    xb0 (Memref.isWhole_whole _) xb1 (Memref.isWhole_whole _) ob0 (Memref.isWhole_whole _) ob1 (Memref.isWhole_whole _)
    cc0_scratch4 cc0_scratch5 cc0_scoped0 cc0_scoped1

/-- The task's obligation, at every subcore of the grid. -/
def TileBody : Prop :=
  ∀ (d : Dev nD) (L : grid0.Coords) (O : CellTallies nD τ sig (HIx 1)) (W : Waits sig (HIx 1)), (∀ g, O g none = 0) →
    ∀ (X : Buf (Elt F) (xLoc d)) (Tm : Buf (Elt F) (tLoc d)) (f0 : Buf (Elt F) (oLoc d)) (qt : PosShare TreeShare),
    iprop(levAts (K (F := F)).L (K (F := F)).lev ∗ emp ∗ tileGo d L X Tm f0 qt
        ∗ scopedBufs (thr d L) ∗ scopedSems0 (thr d L) ∗ owes (thr d L) O W)
      ⊢ wp frame (wpE (defs₀ (F := F)) 𝒱₀ (thr d L) none) Set.univ (tileProg (F := F) L)
          fun _ => iprop(tileTd d L X Tm qt ∗ scopedBufs (thr d L) ∗ scopedSems0 (thr d L)
            ∗ ∃ W', ⌜∀ p ∈ W', p ∈ W ∨ p.2 = none⌝ ∗ owes (thr d L) O W')

end Cert.Proof.KernelIdealP

end
-- ==== Proof.HostVals.lean ====
/-
  The two operands of the kernel as @main computes them from its arguments: the flattened `x` is the reshape of
  the first argument, the template is the zero matrix joined (along the columns) with the first 200 rows of the
  position table.
-/
import proofs.«204673_g16922171147058_cont_7to1_1063_26_alg».proof.KernelIdeal
import proofs.«204673_g16922171147058_cont_7to1_1063_26_alg».proof.Proof.Gen.KernelIdeal

noncomputable section

namespace Cert.Proof.KernelIdealP

open Cert.KernelIdeal Idealize.ShloMosaic
open Cert.KernelIdeal.Facts Cert.KernelIdeal.Shapes2.Facts₀ Cert.KernelIdeal.Shapes1.Facts₀

variable {F : FTy → Type} [FloatOps F]

/-- The flattened `x`: the first argument's numbers in row-major order at shape 4096 × 12800. -/
def Xof (x0 : (⟨S4096x200x64, .f32⟩ : BufTy).Contents (Elt F)) : (⟨S4096x12800, .f32⟩ : BufTy).Contents (Elt F) :=
  shapeCast S4096x12800 x0 shapeCasts_S4096x200x64_S4096x12800

/-- The template: 200 × 64 zeros on the left, rows 0 … 199 of the position table on the right. -/
def Tof (x1 : (⟨S202x64, .f32⟩ : BufTy).Contents (Elt F)) : (⟨S200x128, .f32⟩ : BufTy).Contents (Elt F) :=
  concatenate S200x128 1
    [⟨S200x64, broadcastInDim S200x64 ![] bcast_S_S200x64 (constant (F := F) S_ .f32 0x00000000#32)⟩,
     ⟨S200x64, extractStridedSlice S200x64 ![0, 0] x1 slices_S202x64_S200x64_0_0⟩]
    concatenates_S200x64_S200x64_S200x128_d1

end Cert.Proof.KernelIdealP

end
-- ==== Proof.Launch.lean ====
/-
  From "every vector subcore's task is proved" to the run of the whole program.

  The TensorCore computes the two operands (the flattened `x` and the template), hands each of the 2 × 16 vector
  subcores its own 128 batch rows of the flattened `x`, a read share of the template and its own 128 batch rows of
  the result, and takes them back with every batch row of the result at `Spec.Gout`.  Batch row b belongs to
  subcore s = b / 256 of SparseCore c = (b % 256) / 128: the 32 blocks of rows are pairwise disjoint and cover all
  4096 rows.  The template is read by all of them at once: its full share is cut into one token per SparseCore and
  each of those into one token per subcore; the remainders stay with the TensorCore during the call.
-/
import proofs.«204673_g16922171147058_cont_7to1_1063_26_alg».proof.Proof.TileSpec
import proofs.«204673_g16922171147058_cont_7to1_1063_26_alg».proof.Proof.HostVals
import Idealize.ShloMosaic.Lib.Transfers

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq seq after)
open Idealize.ShloMosaic.Transfers (shareDrop shareTokN shareTok pointsTo_toks)
open Idealize.ShloMosaic.Tactic

variable {F : FTy → Type}

local notation "𝕄" => MT nD τ sig (HIx 1) (Elt F) ℕ UU ℕ

/-! ## The grid points, the read shares, the payloads -/

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The grid point of task `i` of SparseCore `c` of the call. -/
abbrev gp (c : Fin ((K (F := F)).nCore 0)) (i : Fin ((K (F := F)).nSub 0)) : grid0.Coords :=
  coordsV ⟨((K (F := F)).core 0 c).val, c.isLt⟩ ⟨((K (F := F)).sub 0 i).val, i.isLt⟩

/-- The read share of the template for SparseCore `c`, and of it the one for its subcore `i`. -/
abbrev qc (c : ℕ) : PosShare TreeShare := shareTokN fullShare c
abbrev qt (c i : ℕ) : PosShare TreeShare := shareTokN (qc c) i

variable (m : (ℓ : Loc nD τ sig) → Buf (Elt F) ℓ) (ρ : Dev nD → PrngReg)

/-- The two arguments and the result of @main, as locations of device `d`. -/
abbrev a0Loc (d : Dev nD) : Loc nD τ sig := (SparseCore.T d).loc main_arg0
abbrev a1Loc (d : Dev nD) : Loc nD τ sig := (SparseCore.T d).loc main_arg1

variable [FloatOps F]

/-- The operands of the call on device `d`: the flattened `x` and the template, as @main computes them. -/
abbrev XX (d : Dev nD) : Buf (Elt F) (xLoc d) := (Xof (m (a0Loc d)) : Buf (Elt F) (xLoc d))
abbrev TT (d : Dev nD) : Buf (Elt F) (tLoc d) := (Tof (m (a1Loc d)) : Buf (Elt F) (tLoc d))
/-- The result. -/
abbrev GG (d : Dev nD) : Buf (Elt F) (oLoc d) := (Spec.Gout (XX m d) (TT m d) : Buf (Elt F) (oLoc d))

/-- What task `(c, i)` is handed, and what it hands back. -/
abbrev goA (d : Dev nD) (c : Fin ((K (F := F)).nCore 0)) (i : Fin ((K (F := F)).nSub 0)) : sProp 𝕄 :=
  tileGo d (gp c i) (XX m d) (TT m d) (m (oLoc d)) (qt c.val i.val)
abbrev tdA (d : Dev nD) (c : Fin ((K (F := F)).nCore 0)) (i : Fin ((K (F := F)).nSub 0)) : sProp 𝕄 :=
  tileTd d (gp c i) (XX m d) (TT m d) (qt c.val i.val)

/-- The call hands each SparseCore its sixteen tasks' operands and takes their results back. -/
def P : (K (F := F)).Pay (nD := nD) (Val := Elt F) (Name := ℕ) (U := UU) where
  st := fun q d c => match q with | 0 => bigSep Finset.univ fun i : Fin ((K (F := F)).nSub 0) => goA m d c i
  dn := fun q d c => match q with | 0 => bigSep Finset.univ fun i : Fin ((K (F := F)).nSub 0) => tdA m d c i
  go := fun q d c i => match q with | 0 => goA m d c i
  td := fun q d c i => match q with | 0 => tdA m d c i
  x := fun _ _ => iprop(emp)

omit [FloatOps F] in
instance tileGo_storable (d : Dev nD) (L : grid0.Coords) (X : Buf (Elt F) (xLoc d)) (Tm : Buf (Elt F) (tLoc d)) (f0 : Buf (Elt F) (oLoc d))
    (q : PosShare TreeShare) : BI.Storable (upEmb : UEmb _ 𝕄) (tileGo d L X Tm f0 q) := by
  unfold tileGo; infer_instance
omit [FloatOps F] in
instance tileTd_storable (d : Dev nD) (L : grid0.Coords) (X : Buf (Elt F) (xLoc d)) (Tm : Buf (Elt F) (tLoc d))
    (q : PosShare TreeShare) : BI.Storable (upEmb : UEmb _ 𝕄) (tileTd d L X Tm q) := by
  unfold tileTd; infer_instance

instance P_storable : (P (F := F) m).IsStorable where
  st q d c := match q with
    | 0 => (inferInstance : BI.Storable (upEmb : UEmb _ 𝕄) (bigSep Finset.univ fun i : Fin ((K (F := F)).nSub 0) => goA m d c i))
  dn q d c := match q with
    | 0 => (inferInstance : BI.Storable (upEmb : UEmb _ 𝕄) (bigSep Finset.univ fun i : Fin ((K (F := F)).nSub 0) => tdA m d c i))
  go q d c i := match q with
    | 0 => (inferInstance : BI.Storable (upEmb : UEmb _ 𝕄) (goA m d c i))
  td q d c i := match q with
    | 0 => (inferInstance : BI.Storable (upEmb : UEmb _ 𝕄) (tdA m d c i))

/-! ## The launch theorem's obligations -/

theorem defs₀_vector (c : Fin τ.nSC) (s : Fin τ.nSub) :
    defs₀ (F := F) (.scVector c s) 0 ()
      = SparseCore.onTile hcore0 hsub0 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileBody (F := F)) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO (XX m d) (TT m d) (m (oLoc d)) (qt c.val i.val)).trans (wp_mono frame _ _ fun _ => obl_post)

theorem vecSplit : (K (F := F)).VecSplit' (P m) 0 := by
  intro d c
  show (bigSep Finset.univ fun i : Fin ((K (F := F)).nSub 0) => goA m d c i) ⊢ |={Set.univ}=> iprop(
      (bigSep Finset.univ fun i : Fin ((K (F := F)).nSub 0) => goA m d c i)
      ∗ ((bigSep Finset.univ fun i : Fin ((K (F := F)).nSub 0) => tdA m d c i)
          -∗ (bigSep Finset.univ fun i : Fin ((K (F := F)).nSub 0) => tdA m d c i)))
  iintro H; imodintro
  isplitl [H]; · iexact H
  iintro H; iexact H

/-! ## The launch element: the handshakes' rounds; the kernel's own transfers need no schedule -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The 32 blocks of batch rows -/

omit [FloatOps F] in
theorem baseRow_gp (c : Fin ((K (F := F)).nCore 0)) (i : Fin ((K (F := F)).nSub 0)) :
    baseRow (gp (F := F) c i) = 256 * i.val + 128 * c.val := rfl

/-- Two different subcores' blocks of rows share no row. -/
theorem rows_apart {c i c' i' b : ℕ} (hc : c < 2) (hc' : c' < 2) (hne : c ≠ c' ∨ i ≠ i')
    (h : 256 * i + 128 * c ≤ b ∧ b < 256 * i + 128 * c + 128) (h' : 256 * i' + 128 * c' ≤ b ∧ b < 256 * i' + 128 * c' + 128) : False := by
  omega

/-- Row b lies in the block of subcore b / 256 of SparseCore (b % 256) / 128. -/
theorem row_owner {b : ℕ} (hb : b < 4096) :
    (256 * (b / 256) + 128 * (b % 256 / 128) ≤ b ∧ b < 256 * (b / 256) + 128 * (b % 256 / 128) + 128) ∧ b % 256 / 128 < 2 ∧ b / 256 < 16 := by
  omega

omit [FloatOps F] in
theorem tasks_ne {t t' : Fin ((K (F := F)).nCore 0) × Fin ((K (F := F)).nSub 0)} (hne : t ≠ t') :
    t.1.val ≠ t'.1.val ∨ t.2.val ≠ t'.2.val := by
  by_contra h
  rcases not_or.mp h with ⟨h1, h2⟩
  exact hne (Prod.ext (Fin.ext (not_not.mp h1)) (Fin.ext (not_not.mp h2)))

omit [FloatOps F] in
theorem blocks_disjoint :
    ∀ t ∈ (Finset.univ : Finset (Fin ((K (F := F)).nCore 0) × Fin ((K (F := F)).nSub 0))),
    ∀ t' ∈ (Finset.univ : Finset (Fin ((K (F := F)).nCore 0) × Fin ((K (F := F)).nSub 0))), t ≠ t' →
      Disjoint (blockSet (gp (F := F) t.1 t.2)) (blockSet (gp (F := F) t'.1 t'.2)) := by
  intro t _ t' _ hne
  refine Finset.disjoint_left.mpr fun x hx hx' => ?_
  exact rows_apart (show t.1.val < 2 from t.1.isLt) (show t'.1.val < 2 from t'.1.isLt) (tasks_ne hne)
    (Finset.mem_filter.mp hx).2 (Finset.mem_filter.mp hx').2

omit [FloatOps F] in
theorem xblocks_disjoint :
    ∀ t ∈ (Finset.univ : Finset (Fin ((K (F := F)).nCore 0) × Fin ((K (F := F)).nSub 0))),
    ∀ t' ∈ (Finset.univ : Finset (Fin ((K (F := F)).nCore 0) × Fin ((K (F := F)).nSub 0))), t ≠ t' →
      Disjoint (xBlockSet (gp (F := F) t.1 t.2)) (xBlockSet (gp (F := F) t'.1 t'.2)) := by
  intro t _ t' _ hne
  refine Finset.disjoint_left.mpr fun x hx hx' => ?_
  exact rows_apart (show t.1.val < 2 from t.1.isLt) (show t'.1.val < 2 from t'.1.isLt) (tasks_ne hne)
    (Finset.mem_filter.mp hx).2 (Finset.mem_filter.mp hx').2

omit [FloatOps F] in
theorem blocks_cover :
    (Finset.univ : Finset (Fin ((K (F := F)).nCore 0) × Fin ((K (F := F)).nSub 0))).biUnion (fun t => blockSet (gp (F := F) t.1 t.2)) = Finset.univ := by
  refine Finset.eq_univ_iff_forall.mpr fun x => Finset.mem_biUnion.mpr ?_
  obtain ⟨h1, h3, h4⟩ := row_owner (show (x 0).val < 4096 from (x 0).isLt)
  refine ⟨(⟨_, h3⟩, ⟨_, h4⟩), Finset.mem_univ _, ?_⟩
  exact Finset.mem_filter.mpr ⟨Finset.mem_univ _, h1⟩

omit [FloatOps F] in
theorem xblocks_cover :
    (Finset.univ : Finset (Fin ((K (F := F)).nCore 0) × Fin ((K (F := F)).nSub 0))).biUnion (fun t => xBlockSet (gp (F := F) t.1 t.2)) = Finset.univ := by
  refine Finset.eq_univ_iff_forall.mpr fun x => Finset.mem_biUnion.mpr ?_
  obtain ⟨h1, h3, h4⟩ := row_owner (show (x 0).val < 4096 from (x 0).isLt)
  refine ⟨(⟨_, h3⟩, ⟨_, h4⟩), Finset.mem_univ _, ?_⟩
  exact Finset.mem_filter.mpr ⟨Finset.mem_univ _, h1⟩

omit [FloatOps F] in
/-- The flattened `x` whole is its 32 blocks of rows. -/
theorem xPts_blocks (d : Dev nD) (f : Buf (Elt F) (xLoc d)) :
    (xLoc d ↦{fullShare} f : sProp 𝕄)
      = bigSep Finset.univ fun c : Fin ((K (F := F)).nCore 0) => bigSep Finset.univ fun i : Fin ((K (F := F)).nSub 0) =>
          xLoc d ↦[xBlockSet (gp (F := F) c i)]{fullShare} f := by
  rw [← BI.bigSep_univ_prod (fun t : Fin ((K (F := F)).nCore 0) × Fin ((K (F := F)).nSub 0) => (xLoc d ↦[xBlockSet (gp (F := F) t.1 t.2)]{fullShare} f : sProp 𝕄)),
    ← pointsTo_biUnion Finset.univ (ℓ := xLoc d) (fun t : Fin ((K (F := F)).nCore 0) × Fin ((K (F := F)).nSub 0) => xBlockSet (gp (F := F) t.1 t.2)) xblocks_disjoint,
    xblocks_cover]

omit [FloatOps F] in
/-- The result whole is its 32 blocks of rows. -/
theorem oPts_blocks (d : Dev nD) (f : Buf (Elt F) (oLoc d)) :
    (oLoc d ↦{fullShare} f : sProp 𝕄)
      = bigSep Finset.univ fun c : Fin ((K (F := F)).nCore 0) => bigSep Finset.univ fun i : Fin ((K (F := F)).nSub 0) =>
          oLoc d ↦[blockSet (gp (F := F) c i)]{fullShare} f := by
  rw [← BI.bigSep_univ_prod (fun t : Fin ((K (F := F)).nCore 0) × Fin ((K (F := F)).nSub 0) => (oLoc d ↦[blockSet (gp (F := F) t.1 t.2)]{fullShare} f : sProp 𝕄)),
    ← pointsTo_biUnion Finset.univ (ℓ := oLoc d) (fun t : Fin ((K (F := F)).nCore 0) × Fin ((K (F := F)).nSub 0) => blockSet (gp (F := F) t.1 t.2)) blocks_disjoint,
    blocks_cover]

/-! ## The template's read shares -/

omit [FloatOps F] in
/-- The template whole is: what the TensorCore keeps (the remainder of the full share after one token per SparseCore,
    and of each of those after one token per subcore), and one token per subcore. -/
theorem tPts_shares (d : Dev nD) (f : Buf (Elt F) (tLoc d)) :
    (tLoc d ↦{fullShare} f : sProp 𝕄)
      = iprop((tLoc d ↦{shareDrop fullShare ((K (F := F)).nCore 0)} f)
          ∗ (bigSep Finset.univ fun c : Fin ((K (F := F)).nCore 0) => tLoc d ↦{shareDrop (qc c.val) ((K (F := F)).nSub 0)} f)
          ∗ bigSep Finset.univ fun c : Fin ((K (F := F)).nCore 0) => bigSep Finset.univ fun i : Fin ((K (F := F)).nSub 0) =>
              tLoc d ↦{qt c.val i.val} f) := by
  have h1 : (tLoc d ↦{fullShare} f : sProp 𝕄)
      = iprop((tLoc d ↦{shareDrop fullShare ((K (F := F)).nCore 0)} f)
          ∗ bigSep Finset.univ fun c : Fin ((K (F := F)).nCore 0) => tLoc d ↦{qc c.val} f) :=
    BI.equiv_iff.mp ⟨(pointsTo_toks fullShare ((K (F := F)).nCore 0)).1, (pointsTo_toks fullShare ((K (F := F)).nCore 0)).2⟩
  have h2 : ∀ c : Fin ((K (F := F)).nCore 0), (tLoc d ↦{qc c.val} f : sProp 𝕄)
      = iprop((tLoc d ↦{shareDrop (qc c.val) ((K (F := F)).nSub 0)} f)
          ∗ bigSep Finset.univ fun i : Fin ((K (F := F)).nSub 0) => tLoc d ↦{qt c.val i.val} f) := fun c =>
    BI.equiv_iff.mp ⟨(pointsTo_toks (qc c.val) ((K (F := F)).nSub 0)).1, (pointsTo_toks (qc c.val) ((K (F := F)).nSub 0)).2⟩
  rw [h1, bigSep_congr fun c _ => h2 c, bigSep_sep']

/-! ## @main's five operations before the call -/

section Host

abbrev opSlice : HloOp τ sig (Elt F) :=
  StableHlo.unary main_arg1 main_v0 ((extractStridedSlice S200x64 ![0, 0] · Shapes1.Facts₀.slices_S202x64_S200x64_0_0) : (⟨S202x64, .f32⟩ : BufTy).Contents (Elt F) → (⟨S200x64, .f32⟩ : BufTy).Contents (Elt F))
abbrev opZero : HloOp τ sig (Elt F) := StableHlo.nullary main_cst (constant S_ .f32 0x00000000#32)
abbrev opBcast : HloOp τ sig (Elt F) :=
  StableHlo.unary main_cst main_v1 (broadcastInDim S200x64 ![] Shapes1.Facts₀.bcast_S_S200x64 : (⟨S_, .f32⟩ : BufTy).Contents (Elt F) → (⟨S200x64, .f32⟩ : BufTy).Contents (Elt F))
abbrev opConcat : HloOp τ sig (Elt F) :=
  StableHlo.binary main_v1 main_v0 main_v2 ((fun a b => concatenate S200x128 1 [⟨S200x64, a⟩, ⟨S200x64, b⟩] Shapes1.Facts₀.concatenates_S200x64_S200x64_S200x128_d1) : (⟨S200x64, .f32⟩ : BufTy).Contents (Elt F) → (⟨S200x64, .f32⟩ : BufTy).Contents (Elt F) → (⟨S200x128, .f32⟩ : BufTy).Contents (Elt F))
abbrev opReshape : HloOp τ sig (Elt F) := StableHlo.reshape main_arg0 main_v3 rfl Shapes1.Facts₀.shapeCasts_S4096x200x64_S4096x12800

/-- The operations of @main before the call, in order. -/
abbrev hostOps : List (HloOp τ sig (Elt F)) := [opSlice, opZero, opBcast, opConcat, opReshape]

theorem main_eq (d : Dev nD) :
    main (F := F) d = (seq (hostOps (F := F)) >>= fun _ => ((K (F := F)).run d 0 >>= fun _ => pure ⟨⟩)) := rfl

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev cst' : DevRef τ sig := Proc.devRef .tc (main_cst : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The TensorCore's arrays, all unscoped. -/
abbrev S8 : Finset (DevRef τ sig) := {a0', a1', v0', cst', v1', v2', v3', v4'}

omit [FloatOps F] in
theorem held_S8 (d : Dev nD) (W : Valuation τ sig (Elt F)) :
    (held (T d) S8 W : sProp 𝕄)
      = iprop((a0Loc d ↦{fullShare} W a0') ∗ (a1Loc d ↦{fullShare} W a1') ∗ ((SparseCore.T d).loc main_v0 ↦{fullShare} W v0')
          ∗ ((SparseCore.T d).loc main_cst ↦{fullShare} W cst') ∗ ((SparseCore.T d).loc main_v1 ↦{fullShare} W v1')
          ∗ (tLoc d ↦{fullShare} W v2') ∗ (xLoc d ↦{fullShare} W v3') ∗ (oLoc d ↦{fullShare} W v4')) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ ((SparseCore.T d).loc main_v0 ↦{fullShare} W main_v0)
          ∗ ((SparseCore.T d).loc main_cst ↦{fullShare} W main_cst) ∗ ((SparseCore.T d).loc main_v1 ↦{fullShare} W main_v1)
          ∗ (tLoc d ↦{fullShare} W main_v2) ∗ (xLoc d ↦{fullShare} W main_v3) ∗ (oLoc d ↦{fullShare} W main_v4)) := by
  unfold unscopedBufs
  rw [show (Finset.univ.filter fun b : Ref sig .tc => ¬ b.isScoped) = {main_arg0, main_arg1, main_v0, main_cst, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch contents of device `d`'s arrays. -/
def V0 (d : Dev nD) : Valuation τ sig (Elt F) := fun b => m (d, b)

theorem unscoped_held (d : Dev nD) : (unscopedBufs d (fun b => m ((SparseCore.T d).loc b)) : sProp 𝕄) = held (T d) S8 (V0 m d) := by
  rw [unscopedBufs_eq, held_S8]; rfl

theorem hostOps_sub : ∀ op ∈ hostOps (F := F), op.bufs ⊆ S8 := by
  intro op hop
  simp only [List.mem_cons, List.mem_nil_iff, or_false] at hop
  rcases hop with rfl | rfl | rfl | rfl | rfl
  · show ({a1', v0'} : Finset (DevRef τ sig)) ⊆ S8; decide
  · show ({cst'} : Finset (DevRef τ sig)) ⊆ S8; decide
  · show ({cst', v1'} : Finset (DevRef τ sig)) ⊆ S8; decide
  · show ({v1', v0', v2'} : Finset (DevRef τ sig)) ⊆ S8; decide
  · show ({a0', v3'} : Finset (DevRef τ sig)) ⊆ S8; decide

theorem hostOps_fresh : ∀ op ∈ hostOps (F := F), op.fresh = ∅ := by
  intro _ h; (repeat (cases h with | head => rfl | tail _ h => ?_)); exact nomatch h

/-- What the arrays hold when the call starts. -/
theorem after_a0 (d : Dev nD) : after (hostOps (F := F)) (V0 m d) a0' = m (a0Loc d) := by
  after_results; rfl
theorem after_a1 (d : Dev nD) : after (hostOps (F := F)) (V0 m d) a1' = m (a1Loc d) := by
  after_results; rfl
theorem after_v4 (d : Dev nD) : after (hostOps (F := F)) (V0 m d) v4' = m (oLoc d) := by
  after_results; rfl
theorem after_v3 (d : Dev nD) : after (hostOps (F := F)) (V0 m d) v3' = XX m d := by
  after_results; rfl
theorem after_v2 (d : Dev nD) : after (hostOps (F := F)) (V0 m d) v2' = TT m d := by
  after_results; rfl

end Host

/-! ## @main on the TensorCore -/

omit [FloatOps F] in
theorem bigSep2_sep3 (A B C : Fin ((K (F := F)).nCore 0) → Fin ((K (F := F)).nSub 0) → sProp 𝕄) :
    (bigSep Finset.univ fun c => bigSep Finset.univ fun i => iprop(A c i ∗ B c i ∗ C c i))
      = iprop((bigSep Finset.univ fun c => bigSep Finset.univ fun i => A c i) ∗ (bigSep Finset.univ fun c => bigSep Finset.univ fun i => B c i)
          ∗ (bigSep Finset.univ fun c => bigSep Finset.univ fun i => C c i)) := by
  simp only [bigSep_sep']

/-- What the call takes for the two SparseCores, and what it hands back. -/
theorem st_all (d : Dev nD) :
    (bigSep Finset.univ fun c : Fin ((K (F := F)).nCore 0) => (P m).st 0 d c)
      = iprop((bigSep Finset.univ fun c : Fin ((K (F := F)).nCore 0) => bigSep Finset.univ fun i : Fin ((K (F := F)).nSub 0) => xLoc d ↦[xBlockSet (gp (F := F) c i)]{fullShare} XX m d)
          ∗ (bigSep Finset.univ fun c : Fin ((K (F := F)).nCore 0) => bigSep Finset.univ fun i : Fin ((K (F := F)).nSub 0) => tLoc d ↦{qt c.val i.val} TT m d)
          ∗ (bigSep Finset.univ fun c : Fin ((K (F := F)).nCore 0) => bigSep Finset.univ fun i : Fin ((K (F := F)).nSub 0) => oLoc d ↦[blockSet (gp (F := F) c i)]{fullShare} m (oLoc d))) :=
  bigSep2_sep3 (fun c i => xLoc d ↦[xBlockSet (gp (F := F) c i)]{fullShare} XX m d) (fun c i => tLoc d ↦{qt c.val i.val} TT m d)
    (fun c i => oLoc d ↦[blockSet (gp (F := F) c i)]{fullShare} m (oLoc d))
theorem dn_all (d : Dev nD) :
    (bigSep Finset.univ fun c : Fin ((K (F := F)).nCore 0) => (P m).dn 0 d c)
      = iprop((bigSep Finset.univ fun c : Fin ((K (F := F)).nCore 0) => bigSep Finset.univ fun i : Fin ((K (F := F)).nSub 0) => xLoc d ↦[xBlockSet (gp (F := F) c i)]{fullShare} XX m d)
          ∗ (bigSep Finset.univ fun c : Fin ((K (F := F)).nCore 0) => bigSep Finset.univ fun i : Fin ((K (F := F)).nSub 0) => tLoc d ↦{qt c.val i.val} TT m d)
          ∗ (bigSep Finset.univ fun c : Fin ((K (F := F)).nCore 0) => bigSep Finset.univ fun i : Fin ((K (F := F)).nSub 0) => oLoc d ↦[blockSet (gp (F := F) c i)]{fullShare} GG m d)) :=
  bigSep2_sep3 (fun c i => xLoc d ↦[xBlockSet (gp (F := F) c i)]{fullShare} XX m d) (fun c i => tLoc d ↦{qt c.val i.val} TT m d)
    (fun c i => oLoc d ↦[blockSet (gp (F := F) c i)]{fullShare} GG m d)

/-- The arrays when the call starts: the arguments unchanged, the template and the flattened `x` computed, the result's
    array at its launch contents. -/
theorem held_after (d : Dev nD) :
    (held (T d) S8 (after (hostOps (F := F)) (V0 m d)) : sProp 𝕄)
      = iprop((a0Loc d ↦{fullShare} m (a0Loc d)) ∗ (a1Loc d ↦{fullShare} m (a1Loc d))
          ∗ ((SparseCore.T d).loc main_v0 ↦{fullShare} after (hostOps (F := F)) (V0 m d) v0')
          ∗ ((SparseCore.T d).loc main_cst ↦{fullShare} after (hostOps (F := F)) (V0 m d) cst')
          ∗ ((SparseCore.T d).loc main_v1 ↦{fullShare} after (hostOps (F := F)) (V0 m d) v1')
          ∗ (tLoc d ↦{fullShare} TT m d) ∗ (xLoc d ↦{fullShare} XX m d) ∗ (oLoc d ↦{fullShare} m (oLoc d))) := by
  rw [held_S8, after_a0, after_a1, after_v2, after_v3, after_v4]

/-- What @main leaves the claim: the arguments at their launch contents, the result at `Spec.Gout` of the operands. -/
abbrev FIN (d : Dev nD) : sProp 𝕄 :=
  iprop((a0Loc d ↦{fullShare} m (a0Loc d)) ∗ (a1Loc d ↦{fullShare} m (a1Loc d)) ∗ (oLoc d ↦{fullShare} GG m d))

/-- @main on device `d`'s TensorCore: the five operations, the call — every subcore handed its rows and its read share
    of the template, the remainders of the share kept —, the return. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (wp_seq 𝒱 none Set.univ d S8 (fun _ => ((K (F := F)).run d 0 >>= fun _ => pure ⟨⟩)) (hostOps (F := F)) hostOps_sub hostOps_fresh (V0 m d)) $$ [Hb Hheld]
  · isplitl [Hb]; · iexact Hb
    iexact Hheld
  iintro ⟨Hb, Hheld⟩
  ihave Hh := (Entails.of_eq (held_after m d)) $$ Hheld
  icases Hh with ⟨Ha0, Ha1, -, -, -, Hv2, Hv3, Hv4⟩
  ihave Hx := (Entails.of_eq (xPts_blocks (F := F) d _)) $$ Hv3
  ihave Ht := (Entails.of_eq (tPts_shares (F := F) d _)) $$ Hv2
  icases Ht with ⟨Htd, Htc, Htt⟩
  ihave Ho := (Entails.of_eq (oPts_blocks (F := F) d _)) $$ Hv4
  rw [wp_bind]
  iapply ((K (F := F)).wp_run (D (F := F)) 𝒱 (EH := EH) (P := P m) κ d 0) $$ [Hst Hx Htt Ho Ha0 Ha1 Htd Htc]
  isplitr; · iexact Hctx
  isplitl [Hst]; · iexact Hst
  isplitl [Hx Htt Ho]
  · rw [st_all]
    isplitl [Hx]; · iexact Hx
    isplitl [Htt]; · iexact Htt
    iexact Ho
  iintro ⟨Hst, Hdn⟩
  ihave Hdn' := (Entails.of_eq (dn_all m d)) $$ Hdn
  icases Hdn' with ⟨Hx, Htt, Ho⟩
  ihave Hv4 := (Entails.of_eq (oPts_blocks (F := F) d (GG m d)).symm) $$ Ho
  rw [wp_pure]; imodintro
  isplitl [Hst]; · iexact Hst
  isplitl [Ha0]; · iexact Ha0
  isplitl [Ha1]; · iexact Ha1
  iexact Hv4

def fq (d : Dev nD) (s' : Phys nD τ sig (Elt F)) : Prop :=
  s'.mem.mem (oLoc d) = GG m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Ha0, Ha1, Ho⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h2, HSI, -⟩
  ihave H := (SI_pointsTo_agree (st := s') (ℓ := oLoc d) (I := Finset.univ) (q := fullShare) (f := GG m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC (m : (ℓ : Loc nD τ sig) → Buf (Elt F) ℓ) : PUnit × MemSt nD τ sig (Elt F) → Prop := fun r => ∀ c : Dev nD,
    r.2.mem ((c.tc : Thread nD τ).loc main_v4) = (Spec.Gout (Xof (m ((c.tc : Thread nD τ).loc main_arg0))) (Tof (m ((c.tc : Thread nD τ).loc main_arg1))) : Buf (Elt F) ((c.tc : Thread nD τ).loc main_v4))
    ∧ r.2.mem ((c.tc : Thread nD τ).loc main_arg0) = m ((c.tc : Thread nD τ).loc main_arg0)
    ∧ r.2.mem ((c.tc : Thread nD τ).loc main_arg1) = m ((c.tc : Thread nD τ).loc main_arg1)

theorem run_main [∀ e, Nonempty (Elt F e)] (hbody : TileBody (F := F)) (m : (ℓ : Loc nD τ sig) → Buf (Elt F) ℓ) (ρ : Dev nD → PrngReg) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelIdealP

end
-- ==== Proof.RefValue.lean ====
/-
  The reference at the exact instance, read index by index, is the kernel's result function of the two arguments.

  The reference joins, along the last axis, the first argument x (4096 × 200 × 64) with the first 200 rows of the
  position table broadcast over the 4096 batches.  Entry (b, l, j) of the join is x(b, l, j) for j < 64 and
  table(l, j − 64) for j ≥ 64.  The kernel's operands are the flattened x, whose row b holds x(b, l, j) at position
  64·l + j (the two indices have the same row-major position, ((b·200 + l)·64 + j = b·12800 + (64·l + j))), and the
  200 × 128 template whose right 64 columns are those same 200 rows of the table; the template's left half (zeros)
  is never read, because the result takes the template only at j ≥ 64.  So both sides read the same element of the
  same argument at every index; no arithmetic on the numbers is involved.
-/
import proofs.«204673_g16922171147058_cont_7to1_1063_26_alg».proof.Defs
import proofs.«204673_g16922171147058_cont_7to1_1063_26_alg».proof.Proof.Gen.ReferenceIdeal
import proofs.«204673_g16922171147058_cont_7to1_1063_26_alg».proof.Proof.Gen.Pre_finite_inputs
import proofs.«204673_g16922171147058_cont_7to1_1063_26_alg».proof.Proof.Gen.ReferenceIdeal.Run
import proofs.«204673_g16922171147058_cont_7to1_1063_26_alg».proof.Proof.Gen.ReferenceIdeal.Read
import proofs.«204673_g16922171147058_cont_7to1_1063_26_alg».proof.Proof.Spec
import proofs.«204673_g16922171147058_cont_7to1_1063_26_alg».proof.Proof.HostVals
import Idealize.ShloMosaic.Lib.Pipeline.Value
import Idealize.ShloMosaic.Lib.ValueIdx

noncomputable section

namespace Cert.Proof.RefValue

open Idealize.ShloMosaic Idealize.SL.Sem Idealize.ShloMosaic.ValueIdx

/-- Entry (b, l, j) of the left operand of the reference's join, at the coordinates of a result index whose last
    coordinate is below 64. -/
abbrev kL (i : Cert.ReferenceIdeal.S4096x200x128.Idx) (hj : (i 2).val < 64) : Cert.ReferenceIdeal.S4096x200x64.Idx :=
  fun a => match a with
    | ⟨0, _⟩ => ⟨(i 0).val, (i 0).isLt⟩
    | ⟨1, _⟩ => ⟨(i 1).val, (i 1).isLt⟩
    | ⟨2, _⟩ => ⟨(i 2).val, hj⟩

/-- The right operand's index: the last coordinate 64 less. -/
abbrev kR (i : Cert.ReferenceIdeal.S4096x200x128.Idx) (hj : ¬ (i 2).val < 64) : Cert.ReferenceIdeal.S4096x200x64.Idx :=
  fun a => match a with
    | ⟨0, _⟩ => ⟨(i 0).val, (i 0).isLt⟩
    | ⟨1, _⟩ => ⟨(i 1).val, (i 1).isLt⟩
    | ⟨2, _⟩ => ⟨(i 2).val - 64, by have h : (i 2).val < 128 := (i 2).isLt; show (i 2).val - 64 < 64; omega⟩

theorem ref_left (x0 : (⟨Cert.ReferenceIdeal.S4096x200x64, .f32⟩ : BufTy).Contents (Elt Ideal))
    (x1 : (⟨Cert.ReferenceIdeal.S202x64, .f32⟩ : BufTy).Contents (Elt Ideal))
    (i : Cert.ReferenceIdeal.S4096x200x128.Idx) (hj : (i 2).val < 64) :
    Cert.ReferenceIdeal.Read.val_main_v3 (F := Ideal) x0 x1 i = x0 (kL i hj) := by
  unfold Cert.ReferenceIdeal.Read.val_main_v3
  exact concatenate_pair_apply_left (t := Cert.ReferenceIdeal.S4096x200x128) (s₁ := Cert.ReferenceIdeal.S4096x200x64) (s₂ := Cert.ReferenceIdeal.S4096x200x64) (2 : Fin 3) x0 _ _ i rfl (kL i hj) (fun b => by
    match b with
    | ⟨0, _⟩ => rfl
    | ⟨1, _⟩ => rfl
    | ⟨2, _⟩ => rfl)

theorem ref_right (x0 : (⟨Cert.ReferenceIdeal.S4096x200x64, .f32⟩ : BufTy).Contents (Elt Ideal))
    (x1 : (⟨Cert.ReferenceIdeal.S202x64, .f32⟩ : BufTy).Contents (Elt Ideal))
    (i : Cert.ReferenceIdeal.S4096x200x128.Idx) (hj : ¬ (i 2).val < 64) :
    Cert.ReferenceIdeal.Read.val_main_v3 (F := Ideal) x0 x1 i
      = x1 (Cert.ReferenceIdeal.Read.idx_main_v0 (Cert.ReferenceIdeal.Read.idx_main_v1 (Cert.ReferenceIdeal.Read.idx_main_v2 (kR i hj)))) := by
  unfold Cert.ReferenceIdeal.Read.val_main_v3
  refine (concatenate_pair_apply_right (t := Cert.ReferenceIdeal.S4096x200x128) (s₁ := Cert.ReferenceIdeal.S4096x200x64) (s₂ := Cert.ReferenceIdeal.S4096x200x64) (2 : Fin 3) x0 _ _ i rfl rfl (kR i hj) (fun b hb => by
    match b with
    | ⟨0, _⟩ => rfl
    | ⟨1, _⟩ => rfl
    | ⟨2, _⟩ => exact absurd rfl hb) (by
      have h : (i 2).val < 128 := (i 2).isLt
      show (i 2).val - 64 + 64 = (i 2).val
      omega)).trans ?_
  rw [Cert.ReferenceIdeal.Read.val_main_v2_apply, Cert.ReferenceIdeal.Read.val_main_v1_apply,
    Cert.ReferenceIdeal.Read.val_main_v0_apply]

/-- The flattened first argument at row `r 0`, position `64·l + j`, is the argument at (`r 0`, l, j): the two
    indices have the same row-major position. -/
theorem xof_apply (x0 : (⟨Cert.ReferenceIdeal.S4096x200x64, .f32⟩ : BufTy).Contents (Elt Ideal))
    (r : (⟨2, ![4096, 12800]⟩ : Shape).Idx) (k : Cert.ReferenceIdeal.S4096x200x64.Idx)
    (h0 : (r 0).val = (k 0).val) (h1 : (r 1).val = 64 * (k 1).val + (k 2).val) :
    Cert.Proof.KernelIdealP.Xof (F := Ideal) x0 r = x0 k := by
  unfold Cert.Proof.KernelIdealP.Xof
  refine shapeCast_apply x0 _ r k ?_
  have h3 := Shape.rowMajor_val_three (d := ![4096, 200, 64]) k
  have h2 := Shape.rowMajor_val_two (d := ![4096, 12800]) r
  have e3 : ((⟨3, ![4096, 200, 64]⟩ : Shape).rowMajor k).val = ((k 0).val * 200 + (k 1).val) * 64 + (k 2).val := h3
  have e2 : ((⟨2, ![4096, 12800]⟩ : Shape).rowMajor r).val = (r 0).val * 12800 + (r 1).val := h2
  show ((⟨3, ![4096, 200, 64]⟩ : Shape).rowMajor k).val = ((⟨2, ![4096, 12800]⟩ : Shape).rowMajor r).val
  rw [e3, e2]
  omega

/-- The template at (l, j), j ≥ 64, is the position table at (l, j − 64): the right half of the join is the
    table's first 200 rows. -/
theorem tof_apply (x1 : (⟨Cert.ReferenceIdeal.S202x64, .f32⟩ : BufTy).Contents (Elt Ideal))
    (r : (⟨2, ![200, 128]⟩ : Shape).Idx) (k : Cert.ReferenceIdeal.S202x64.Idx)
    (h0 : (k 0).val = (r 0).val) (h1 : (k 1).val + 64 = (r 1).val) :
    Cert.Proof.KernelIdealP.Tof (F := Ideal) x1 r = x1 k := by
  unfold Cert.Proof.KernelIdealP.Tof
  have hk1 : (k 1).val < 64 := (k 1).isLt
  refine (concatenate_pair_apply_right (t := Cert.KernelIdeal.S200x128) (s₁ := Cert.KernelIdeal.S200x64) (s₂ := Cert.KernelIdeal.S200x64)
    (1 : Fin 2) _ _ _ r rfl rfl
    (fun a => match a with
      | ⟨0, _⟩ => ⟨(r 0).val, (r 0).isLt⟩
      | ⟨1, _⟩ => ⟨(k 1).val, hk1⟩)
    (fun b hb => by
      match b with
      | ⟨0, _⟩ => rfl
      | ⟨1, _⟩ => exact absurd rfl hb)
    (by show (k 1).val + 64 = (r 1).val; exact h1)).trans ?_
  exact extractStridedSlice_apply ![0, 0] x1 _ _ k (fun a => match a with
    | ⟨0, _⟩ => by show (k 0).val = 0 + (r 0).val; omega
    | ⟨1, _⟩ => by show (k 1).val = 0 + (k 1).val; omega)

theorem ref_value (x0 : (⟨Cert.ReferenceIdeal.S4096x200x64, .f32⟩ : BufTy).Contents (Elt Ideal))
    (x1 : (⟨Cert.ReferenceIdeal.S202x64, .f32⟩ : BufTy).Contents (Elt Ideal)) :
    Cert.ReferenceIdeal.Read.val_main_v3 (F := Ideal) x0 x1
      = Cert.Proof.Spec.Gout (Cert.Proof.KernelIdealP.Xof (F := Ideal) x0) (Cert.Proof.KernelIdealP.Tof (F := Ideal) x1) := by
  funext i
  by_cases hj : (i 2).val < 64
  · rw [ref_left x0 x1 i hj]
    unfold Cert.Proof.Spec.Gout
    rw [if_pos hj]
    exact (xof_apply x0 _ (kL i hj) rfl (by
      show 64 * (i 1).val + (i 2).val % 64 = 64 * (i 1).val + (i 2).val
      rw [Nat.mod_eq_of_lt hj])).symm
  · rw [ref_right x0 x1 i hj]
    unfold Cert.Proof.Spec.Gout
    rw [if_neg hj]
    exact (tof_apply x1 _ _ rfl (by
      have h : (i 2).val < 128 := (i 2).isLt
      show (i 2).val - 64 + 64 = (i 2).val
      omega)).symm

/-- Every weakly fair execution of the reference ends with its result at `Gout` of the kernel's two operands as
    computed from the reference's own arguments, and the arguments unchanged: the generated run, its result term
    rewritten by `ref_value`. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v3)
          = Cert.Proof.Spec.Gout
              (Cert.Proof.KernelIdealP.Xof (F := Ideal) (m' ((c.tc : Thread Cert.ReferenceIdeal.nD Cert.ReferenceIdeal.τ).loc Cert.ReferenceIdeal.main_arg0)))
              (Cert.Proof.KernelIdealP.Tof (F := Ideal) (m' ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans ((Cert.ReferenceIdeal.Read.val_main_v3_eq (F := Ideal) _ _).trans (ref_value _ _)), (h c).2⟩)
    (Cert.ReferenceIdeal.Value.run (F := Ideal) m' g')

/-- The reference's frame: its generated run with the result dropped. -/
theorem frame_ri : Cert.frame_ReferenceIdeal := fun m ρ _ =>
  (θ_run (Cert.ReferenceIdeal.defs (F := Ideal)) _ _).mono (fun _ h c => (h c).2)
    (Cert.ReferenceIdeal.Value.run (F := Ideal) m ρ)

end Cert.Proof.RefValue

end
-- ==== Proof.Rows.lean ====
/-
  Rows of the two big arrays as element sets.

  The result (4096 × 200 × 128) and the flattened `x` (4096 × 12800) are handled a batch row at a time: a row, and a
  range of consecutive rows, are the entries whose first coordinate lies in a range.  A range splits at any
  point between its ends; the one-row slice a copy names (the array sliced at offsets (r, 0, …), the leading
  axis of extent one dropped) covers exactly row r.
-/
import proofs.«204673_g16922171147058_cont_7to1_1063_26_alg».proof.Proof.TileSpec

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v3_scv : Memref Cert.KernelIdeal.sig Kind.scVector Space.hbm Cert.KernelIdeal.S4096x12800 EltTy.f32)
local notation "tV" => (Memref.whole Cert.KernelIdeal.main_v2_scv : Memref Cert.KernelIdeal.sig Kind.scVector Space.hbm Cert.KernelIdeal.S200x128 EltTy.f32)
local notation "oV" => (Memref.whole Cert.KernelIdeal.main_v4_scv : Memref Cert.KernelIdeal.sig Kind.scVector Space.hbm Cert.KernelIdeal.S4096x200x128 EltTy.f32)
local notation "xb0" => (Memref.whole Cert.KernelIdeal.cc0_scratch0 : Memref Cert.KernelIdeal.sig Kind.scVector Space.vmem Cert.KernelIdeal.S12800 EltTy.f32)
local notation "xb1" => (Memref.whole Cert.KernelIdeal.cc0_scratch1 : Memref Cert.KernelIdeal.sig Kind.scVector Space.vmem Cert.KernelIdeal.S12800 EltTy.f32)
local notation "ob0" => (Memref.whole Cert.KernelIdeal.cc0_scratch2 : Memref Cert.KernelIdeal.sig Kind.scVector Space.vmem Cert.KernelIdeal.S200x128 EltTy.f32)
local notation "ob1" => (Memref.whole Cert.KernelIdeal.cc0_scratch3 : Memref Cert.KernelIdeal.sig Kind.scVector Space.vmem Cert.KernelIdeal.S200x128 EltTy.f32)

/-- The entries of the result whose batch row lies in [a, b). -/
def oRows (a b : ℕ) : Finset S4096x200x128.Idx := Finset.univ.filter fun i => a ≤ (i 0).val ∧ (i 0).val < b
/-- The entries of the flattened `x` whose row lies in [a, b). -/
def xRows (a b : ℕ) : Finset S4096x12800.Idx := Finset.univ.filter fun i => a ≤ (i 0).val ∧ (i 0).val < b

theorem blockSet_eq (L : grid0.Coords) : blockSet L = oRows (baseRow L) (baseRow L + 128) := rfl
theorem xBlockSet_eq (L : grid0.Coords) : xBlockSet L = xRows (baseRow L) (baseRow L + 128) := rfl

theorem mem_oRows {a b : ℕ} {i : S4096x200x128.Idx} : i ∈ oRows a b ↔ a ≤ (i 0).val ∧ (i 0).val < b := by
  unfold oRows; rw [Finset.mem_filter]; exact ⟨fun h => h.2, fun h => ⟨Finset.mem_univ _, h⟩⟩
theorem mem_xRows {a b : ℕ} {i : S4096x12800.Idx} : i ∈ xRows a b ↔ a ≤ (i 0).val ∧ (i 0).val < b := by
  unfold xRows; rw [Finset.mem_filter]; exact ⟨fun h => h.2, fun h => ⟨Finset.mem_univ _, h⟩⟩

theorem oRows_union {a m b : ℕ} (h1 : a ≤ m) (h2 : m ≤ b) : oRows a m ∪ oRows m b = oRows a b := by
  ext i; rw [Finset.mem_union, mem_oRows, mem_oRows, mem_oRows]; omega
theorem oRows_disjoint (a m b : ℕ) : Disjoint (oRows a m) (oRows m b) := by
  rw [Finset.disjoint_left]; intro i h1 h2; rw [mem_oRows] at h1 h2; omega
theorem xRows_union {a m b : ℕ} (h1 : a ≤ m) (h2 : m ≤ b) : xRows a m ∪ xRows m b = xRows a b := by
  ext i; rw [Finset.mem_union, mem_xRows, mem_xRows, mem_xRows]; omega
theorem xRows_disjoint (a m b : ℕ) : Disjoint (xRows a m) (xRows m b) := by
  rw [Finset.disjoint_left]; intro i h1 h2; rw [mem_xRows] at h1 h2; omega

/-- A range of result rows held at one function splits at any point between its ends. -/
theorem oRows_split (d : Dev nD) (q : PosShare TreeShare) (f : Buf (Elt F) (oLoc d)) {a m b : ℕ} (h1 : a ≤ m) (h2 : m ≤ b) :
    (oLoc d ↦[oRows a b]{q} f : sProp 𝕄) ⊣⊢ iprop((oLoc d ↦[oRows a m]{q} f) ∗ oLoc d ↦[oRows m b]{q} f) := by
  rw [← oRows_union h1 h2]; exact pointsTo_union (oRows_disjoint a m b)
theorem xRows_split (d : Dev nD) (q : PosShare TreeShare) (f : Buf (Elt F) (xLoc d)) {a m b : ℕ} (h1 : a ≤ m) (h2 : m ≤ b) :
    (xLoc d ↦[xRows a b]{q} f : sProp 𝕄) ⊣⊢ iprop((xLoc d ↦[xRows a m]{q} f) ∗ xLoc d ↦[xRows m b]{q} f) := by
  rw [← xRows_union h1 h2]; exact pointsTo_union (xRows_disjoint a m b)

/-- No rows: nothing held. -/
theorem oRows_empty (d : Dev nD) (q : PosShare TreeShare) (f : Buf (Elt F) (oLoc d)) (a : ℕ) :
    (oLoc d ↦[oRows a a]{q} f : sProp 𝕄) = iprop(emp) := by
  rw [show oRows a a = ∅ from Finset.eq_empty_of_forall_notMem fun i hi => by rw [mem_oRows] at hi; omega]; exact pointsTo_empty
theorem xRows_empty (d : Dev nD) (q : PosShare TreeShare) (f : Buf (Elt F) (xLoc d)) (a : ℕ) :
    (xLoc d ↦[xRows a a]{q} f : sProp 𝕄) = iprop(emp) := by
  rw [show xRows a a = ∅ from Finset.eq_empty_of_forall_notMem fun i hi => by rw [mem_xRows] at hi; omega]; exact pointsTo_empty

/-! ## The one-row slices the copies name -/

/-- Row `off 0` of the flattened `x` as a copy slices it: the array at offsets `off`, one row, the leading axis dropped. -/
abbrev xRowM (off : Fin 2 → Nat) (h : ∀ a, off a + S1x12800.size a ≤ S4096x12800.size a) : Memref sig .scVector .hbm S12800 .f32 :=
  ((xV).slice (Rect.unit (s := S4096x12800) off S1x12800.size h) (fun _ => rfl)).squeeze S12800 squeezes_S1x12800_S12800
/-- Batch row `off 0` of the result as a copy slices it. -/
abbrev oRowM (off : Fin 3 → Nat) (h : ∀ a, off a + S1x200x128.size a ≤ S4096x200x128.size a) : Memref sig .scVector .hbm S200x128 .f32 :=
  ((oV).slice (Rect.unit (s := S4096x200x128) off S1x200x128.size h) (fun _ => rfl)).squeeze S200x128 squeezes_S1x200x128_S200x128

theorem set_xRowM (off : Fin 2 → Nat) (h : ∀ a, off a + S1x12800.size a ≤ S4096x12800.size a) (r : ℕ) (hr : off = ![r, 0]) :
    (xRowM off h).view.set = xRows r (r + 1) := by
  subst hr
  show (((xV).view.slice (Rect.unit (s := S4096x12800) ![r, 0] S1x12800.size h)).reshape S12800 squeezes_S1x12800_S12800.numel_eq).set = _
  rw [View.set_reshape]
  show ((View.whole (main_v3_scv : Ref sig .scVector)).slice (Rect.unit (s := S4096x12800) ![r, 0] S1x12800.size h)).set = _
  rw [View.set_slice_whole]
  ext i
  rw [Rect.mem_set_unit, mem_xRows]
  constructor
  · intro hi; have h0 := hi 0; simp at h0; omega
  · intro hi a
    match a with
    | ⟨0, _⟩ => simp; omega
    | ⟨1, _⟩ => simp; exact (i 1).isLt

theorem set_oRowM (off : Fin 3 → Nat) (h : ∀ a, off a + S1x200x128.size a ≤ S4096x200x128.size a) (r : ℕ) (hr : off = ![r, 0, 0]) :
    (oRowM off h).view.set = oRows r (r + 1) := by
  subst hr
  show (((oV).view.slice (Rect.unit (s := S4096x200x128) ![r, 0, 0] S1x200x128.size h)).reshape S200x128 squeezes_S1x200x128_S200x128.numel_eq).set = _
  rw [View.set_reshape]
  show ((View.whole (main_v4_scv : Ref sig .scVector)).slice (Rect.unit (s := S4096x200x128) ![r, 0, 0] S1x200x128.size h)).set = _
  rw [View.set_slice_whole]
  ext i
  rw [Rect.mem_set_unit, mem_oRows]
  constructor
  · intro hi; have h0 := hi 0; simp at h0; omega
  · intro hi a
    match a with
    | ⟨0, _⟩ => simp; omega
    | ⟨1, _⟩ => simp; exact (i 1).isLt
    | ⟨2, _⟩ => simp; exact (i 2).isLt

end Cert.Proof.KernelIdealP

end
-- ==== Proof.SkelEq.lean ====
/-
  Each printed window of the kernel's loop body is, by unfolding alone, its restatement as a sequence of loads,
  stores and copies over named payloads.  The windows move data only, so the equations hold for every float
  instance.  One line per window.
-/
import proofs.«204673_g16922171147058_cont_7to1_1063_26_alg».proof.Proof.Gen.KernelIdeal.Skeleton

set_option maxRecDepth 65536

noncomputable section

namespace Cert.KernelIdeal

open Idealize.ShloMosaic

theorem k0_part1_eq_skeleton {F : FTy → Type} : k0_part1 (F := F) = Gen.k0_part1_skel (F := F) := rfl
theorem k0_part2_eq_skeleton {F : FTy → Type} : k0_part2 (F := F) = Gen.k0_part2_skel (F := F) := rfl
theorem k0_part3_eq_skeleton {F : FTy → Type} : k0_part3 (F := F) = Gen.k0_part3_skel (F := F) := rfl
theorem k0_part4_eq_skeleton {F : FTy → Type} : k0_part4 (F := F) = Gen.k0_part4_skel (F := F) := rfl
theorem k0_part5_eq_skeleton {F : FTy → Type} : k0_part5 (F := F) = Gen.k0_part5_skel (F := F) := rfl
theorem k0_part6_eq_skeleton {F : FTy → Type} : k0_part6 (F := F) = Gen.k0_part6_skel (F := F) := rfl
theorem k0_part7_eq_skeleton {F : FTy → Type} : k0_part7 (F := F) = Gen.k0_part7_skel (F := F) := rfl
theorem k0_part8_eq_skeleton {F : FTy → Type} : k0_part8 (F := F) = Gen.k0_part8_skel (F := F) := rfl
theorem k0_part9_eq_skeleton {F : FTy → Type} : k0_part9 (F := F) = Gen.k0_part9_skel (F := F) := rfl
theorem k0_part10_eq_skeleton {F : FTy → Type} : k0_part10 (F := F) = Gen.k0_part10_skel (F := F) := rfl
theorem k0_part11_eq_skeleton {F : FTy → Type} : k0_part11 (F := F) = Gen.k0_part11_skel (F := F) := rfl
theorem k0_part12_eq_skeleton {F : FTy → Type} : k0_part12 (F := F) = Gen.k0_part12_skel (F := F) := rfl
theorem k0_part13_eq_skeleton {F : FTy → Type} : k0_part13 (F := F) = Gen.k0_part13_skel (F := F) := rfl
theorem k0_part14_eq_skeleton {F : FTy → Type} : k0_part14 (F := F) = Gen.k0_part14_skel (F := F) := rfl
theorem k0_part15_eq_skeleton {F : FTy → Type} : k0_part15 (F := F) = Gen.k0_part15_skel (F := F) := rfl
theorem k0_part16_eq_skeleton {F : FTy → Type} : k0_part16 (F := F) = Gen.k0_part16_skel (F := F) := rfl
theorem k0_part17_eq_skeleton {F : FTy → Type} : k0_part17 (F := F) = Gen.k0_part17_skel (F := F) := rfl
theorem k0_part18_eq_skeleton {F : FTy → Type} : k0_part18 (F := F) = Gen.k0_part18_skel (F := F) := rfl
theorem k0_part19_eq_skeleton {F : FTy → Type} : k0_part19 (F := F) = Gen.k0_part19_skel (F := F) := rfl
theorem k0_part20_eq_skeleton {F : FTy → Type} : k0_part20 (F := F) = Gen.k0_part20_skel (F := F) := rfl
theorem k0_part21_eq_skeleton {F : FTy → Type} : k0_part21 (F := F) = Gen.k0_part21_skel (F := F) := rfl
theorem k0_part22_eq_skeleton {F : FTy → Type} : k0_part22 (F := F) = Gen.k0_part22_skel (F := F) := rfl
theorem k0_part23_eq_skeleton {F : FTy → Type} : k0_part23 (F := F) = Gen.k0_part23_skel (F := F) := rfl
theorem k0_part24_eq_skeleton {F : FTy → Type} : k0_part24 (F := F) = Gen.k0_part24_skel (F := F) := rfl
theorem k0_part25_eq_skeleton {F : FTy → Type} : k0_part25 (F := F) = Gen.k0_part25_skel (F := F) := rfl
theorem k0_part26_eq_skeleton {F : FTy → Type} : k0_part26 (F := F) = Gen.k0_part26_skel (F := F) := rfl
theorem k0_part27_eq_skeleton {F : FTy → Type} : k0_part27 (F := F) = Gen.k0_part27_skel (F := F) := rfl
theorem k0_part28_eq_skeleton {F : FTy → Type} : k0_part28 (F := F) = Gen.k0_part28_skel (F := F) := rfl
theorem k0_part29_eq_skeleton {F : FTy → Type} : k0_part29 (F := F) = Gen.k0_part29_skel (F := F) := rfl
theorem k0_part30_eq_skeleton {F : FTy → Type} : k0_part30 (F := F) = Gen.k0_part30_skel (F := F) := rfl
theorem k0_part31_eq_skeleton {F : FTy → Type} : k0_part31 (F := F) = Gen.k0_part31_skel (F := F) := rfl
theorem k0_part32_eq_skeleton {F : FTy → Type} : k0_part32 (F := F) = Gen.k0_part32_skel (F := F) := rfl
theorem k0_part33_eq_skeleton {F : FTy → Type} : k0_part33 (F := F) = Gen.k0_part33_skel (F := F) := rfl
theorem k0_part34_eq_skeleton {F : FTy → Type} : k0_part34 (F := F) = Gen.k0_part34_skel (F := F) := rfl
theorem k0_part35_eq_skeleton {F : FTy → Type} : k0_part35 (F := F) = Gen.k0_part35_skel (F := F) := rfl
theorem k0_part36_eq_skeleton {F : FTy → Type} : k0_part36 (F := F) = Gen.k0_part36_skel (F := F) := rfl
theorem k0_part37_eq_skeleton {F : FTy → Type} : k0_part37 (F := F) = Gen.k0_part37_skel (F := F) := rfl
theorem k0_part38_eq_skeleton {F : FTy → Type} : k0_part38 (F := F) = Gen.k0_part38_skel (F := F) := rfl
theorem k0_part39_eq_skeleton {F : FTy → Type} : k0_part39 (F := F) = Gen.k0_part39_skel (F := F) := rfl
theorem k0_part40_eq_skeleton {F : FTy → Type} : k0_part40 (F := F) = Gen.k0_part40_skel (F := F) := rfl
theorem k0_part41_eq_skeleton {F : FTy → Type} : k0_part41 (F := F) = Gen.k0_part41_skel (F := F) := rfl
theorem k0_part42_eq_skeleton {F : FTy → Type} : k0_part42 (F := F) = Gen.k0_part42_skel (F := F) := rfl
theorem k0_part43_eq_skeleton {F : FTy → Type} : k0_part43 (F := F) = Gen.k0_part43_skel (F := F) := rfl
theorem k0_part44_eq_skeleton {F : FTy → Type} : k0_part44 (F := F) = Gen.k0_part44_skel (F := F) := rfl
theorem k0_part45_eq_skeleton {F : FTy → Type} : k0_part45 (F := F) = Gen.k0_part45_skel (F := F) := rfl
theorem k0_part46_eq_skeleton {F : FTy → Type} : k0_part46 (F := F) = Gen.k0_part46_skel (F := F) := rfl
theorem k0_part47_eq_skeleton {F : FTy → Type} : k0_part47 (F := F) = Gen.k0_part47_skel (F := F) := rfl
theorem k0_part48_eq_skeleton {F : FTy → Type} : k0_part48 (F := F) = Gen.k0_part48_skel (F := F) := rfl
theorem k0_part49_eq_skeleton {F : FTy → Type} : k0_part49 (F := F) = Gen.k0_part49_skel (F := F) := rfl
theorem k0_part50_eq_skeleton {F : FTy → Type} : k0_part50 (F := F) = Gen.k0_part50_skel (F := F) := rfl
theorem k0_part51_eq_skeleton {F : FTy → Type} : k0_part51 (F := F) = Gen.k0_part51_skel (F := F) := rfl
theorem k0_part52_eq_skeleton {F : FTy → Type} : k0_part52 (F := F) = Gen.k0_part52_skel (F := F) := rfl
theorem k0_part53_eq_skeleton {F : FTy → Type} : k0_part53 (F := F) = Gen.k0_part53_skel (F := F) := rfl
theorem k0_part54_eq_skeleton {F : FTy → Type} : k0_part54 (F := F) = Gen.k0_part54_skel (F := F) := rfl
theorem k0_part55_eq_skeleton {F : FTy → Type} : k0_part55 (F := F) = Gen.k0_part55_skel (F := F) := rfl
theorem k0_part56_eq_skeleton {F : FTy → Type} : k0_part56 (F := F) = Gen.k0_part56_skel (F := F) := rfl
theorem k0_part57_eq_skeleton {F : FTy → Type} : k0_part57 (F := F) = Gen.k0_part57_skel (F := F) := rfl
theorem k0_part58_eq_skeleton {F : FTy → Type} : k0_part58 (F := F) = Gen.k0_part58_skel (F := F) := rfl
theorem k0_part59_eq_skeleton {F : FTy → Type} : k0_part59 (F := F) = Gen.k0_part59_skel (F := F) := rfl
theorem k0_part60_eq_skeleton {F : FTy → Type} : k0_part60 (F := F) = Gen.k0_part60_skel (F := F) := rfl
theorem k0_part61_eq_skeleton {F : FTy → Type} : k0_part61 (F := F) = Gen.k0_part61_skel (F := F) := rfl
theorem k0_part62_eq_skeleton {F : FTy → Type} : k0_part62 (F := F) = Gen.k0_part62_skel (F := F) := rfl
theorem k0_part63_eq_skeleton {F : FTy → Type} : k0_part63 (F := F) = Gen.k0_part63_skel (F := F) := rfl
theorem k0_part64_eq_skeleton {F : FTy → Type} : k0_part64 (F := F) = Gen.k0_part64_skel (F := F) := rfl
theorem k0_part65_eq_skeleton {F : FTy → Type} : k0_part65 (F := F) = Gen.k0_part65_skel (F := F) := rfl
theorem k0_part66_eq_skeleton {F : FTy → Type} : k0_part66 (F := F) = Gen.k0_part66_skel (F := F) := rfl
theorem k0_part67_eq_skeleton {F : FTy → Type} : k0_part67 (F := F) = Gen.k0_part67_skel (F := F) := rfl
theorem k0_part68_eq_skeleton {F : FTy → Type} : k0_part68 (F := F) = Gen.k0_part68_skel (F := F) := rfl
theorem k0_part69_eq_skeleton {F : FTy → Type} : k0_part69 (F := F) = Gen.k0_part69_skel (F := F) := rfl
theorem k0_part70_eq_skeleton {F : FTy → Type} : k0_part70 (F := F) = Gen.k0_part70_skel (F := F) := rfl
theorem k0_part71_eq_skeleton {F : FTy → Type} : k0_part71 (F := F) = Gen.k0_part71_skel (F := F) := rfl
theorem k0_part72_eq_skeleton {F : FTy → Type} : k0_part72 (F := F) = Gen.k0_part72_skel (F := F) := rfl
theorem k0_part73_eq_skeleton {F : FTy → Type} : k0_part73 (F := F) = Gen.k0_part73_skel (F := F) := rfl
theorem k0_part74_eq_skeleton {F : FTy → Type} : k0_part74 (F := F) = Gen.k0_part74_skel (F := F) := rfl
theorem k0_part75_eq_skeleton {F : FTy → Type} : k0_part75 (F := F) = Gen.k0_part75_skel (F := F) := rfl
theorem k0_part76_eq_skeleton {F : FTy → Type} : k0_part76 (F := F) = Gen.k0_part76_skel (F := F) := rfl
theorem k0_part77_eq_skeleton {F : FTy → Type} : k0_part77 (F := F) = Gen.k0_part77_skel (F := F) := rfl
theorem k0_part78_eq_skeleton {F : FTy → Type} : k0_part78 (F := F) = Gen.k0_part78_skel (F := F) := rfl
theorem k0_part79_eq_skeleton {F : FTy → Type} : k0_part79 (F := F) = Gen.k0_part79_skel (F := F) := rfl
theorem k0_part80_eq_skeleton {F : FTy → Type} : k0_part80 (F := F) = Gen.k0_part80_skel (F := F) := rfl
theorem k0_part81_eq_skeleton {F : FTy → Type} : k0_part81 (F := F) = Gen.k0_part81_skel (F := F) := rfl
theorem k0_part82_eq_skeleton {F : FTy → Type} : k0_part82 (F := F) = Gen.k0_part82_skel (F := F) := rfl
theorem k0_part83_eq_skeleton {F : FTy → Type} : k0_part83 (F := F) = Gen.k0_part83_skel (F := F) := rfl
theorem k0_part84_eq_skeleton {F : FTy → Type} : k0_part84 (F := F) = Gen.k0_part84_skel (F := F) := rfl
theorem k0_part85_eq_skeleton {F : FTy → Type} : k0_part85 (F := F) = Gen.k0_part85_skel (F := F) := rfl
theorem k0_part86_eq_skeleton {F : FTy → Type} : k0_part86 (F := F) = Gen.k0_part86_skel (F := F) := rfl
theorem k0_part87_eq_skeleton {F : FTy → Type} : k0_part87 (F := F) = Gen.k0_part87_skel (F := F) := rfl
theorem k0_part88_eq_skeleton {F : FTy → Type} : k0_part88 (F := F) = Gen.k0_part88_skel (F := F) := rfl
theorem k0_part89_eq_skeleton {F : FTy → Type} : k0_part89 (F := F) = Gen.k0_part89_skel (F := F) := rfl
theorem k0_part90_eq_skeleton {F : FTy → Type} : k0_part90 (F := F) = Gen.k0_part90_skel (F := F) := rfl
theorem k0_part91_eq_skeleton {F : FTy → Type} : k0_part91 (F := F) = Gen.k0_part91_skel (F := F) := rfl
theorem k0_part92_eq_skeleton {F : FTy → Type} : k0_part92 (F := F) = Gen.k0_part92_skel (F := F) := rfl
theorem k0_part93_eq_skeleton {F : FTy → Type} : k0_part93 (F := F) = Gen.k0_part93_skel (F := F) := rfl
theorem k0_part94_eq_skeleton {F : FTy → Type} : k0_part94 (F := F) = Gen.k0_part94_skel (F := F) := rfl
theorem k0_part95_eq_skeleton {F : FTy → Type} : k0_part95 (F := F) = Gen.k0_part95_skel (F := F) := rfl
theorem k0_part96_eq_skeleton {F : FTy → Type} : k0_part96 (F := F) = Gen.k0_part96_skel (F := F) := rfl
theorem k0_part97_eq_skeleton {F : FTy → Type} : k0_part97 (F := F) = Gen.k0_part97_skel (F := F) := rfl
theorem k0_part98_eq_skeleton {F : FTy → Type} : k0_part98 (F := F) = Gen.k0_part98_skel (F := F) := rfl
theorem k0_part99_eq_skeleton {F : FTy → Type} : k0_part99 (F := F) = Gen.k0_part99_skel (F := F) := rfl
theorem k0_part100_eq_skeleton {F : FTy → Type} : k0_part100 (F := F) = Gen.k0_part100_skel (F := F) := rfl
theorem k0_part101_eq_skeleton {F : FTy → Type} : k0_part101 (F := F) = Gen.k0_part101_skel (F := F) := rfl
theorem k0_part102_eq_skeleton {F : FTy → Type} : k0_part102 (F := F) = Gen.k0_part102_skel (F := F) := rfl
theorem k0_part103_eq_skeleton {F : FTy → Type} : k0_part103 (F := F) = Gen.k0_part103_skel (F := F) := rfl
theorem k0_part104_eq_skeleton {F : FTy → Type} : k0_part104 (F := F) = Gen.k0_part104_skel (F := F) := rfl
theorem k0_part105_eq_skeleton {F : FTy → Type} : k0_part105 (F := F) = Gen.k0_part105_skel (F := F) := rfl
theorem k0_part106_eq_skeleton {F : FTy → Type} : k0_part106 (F := F) = Gen.k0_part106_skel (F := F) := rfl
theorem k0_part107_eq_skeleton {F : FTy → Type} : k0_part107 (F := F) = Gen.k0_part107_skel (F := F) := rfl
theorem k0_part108_eq_skeleton {F : FTy → Type} : k0_part108 (F := F) = Gen.k0_part108_skel (F := F) := rfl
theorem k0_part109_eq_skeleton {F : FTy → Type} : k0_part109 (F := F) = Gen.k0_part109_skel (F := F) := rfl
theorem k0_part110_eq_skeleton {F : FTy → Type} : k0_part110 (F := F) = Gen.k0_part110_skel (F := F) := rfl
theorem k0_part111_eq_skeleton {F : FTy → Type} : k0_part111 (F := F) = Gen.k0_part111_skel (F := F) := rfl
theorem k0_part112_eq_skeleton {F : FTy → Type} : k0_part112 (F := F) = Gen.k0_part112_skel (F := F) := rfl
theorem k0_part113_eq_skeleton {F : FTy → Type} : k0_part113 (F := F) = Gen.k0_part113_skel (F := F) := rfl
theorem k0_part114_eq_skeleton {F : FTy → Type} : k0_part114 (F := F) = Gen.k0_part114_skel (F := F) := rfl
theorem k0_part115_eq_skeleton {F : FTy → Type} : k0_part115 (F := F) = Gen.k0_part115_skel (F := F) := rfl
theorem k0_part116_eq_skeleton {F : FTy → Type} : k0_part116 (F := F) = Gen.k0_part116_skel (F := F) := rfl
theorem k0_part117_eq_skeleton {F : FTy → Type} : k0_part117 (F := F) = Gen.k0_part117_skel (F := F) := rfl
theorem k0_part118_eq_skeleton {F : FTy → Type} : k0_part118 (F := F) = Gen.k0_part118_skel (F := F) := rfl
theorem k0_part119_eq_skeleton {F : FTy → Type} : k0_part119 (F := F) = Gen.k0_part119_skel (F := F) := rfl
theorem k0_part120_eq_skeleton {F : FTy → Type} : k0_part120 (F := F) = Gen.k0_part120_skel (F := F) := rfl
theorem k0_part121_eq_skeleton {F : FTy → Type} : k0_part121 (F := F) = Gen.k0_part121_skel (F := F) := rfl
theorem k0_part122_eq_skeleton {F : FTy → Type} : k0_part122 (F := F) = Gen.k0_part122_skel (F := F) := rfl
theorem k0_part123_eq_skeleton {F : FTy → Type} : k0_part123 (F := F) = Gen.k0_part123_skel (F := F) := rfl
theorem k0_part124_eq_skeleton {F : FTy → Type} : k0_part124 (F := F) = Gen.k0_part124_skel (F := F) := rfl
theorem k0_part125_eq_skeleton {F : FTy → Type} : k0_part125 (F := F) = Gen.k0_part125_skel (F := F) := rfl
theorem k0_part126_eq_skeleton {F : FTy → Type} : k0_part126 (F := F) = Gen.k0_part126_skel (F := F) := rfl
theorem k0_part127_eq_skeleton {F : FTy → Type} : k0_part127 (F := F) = Gen.k0_part127_skel (F := F) := rfl
theorem k0_part128_eq_skeleton {F : FTy → Type} : k0_part128 (F := F) = Gen.k0_part128_skel (F := F) := rfl
theorem k0_part129_eq_skeleton {F : FTy → Type} : k0_part129 (F := F) = Gen.k0_part129_skel (F := F) := rfl
theorem k0_part130_eq_skeleton {F : FTy → Type} : k0_part130 (F := F) = Gen.k0_part130_skel (F := F) := rfl
theorem k0_part131_eq_skeleton {F : FTy → Type} : k0_part131 (F := F) = Gen.k0_part131_skel (F := F) := rfl
theorem k0_part132_eq_skeleton {F : FTy → Type} : k0_part132 (F := F) = Gen.k0_part132_skel (F := F) := rfl
theorem k0_part133_eq_skeleton {F : FTy → Type} : k0_part133 (F := F) = Gen.k0_part133_skel (F := F) := rfl
theorem k0_part134_eq_skeleton {F : FTy → Type} : k0_part134 (F := F) = Gen.k0_part134_skel (F := F) := rfl
theorem k0_part135_eq_skeleton {F : FTy → Type} : k0_part135 (F := F) = Gen.k0_part135_skel (F := F) := rfl
theorem k0_part136_eq_skeleton {F : FTy → Type} : k0_part136 (F := F) = Gen.k0_part136_skel (F := F) := rfl
theorem k0_part137_eq_skeleton {F : FTy → Type} : k0_part137 (F := F) = Gen.k0_part137_skel (F := F) := rfl
theorem k0_part138_eq_skeleton {F : FTy → Type} : k0_part138 (F := F) = Gen.k0_part138_skel (F := F) := rfl
theorem k0_part139_eq_skeleton {F : FTy → Type} : k0_part139 (F := F) = Gen.k0_part139_skel (F := F) := rfl
theorem k0_part140_eq_skeleton {F : FTy → Type} : k0_part140 (F := F) = Gen.k0_part140_skel (F := F) := rfl
theorem k0_part141_eq_skeleton {F : FTy → Type} : k0_part141 (F := F) = Gen.k0_part141_skel (F := F) := rfl
theorem k0_part142_eq_skeleton {F : FTy → Type} : k0_part142 (F := F) = Gen.k0_part142_skel (F := F) := rfl
theorem k0_part143_eq_skeleton {F : FTy → Type} : k0_part143 (F := F) = Gen.k0_part143_skel (F := F) := rfl
theorem k0_part144_eq_skeleton {F : FTy → Type} : k0_part144 (F := F) = Gen.k0_part144_skel (F := F) := rfl
theorem k0_part145_eq_skeleton {F : FTy → Type} : k0_part145 (F := F) = Gen.k0_part145_skel (F := F) := rfl
theorem k0_part146_eq_skeleton {F : FTy → Type} : k0_part146 (F := F) = Gen.k0_part146_skel (F := F) := rfl
theorem k0_part147_eq_skeleton {F : FTy → Type} : k0_part147 (F := F) = Gen.k0_part147_skel (F := F) := rfl
theorem k0_part148_eq_skeleton {F : FTy → Type} : k0_part148 (F := F) = Gen.k0_part148_skel (F := F) := rfl
theorem k0_part149_eq_skeleton {F : FTy → Type} : k0_part149 (F := F) = Gen.k0_part149_skel (F := F) := rfl
theorem k0_part150_eq_skeleton {F : FTy → Type} : k0_part150 (F := F) = Gen.k0_part150_skel (F := F) := rfl
theorem k0_part151_eq_skeleton {F : FTy → Type} : k0_part151 (F := F) = Gen.k0_part151_skel (F := F) := rfl
theorem k0_part152_eq_skeleton {F : FTy → Type} : k0_part152 (F := F) = Gen.k0_part152_skel (F := F) := rfl
theorem k0_part153_eq_skeleton {F : FTy → Type} : k0_part153 (F := F) = Gen.k0_part153_skel (F := F) := rfl
theorem k0_part154_eq_skeleton {F : FTy → Type} : k0_part154 (F := F) = Gen.k0_part154_skel (F := F) := rfl
theorem k0_part155_eq_skeleton {F : FTy → Type} : k0_part155 (F := F) = Gen.k0_part155_skel (F := F) := rfl
theorem k0_part156_eq_skeleton {F : FTy → Type} : k0_part156 (F := F) = Gen.k0_part156_skel (F := F) := rfl
theorem k0_part157_eq_skeleton {F : FTy → Type} : k0_part157 (F := F) = Gen.k0_part157_skel (F := F) := rfl
theorem k0_part158_eq_skeleton {F : FTy → Type} : k0_part158 (F := F) = Gen.k0_part158_skel (F := F) := rfl
theorem k0_part159_eq_skeleton {F : FTy → Type} : k0_part159 (F := F) = Gen.k0_part159_skel (F := F) := rfl
theorem k0_part160_eq_skeleton {F : FTy → Type} : k0_part160 (F := F) = Gen.k0_part160_skel (F := F) := rfl
theorem k0_part161_eq_skeleton {F : FTy → Type} : k0_part161 (F := F) = Gen.k0_part161_skel (F := F) := rfl
theorem k0_part162_eq_skeleton {F : FTy → Type} : k0_part162 (F := F) = Gen.k0_part162_skel (F := F) := rfl
theorem k0_part163_eq_skeleton {F : FTy → Type} : k0_part163 (F := F) = Gen.k0_part163_skel (F := F) := rfl
theorem k0_part164_eq_skeleton {F : FTy → Type} : k0_part164 (F := F) = Gen.k0_part164_skel (F := F) := rfl
theorem k0_part165_eq_skeleton {F : FTy → Type} : k0_part165 (F := F) = Gen.k0_part165_skel (F := F) := rfl
theorem k0_part166_eq_skeleton {F : FTy → Type} : k0_part166 (F := F) = Gen.k0_part166_skel (F := F) := rfl
theorem k0_part167_eq_skeleton {F : FTy → Type} : k0_part167 (F := F) = Gen.k0_part167_skel (F := F) := rfl
theorem k0_part168_eq_skeleton {F : FTy → Type} : k0_part168 (F := F) = Gen.k0_part168_skel (F := F) := rfl
theorem k0_part169_eq_skeleton {F : FTy → Type} : k0_part169 (F := F) = Gen.k0_part169_skel (F := F) := rfl
theorem k0_part170_eq_skeleton {F : FTy → Type} : k0_part170 (F := F) = Gen.k0_part170_skel (F := F) := rfl
theorem k0_part171_eq_skeleton {F : FTy → Type} : k0_part171 (F := F) = Gen.k0_part171_skel (F := F) := rfl
theorem k0_part172_eq_skeleton {F : FTy → Type} : k0_part172 (F := F) = Gen.k0_part172_skel (F := F) := rfl
theorem k0_part173_eq_skeleton {F : FTy → Type} : k0_part173 (F := F) = Gen.k0_part173_skel (F := F) := rfl
theorem k0_part174_eq_skeleton {F : FTy → Type} : k0_part174 (F := F) = Gen.k0_part174_skel (F := F) := rfl
theorem k0_part175_eq_skeleton {F : FTy → Type} : k0_part175 (F := F) = Gen.k0_part175_skel (F := F) := rfl
theorem k0_part176_eq_skeleton {F : FTy → Type} : k0_part176 (F := F) = Gen.k0_part176_skel (F := F) := rfl
theorem k0_part177_eq_skeleton {F : FTy → Type} : k0_part177 (F := F) = Gen.k0_part177_skel (F := F) := rfl
theorem k0_part178_eq_skeleton {F : FTy → Type} : k0_part178 (F := F) = Gen.k0_part178_skel (F := F) := rfl
theorem k0_part179_eq_skeleton {F : FTy → Type} : k0_part179 (F := F) = Gen.k0_part179_skel (F := F) := rfl
theorem k0_part180_eq_skeleton {F : FTy → Type} : k0_part180 (F := F) = Gen.k0_part180_skel (F := F) := rfl
theorem k0_part181_eq_skeleton {F : FTy → Type} : k0_part181 (F := F) = Gen.k0_part181_skel (F := F) := rfl
theorem k0_part182_eq_skeleton {F : FTy → Type} : k0_part182 (F := F) = Gen.k0_part182_skel (F := F) := rfl
theorem k0_part183_eq_skeleton {F : FTy → Type} : k0_part183 (F := F) = Gen.k0_part183_skel (F := F) := rfl
theorem k0_part184_eq_skeleton {F : FTy → Type} : k0_part184 (F := F) = Gen.k0_part184_skel (F := F) := rfl
theorem k0_part185_eq_skeleton {F : FTy → Type} : k0_part185 (F := F) = Gen.k0_part185_skel (F := F) := rfl
theorem k0_part186_eq_skeleton {F : FTy → Type} : k0_part186 (F := F) = Gen.k0_part186_skel (F := F) := rfl
theorem k0_part187_eq_skeleton {F : FTy → Type} : k0_part187 (F := F) = Gen.k0_part187_skel (F := F) := rfl
theorem k0_part188_eq_skeleton {F : FTy → Type} : k0_part188 (F := F) = Gen.k0_part188_skel (F := F) := rfl
theorem k0_part189_eq_skeleton {F : FTy → Type} : k0_part189 (F := F) = Gen.k0_part189_skel (F := F) := rfl
theorem k0_part190_eq_skeleton {F : FTy → Type} : k0_part190 (F := F) = Gen.k0_part190_skel (F := F) := rfl
theorem k0_part191_eq_skeleton {F : FTy → Type} : k0_part191 (F := F) = Gen.k0_part191_skel (F := F) := rfl
theorem k0_part192_eq_skeleton {F : FTy → Type} : k0_part192 (F := F) = Gen.k0_part192_skel (F := F) := rfl
theorem k0_part193_eq_skeleton {F : FTy → Type} : k0_part193 (F := F) = Gen.k0_part193_skel (F := F) := rfl
theorem k0_part194_eq_skeleton {F : FTy → Type} : k0_part194 (F := F) = Gen.k0_part194_skel (F := F) := rfl
theorem k0_part195_eq_skeleton {F : FTy → Type} : k0_part195 (F := F) = Gen.k0_part195_skel (F := F) := rfl
theorem k0_part196_eq_skeleton {F : FTy → Type} : k0_part196 (F := F) = Gen.k0_part196_skel (F := F) := rfl
theorem k0_part197_eq_skeleton {F : FTy → Type} : k0_part197 (F := F) = Gen.k0_part197_skel (F := F) := rfl
theorem k0_part198_eq_skeleton {F : FTy → Type} : k0_part198 (F := F) = Gen.k0_part198_skel (F := F) := rfl
theorem k0_part199_eq_skeleton {F : FTy → Type} : k0_part199 (F := F) = Gen.k0_part199_skel (F := F) := rfl
theorem k0_part200_eq_skeleton {F : FTy → Type} : k0_part200 (F := F) = Gen.k0_part200_skel (F := F) := rfl
theorem k0_part201_eq_skeleton {F : FTy → Type} : k0_part201 (F := F) = Gen.k0_part201_skel (F := F) := rfl
theorem k0_part202_eq_skeleton {F : FTy → Type} : k0_part202 (F := F) = Gen.k0_part202_skel (F := F) := rfl
theorem k0_part203_eq_skeleton {F : FTy → Type} : k0_part203 (F := F) = Gen.k0_part203_skel (F := F) := rfl
theorem k0_part204_eq_skeleton {F : FTy → Type} : k0_part204 (F := F) = Gen.k0_part204_skel (F := F) := rfl
theorem k0_part205_eq_skeleton {F : FTy → Type} : k0_part205 (F := F) = Gen.k0_part205_skel (F := F) := rfl
theorem k0_part206_eq_skeleton {F : FTy → Type} : k0_part206 (F := F) = Gen.k0_part206_skel (F := F) := rfl
theorem k0_part207_eq_skeleton {F : FTy → Type} : k0_part207 (F := F) = Gen.k0_part207_skel (F := F) := rfl
theorem k0_part208_eq_skeleton {F : FTy → Type} : k0_part208 (F := F) = Gen.k0_part208_skel (F := F) := rfl
theorem k0_part209_eq_skeleton {F : FTy → Type} : k0_part209 (F := F) = Gen.k0_part209_skel (F := F) := rfl
theorem k0_part210_eq_skeleton {F : FTy → Type} : k0_part210 (F := F) = Gen.k0_part210_skel (F := F) := rfl
theorem k0_part211_eq_skeleton {F : FTy → Type} : k0_part211 (F := F) = Gen.k0_part211_skel (F := F) := rfl
theorem k0_part212_eq_skeleton {F : FTy → Type} : k0_part212 (F := F) = Gen.k0_part212_skel (F := F) := rfl
theorem k0_part213_eq_skeleton {F : FTy → Type} : k0_part213 (F := F) = Gen.k0_part213_skel (F := F) := rfl
theorem k0_part214_eq_skeleton {F : FTy → Type} : k0_part214 (F := F) = Gen.k0_part214_skel (F := F) := rfl
theorem k0_part215_eq_skeleton {F : FTy → Type} : k0_part215 (F := F) = Gen.k0_part215_skel (F := F) := rfl
theorem k0_part216_eq_skeleton {F : FTy → Type} : k0_part216 (F := F) = Gen.k0_part216_skel (F := F) := rfl
theorem k0_part217_eq_skeleton {F : FTy → Type} : k0_part217 (F := F) = Gen.k0_part217_skel (F := F) := rfl
theorem k0_part218_eq_skeleton {F : FTy → Type} : k0_part218 (F := F) = Gen.k0_part218_skel (F := F) := rfl
theorem k0_part219_eq_skeleton {F : FTy → Type} : k0_part219 (F := F) = Gen.k0_part219_skel (F := F) := rfl
theorem k0_part220_eq_skeleton {F : FTy → Type} : k0_part220 (F := F) = Gen.k0_part220_skel (F := F) := rfl
theorem k0_part221_eq_skeleton {F : FTy → Type} : k0_part221 (F := F) = Gen.k0_part221_skel (F := F) := rfl
theorem k0_part222_eq_skeleton {F : FTy → Type} : k0_part222 (F := F) = Gen.k0_part222_skel (F := F) := rfl
theorem k0_part223_eq_skeleton {F : FTy → Type} : k0_part223 (F := F) = Gen.k0_part223_skel (F := F) := rfl
theorem k0_part224_eq_skeleton {F : FTy → Type} : k0_part224 (F := F) = Gen.k0_part224_skel (F := F) := rfl
theorem k0_part225_eq_skeleton {F : FTy → Type} : k0_part225 (F := F) = Gen.k0_part225_skel (F := F) := rfl
theorem k0_part226_eq_skeleton {F : FTy → Type} : k0_part226 (F := F) = Gen.k0_part226_skel (F := F) := rfl
theorem k0_part227_eq_skeleton {F : FTy → Type} : k0_part227 (F := F) = Gen.k0_part227_skel (F := F) := rfl
theorem k0_part228_eq_skeleton {F : FTy → Type} : k0_part228 (F := F) = Gen.k0_part228_skel (F := F) := rfl
theorem k0_part229_eq_skeleton {F : FTy → Type} : k0_part229 (F := F) = Gen.k0_part229_skel (F := F) := rfl
theorem k0_part230_eq_skeleton {F : FTy → Type} : k0_part230 (F := F) = Gen.k0_part230_skel (F := F) := rfl
theorem k0_part231_eq_skeleton {F : FTy → Type} : k0_part231 (F := F) = Gen.k0_part231_skel (F := F) := rfl
theorem k0_part232_eq_skeleton {F : FTy → Type} : k0_part232 (F := F) = Gen.k0_part232_skel (F := F) := rfl
theorem k0_part233_eq_skeleton {F : FTy → Type} : k0_part233 (F := F) = Gen.k0_part233_skel (F := F) := rfl
theorem k0_part234_eq_skeleton {F : FTy → Type} : k0_part234 (F := F) = Gen.k0_part234_skel (F := F) := rfl
theorem k0_part235_eq_skeleton {F : FTy → Type} : k0_part235 (F := F) = Gen.k0_part235_skel (F := F) := rfl
theorem k0_part236_eq_skeleton {F : FTy → Type} : k0_part236 (F := F) = Gen.k0_part236_skel (F := F) := rfl
theorem k0_part237_eq_skeleton {F : FTy → Type} : k0_part237 (F := F) = Gen.k0_part237_skel (F := F) := rfl
theorem k0_part238_eq_skeleton {F : FTy → Type} : k0_part238 (F := F) = Gen.k0_part238_skel (F := F) := rfl
theorem k0_part239_eq_skeleton {F : FTy → Type} : k0_part239 (F := F) = Gen.k0_part239_skel (F := F) := rfl
theorem k0_part240_eq_skeleton {F : FTy → Type} : k0_part240 (F := F) = Gen.k0_part240_skel (F := F) := rfl
theorem k0_part241_eq_skeleton {F : FTy → Type} : k0_part241 (F := F) = Gen.k0_part241_skel (F := F) := rfl
theorem k0_part242_eq_skeleton {F : FTy → Type} : k0_part242 (F := F) = Gen.k0_part242_skel (F := F) := rfl
theorem k0_part243_eq_skeleton {F : FTy → Type} : k0_part243 (F := F) = Gen.k0_part243_skel (F := F) := rfl
theorem k0_part244_eq_skeleton {F : FTy → Type} : k0_part244 (F := F) = Gen.k0_part244_skel (F := F) := rfl
theorem k0_part245_eq_skeleton {F : FTy → Type} : k0_part245 (F := F) = Gen.k0_part245_skel (F := F) := rfl
theorem k0_part246_eq_skeleton {F : FTy → Type} : k0_part246 (F := F) = Gen.k0_part246_skel (F := F) := rfl
theorem k0_part247_eq_skeleton {F : FTy → Type} : k0_part247 (F := F) = Gen.k0_part247_skel (F := F) := rfl
theorem k0_part248_eq_skeleton {F : FTy → Type} : k0_part248 (F := F) = Gen.k0_part248_skel (F := F) := rfl
theorem k0_part249_eq_skeleton {F : FTy → Type} : k0_part249 (F := F) = Gen.k0_part249_skel (F := F) := rfl
theorem k0_part250_eq_skeleton {F : FTy → Type} : k0_part250 (F := F) = Gen.k0_part250_skel (F := F) := rfl
theorem k0_part251_eq_skeleton {F : FTy → Type} : k0_part251 (F := F) = Gen.k0_part251_skel (F := F) := rfl
theorem k0_part252_eq_skeleton {F : FTy → Type} : k0_part252 (F := F) = Gen.k0_part252_skel (F := F) := rfl
theorem k0_part253_eq_skeleton {F : FTy → Type} : k0_part253 (F := F) = Gen.k0_part253_skel (F := F) := rfl
theorem k0_part254_eq_skeleton {F : FTy → Type} : k0_part254 (F := F) = Gen.k0_part254_skel (F := F) := rfl
theorem k0_part255_eq_skeleton {F : FTy → Type} : k0_part255 (F := F) = Gen.k0_part255_skel (F := F) := rfl
theorem k0_part256_eq_skeleton {F : FTy → Type} : k0_part256 (F := F) = Gen.k0_part256_skel (F := F) := rfl
theorem k0_part257_eq_skeleton {F : FTy → Type} : k0_part257 (F := F) = Gen.k0_part257_skel (F := F) := rfl
theorem k0_part258_eq_skeleton {F : FTy → Type} : k0_part258 (F := F) = Gen.k0_part258_skel (F := F) := rfl
theorem k0_part259_eq_skeleton {F : FTy → Type} : k0_part259 (F := F) = Gen.k0_part259_skel (F := F) := rfl
theorem k0_part260_eq_skeleton {F : FTy → Type} : k0_part260 (F := F) = Gen.k0_part260_skel (F := F) := rfl
theorem k0_part261_eq_skeleton {F : FTy → Type} : k0_part261 (F := F) = Gen.k0_part261_skel (F := F) := rfl
theorem k0_part262_eq_skeleton {F : FTy → Type} : k0_part262 (F := F) = Gen.k0_part262_skel (F := F) := rfl
theorem k0_part263_eq_skeleton {F : FTy → Type} : k0_part263 (F := F) = Gen.k0_part263_skel (F := F) := rfl
theorem k0_part264_eq_skeleton {F : FTy → Type} : k0_part264 (F := F) = Gen.k0_part264_skel (F := F) := rfl
theorem k0_part265_eq_skeleton {F : FTy → Type} : k0_part265 (F := F) = Gen.k0_part265_skel (F := F) := rfl
theorem k0_part266_eq_skeleton {F : FTy → Type} : k0_part266 (F := F) = Gen.k0_part266_skel (F := F) := rfl
theorem k0_part267_eq_skeleton {F : FTy → Type} : k0_part267 (F := F) = Gen.k0_part267_skel (F := F) := rfl
theorem k0_part268_eq_skeleton {F : FTy → Type} : k0_part268 (F := F) = Gen.k0_part268_skel (F := F) := rfl
theorem k0_part269_eq_skeleton {F : FTy → Type} : k0_part269 (F := F) = Gen.k0_part269_skel (F := F) := rfl
theorem k0_part270_eq_skeleton {F : FTy → Type} : k0_part270 (F := F) = Gen.k0_part270_skel (F := F) := rfl
theorem k0_part271_eq_skeleton {F : FTy → Type} : k0_part271 (F := F) = Gen.k0_part271_skel (F := F) := rfl
theorem k0_part272_eq_skeleton {F : FTy → Type} : k0_part272 (F := F) = Gen.k0_part272_skel (F := F) := rfl

end Cert.KernelIdeal

end
-- ==== Proof.Inv.lean ====
/-
  The vocabulary of one trip of the subcore's loop.

  Trip k (k = 0 … 63) handles the subcore's batch rows 2k and 2k + 1, one per pair of buffers.  For each pair it
  waits for the row of `x` prefetched into the flat buffer, waits (from the second trip on) for the output buffer's
  previous copy-out, overwrites the output buffer's left 64 columns with the row, starts the copy-out of the output
  buffer to the result's row, and (up to the last trip but one) starts the prefetch of the row after next.
  Between trips four copies are in flight: two rows of `x` coming in, two result rows going out.
-/
import proofs.«204673_g16922171147058_cont_7to1_1063_26_alg».proof.Proof.Rows
import proofs.«204673_g16922171147058_cont_7to1_1063_26_alg».proof.Proof.SkelEq
import Idealize.ShloMosaic.Lib.Transfers

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v3_scv : Memref Cert.KernelIdeal.sig Kind.scVector Space.hbm Cert.KernelIdeal.S4096x12800 EltTy.f32)
local notation "tV" => (Memref.whole Cert.KernelIdeal.main_v2_scv : Memref Cert.KernelIdeal.sig Kind.scVector Space.hbm Cert.KernelIdeal.S200x128 EltTy.f32)
local notation "oV" => (Memref.whole Cert.KernelIdeal.main_v4_scv : Memref Cert.KernelIdeal.sig Kind.scVector Space.hbm Cert.KernelIdeal.S4096x200x128 EltTy.f32)
local notation "xb0" => (Memref.whole Cert.KernelIdeal.cc0_scratch0 : Memref Cert.KernelIdeal.sig Kind.scVector Space.vmem Cert.KernelIdeal.S12800 EltTy.f32)
local notation "xb1" => (Memref.whole Cert.KernelIdeal.cc0_scratch1 : Memref Cert.KernelIdeal.sig Kind.scVector Space.vmem Cert.KernelIdeal.S12800 EltTy.f32)
local notation "ob0" => (Memref.whole Cert.KernelIdeal.cc0_scratch2 : Memref Cert.KernelIdeal.sig Kind.scVector Space.vmem Cert.KernelIdeal.S200x128 EltTy.f32)
local notation "ob1" => (Memref.whole Cert.KernelIdeal.cc0_scratch3 : Memref Cert.KernelIdeal.sig Kind.scVector Space.vmem Cert.KernelIdeal.S200x128 EltTy.f32)

/-- The four semaphores of the loop: one per incoming row buffer, one per outgoing result buffer. -/
abbrev sIn0 : DmaSems sig S_ := (cc0_scratch4.slice (Rect.unit (s := S2) ![0] S1.size inb_S2_S1_0)).squeeze S_ squeezes_S1_S_
abbrev sIn1 : DmaSems sig S_ := (cc0_scratch4.slice (Rect.unit (s := S2) ![1] S1.size inb_S2_S1_1)).squeeze S_ squeezes_S1_S_
abbrev sOut0 : DmaSems sig S_ := (cc0_scratch5.slice (Rect.unit (s := S2) ![0] S1.size inb_S2_S1_0)).squeeze S_ squeezes_S1_S_
abbrev sOut1 : DmaSems sig S_ := (cc0_scratch5.slice (Rect.unit (s := S2) ![1] S1.size inb_S2_S1_1)).squeeze S_ squeezes_S1_S_

theorem trips_eq : k0_t1_loop.trips = 64 := by decide

/-! ## The trip's four conditions, by the trip number -/

theorem cond1_pos : ∀ k : Fin k0_t1_loop.trips, 1 ≤ k.val → k0_cond1 k = 1#1 := by decide +kernel
theorem cond1_zero : ∀ k : Fin k0_t1_loop.trips, k.val = 0 → ¬ k0_cond1 k = 1#1 := by decide +kernel
theorem cond3_pos : ∀ k : Fin k0_t1_loop.trips, 1 ≤ k.val → k0_cond3 k = 1#1 := by decide +kernel
theorem cond3_zero : ∀ k : Fin k0_t1_loop.trips, k.val = 0 → ¬ k0_cond3 k = 1#1 := by decide +kernel
theorem cond2_pos : ∀ k : Fin k0_t1_loop.trips, k.val ≤ 62 → k0_cond2 k = 1#1 := by decide +kernel
theorem cond2_last : ∀ k : Fin k0_t1_loop.trips, k.val = 63 → ¬ k0_cond2 k = 1#1 := by decide +kernel
theorem cond4_pos : ∀ k : Fin k0_t1_loop.trips, k.val ≤ 62 → k0_cond4 k = 1#1 := by decide +kernel
theorem cond4_last : ∀ k : Fin k0_t1_loop.trips, k.val = 63 → ¬ k0_cond4 k = 1#1 := by decide +kernel

/-! ## The rows the two conditional waits name: the rows copied out one trip earlier -/

theorem off4_eq : ∀ (i : grid0.Coords) (k : Fin k0_t1_loop.trips), 1 ≤ k.val →
    k0_off4 i k = ![256 * (i 1).val + 128 * (i 0).val + 2 * k.val - 2, 0, 0] := by decide +kernel
theorem off8_eq : ∀ (i : grid0.Coords) (k : Fin k0_t1_loop.trips), 1 ≤ k.val →
    k0_off8 i k = ![256 * (i 1).val + 128 * (i 0).val + 2 * k.val - 1, 0, 0] := by decide +kernel

section Tile

variable (d : Dev nD) (L : grid0.Coords)

/-- A row of the flattened `x`, held by exactly the elements of its one-row slice. -/
abbrev xRowPts (off : Fin 2 → Nat) (h : ∀ a, off a + S1x12800.size a ≤ S4096x12800.size a) (X : Buf (Elt F) (xLoc d)) : sProp 𝕄 :=
  (xRowM off h).view.loc (thr d L) ↦[(xRowM off h).view.set]{fullShare} X
/-- A batch row of the result, held by exactly the elements of its one-row slice. -/
abbrev oRowPts (off : Fin 3 → Nat) (h : ∀ a, off a + S1x200x128.size a ≤ S4096x200x128.size a) (f : Buf (Elt F) (oLoc d)) : sProp 𝕄 :=
  (oRowM off h).view.loc (thr d L) ↦[(oRowM off h).view.set]{fullShare} f

/-- The result after the output buffer `ob` (holding `c`) has landed in the row at `off`, over contents `f0`. -/
abbrev landedRow (ob : Memref sig .scVector .vmem S200x128 .f32) (off : Fin 3 → Nat) (h : ∀ a, off a + S1x200x128.size a ≤ S4096x200x128.size a)
    (f0 : Buf (Elt F) (oLoc d)) (c : Buf (Elt F) (ob.view.loc (thr d L))) : Buf (Elt F) (oLoc d) :=
  (oRowM off h).view.writes (Elt F) f0 [⟨Rect.whole S200x128, ReadAs.same.apply (View.read (Elt F) ob.view c)⟩]

/-- The flat buffer `xb` after the row at `off` of the flattened `x` has landed in it. -/
abbrev landedX (xb : Memref sig .scVector .vmem S12800 .f32) (off : Fin 2 → Nat) (h : ∀ a, off a + S1x12800.size a ≤ S4096x12800.size a)
    (X : Buf (Elt F) (xLoc d)) (c : Buf (Elt F) (xb.view.loc (thr d L))) : Buf (Elt F) (xb.view.loc (thr d L)) :=
  View.write (Elt F) xb.view c (ReadAs.same.apply (View.read (Elt F) (xRowM off h).view X)) Finset.univ

/-- A row of `x` on its way into the flat buffer `xb`: when it lands the buffer holds `c`, and the row comes back. -/
abbrev xFlight (xb : Memref sig .scVector .vmem S12800 .f32) (sm : DmaSem sig) (X : Buf (Elt F) (xLoc d))
    (off : Fin 2 → Nat) (h : ∀ a, off a + S1x12800.size a ≤ S4096x12800.size a) (c : Buf (Elt F) (xb.view.loc (thr d L))) : sProp 𝕄 :=
  Transfers.Flight (countersEmb (U := UU)) (thr d L) (SemLoc.dma sm) default 409600
    iprop((xb.view.loc (thr d L) ↦{fullShare} c) ∗ xRowPts d L off h X)

/-- The output buffer `ob` (holding `c`) on its way out to the result's row at `off`. -/
abbrev oFlight (ob : Memref sig .scVector .vmem S200x128 .f32) (sm : DmaSem sig) (f0 : Buf (Elt F) (oLoc d))
    (off : Fin 3 → Nat) (h : ∀ a, off a + S1x200x128.size a ≤ S4096x200x128.size a) (c : Buf (Elt F) (ob.view.loc (thr d L))) : sProp 𝕄 :=
  Transfers.Flight (countersEmb (U := UU)) (thr d L) (SemLoc.dma sm) default 819200
    iprop(oRowPts d L off h (landedRow d L ob off h f0 c) ∗ (ob.view.loc (thr d L) ↦[ob.view.set]{fullShare} c))

end Tile

end Cert.Proof.KernelIdealP

end
-- ==== Proof.Pieces.lean ====
/-
  The stores of one batch row as a list of pieces, and what the two scratch buffers hold.

  For each batch row the task reads the flat buffer (12800 numbers) sixteen at a time and stores read n
  (n = 0 … 799) into the 200 × 128 buffer at row n / 4, columns 16·(n % 4) … 16·(n % 4) + 15: entry (l, j), j < 64,
  receives position 64·l + j of the flat buffer.  The stores are kept as a list, the last one first.
-/
import proofs.«204673_g16922171147058_cont_7to1_1063_26_alg».proof.Proof.Rows
import Idealize.ShloMosaic.Lib.Writes
import Idealize.ShloMosaic.Lib.ValueIdx

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v3_scv : Memref Cert.KernelIdeal.sig Kind.scVector Space.hbm Cert.KernelIdeal.S4096x12800 EltTy.f32)
local notation "tV" => (Memref.whole Cert.KernelIdeal.main_v2_scv : Memref Cert.KernelIdeal.sig Kind.scVector Space.hbm Cert.KernelIdeal.S200x128 EltTy.f32)
local notation "oV" => (Memref.whole Cert.KernelIdeal.main_v4_scv : Memref Cert.KernelIdeal.sig Kind.scVector Space.hbm Cert.KernelIdeal.S4096x200x128 EltTy.f32)
local notation "xb0" => (Memref.whole Cert.KernelIdeal.cc0_scratch0 : Memref Cert.KernelIdeal.sig Kind.scVector Space.vmem Cert.KernelIdeal.S12800 EltTy.f32)
local notation "xb1" => (Memref.whole Cert.KernelIdeal.cc0_scratch1 : Memref Cert.KernelIdeal.sig Kind.scVector Space.vmem Cert.KernelIdeal.S12800 EltTy.f32)
local notation "ob0" => (Memref.whole Cert.KernelIdeal.cc0_scratch2 : Memref Cert.KernelIdeal.sig Kind.scVector Space.vmem Cert.KernelIdeal.S200x128 EltTy.f32)
local notation "ob1" => (Memref.whole Cert.KernelIdeal.cc0_scratch3 : Memref Cert.KernelIdeal.sig Kind.scVector Space.vmem Cert.KernelIdeal.S200x128 EltTy.f32)

/-! ## The stores of one batch row as a list of pieces -/

/-- What a store writes: the 16 numbers read, viewed as one row of 16. -/
def pay (v : Vec F S16 .f32) : FVec F S1x16 .f32 :=
  shapeCast S1x16 (shapeCast S16 v shapeCasts_S16_S16) shapeCasts_S16_S1x16

/-- Store `n` lands inside the 200 × 128 buffer: row n / 4, columns 16·(n % 4) … 16·(n % 4) + 15. -/
theorem piece_inb (n : ℕ) (hn : n < 800) :
    ∀ a, (![n / 4, 16 * (n % 4)] : Fin 2 → Nat) a + S1x16.size a ≤ S200x128.size a :=
  Rect.inb₂ (by show n / 4 + 1 ≤ 200; omega) (by show 16 * (n % 4) + 16 ≤ 128; omega)

/-- Load `n` reads inside the flat buffer: positions 16·n … 16·n + 15. -/
theorem load_inb (n : ℕ) (hn : n < 800) : ∀ a, (![16 * n] : Fin 1 → Nat) a + S16.size a ≤ S12800.size a :=
  Rect.inb₁ (by show 16 * n + 16 ≤ 12800; omega)

/-- Store `n` of a batch row: the 1 × 16 rectangle at (n / 4, 16·(n % 4)) receives positions 16·n … 16·n + 15 of the
    flat buffer. -/
def piece (xb : Memref sig .scVector .vmem S12800 .f32) (cx : xb.view.ty.Contents (Elt F)) (n : ℕ) (hn : n < 800) :
    View.Piece (Elt F) S200x128 .f32 :=
  ⟨Rect.unit (s := S200x128) ![n / 4, 16 * (n % 4)] S1x16.size (piece_inb n hn),
    pay (View.readAt (Elt F) xb.view (Rect.unit (s := S12800) ![16 * n] S16.size (load_inb n hn)).toLoadRect cx)⟩

/-- The first `k` stores of a batch row, the last one first. -/
def piecesTo (xb : Memref sig .scVector .vmem S12800 .f32) (cx : xb.view.ty.Contents (Elt F)) :
    (k : ℕ) → k ≤ 800 → List (View.Piece (Elt F) S200x128 .f32)
  | 0, _ => []
  | k + 1, h => piece xb cx k (by omega) :: piecesTo xb cx k (by omega)

/-! ## What the buffers hold, batch row by batch row -/

/-- The flat buffer holds row `r` of the flattened `x`. -/
def XRow {d : Dev nD} (xb : Memref sig .scVector .vmem S12800 .f32) (cx : xb.view.ty.Contents (Elt F))
    (X : Buf (Elt F) (xLoc d)) (r : ℕ) (hr : r < 4096) : Prop :=
  ∀ j : S12800.Idx, xb.view.read (Elt F) cx j = X (ValueIdx.ix2 (⟨r, hr⟩ : Fin 4096) (j 0))

/-- The 200 × 128 buffer holds batch row `r` of the result. -/
def IsRow {d : Dev nD} (ob : Memref sig .scVector .vmem S200x128 .f32) (c : ob.view.ty.Contents (Elt F))
    (X : Buf (Elt F) (xLoc d)) (Tm : Buf (Elt F) (tLoc d)) (r : ℕ) (hr : r < 4096) : Prop :=
  ∀ y : S200x128.Idx, ob.view.read (Elt F) c y = Spec.Gout X Tm (ValueIdx.ix3 (⟨r, hr⟩ : Fin 4096) (y 0) (y 1))

/-- The right 64 columns of the 200 × 128 buffer hold the template's. -/
def RightT {d : Dev nD} (ob : Memref sig .scVector .vmem S200x128 .f32) (c : ob.view.ty.Contents (Elt F))
    (Tm : Buf (Elt F) (tLoc d)) : Prop :=
  ∀ y : S200x128.Idx, 64 ≤ (y 1).val → ob.view.read (Elt F) c y = Tm y

end Cert.Proof.KernelIdealP

end
-- ==== Proof.Trips.lean ====
/-
  One trip of the loop, as three statements: the first trip (no copy-out to wait for yet), a middle trip, and the
  last trip (no row left to prefetch).  Each says what the trip needs and what it leaves: the rows of `x` it waited
  for come back; each output buffer, its left 64 columns overwritten by 800 stores with the row just landed, is on
  its way out to this trip's result row; the rows copied out one trip earlier have landed.
-/
import proofs.«204673_g16922171147058_cont_7to1_1063_26_alg».proof.Proof.Inv
import proofs.«204673_g16922171147058_cont_7to1_1063_26_alg».proof.Proof.Pieces

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v3_scv : Memref Cert.KernelIdeal.sig Kind.scVector Space.hbm Cert.KernelIdeal.S4096x12800 EltTy.f32)
local notation "tV" => (Memref.whole Cert.KernelIdeal.main_v2_scv : Memref Cert.KernelIdeal.sig Kind.scVector Space.hbm Cert.KernelIdeal.S200x128 EltTy.f32)
local notation "oV" => (Memref.whole Cert.KernelIdeal.main_v4_scv : Memref Cert.KernelIdeal.sig Kind.scVector Space.hbm Cert.KernelIdeal.S4096x200x128 EltTy.f32)
local notation "xb0" => (Memref.whole Cert.KernelIdeal.cc0_scratch0 : Memref Cert.KernelIdeal.sig Kind.scVector Space.vmem Cert.KernelIdeal.S12800 EltTy.f32)
local notation "xb1" => (Memref.whole Cert.KernelIdeal.cc0_scratch1 : Memref Cert.KernelIdeal.sig Kind.scVector Space.vmem Cert.KernelIdeal.S12800 EltTy.f32)
local notation "ob0" => (Memref.whole Cert.KernelIdeal.cc0_scratch2 : Memref Cert.KernelIdeal.sig Kind.scVector Space.vmem Cert.KernelIdeal.S200x128 EltTy.f32)
local notation "ob1" => (Memref.whole Cert.KernelIdeal.cc0_scratch3 : Memref Cert.KernelIdeal.sig Kind.scVector Space.vmem Cert.KernelIdeal.S200x128 EltTy.f32)

variable [FloatOps F]

/-- Trip `k` of the loop at grid point `L`, on the whole arrays and the subcore's scratch. -/
abbrev tripProg (L : grid0.Coords) (v2 : BitVec 32) (k : Fin k0_t1_loop.trips) :=
  k0_t1_body (F := F) L xV (Memref.isWhole_whole _) tV (Memref.isWhole_whole _) oV (Memref.isWhole_whole _)
    xb0 (Memref.isWhole_whole _) xb1 (Memref.isWhole_whole _) ob0 (Memref.isWhole_whole _) ob1 (Memref.isWhole_whole _)
    cc0_scratch4 cc0_scratch5 cc0_scoped0 cc0_scoped1 v2 k ()

/-- Both output buffers on their way out to trip `k`'s two rows, each holding its earlier contents overwritten by a list of stores
    that is the 800 stores of the row that had landed in its flat buffer. -/
abbrev outgoing (d : Dev nD) (L : grid0.Coords) (k : Fin k0_t1_loop.trips) (f0 : Buf (Elt F) (oLoc d))
    (cA : Buf (Elt F) ((xb0).view.loc (thr d L))) (cB : Buf (Elt F) ((xb1).view.loc (thr d L)))
    (c0 : Buf (Elt F) ((ob0).view.loc (thr d L))) (c1 : Buf (Elt F) ((ob1).view.loc (thr d L))) : sProp 𝕄 :=
  iprop(∃ (LA LB : List (View.Piece (Elt F) S200x128 .f32)),
    (oFlight d L ob0 (sOut0).sem f0 (k0_off5 L k) (k0_off5_inb L k) ((ob0).view.writes (Elt F) c0 LA)
      ∗ oFlight d L ob1 (sOut1).sem f0 (k0_off9 L k) (k0_off9_inb L k) ((ob1).view.writes (Elt F) c1 LB))
    ∗ ⌜LA = piecesTo xb0 cA 800 le_rfl⌝ ∗ ⌜LB = piecesTo xb1 cB 800 le_rfl⌝)

/-- The two rows after next on their way into the flat buffers. -/
abbrev incoming (d : Dev nD) (L : grid0.Coords) (k : Fin k0_t1_loop.trips) (h2 : k0_cond2 k = 1#1) (h4 : k0_cond4 k = 1#1) (X : Buf (Elt F) (xLoc d))
    (cA : Buf (Elt F) ((xb0).view.loc (thr d L))) (cB : Buf (Elt F) ((xb1).view.loc (thr d L))) : sProp 𝕄 :=
  iprop(xFlight d L xb0 (sIn0).sem X (k0_off6 L k) (k0_off6_inb L k h2) (landedX d L xb0 (k0_off6 L k) (k0_off6_inb L k h2) X cA)
    ∗ xFlight d L xb1 (sIn1).sem X (k0_off10 L k) (k0_off10_inb L k h4) (landedX d L xb1 (k0_off10 L k) (k0_off10_inb L k h4) X cB))

/-- The first trip: the output buffers are in hand, their semaphores at zero. -/
def TripFirst : Prop :=
  ∀ (d : Dev nD) (L : grid0.Coords) (O : CellTallies nD τ sig (HIx 1)) (W : Waits sig (HIx 1)) (X : Buf (Elt F) (xLoc d)) (f0 : Buf (Elt F) (oLoc d))
    (k : Fin k0_t1_loop.trips) (hk : k.val = 0) (v2 : BitVec 32)
    (offA : Fin 2 → Nat) (hA : ∀ a, offA a + S1x12800.size a ≤ S4096x12800.size a) (cA : Buf (Elt F) ((xb0).view.loc (thr d L)))
    (offB : Fin 2 → Nat) (hB : ∀ a, offB a + S1x12800.size a ≤ S4096x12800.size a) (cB : Buf (Elt F) ((xb1).view.loc (thr d L)))
    (c0 : Buf (Elt F) ((ob0).view.loc (thr d L))) (c1 : Buf (Elt F) ((ob1).view.loc (thr d L))),
    (iprop(Transfers.MayWaits (thr d L) (none : HIx 1) O
        ∗ xFlight d L xb0 (sIn0).sem X offA hA cA ∗ xFlight d L xb1 (sIn1).sem X offB hB cB
        ∗ ((ob0).view.loc (thr d L) ↦{fullShare} c0) ∗ ((ob1).view.loc (thr d L) ↦{fullShare} c1)
        ∗ semVal (thr d L, SemLoc.dma (sOut0).sem) 0 ∗ semVal (thr d L, SemLoc.dma (sOut1).sem) 0
        ∗ oRowPts d L (k0_off5 L k) (k0_off5_inb L k) f0 ∗ oRowPts d L (k0_off9 L k) (k0_off9_inb L k) f0
        ∗ xRowPts d L (k0_off6 L k) (k0_off6_inb L k (cond2_pos k (by omega))) X ∗ xRowPts d L (k0_off10 L k) (k0_off10_inb L k (cond4_pos k (by omega))) X
        ∗ owes (thr d L) O W) : sProp 𝕄)
      ⊢ wp frame (wpE (defs₀ (F := F)) 𝒱₀ (thr d L) none) Set.univ (tripProg (F := F) L v2 k)
          fun _ => iprop(xRowPts d L offA hA X ∗ xRowPts d L offB hB X
            ∗ outgoing d L k f0 cA cB c0 c1
            ∗ incoming d L k (cond2_pos k (by omega)) (cond4_pos k (by omega)) X cA cB
            ∗ ∃ W', ⌜∀ p ∈ W', p ∈ W ∨ p.2 = none⌝ ∗ owes (thr d L) O W')

/-- A middle trip: four copies in flight at its start, four at its end. -/
def TripMid : Prop :=
  ∀ (d : Dev nD) (L : grid0.Coords) (O : CellTallies nD τ sig (HIx 1)) (W : Waits sig (HIx 1)) (X : Buf (Elt F) (xLoc d)) (f0 : Buf (Elt F) (oLoc d))
    (k : Fin k0_t1_loop.trips) (hk1 : 1 ≤ k.val) (hk2 : k.val ≤ 62) (v2 : BitVec 32)
    (offA : Fin 2 → Nat) (hA : ∀ a, offA a + S1x12800.size a ≤ S4096x12800.size a) (cA : Buf (Elt F) ((xb0).view.loc (thr d L)))
    (offB : Fin 2 → Nat) (hB : ∀ a, offB a + S1x12800.size a ≤ S4096x12800.size a) (cB : Buf (Elt F) ((xb1).view.loc (thr d L)))
    (off0 : Fin 3 → Nat) (h0 : ∀ a, off0 a + S1x200x128.size a ≤ S4096x200x128.size a) (c0 : Buf (Elt F) ((ob0).view.loc (thr d L)))
    (off1 : Fin 3 → Nat) (h1 : ∀ a, off1 a + S1x200x128.size a ≤ S4096x200x128.size a) (c1 : Buf (Elt F) ((ob1).view.loc (thr d L))),
    (iprop(Transfers.MayWaits (thr d L) (none : HIx 1) O
        ∗ xFlight d L xb0 (sIn0).sem X offA hA cA ∗ xFlight d L xb1 (sIn1).sem X offB hB cB
        ∗ oFlight d L ob0 (sOut0).sem f0 off0 h0 c0 ∗ oFlight d L ob1 (sOut1).sem f0 off1 h1 c1
        ∗ oRowPts d L (k0_off5 L k) (k0_off5_inb L k) f0 ∗ oRowPts d L (k0_off9 L k) (k0_off9_inb L k) f0
        ∗ xRowPts d L (k0_off6 L k) (k0_off6_inb L k (cond2_pos k hk2)) X ∗ xRowPts d L (k0_off10 L k) (k0_off10_inb L k (cond4_pos k hk2)) X
        ∗ owes (thr d L) O W) : sProp 𝕄)
      ⊢ wp frame (wpE (defs₀ (F := F)) 𝒱₀ (thr d L) none) Set.univ (tripProg (F := F) L v2 k)
          fun _ => iprop(xRowPts d L offA hA X ∗ xRowPts d L offB hB X
            ∗ oRowPts d L off0 h0 (landedRow d L ob0 off0 h0 f0 c0) ∗ oRowPts d L off1 h1 (landedRow d L ob1 off1 h1 f0 c1)
            ∗ outgoing d L k f0 cA cB c0 c1
            ∗ incoming d L k (cond2_pos k hk2) (cond4_pos k hk2) X cA cB
            ∗ ∃ W', ⌜∀ p ∈ W', p ∈ W ∨ p.2 = none⌝ ∗ owes (thr d L) O W')

/-- The last trip: nothing left to prefetch; the flat buffers and their semaphores come back in hand. -/
def TripLast : Prop :=
  ∀ (d : Dev nD) (L : grid0.Coords) (O : CellTallies nD τ sig (HIx 1)) (W : Waits sig (HIx 1)) (X : Buf (Elt F) (xLoc d)) (f0 : Buf (Elt F) (oLoc d))
    (k : Fin k0_t1_loop.trips) (hk : k.val = 63) (v2 : BitVec 32)
    (offA : Fin 2 → Nat) (hA : ∀ a, offA a + S1x12800.size a ≤ S4096x12800.size a) (cA : Buf (Elt F) ((xb0).view.loc (thr d L)))
    (offB : Fin 2 → Nat) (hB : ∀ a, offB a + S1x12800.size a ≤ S4096x12800.size a) (cB : Buf (Elt F) ((xb1).view.loc (thr d L)))
    (off0 : Fin 3 → Nat) (h0 : ∀ a, off0 a + S1x200x128.size a ≤ S4096x200x128.size a) (c0 : Buf (Elt F) ((ob0).view.loc (thr d L)))
    (off1 : Fin 3 → Nat) (h1 : ∀ a, off1 a + S1x200x128.size a ≤ S4096x200x128.size a) (c1 : Buf (Elt F) ((ob1).view.loc (thr d L))),
    (iprop(Transfers.MayWaits (thr d L) (none : HIx 1) O
        ∗ xFlight d L xb0 (sIn0).sem X offA hA cA ∗ xFlight d L xb1 (sIn1).sem X offB hB cB
        ∗ oFlight d L ob0 (sOut0).sem f0 off0 h0 c0 ∗ oFlight d L ob1 (sOut1).sem f0 off1 h1 c1
        ∗ oRowPts d L (k0_off5 L k) (k0_off5_inb L k) f0 ∗ oRowPts d L (k0_off9 L k) (k0_off9_inb L k) f0
        ∗ owes (thr d L) O W) : sProp 𝕄)
      ⊢ wp frame (wpE (defs₀ (F := F)) 𝒱₀ (thr d L) none) Set.univ (tripProg (F := F) L v2 k)
          fun _ => iprop(xRowPts d L offA hA X ∗ xRowPts d L offB hB X
            ∗ oRowPts d L off0 h0 (landedRow d L ob0 off0 h0 f0 c0) ∗ oRowPts d L off1 h1 (landedRow d L ob1 off1 h1 f0 c1)
            ∗ outgoing d L k f0 cA cB c0 c1
            ∗ ((xb0).view.loc (thr d L) ↦{fullShare} cA) ∗ ((xb1).view.loc (thr d L) ↦{fullShare} cB)
            ∗ semVal (thr d L, SemLoc.dma (sIn0).sem) 0 ∗ semVal (thr d L, SemLoc.dma (sIn1).sem) 0
            ∗ ∃ W', ⌜∀ p ∈ W', p ∈ W ∨ p.2 = none⌝ ∗ owes (thr d L) O W')

end Cert.Proof.KernelIdealP

end
-- ==== Proof.Value.lean ====
/-
  What the stores and copies of one batch row leave in the buffers, read entry by entry.

  The 800 stores of a batch row write the flat buffer's 12800 numbers into the left 64 columns of the 200 × 128
  buffer: store n covers row n / 4, columns 16·(n % 4) … 16·(n % 4) + 15, with positions 16·n … 16·n + 15, so entry
  (l, j), j < 64, is covered by exactly the store n = 4·l + j / 16 and receives position 16·n + j % 16 = 64·l + j; no
  store touches a column j ≥ 64.  A copy of a whole row (of the flattened `x` into the flat buffer, of the template
  into the 200 × 128 buffer, of that buffer into a batch row of the result) leaves the source's numbers at the
  same row-major positions; the one-row slices of the big arrays place entry (l, j) at (r, l, j) and position p at (r, p).
-/
import proofs.«204673_g16922171147058_cont_7to1_1063_26_alg».proof.Proof.Pieces
import Idealize.ShloMosaic.Lib.Writes
import Idealize.ShloMosaic.Lib.Pipeline.Value
import Idealize.ShloMosaic.Lib.ValueIdx
import Idealize.ShloMosaic.Lib.Tactic

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v3_scv : Memref Cert.KernelIdeal.sig Kind.scVector Space.hbm Cert.KernelIdeal.S4096x12800 EltTy.f32)
local notation "tV" => (Memref.whole Cert.KernelIdeal.main_v2_scv : Memref Cert.KernelIdeal.sig Kind.scVector Space.hbm Cert.KernelIdeal.S200x128 EltTy.f32)
local notation "oV" => (Memref.whole Cert.KernelIdeal.main_v4_scv : Memref Cert.KernelIdeal.sig Kind.scVector Space.hbm Cert.KernelIdeal.S4096x200x128 EltTy.f32)
local notation "xb0" => (Memref.whole Cert.KernelIdeal.cc0_scratch0 : Memref Cert.KernelIdeal.sig Kind.scVector Space.vmem Cert.KernelIdeal.S12800 EltTy.f32)
local notation "xb1" => (Memref.whole Cert.KernelIdeal.cc0_scratch1 : Memref Cert.KernelIdeal.sig Kind.scVector Space.vmem Cert.KernelIdeal.S12800 EltTy.f32)
local notation "ob0" => (Memref.whole Cert.KernelIdeal.cc0_scratch2 : Memref Cert.KernelIdeal.sig Kind.scVector Space.vmem Cert.KernelIdeal.S200x128 EltTy.f32)
local notation "ob1" => (Memref.whole Cert.KernelIdeal.cc0_scratch3 : Memref Cert.KernelIdeal.sig Kind.scVector Space.vmem Cert.KernelIdeal.S200x128 EltTy.f32)

/-- The pieces of `piecesTo … k` are the stores 0 … k − 1. -/
theorem mem_piecesTo (xb : Memref sig .scVector .vmem S12800 .f32) (cx : xb.view.ty.Contents (Elt F)) :
    ∀ (k : ℕ) (h : k ≤ 800) (p : View.Piece (Elt F) S200x128 .f32),
      p ∈ piecesTo xb cx k h ↔ ∃ n, ∃ hn : n < k, p = piece xb cx n (by omega)
  | 0, _, p => by
    rw [piecesTo]
    exact ⟨fun hp => absurd hp List.not_mem_nil, fun ⟨n, hn, _⟩ => absurd hn (Nat.not_lt_zero n)⟩
  | k + 1, h, p => by
    rw [piecesTo, List.mem_cons, mem_piecesTo xb cx k (by omega) p]
    constructor
    · rintro (rfl | ⟨n, hn, rfl⟩)
      · exact ⟨k, by omega, rfl⟩
      · exact ⟨n, by omega, rfl⟩
    · rintro ⟨n, hn, rfl⟩
      by_cases e : n = k
      · subst e; exact Or.inl rfl
      · exact Or.inr ⟨n, by omega, rfl⟩

/-- Position 64·l + j % 64 of the flat buffer, for an entry (l, j) of the 200 × 128 buffer. -/
abbrev flatIx (y : S200x128.Idx) : S12800.Idx :=
  ValueIdx.ix1 (⟨64 * (y 0).val + (y 1).val % 64, by
    have h200 : (y 0).val < 200 := (y 0).isLt
    have := Nat.mod_lt (y 1).val (show 0 < 64 by decide)
    omega⟩ : Fin 12800)

/-- What the 800 stores leave, as one function of the entry: the flat buffer's number on the left 64 columns. -/
def leftG (ob : Memref sig .scVector .vmem S200x128 .f32) (c0 : ob.view.ty.Contents (Elt F))
    (xb : Memref sig .scVector .vmem S12800 .f32) (cx : xb.view.ty.Contents (Elt F)) : S200x128.Idx → Elt F .f32 :=
  fun y => if (y 1).val < 64 then xb.view.read (Elt F) cx (flatIx y) else ob.view.read (Elt F) c0 y

/-- Store `n`'s payload at its own index is the flat buffer's number at position 16·n + (the column within the 16). -/
theorem piece_apply (xb : Memref sig .scVector .vmem S12800 .f32) (cx : xb.view.ty.Contents (Elt F)) (n : ℕ) (hn : n < 800)
    (x : S1x16.Idx) :
    (piece xb cx n hn).2 x = xb.view.read (Elt F) cx (ValueIdx.ix1 (⟨16 * n + (x 1).val, by
      have : (x 1).val < 16 := (x 1).isLt
      omega⟩ : Fin 12800)) := by
  have hx0 : (x 0).val < 1 := (x 0).isLt
  have hx1 : (x 1).val < 16 := (x 1).isLt
  show pay (View.readAt (Elt F) xb.view (Rect.unit (s := S12800) ![16 * n] S16.size (load_inb n hn)).toLoadRect cx) x = _
  unfold pay
  rw [shapeCast_self]
  refine (shapeCast_apply _ shapeCasts_S16_S1x16 x (ValueIdx.ix1 (⟨(x 1).val, hx1⟩ : Fin 16)) ?_).trans ?_
  · have h1 : ((⟨1, ![16]⟩ : Shape).rowMajor (ValueIdx.ix1 (⟨(x 1).val, hx1⟩ : Fin 16))).val = (x 1).val :=
      Shape.rowMajor_val_one _
    have h2 : ((⟨2, ![1, 16]⟩ : Shape).rowMajor x).val = (x 0).val * 16 + (x 1).val := Shape.rowMajor_val_two x
    show ((⟨1, ![16]⟩ : Shape).rowMajor (ValueIdx.ix1 (⟨(x 1).val, hx1⟩ : Fin 16))).val = ((⟨2, ![1, 16]⟩ : Shape).rowMajor x).val
    rw [h1, h2]
    omega
  · show View.read (Elt F) xb.view cx ((Rect.unit (s := S12800) ![16 * n] S16.size (load_inb n hn)).toLoadRect.idx
        (ValueIdx.ix1 (⟨(x 1).val, hx1⟩ : Fin 16))) = _
    refine congrArg (xb.view.read (Elt F) cx) (funext fun a => Fin.ext ?_)
    match a with
    | ⟨0, _⟩ =>
      show 16 * n + 1 * (x 1).val = 16 * n + (x 1).val
      omega

/-- Every store's payload agrees with `leftG` on the store's rectangle. -/
theorem piece_agrees (ob : Memref sig .scVector .vmem S200x128 .f32) (c0 : ob.view.ty.Contents (Elt F))
    (xb : Memref sig .scVector .vmem S12800 .f32) (cx : xb.view.ty.Contents (Elt F)) (n : ℕ) (hn : n < 800)
    (x : S1x16.Idx) :
    (piece xb cx n hn).2 x = leftG ob c0 xb cx ((piece xb cx n hn).1.emb x) := by
  rw [piece_apply]
  have hx0 : (x 0).val < 1 := (x 0).isLt
  have hx1 : (x 1).val < 16 := (x 1).isLt
  have e0 : (((piece xb cx n hn).1.emb x) 0).val = n / 4 + 1 * (x 0).val := rfl
  have e1 : (((piece xb cx n hn).1.emb x) 1).val = 16 * (n % 4) + 1 * (x 1).val := rfl
  unfold leftG
  rw [if_pos (by rw [e1]; omega)]
  refine congrArg (xb.view.read (Elt F) cx) (funext fun a => Fin.ext ?_)
  match a with
  | ⟨0, _⟩ =>
    show 16 * n + (x 1).val = 64 * (((piece xb cx n hn).1.emb x) 0).val + (((piece xb cx n hn).1.emb x) 1).val % 64
    rw [e0, e1]
    omega

/-- THE BUFFER AFTER THE 800 STORES: on the left 64 columns entry (l, j) holds the flat buffer's number at
    position 64·l + j; the right 64 columns keep what they held. -/
theorem read_after (ob : Memref sig .scVector .vmem S200x128 .f32) (c0 : ob.view.ty.Contents (Elt F))
    (xb : Memref sig .scVector .vmem S12800 .f32) (cx : xb.view.ty.Contents (Elt F)) (y : S200x128.Idx) :
    ob.view.read (Elt F) (ob.view.writes (Elt F) c0 (piecesTo xb cx 800 le_rfl)) y
      = if (y 1).val < 64 then xb.view.read (Elt F) cx (flatIx y) else ob.view.read (Elt F) c0 y := by
  have hy0 : (y 0).val < 200 := (y 0).isLt
  have hy1 : (y 1).val < 128 := (y 1).isLt
  by_cases hy : (y 1).val < 64
  · have hn : 4 * (y 0).val + (y 1).val / 16 < 800 := by omega
    refine View.read_writes_apply_of_pieces ob.view c0 (leftG ob c0 xb cx) (piecesTo xb cx 800 le_rfl) ?_ y ?_
    · intro p hp x
      obtain ⟨n, hn', rfl⟩ := (mem_piecesTo xb cx 800 le_rfl p).1 hp
      exact piece_agrees ob c0 xb cx n hn' x
    · refine ⟨piece xb cx _ hn, (mem_piecesTo xb cx 800 le_rfl _).2 ⟨_, hn, rfl⟩, ?_⟩
      show y ∈ (Rect.unit (s := S200x128) ![(4 * (y 0).val + (y 1).val / 16) / 4, 16 * ((4 * (y 0).val + (y 1).val / 16) % 4)] S1x16.size (piece_inb _ hn)).set
      rw [Rect.mem_set_unit]
      intro a
      match a with
      | ⟨0, _⟩ =>
        show (4 * (y 0).val + (y 1).val / 16) / 4 ≤ (y 0).val ∧ (y 0).val < (4 * (y 0).val + (y 1).val / 16) / 4 + 1
        omega
      | ⟨1, _⟩ =>
        show 16 * ((4 * (y 0).val + (y 1).val / 16) % 4) ≤ (y 1).val ∧ (y 1).val < 16 * ((4 * (y 0).val + (y 1).val / 16) % 4) + 16
        omega
  · rw [if_neg hy]
    refine View.read_writes_apply_of_forall_not_mem ob.view c0 y (piecesTo xb cx 800 le_rfl) ?_
    intro p hp
    obtain ⟨n, hn', rfl⟩ := (mem_piecesTo xb cx 800 le_rfl p).1 hp
    show y ∉ (Rect.unit (s := S200x128) ![n / 4, 16 * (n % 4)] S1x16.size (piece_inb n hn')).set
    rw [Rect.mem_set_unit]
    intro hm
    have h1 := hm ⟨1, by decide⟩
    have h1' : 16 * (n % 4) ≤ (y 1).val ∧ (y 1).val < 16 * (n % 4) + 16 := h1
    omega

/-! ## Row facts -/

/-- After the 800 stores the buffer holds batch row `r` of the result, given that the flat buffer held row `r` of
    the flattened `x` and the right 64 columns held the template's; and the right columns still do. -/
theorem isRow_after {d : Dev nD} {ob : Memref sig .scVector .vmem S200x128 .f32} {c0 : ob.view.ty.Contents (Elt F)}
    {xb : Memref sig .scVector .vmem S12800 .f32} {cx : xb.view.ty.Contents (Elt F)}
    {X : Buf (Elt F) (xLoc d)} {Tm : Buf (Elt F) (tLoc d)} {r : ℕ} {hr : r < 4096}
    (hX : XRow xb cx X r hr) (hT : RightT ob c0 Tm) :
    IsRow ob (ob.view.writes (Elt F) c0 (piecesTo xb cx 800 le_rfl)) X Tm r hr
      ∧ RightT ob (ob.view.writes (Elt F) c0 (piecesTo xb cx 800 le_rfl)) Tm := by
  constructor
  · intro y
    have hy1 : (y 1).val < 128 := (y 1).isLt
    rw [read_after]
    by_cases hy : (y 1).val < 64
    · rw [if_pos hy]
      refine (hX (flatIx y)).trans ?_
      unfold Spec.Gout
      exact (if_pos hy).symm
    · rw [if_neg hy, hT y (by omega)]
      unfold Spec.Gout
      exact (congrArg Tm (ValueIdx.eq_ix2 y)).trans (if_neg hy).symm
  · intro y hy
    rw [read_after, if_neg (by omega)]
    exact hT y hy

/-- A row of the flattened `x` copied whole into the flat buffer: the buffer holds that row. -/
theorem xrow_landed {d : Dev nD} (xb : Memref sig .scVector .vmem S12800 .f32) (cprev : xb.view.ty.Contents (Elt F))
    (X : Buf (Elt F) (xLoc d)) (off : Fin 2 → Nat) (h : ∀ a, off a + S1x12800.size a ≤ S4096x12800.size a)
    (r : ℕ) (hr : r < 4096) (hoff : off = ![r, 0]) :
    XRow xb (View.write (Elt F) xb.view cprev (ReadAs.same.apply (View.read (Elt F) (xRowM off h).view X)) Finset.univ) X r hr := by
  subst hoff
  intro j
  have hj : (j 0).val < 12800 := (j 0).isLt
  rw [View.read_write_univ]
  show X ((Rect.unit (s := S4096x12800) ![r, 0] S1x12800.size h).emb
      (Shape.reshapeEquiv squeezes_S1x12800_S12800.numel_eq j)) = _
  have e : Shape.reshapeEquiv squeezes_S1x12800_S12800.numel_eq j
      = (ValueIdx.ix2 (⟨0, Nat.one_pos⟩ : Fin 1) (⟨(j 0).val, hj⟩ : Fin 12800) : S1x12800.Idx) := by
    refine Shape.reshapeEquiv_eq_of_rowMajor _ ?_
    have h2 : ((⟨2, ![1, 12800]⟩ : Shape).rowMajor (ValueIdx.ix2 (⟨0, Nat.one_pos⟩ : Fin 1) (⟨(j 0).val, hj⟩ : Fin 12800))).val
        = 0 * 12800 + (j 0).val := Shape.rowMajor_val_two _
    have h1 : ((⟨1, ![12800]⟩ : Shape).rowMajor j).val = (j 0).val := Shape.rowMajor_val_one j
    show ((⟨2, ![1, 12800]⟩ : Shape).rowMajor (ValueIdx.ix2 (⟨0, Nat.one_pos⟩ : Fin 1) (⟨(j 0).val, hj⟩ : Fin 12800))).val
      = ((⟨1, ![12800]⟩ : Shape).rowMajor j).val
    rw [h2, h1]; omega
  rw [e]
  refine congrArg X (funext fun a => Fin.ext ?_)
  match a with
  | ⟨0, _⟩ => show r + 1 * 0 = r; omega
  | ⟨1, _⟩ => show 0 + 1 * (j 0).val = (j 0).val; omega

/-- The template copied whole into a 200 × 128 buffer: the buffer reads as the template (in particular on the right
    64 columns). -/
theorem template_landed_read {d : Dev nD} (ob : Memref sig .scVector .vmem S200x128 .f32) (fo : ob.view.ty.Contents (Elt F))
    (Tm : Buf (Elt F) (tLoc d)) (y : S200x128.Idx) :
    ob.view.read (Elt F) (View.write (Elt F) ob.view fo (ReadAs.same.apply (View.read (Elt F) (tV).view Tm)) Finset.univ) y = Tm y := by
  rw [View.read_write_univ]
  rfl

theorem template_landed {d : Dev nD} (ob : Memref sig .scVector .vmem S200x128 .f32) (fo : ob.view.ty.Contents (Elt F))
    (Tm : Buf (Elt F) (tLoc d)) :
    RightT ob (View.write (Elt F) ob.view fo (ReadAs.same.apply (View.read (Elt F) (tV).view Tm)) Finset.univ) Tm :=
  fun y _ => template_landed_read ob fo Tm y

/-- Where the one-row slice of the result places entry (l, j): at (r, l, j). -/
theorem oRowM_emb (off : Fin 3 → Nat) (h : ∀ a, off a + S1x200x128.size a ≤ S4096x200x128.size a) (r : ℕ) (hr : r < 4096)
    (hoff : off = ![r, 0, 0]) (y : S200x128.Idx) :
    (oRowM off h).view.emb y = (ValueIdx.ix3 (⟨r, hr⟩ : Fin 4096) (y 0) (y 1) : S4096x200x128.Idx) := by
  subst hoff
  have hy0 : (y 0).val < 200 := (y 0).isLt
  have hy1 : (y 1).val < 128 := (y 1).isLt
  have e : Shape.reshapeEquiv squeezes_S1x200x128_S200x128.numel_eq y
      = (ValueIdx.ix3 (⟨0, Nat.one_pos⟩ : Fin 1) (⟨(y 0).val, hy0⟩ : Fin 200) (⟨(y 1).val, hy1⟩ : Fin 128) : S1x200x128.Idx) := by
    refine Shape.reshapeEquiv_eq_of_rowMajor _ ?_
    have h3 : ((⟨3, ![1, 200, 128]⟩ : Shape).rowMajor
        (ValueIdx.ix3 (⟨0, Nat.one_pos⟩ : Fin 1) (⟨(y 0).val, hy0⟩ : Fin 200) (⟨(y 1).val, hy1⟩ : Fin 128))).val
        = (0 * 200 + (y 0).val) * 128 + (y 1).val := Shape.rowMajor_val_three _
    have h2 : ((⟨2, ![200, 128]⟩ : Shape).rowMajor y).val = (y 0).val * 128 + (y 1).val := Shape.rowMajor_val_two y
    show ((⟨3, ![1, 200, 128]⟩ : Shape).rowMajor
        (ValueIdx.ix3 (⟨0, Nat.one_pos⟩ : Fin 1) (⟨(y 0).val, hy0⟩ : Fin 200) (⟨(y 1).val, hy1⟩ : Fin 128))).val
      = ((⟨2, ![200, 128]⟩ : Shape).rowMajor y).val
    rw [h3, h2]; omega
  show (Rect.unit (s := S4096x200x128) ![r, 0, 0] S1x200x128.size h).emb
      (Shape.reshapeEquiv squeezes_S1x200x128_S200x128.numel_eq y) = _
  rw [e]
  funext a
  refine Fin.ext ?_
  match a with
  | ⟨0, _⟩ => show r + 1 * 0 = r; omega
  | ⟨1, _⟩ => show 0 + 1 * (y 0).val = (y 0).val; omega
  | ⟨2, _⟩ => show 0 + 1 * (y 1).val = (y 1).val; omega

/-- A buffer holding batch row `r` of the result, copied whole to batch row `r` of the result array: every entry of
    that row then holds the result's. -/
theorem row_landed {d : Dev nD} (ob : Memref sig .scVector .vmem S200x128 .f32) (c : ob.view.ty.Contents (Elt F))
    (X : Buf (Elt F) (xLoc d)) (Tm : Buf (Elt F) (tLoc d)) (f0 : Buf (Elt F) (oLoc d))
    (off : Fin 3 → Nat) (h : ∀ a, off a + S1x200x128.size a ≤ S4096x200x128.size a) (r : ℕ) (hr : r < 4096)
    (hoff : off = ![r, 0, 0]) (hc : IsRow ob c X Tm r hr) :
    ∀ i ∈ oRows r (r + 1),
      ((oRowM off h).view.writes (Elt F) f0 [⟨Rect.whole S200x128, ReadAs.same.apply (View.read (Elt F) ob.view c)⟩]
        : Buf (Elt F) (oLoc d)) i = (Spec.Gout X Tm : Buf (Elt F) (oLoc d)) i := by
  intro i hi
  rw [← set_oRowM off h r hoff] at hi
  obtain ⟨y, rfl⟩ := View.exists_emb_of_mem_set _ hi
  have hw := View.read_writes_cons_emb (oRowM off h).view f0 (Rect.whole S200x128)
    (ReadAs.same.apply (View.read (Elt F) ob.view c)) [] y
  rw [Rect.emb_whole_apply] at hw
  refine Eq.trans (show _ = View.read (Elt F) ob.view c y from hw) ?_
  exact (hc y).trans (congrArg (Spec.Gout X Tm) (oRowM_emb off h r hr hoff y).symm)

end Cert.Proof.KernelIdealP

end
-- ==== Proof.Body.lean ====
/-
  One vector subcore's task, from three statements about one trip of its loop.

  The task copies the template into both output buffers, prefetches its first two rows of the flattened `x`, runs
  64 trips — trip k waits for rows 2k and 2k + 1 of its block, overwrites the left 64 columns of the two output
  buffers with them, sends the buffers out to result rows 2k and 2k + 1, and prefetches rows 2k + 2 and 2k + 3 —
  and waits for the last two result rows to land.  Before trip k the result rows below 2k − 2 have landed at the
  specified function, rows 2k − 2 and 2k − 1 are on their way, and the rows from 2k on are untouched; the rows of
  `x` below 2k have come back, rows 2k and 2k + 1 are on their way in, the rows from 2k + 2 on are still held.
-/
import proofs.«204673_g16922171147058_cont_7to1_1063_26_alg».proof.Proof.Trips
import proofs.«204673_g16922171147058_cont_7to1_1063_26_alg».proof.Proof.Value

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v3_scv : Memref Cert.KernelIdeal.sig Kind.scVector Space.hbm Cert.KernelIdeal.S4096x12800 EltTy.f32)
local notation "tV" => (Memref.whole Cert.KernelIdeal.main_v2_scv : Memref Cert.KernelIdeal.sig Kind.scVector Space.hbm Cert.KernelIdeal.S200x128 EltTy.f32)
local notation "oV" => (Memref.whole Cert.KernelIdeal.main_v4_scv : Memref Cert.KernelIdeal.sig Kind.scVector Space.hbm Cert.KernelIdeal.S4096x200x128 EltTy.f32)
local notation "xb0" => (Memref.whole Cert.KernelIdeal.cc0_scratch0 : Memref Cert.KernelIdeal.sig Kind.scVector Space.vmem Cert.KernelIdeal.S12800 EltTy.f32)
local notation "xb1" => (Memref.whole Cert.KernelIdeal.cc0_scratch1 : Memref Cert.KernelIdeal.sig Kind.scVector Space.vmem Cert.KernelIdeal.S12800 EltTy.f32)
local notation "ob0" => (Memref.whole Cert.KernelIdeal.cc0_scratch2 : Memref Cert.KernelIdeal.sig Kind.scVector Space.vmem Cert.KernelIdeal.S200x128 EltTy.f32)
local notation "ob1" => (Memref.whole Cert.KernelIdeal.cc0_scratch3 : Memref Cert.KernelIdeal.sig Kind.scVector Space.vmem Cert.KernelIdeal.S200x128 EltTy.f32)

section Tile

variable (d : Dev nD) (L : grid0.Coords)

theorem pts_t (q : PosShare TreeShare) (f : Buf (Elt F) (tLoc d)) :
    ((tV).view.loc (thr d L) ↦{q} f : sProp 𝕄) = tLoc d ↦{q} f := by
  simp only [Memref.view_whole, View.set_whole]
theorem pts_xb0 (f : Buf (Elt F) ((thr d L).loc cc0_scratch0)) :
    ((xb0).view.loc (thr d L) ↦{fullShare} f : sProp 𝕄) = (thr d L).loc cc0_scratch0 ↦{fullShare} f := rfl
theorem pts_xb1 (f : Buf (Elt F) ((thr d L).loc cc0_scratch1)) :
    ((xb1).view.loc (thr d L) ↦{fullShare} f : sProp 𝕄) = (thr d L).loc cc0_scratch1 ↦{fullShare} f := rfl
theorem pts_ob0 (f : Buf (Elt F) ((thr d L).loc cc0_scratch2)) :
    ((ob0).view.loc (thr d L) ↦{fullShare} f : sProp 𝕄) = (thr d L).loc cc0_scratch2 ↦{fullShare} f := rfl
theorem pts_ob1 (f : Buf (Elt F) ((thr d L).loc cc0_scratch3)) :
    ((ob1).view.loc (thr d L) ↦{fullShare} f : sProp 𝕄) = (thr d L).loc cc0_scratch3 ↦{fullShare} f := rfl

theorem pts_ob0_set (f : Buf (Elt F) ((thr d L).loc cc0_scratch2)) :
    ((ob0).view.loc (thr d L) ↦[(ob0).view.set]{fullShare} f : sProp 𝕄) = (thr d L).loc cc0_scratch2 ↦{fullShare} f := by
  simp only [Memref.view_whole, View.set_whole]
theorem pts_ob1_set (f : Buf (Elt F) ((thr d L).loc cc0_scratch3)) :
    ((ob1).view.loc (thr d L) ↦[(ob1).view.set]{fullShare} f : sProp 𝕄) = (thr d L).loc cc0_scratch3 ↦{fullShare} f := by
  simp only [Memref.view_whole, View.set_whole]

theorem scopedV_list : (Finset.univ.filter fun sm : SemLoc sig => sm.isScoped .scVector)
    = {SemLoc.dma (sIn0).sem, SemLoc.dma (sIn1).sem, SemLoc.dma (sOut0).sem, SemLoc.dma (sOut1).sem, SemLoc.dma cc0_scoped0.sem, SemLoc.dma cc0_scoped1.sem} := by
  decide

/-- The subcore's own semaphores: the loop's four, the prologue's two. -/
theorem ownSems0_thr :
    (ownSems0 (thr d L) : sProp 𝕄)
      = iprop(semVal (thr d L, SemLoc.dma (sIn0).sem) 0 ∗ semVal (thr d L, SemLoc.dma (sIn1).sem) 0
          ∗ semVal (thr d L, SemLoc.dma (sOut0).sem) 0 ∗ semVal (thr d L, SemLoc.dma (sOut1).sem) 0
          ∗ semVal (thr d L, SemLoc.dma cc0_scoped0.sem) 0 ∗ semVal (thr d L, SemLoc.dma cc0_scoped1.sem) 0) := by
  rw [SparseCore.Cfg.ownSems0_eq]
  show (bigSep (Finset.univ.filter fun sm : SemLoc sig => sm.isScoped .scVector) fun sm => semVal (thr d L, sm) 0) = _
  rw [scopedV_list, SparseCore.bigSep_insert' (by decide), SparseCore.bigSep_insert' (by decide), SparseCore.bigSep_insert' (by decide),
    SparseCore.bigSep_insert' (by decide), SparseCore.bigSep_insert' (by decide), bigSep_singleton]

/-- The subcore's own buffers: the two flat buffers, the two output buffers, at some contents, and the rest. -/
theorem ownBufs_thr :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

/-! ## Rows and ranges of rows -/

theorem baseRow_le : baseRow L + 128 ≤ 4096 := by
  have h0 : (L 0).val < 2 := (L 0).isLt
  have h1 : (L 1).val < 16 := (L 1).isLt
  unfold baseRow; omega

theorem vec2_eq {a b : ℕ} (h : a = b) : (![a, 0] : Fin 2 → ℕ) = ![b, 0] := by subst h; rfl
theorem vec3_eq {a b : ℕ} (h : a = b) : (![a, 0, 0] : Fin 3 → ℕ) = ![b, 0, 0] := by subst h; rfl

/-- The one-row slice at offsets (r, 0) holds exactly row r. -/
theorem xRowPts_eq (off : Fin 2 → Nat) (h : ∀ a, off a + S1x12800.size a ≤ S4096x12800.size a) (X : Buf (Elt F) (xLoc d))
    {r r1 : ℕ} (hoff : off = ![r, 0]) (h1 : r1 = r + 1) :
    (xRowPts d L off h X : sProp 𝕄) = xLoc d ↦[xRows r r1]{fullShare} X := by
  subst h1
  show (xLoc d ↦[(xRowM off h).view.set]{fullShare} X : sProp 𝕄) = _
  rw [set_xRowM off h r hoff]
theorem oRowPts_eq (off : Fin 3 → Nat) (h : ∀ a, off a + S1x200x128.size a ≤ S4096x200x128.size a) (f : Buf (Elt F) (oLoc d))
    {r r1 : ℕ} (hoff : off = ![r, 0, 0]) (h1 : r1 = r + 1) :
    (oRowPts d L off h f : sProp 𝕄) = oLoc d ↦[oRows r r1]{fullShare} f := by
  subst h1
  show (oLoc d ↦[(oRowM off h).view.set]{fullShare} f : sProp 𝕄) = _
  rw [set_oRowM off h r hoff]

theorem x_none (X : Buf (Elt F) (xLoc d)) (a e : ℕ) (h : e ≤ a) : (xLoc d ↦[xRows a e]{fullShare} X : sProp 𝕄) = iprop(emp) := by
  rw [show xRows a e = ∅ from Finset.eq_empty_of_forall_notMem fun i hi => by rw [mem_xRows] at hi; omega]; exact pointsTo_empty
theorem o_none (f : Buf (Elt F) (oLoc d)) (a e : ℕ) (h : e ≤ a) : (oLoc d ↦[oRows a e]{fullShare} f : sProp 𝕄) = iprop(emp) := by
  rw [show oRows a e = ∅ from Finset.eq_empty_of_forall_notMem fun i hi => by rw [mem_oRows] at hi; omega]; exact pointsTo_empty

/-- The first two rows of a range, and the rest. -/
theorem x_front (X : Buf (Elt F) (xLoc d)) {r r1 r2 e : ℕ} (h1 : r1 = r + 1) (h2 : r2 = r + 2) (h : r2 ≤ e) :
    (xLoc d ↦[xRows r e]{fullShare} X : sProp 𝕄)
      = iprop((xLoc d ↦[xRows r r1]{fullShare} X) ∗ (xLoc d ↦[xRows r1 r2]{fullShare} X) ∗ xLoc d ↦[xRows r2 e]{fullShare} X) := by
  subst h1 h2
  have s1 := xRows_split (F := F) d fullShare X (a := r) (m := r + 1) (b := e) (by omega) (by omega)
  have s2 := xRows_split (F := F) d fullShare X (a := r + 1) (m := r + 2) (b := e) (by omega) (by omega)
  rw [BI.equiv_iff.mp ⟨s1.1, s1.2⟩, BI.equiv_iff.mp ⟨s2.1, s2.2⟩]
theorem o_front (f : Buf (Elt F) (oLoc d)) {r r1 r2 e : ℕ} (h1 : r1 = r + 1) (h2 : r2 = r + 2) (h : r2 ≤ e) :
    (oLoc d ↦[oRows r e]{fullShare} f : sProp 𝕄)
      = iprop((oLoc d ↦[oRows r r1]{fullShare} f) ∗ (oLoc d ↦[oRows r1 r2]{fullShare} f) ∗ oLoc d ↦[oRows r2 e]{fullShare} f) := by
  subst h1 h2
  have s1 := oRows_split (F := F) d fullShare f (a := r) (m := r + 1) (b := e) (by omega) (by omega)
  have s2 := oRows_split (F := F) d fullShare f (a := r + 1) (m := r + 2) (b := e) (by omega) (by omega)
  rw [BI.equiv_iff.mp ⟨s1.1, s1.2⟩, BI.equiv_iff.mp ⟨s2.1, s2.2⟩]
/-- A range and the two rows after it. -/
theorem x_back (X : Buf (Elt F) (xLoc d)) {a r r1 r2 : ℕ} (h1 : r1 = r + 1) (h2 : r2 = r + 2) (h : a ≤ r) :
    iprop((xLoc d ↦[xRows a r]{fullShare} X) ∗ (xLoc d ↦[xRows r r1]{fullShare} X) ∗ xLoc d ↦[xRows r1 r2]{fullShare} X)
      = (xLoc d ↦[xRows a r2]{fullShare} X : sProp 𝕄) := by
  subst h1 h2
  have s1 := xRows_split (F := F) d fullShare X (a := a) (m := r) (b := r + 2) (by omega) (by omega)
  have s2 := xRows_split (F := F) d fullShare X (a := r) (m := r + 1) (b := r + 2) (by omega) (by omega)
  rw [BI.equiv_iff.mp ⟨s1.1, s1.2⟩, BI.equiv_iff.mp ⟨s2.1, s2.2⟩]
theorem o_back (f : Buf (Elt F) (oLoc d)) {a r r1 r2 : ℕ} (h1 : r1 = r + 1) (h2 : r2 = r + 2) (h : a ≤ r) :
    iprop((oLoc d ↦[oRows a r]{fullShare} f) ∗ (oLoc d ↦[oRows r r1]{fullShare} f) ∗ oLoc d ↦[oRows r1 r2]{fullShare} f)
      = (oLoc d ↦[oRows a r2]{fullShare} f : sProp 𝕄) := by
  subst h1 h2
  have s1 := oRows_split (F := F) d fullShare f (a := a) (m := r) (b := r + 2) (by omega) (by omega)
  have s2 := oRows_split (F := F) d fullShare f (a := r) (m := r + 1) (b := r + 2) (by omega) (by omega)
  rw [BI.equiv_iff.mp ⟨s1.1, s1.2⟩, BI.equiv_iff.mp ⟨s2.1, s2.2⟩]

/-- The first two rows of the subcore's block of `x`, as the prologue's two prefetches slice them, and the rest. -/
theorem xBlock_carve (X : Buf (Elt F) (xLoc d)) :
    (xLoc d ↦[xBlockSet L]{fullShare} X : sProp 𝕄)
      = iprop(xRowPts d L (k0_off1 L) (k0_off1_inb L) X ∗ xRowPts d L (k0_off2 L) (k0_off2_inb L) X
          ∗ xLoc d ↦[xRows (baseRow L + 2) (baseRow L + 128)]{fullShare} X) := by
  rw [xRowPts_eq d L _ _ X (r := baseRow L) (r1 := baseRow L + 1) (k0_off1_eq L) rfl,
    xRowPts_eq d L _ _ X (r := baseRow L + 1) (r1 := baseRow L + 2) (k0_off2_eq L) rfl, xBlockSet_eq]
  exact x_front d X rfl rfl (by omega)

/-- Trip k's two result rows out of the rows not yet sent. -/
theorem o_take (k : Fin k0_t1_loop.trips) (f0 : Buf (Elt F) (oLoc d)) :
    (oLoc d ↦[oRows (baseRow L + 2 * k.val) (baseRow L + 128)]{fullShare} f0 : sProp 𝕄)
      = iprop(oRowPts d L (k0_off5 L k) (k0_off5_inb L k) f0 ∗ oRowPts d L (k0_off9 L k) (k0_off9_inb L k) f0
          ∗ oLoc d ↦[oRows (baseRow L + 2 * (k.val + 1)) (baseRow L + 128)]{fullShare} f0) := by
  have hk : k.val < 64 := trips_eq ▸ k.isLt
  rw [oRowPts_eq d L _ _ f0 (r := baseRow L + 2 * k.val) (r1 := baseRow L + 2 * k.val + 1) (k0_off5_eq L k) rfl,
    oRowPts_eq d L _ _ f0 (r := baseRow L + 2 * k.val + 1) (r1 := baseRow L + 2 * (k.val + 1)) (k0_off9_eq L k) (by omega)]
  exact o_front d f0 rfl (by omega) (by omega)

/-- The two rows of `x` trip k prefetches out of the rows not yet prefetched. -/
theorem x_take (k : Fin k0_t1_loop.trips) (hk : k.val ≤ 62) (X : Buf (Elt F) (xLoc d)) :
    (xLoc d ↦[xRows (baseRow L + 2 * k.val + 2) (baseRow L + 128)]{fullShare} X : sProp 𝕄)
      = iprop(xRowPts d L (k0_off6 L k) (k0_off6_inb L k (cond2_pos k hk)) X ∗ xRowPts d L (k0_off10 L k) (k0_off10_inb L k (cond4_pos k hk)) X
          ∗ xLoc d ↦[xRows (baseRow L + 2 * (k.val + 1) + 2) (baseRow L + 128)]{fullShare} X) := by
  rw [xRowPts_eq d L _ _ X (r := baseRow L + 2 * k.val + 2) (r1 := baseRow L + 2 * k.val + 3) (k0_off6_eq L k) rfl,
    xRowPts_eq d L _ _ X (r := baseRow L + 2 * k.val + 3) (r1 := baseRow L + 2 * (k.val + 1) + 2) (k0_off10_eq L k) (by omega)]
  exact x_front d X rfl (by omega) (by omega)

/-- The two rows of `x` trip k waited for join the rows that have come back. -/
theorem x_give (k : ℕ) (X : Buf (Elt F) (xLoc d))
    (offA : Fin 2 → Nat) (hA : ∀ a, offA a + S1x12800.size a ≤ S4096x12800.size a)
    (offB : Fin 2 → Nat) (hB : ∀ a, offB a + S1x12800.size a ≤ S4096x12800.size a)
    (eA : offA = ![baseRow L + 2 * k, 0]) (eB : offB = ![baseRow L + 2 * k + 1, 0]) :
    iprop((xLoc d ↦[xRows (baseRow L) (baseRow L + 2 * k)]{fullShare} X) ∗ xRowPts d L offA hA X ∗ xRowPts d L offB hB X)
      = (xLoc d ↦[xRows (baseRow L) (baseRow L + 2 * (k + 1))]{fullShare} X : sProp 𝕄) := by
  rw [xRowPts_eq d L offA hA X (r := baseRow L + 2 * k) (r1 := baseRow L + 2 * k + 1) eA rfl,
    xRowPts_eq d L offB hB X (r := baseRow L + 2 * k + 1) (r1 := baseRow L + 2 * (k + 1)) eB (by omega)]
  exact x_back d X rfl (by omega) (by omega)

/-! ## The loop's invariant -/

theorem XRow_cast {xb : Memref sig .scVector .vmem S12800 .f32} {cx : xb.view.ty.Contents (Elt F)} {X : Buf (Elt F) (xLoc d)} {r r' : ℕ}
    (e : r = r') (h : ∀ hr, XRow xb cx X r hr) : ∀ hr, XRow xb cx X r' hr := by subst e; exact h
theorem IsRow_cast {ob : Memref sig .scVector .vmem S200x128 .f32} {c : ob.view.ty.Contents (Elt F)} {X : Buf (Elt F) (xLoc d)}
    {Tm : Buf (Elt F) (tLoc d)} {r r' : ℕ} (e : r = r') (h : ∀ hr, IsRow ob c X Tm r hr) : ∀ hr, IsRow ob c X Tm r' hr := by subst e; exact h

/-- A landed result row is the specified row. -/
theorem oRow_landed (ob : Memref sig .scVector .vmem S200x128 .f32) (c : Buf (Elt F) (ob.view.loc (thr d L)))
    (X : Buf (Elt F) (xLoc d)) (Tm : Buf (Elt F) (tLoc d)) (f0 : Buf (Elt F) (oLoc d))
    (off : Fin 3 → Nat) (h : ∀ a, off a + S1x200x128.size a ≤ S4096x200x128.size a) {r r1 : ℕ} (hr : r < 4096)
    (hoff : off = ![r, 0, 0]) (h1 : r1 = r + 1) (hc : IsRow ob c X Tm r hr) :
    (oRowPts d L off h (landedRow d L ob off h f0 c) : sProp 𝕄) = oLoc d ↦[oRows r r1]{fullShare} (Spec.Gout X Tm : Buf (Elt F) (oLoc d)) := by
  rw [oRowPts_eq d L off h _ hoff h1]
  subst h1
  exact pointsTo_congr (row_landed ob c X Tm f0 off h r hr hoff hc)

/-- The two result rows trip k waited for (sent one trip earlier) join the rows that have landed. -/
theorem o_give (k : ℕ) (hk1 : 1 ≤ k) (hk2 : k ≤ 64) (X : Buf (Elt F) (xLoc d)) (Tm : Buf (Elt F) (tLoc d)) (f0 : Buf (Elt F) (oLoc d))
    (off0 : Fin 3 → Nat) (h0 : ∀ a, off0 a + S1x200x128.size a ≤ S4096x200x128.size a) (c0 : Buf (Elt F) ((ob0).view.loc (thr d L)))
    (off1 : Fin 3 → Nat) (h1 : ∀ a, off1 a + S1x200x128.size a ≤ S4096x200x128.size a) (c1 : Buf (Elt F) ((ob1).view.loc (thr d L)))
    (e0 : off0 = ![baseRow L + 2 * k - 2, 0, 0]) (e1 : off1 = ![baseRow L + 2 * k - 1, 0, 0])
    (hI0 : ∀ hr, IsRow ob0 c0 X Tm (baseRow L + 2 * k - 2) hr) (hI1 : ∀ hr, IsRow ob1 c1 X Tm (baseRow L + 2 * k - 1) hr) :
    iprop((oLoc d ↦[oRows (baseRow L) (baseRow L + 2 * (k - 1))]{fullShare} (Spec.Gout X Tm : Buf (Elt F) (oLoc d)))
        ∗ oRowPts d L off0 h0 (landedRow d L ob0 off0 h0 f0 c0) ∗ oRowPts d L off1 h1 (landedRow d L ob1 off1 h1 f0 c1))
      = (oLoc d ↦[oRows (baseRow L) (baseRow L + 2 * (k + 1 - 1))]{fullShare} (Spec.Gout X Tm : Buf (Elt F) (oLoc d)) : sProp 𝕄) := by
  have hb := baseRow_le L
  rw [oRow_landed d L ob0 c0 X Tm f0 off0 h0 (r := baseRow L + 2 * k - 2) (r1 := baseRow L + 2 * k - 1) (by omega) e0 (by omega) (hI0 _),
    oRow_landed d L ob1 c1 X Tm f0 off1 h1 (r := baseRow L + 2 * k - 1) (r1 := baseRow L + 2 * (k + 1 - 1)) (by omega) e1 (by omega) (hI1 _),
    show baseRow L + 2 * (k - 1) = baseRow L + 2 * k - 2 by omega]
  exact o_back d _ (by omega) (by omega) (by omega)

variable (O : CellTallies nD τ sig (HIx 1)) (W : Waits sig (HIx 1))
variable (X : Buf (Elt F) (xLoc d)) (Tm : Buf (Elt F) (tLoc d)) (f0 : Buf (Elt F) (oLoc d))

/-- Before trip k < 64: rows 2k and 2k + 1 of the block of `x` are on their way into the flat buffers. -/
def inFly (k : ℕ) : sProp 𝕄 :=
  iprop(∃ offA : Fin 2 → Nat, ∃ hA : ∀ a, offA a + S1x12800.size a ≤ S4096x12800.size a, ∃ cA : Buf (Elt F) ((xb0).view.loc (thr d L)),
    ∃ offB : Fin 2 → Nat, ∃ hB : ∀ a, offB a + S1x12800.size a ≤ S4096x12800.size a, ∃ cB : Buf (Elt F) ((xb1).view.loc (thr d L)),
      ⌜offA = ![baseRow L + 2 * k, 0] ∧ offB = ![baseRow L + 2 * k + 1, 0]
        ∧ (∀ hr, XRow xb0 cA X (baseRow L + 2 * k) hr) ∧ (∀ hr, XRow xb1 cB X (baseRow L + 2 * k + 1) hr)⌝
      ∗ xFlight d L xb0 (sIn0).sem X offA hA cA ∗ xFlight d L xb1 (sIn1).sem X offB hB cB)
/-- After the last trip: the flat buffers and their semaphores in hand. -/
def inHand : sProp 𝕄 :=
  iprop((∃ c, (xb0).view.loc (thr d L) ↦{fullShare} c) ∗ (∃ c, (xb1).view.loc (thr d L) ↦{fullShare} c)
    ∗ semVal (thr d L, SemLoc.dma (sIn0).sem) 0 ∗ semVal (thr d L, SemLoc.dma (sIn1).sem) 0)
def inPart (k : ℕ) : sProp 𝕄 := if k < 64 then inFly d L X k else inHand (F := F) d L

/-- Before the first trip: the output buffers in hand, their right halves the template's. -/
def outHand : sProp 𝕄 :=
  iprop(∃ c0 : Buf (Elt F) ((ob0).view.loc (thr d L)), ∃ c1 : Buf (Elt F) ((ob1).view.loc (thr d L)),
    ⌜RightT ob0 c0 Tm ∧ RightT ob1 c1 Tm⌝
    ∗ ((ob0).view.loc (thr d L) ↦{fullShare} c0) ∗ ((ob1).view.loc (thr d L) ↦{fullShare} c1)
    ∗ semVal (thr d L, SemLoc.dma (sOut0).sem) 0 ∗ semVal (thr d L, SemLoc.dma (sOut1).sem) 0)
/-- Before trip k ≥ 1: the output buffers, holding result rows 2k − 2 and 2k − 1, are on their way out to them. -/
def outFly (k : ℕ) : sProp 𝕄 :=
  iprop(∃ off0 : Fin 3 → Nat, ∃ h0 : ∀ a, off0 a + S1x200x128.size a ≤ S4096x200x128.size a, ∃ c0 : Buf (Elt F) ((ob0).view.loc (thr d L)),
    ∃ off1 : Fin 3 → Nat, ∃ h1 : ∀ a, off1 a + S1x200x128.size a ≤ S4096x200x128.size a, ∃ c1 : Buf (Elt F) ((ob1).view.loc (thr d L)),
      ⌜off0 = ![baseRow L + 2 * k - 2, 0, 0] ∧ off1 = ![baseRow L + 2 * k - 1, 0, 0]
        ∧ (∀ hr, IsRow ob0 c0 X Tm (baseRow L + 2 * k - 2) hr) ∧ (∀ hr, IsRow ob1 c1 X Tm (baseRow L + 2 * k - 1) hr)
        ∧ RightT ob0 c0 Tm ∧ RightT ob1 c1 Tm⌝
      ∗ oFlight d L ob0 (sOut0).sem f0 off0 h0 c0 ∗ oFlight d L ob1 (sOut1).sem f0 off1 h1 c1)
def outPart (k : ℕ) : sProp 𝕄 := if k = 0 then outHand (F := F) d L Tm else outFly d L X Tm f0 k

theorem inPart_lt {k : ℕ} (h : k < 64) : inPart d L X k = inFly d L X k := if_pos h
theorem inPart_ge {k : ℕ} (h : ¬ k < 64) : inPart d L X k = inHand (F := F) d L := if_neg h
theorem outPart_zero {k : ℕ} (h : k = 0) : outPart d L X Tm f0 k = outHand (F := F) d L Tm := if_pos h
theorem outPart_pos {k : ℕ} (h : ¬ k = 0) : outPart d L X Tm f0 k = outFly d L X Tm f0 k := if_neg h

/-- Before trip k. -/
def inv (k : ℕ) (_ : Unit) : sProp 𝕄 :=
  iprop(Transfers.MayWaits (thr d L) (none : HIx 1) O
    ∗ (xLoc d ↦[xRows (baseRow L) (baseRow L + 2 * k)]{fullShare} X)
    ∗ (xLoc d ↦[xRows (baseRow L + 2 * k + 2) (baseRow L + 128)]{fullShare} X)
    ∗ (oLoc d ↦[oRows (baseRow L) (baseRow L + 2 * (k - 1))]{fullShare} (Spec.Gout X Tm : Buf (Elt F) (oLoc d)))
    ∗ (oLoc d ↦[oRows (baseRow L + 2 * k) (baseRow L + 128)]{fullShare} f0)
    ∗ inPart d L X k ∗ outPart d L X Tm f0 k
    ∗ ∃ W', ⌜∀ p ∈ W', p ∈ W ∨ p.2 = none⌝ ∗ owes (thr d L) O W')

variable [FloatOps F]

theorem W_trans {W W1 W2 : Waits sig (HIx 1)} (h1 : ∀ p ∈ W1, p ∈ W ∨ p.2 = none) (h2 : ∀ p ∈ W2, p ∈ W1 ∨ p.2 = none) :
    ∀ p ∈ W2, p ∈ W ∨ p.2 = none :=
  fun p hp => (h2 p hp).elim (h1 p) Or.inr

/-- A middle trip keeps the invariant. -/
theorem step_mid (hm : TripMid (F := F)) (k : Fin k0_t1_loop.trips) (hk1 : 1 ≤ k.val) (hk2 : k.val ≤ 62) (v2 : BitVec 32) :
    inv d L O W X Tm f0 k.val () ⊢ wp frame (wpE (defs₀ (F := F)) 𝒱₀ (thr d L) none) Set.univ (tripProg (F := F) L v2 k)
      (inv d L O W X Tm f0 (k.val + 1)) := by
  have hb := baseRow_le L
  unfold inv
  rw [inPart_lt d L X (show k.val < 64 by omega), inPart_lt d L X (show k.val + 1 < 64 by omega),
    outPart_pos d L X Tm f0 (show ¬ k.val = 0 by omega), outPart_pos d L X Tm f0 (show ¬ k.val + 1 = 0 by omega)]
  unfold inFly outFly
  iintro ⟨#Hmw, Hxd, Hxl, Hod, Hol, ⟨%offA, %hA, %cA, %offB, %hB, %cB, %hin, HfA, HfB⟩, ⟨%off0, %h0, %c0, %off1, %h1, %c1, %hout, Hf0, Hf1⟩, %W1, %hW1, HO⟩
  obtain ⟨eA, eB, hXA, hXB⟩ := hin
  obtain ⟨e0, e1, hI0, hI1, hT0, hT1⟩ := hout
  ihave Hol' := (Entails.of_eq (o_take (F := F) d L k f0)) $$ Hol
  icases Hol' with ⟨Ho5, Ho9, Hol⟩
  ihave Hxl' := (Entails.of_eq (x_take (F := F) d L k hk2 X)) $$ Hxl
  icases Hxl' with ⟨Hx6, Hx10, Hxl⟩
  ihave Hwp := (hm d L O W1 X f0 k hk1 hk2 v2 offA hA cA offB hB cB off0 h0 c0 off1 h1 c1) $$ [HfA HfB Hf0 Hf1 Ho5 Ho9 Hx6 Hx10 HO]
  · isplitr; · iexact Hmw
    isplitl [HfA]; · iexact HfA
    isplitl [HfB]; · iexact HfB
    isplitl [Hf0]; · iexact Hf0
    isplitl [Hf1]; · iexact Hf1
    isplitl [Ho5]; · iexact Ho5
    isplitl [Ho9]; · iexact Ho9
    isplitl [Hx6]; · iexact Hx6
    isplitl [Hx10]; · iexact Hx10
    iexact HO
  iapply (wp_wand_r frame _ _) $$ [Hwp Hxd Hxl Hod Hol]
  isplitl [Hwp]; · iexact Hwp
  iintro %a ⟨HxA, HxB, Hl0, Hl1, ⟨%LA, %LB, ⟨Hg0, Hg1⟩, %eLA, %eLB⟩, ⟨HgA, HgB⟩, %W2, %hW2, HO⟩
  subst eLA eLB
  isplitr; · iexact Hmw
  isplitl [Hxd HxA HxB]
  · iapply (Entails.of_eq (x_give (F := F) d L k.val X offA hA offB hB eA eB))
    isplitl [Hxd]; · iexact Hxd
    isplitl [HxA]; · iexact HxA
    iexact HxB
  isplitl [Hxl]; · iexact Hxl
  isplitl [Hod Hl0 Hl1]
  · iapply (Entails.of_eq (o_give (F := F) d L k.val hk1 (by omega) X Tm f0 off0 h0 c0 off1 h1 c1 e0 e1 hI0 hI1))
    isplitl [Hod]; · iexact Hod
    isplitl [Hl0]; · iexact Hl0
    iexact Hl1
  isplitl [Hol]; · iexact Hol
  isplitl [HgA HgB]
  · iexists (k0_off6 L k)
    iexists (k0_off6_inb L k (cond2_pos k hk2))
    iexists (landedX d L xb0 (k0_off6 L k) (k0_off6_inb L k (cond2_pos k hk2)) X cA)
    iexists (k0_off10 L k)
    iexists (k0_off10_inb L k (cond4_pos k hk2))
    iexists (landedX d L xb1 (k0_off10 L k) (k0_off10_inb L k (cond4_pos k hk2)) X cB)
    isplitr
    · ipureintro
      have e6 : k0_off6 L k = ![baseRow L + 2 * (k.val + 1), 0] := (k0_off6_eq L k).trans (vec2_eq (by unfold baseRow; omega))
      have e10 : k0_off10 L k = ![baseRow L + 2 * (k.val + 1) + 1, 0] := (k0_off10_eq L k).trans (vec2_eq (by unfold baseRow; omega))
      exact ⟨e6, e10, fun hr => xrow_landed xb0 cA X _ _ _ hr e6, fun hr => xrow_landed xb1 cB X _ _ _ hr e10⟩
    isplitl [HgA]; · iexact HgA
    iexact HgB
  isplitl [Hg0 Hg1]
  · iexists (k0_off5 L k)
    iexists (k0_off5_inb L k)
    iexists ((ob0).view.writes (Elt F) c0 (piecesTo xb0 cA 800 le_rfl))
    iexists (k0_off9 L k)
    iexists (k0_off9_inb L k)
    iexists ((ob1).view.writes (Elt F) c1 (piecesTo xb1 cB 800 le_rfl))
    isplitr
    · ipureintro
      have e5 : k0_off5 L k = ![baseRow L + 2 * (k.val + 1) - 2, 0, 0] := (k0_off5_eq L k).trans (vec3_eq (by unfold baseRow; omega))
      have e9 : k0_off9 L k = ![baseRow L + 2 * (k.val + 1) - 1, 0, 0] := (k0_off9_eq L k).trans (vec3_eq (by unfold baseRow; omega))
      have rA : baseRow L + 2 * k.val = baseRow L + 2 * (k.val + 1) - 2 := by omega
      have rB : baseRow L + 2 * k.val + 1 = baseRow L + 2 * (k.val + 1) - 1 := by omega
      exact ⟨e5, e9, IsRow_cast d rA (fun hr => (isRow_after (hXA hr) hT0).1), IsRow_cast d rB (fun hr => (isRow_after (hXB hr) hT1).1),
        (isRow_after (hXA (by omega)) hT0).2, (isRow_after (hXB (by omega)) hT1).2⟩
    isplitl [Hg0]; · iexact Hg0
    iexact Hg1
  iexists W2; isplitr
  · ipureintro; exact W_trans hW1 hW2
  · iexact HO

/-- The first trip sets the invariant's copies-out going. -/
theorem step_first (h0 : TripFirst (F := F)) (k : Fin k0_t1_loop.trips) (hk : k.val = 0) (v2 : BitVec 32) :
    inv d L O W X Tm f0 k.val () ⊢ wp frame (wpE (defs₀ (F := F)) 𝒱₀ (thr d L) none) Set.univ (tripProg (F := F) L v2 k)
      (inv d L O W X Tm f0 (k.val + 1)) := by
  have hb := baseRow_le L
  have hk2 : k.val ≤ 62 := by omega
  unfold inv
  rw [inPart_lt d L X (show k.val < 64 by omega), inPart_lt d L X (show k.val + 1 < 64 by omega),
    outPart_zero d L X Tm f0 hk, outPart_pos d L X Tm f0 (show ¬ k.val + 1 = 0 by omega)]
  unfold inFly outFly outHand
  iintro ⟨#Hmw, Hxd, Hxl, Hod, Hol, ⟨%offA, %hA, %cA, %offB, %hB, %cB, %hin, HfA, HfB⟩, ⟨%c0, %c1, %hout, Hc0, Hc1, Hs2, Hs3⟩, %W1, %hW1, HO⟩
  obtain ⟨eA, eB, hXA, hXB⟩ := hin
  obtain ⟨hT0, hT1⟩ := hout
  ihave Hol' := (Entails.of_eq (o_take (F := F) d L k f0)) $$ Hol
  icases Hol' with ⟨Ho5, Ho9, Hol⟩
  ihave Hxl' := (Entails.of_eq (x_take (F := F) d L k hk2 X)) $$ Hxl
  icases Hxl' with ⟨Hx6, Hx10, Hxl⟩
  ihave Hwp := (h0 d L O W1 X f0 k hk v2 offA hA cA offB hB cB c0 c1) $$ [HfA HfB Hc0 Hc1 Hs2 Hs3 Ho5 Ho9 Hx6 Hx10 HO]
  · isplitr; · iexact Hmw
    isplitl [HfA]; · iexact HfA
    isplitl [HfB]; · iexact HfB
    isplitl [Hc0]; · iexact Hc0
    isplitl [Hc1]; · iexact Hc1
    isplitl [Hs2]; · iexact Hs2
    isplitl [Hs3]; · iexact Hs3
    isplitl [Ho5]; · iexact Ho5
    isplitl [Ho9]; · iexact Ho9
    isplitl [Hx6]; · iexact Hx6
    isplitl [Hx10]; · iexact Hx10
    iexact HO
  iapply (wp_wand_r frame _ _) $$ [Hwp Hxd Hxl Hod Hol]
  isplitl [Hwp]; · iexact Hwp
  iintro %a ⟨HxA, HxB, ⟨%LA, %LB, ⟨Hg0, Hg1⟩, %eLA, %eLB⟩, ⟨HgA, HgB⟩, %W2, %hW2, HO⟩
  subst eLA eLB
  isplitr; · iexact Hmw
  isplitl [Hxd HxA HxB]
  · iapply (Entails.of_eq (x_give (F := F) d L k.val X offA hA offB hB eA eB))
    isplitl [Hxd]; · iexact Hxd
    isplitl [HxA]; · iexact HxA
    iexact HxB
  isplitl [Hxl]; · iexact Hxl
  isplitl [Hod]
  · iapply (Entails.of_eq (congrArg (fun e => (oLoc d ↦[oRows (baseRow L) e]{fullShare} (Spec.Gout X Tm : Buf (Elt F) (oLoc d)) : sProp 𝕄))
      (show baseRow L + 2 * (k.val - 1) = baseRow L + 2 * (k.val + 1 - 1) by omega)))
    iexact Hod
  isplitl [Hol]; · iexact Hol
  isplitl [HgA HgB]
  · iexists (k0_off6 L k)
    iexists (k0_off6_inb L k (cond2_pos k hk2))
    iexists (landedX d L xb0 (k0_off6 L k) (k0_off6_inb L k (cond2_pos k hk2)) X cA)
    iexists (k0_off10 L k)
    iexists (k0_off10_inb L k (cond4_pos k hk2))
    iexists (landedX d L xb1 (k0_off10 L k) (k0_off10_inb L k (cond4_pos k hk2)) X cB)
    isplitr
    · ipureintro
      have e6 : k0_off6 L k = ![baseRow L + 2 * (k.val + 1), 0] := (k0_off6_eq L k).trans (vec2_eq (by unfold baseRow; omega))
      have e10 : k0_off10 L k = ![baseRow L + 2 * (k.val + 1) + 1, 0] := (k0_off10_eq L k).trans (vec2_eq (by unfold baseRow; omega))
      exact ⟨e6, e10, fun hr => xrow_landed xb0 cA X _ _ _ hr e6, fun hr => xrow_landed xb1 cB X _ _ _ hr e10⟩
    isplitl [HgA]; · iexact HgA
    iexact HgB
  isplitl [Hg0 Hg1]
  · iexists (k0_off5 L k)
    iexists (k0_off5_inb L k)
    iexists ((ob0).view.writes (Elt F) c0 (piecesTo xb0 cA 800 le_rfl))
    iexists (k0_off9 L k)
    iexists (k0_off9_inb L k)
    iexists ((ob1).view.writes (Elt F) c1 (piecesTo xb1 cB 800 le_rfl))
    isplitr
    · ipureintro
      have e5 : k0_off5 L k = ![baseRow L + 2 * (k.val + 1) - 2, 0, 0] := (k0_off5_eq L k).trans (vec3_eq (by unfold baseRow; omega))
      have e9 : k0_off9 L k = ![baseRow L + 2 * (k.val + 1) - 1, 0, 0] := (k0_off9_eq L k).trans (vec3_eq (by unfold baseRow; omega))
      have rA : baseRow L + 2 * k.val = baseRow L + 2 * (k.val + 1) - 2 := by omega
      have rB : baseRow L + 2 * k.val + 1 = baseRow L + 2 * (k.val + 1) - 1 := by omega
      exact ⟨e5, e9, IsRow_cast d rA (fun hr => (isRow_after (hXA hr) hT0).1), IsRow_cast d rB (fun hr => (isRow_after (hXB hr) hT1).1),
        (isRow_after (hXA (by omega)) hT0).2, (isRow_after (hXB (by omega)) hT1).2⟩
    isplitl [Hg0]; · iexact Hg0
    iexact Hg1
  iexists W2; isplitr
  · ipureintro; exact W_trans hW1 hW2
  · iexact HO

/-- The last trip leaves nothing on its way in. -/
theorem step_last (hl : TripLast (F := F)) (k : Fin k0_t1_loop.trips) (hk : k.val = 63) (v2 : BitVec 32) :
    inv d L O W X Tm f0 k.val () ⊢ wp frame (wpE (defs₀ (F := F)) 𝒱₀ (thr d L) none) Set.univ (tripProg (F := F) L v2 k)
      (inv d L O W X Tm f0 (k.val + 1)) := by
  have hb := baseRow_le L
  have hk1 : 1 ≤ k.val := by omega
  unfold inv
  rw [inPart_lt d L X (show k.val < 64 by omega), inPart_ge d L X (show ¬ k.val + 1 < 64 by omega),
    outPart_pos d L X Tm f0 (show ¬ k.val = 0 by omega), outPart_pos d L X Tm f0 (show ¬ k.val + 1 = 0 by omega)]
  unfold inFly outFly inHand
  iintro ⟨#Hmw, Hxd, Hxl, Hod, Hol, ⟨%offA, %hA, %cA, %offB, %hB, %cB, %hin, HfA, HfB⟩, ⟨%off0, %h0, %c0, %off1, %h1, %c1, %hout, Hf0, Hf1⟩, %W1, %hW1, HO⟩
  obtain ⟨eA, eB, hXA, hXB⟩ := hin
  obtain ⟨e0, e1, hI0, hI1, hT0, hT1⟩ := hout
  icases Hxl with -
  ihave Hol' := (Entails.of_eq (o_take (F := F) d L k f0)) $$ Hol
  icases Hol' with ⟨Ho5, Ho9, Hol⟩
  ihave Hwp := (hl d L O W1 X f0 k hk v2 offA hA cA offB hB cB off0 h0 c0 off1 h1 c1) $$ [HfA HfB Hf0 Hf1 Ho5 Ho9 HO]
  · isplitr; · iexact Hmw
    isplitl [HfA]; · iexact HfA
    isplitl [HfB]; · iexact HfB
    isplitl [Hf0]; · iexact Hf0
    isplitl [Hf1]; · iexact Hf1
    isplitl [Ho5]; · iexact Ho5
    isplitl [Ho9]; · iexact Ho9
    iexact HO
  iapply (wp_wand_r frame _ _) $$ [Hwp Hxd Hod Hol]
  isplitl [Hwp]; · iexact Hwp
  iintro %a ⟨HxA, HxB, Hl0, Hl1, ⟨%LA, %LB, ⟨Hg0, Hg1⟩, %eLA, %eLB⟩, HbA, HbB, HsA, HsB, %W2, %hW2, HO⟩
  subst eLA eLB
  isplitr; · iexact Hmw
  isplitl [Hxd HxA HxB]
  · iapply (Entails.of_eq (x_give (F := F) d L k.val X offA hA offB hB eA eB))
    isplitl [Hxd]; · iexact Hxd
    isplitl [HxA]; · iexact HxA
    iexact HxB
  isplitr
  · rw [x_none d X (baseRow L + 2 * (k.val + 1) + 2) (baseRow L + 128) (by omega)]; iempintro
  isplitl [Hod Hl0 Hl1]
  · iapply (Entails.of_eq (o_give (F := F) d L k.val hk1 (by omega) X Tm f0 off0 h0 c0 off1 h1 c1 e0 e1 hI0 hI1))
    isplitl [Hod]; · iexact Hod
    isplitl [Hl0]; · iexact Hl0
    iexact Hl1
  isplitl [Hol]; · iexact Hol
  isplitl [HbA HbB HsA HsB]
  · isplitl [HbA]; · iexists cA; iexact HbA
    isplitl [HbB]; · iexists cB; iexact HbB
    isplitl [HsA]; · iexact HsA
    iexact HsB
  isplitl [Hg0 Hg1]
  · iexists (k0_off5 L k)
    iexists (k0_off5_inb L k)
    iexists ((ob0).view.writes (Elt F) c0 (piecesTo xb0 cA 800 le_rfl))
    iexists (k0_off9 L k)
    iexists (k0_off9_inb L k)
    iexists ((ob1).view.writes (Elt F) c1 (piecesTo xb1 cB 800 le_rfl))
    isplitr
    · ipureintro
      have e5 : k0_off5 L k = ![baseRow L + 2 * (k.val + 1) - 2, 0, 0] := (k0_off5_eq L k).trans (vec3_eq (by unfold baseRow; omega))
      have e9 : k0_off9 L k = ![baseRow L + 2 * (k.val + 1) - 1, 0, 0] := (k0_off9_eq L k).trans (vec3_eq (by unfold baseRow; omega))
      have rA : baseRow L + 2 * k.val = baseRow L + 2 * (k.val + 1) - 2 := by omega
      have rB : baseRow L + 2 * k.val + 1 = baseRow L + 2 * (k.val + 1) - 1 := by omega
      exact ⟨e5, e9, IsRow_cast d rA (fun hr => (isRow_after (hXA hr) hT0).1), IsRow_cast d rB (fun hr => (isRow_after (hXB hr) hT1).1),
        (isRow_after (hXA (by omega)) hT0).2, (isRow_after (hXB (by omega)) hT1).2⟩
    isplitl [Hg0]; · iexact Hg0
    iexact Hg1
  iexists W2; isplitr
  · ipureintro; exact W_trans hW1 hW2
  · iexact HO

end Tile

variable [FloatOps F]

/-- One vector subcore's task, from the three statements about one trip. -/
theorem tile_body_of (hF : (K (F := F)).Facts) (h0 : TripFirst (F := F)) (hm : TripMid (F := F)) (hl : TripLast (F := F)) :
    TileBody (F := F) := by
  intro d L O W hO X Tm f0 qt
  have hb := baseRow_le L
  simp only [tileProg, cc0_run_eq_skeleton]; unfold cc0_run_skel
  simp only [k0_part273_eq_skeleton]; unfold k0_part273_skel
  rw [(K (F := F)).scopedBufs_V hF d (cV L) (jV L), SparseCore.Cfg.scopedSems0_V (Val := Elt F) d (cV L) (jV L), ownSems0_thr, ownBufs_thr]
  unfold tileGo tileTd
  rw [xBlock_carve]
  iintro ⟨#Hlv, -, ⟨⟨Hxa, Hxb, Hxr⟩, Ht, Ho⟩, ⟨⟨%fx0, Hb0⟩, ⟨%fx1, Hb1⟩, ⟨%fo0, Hc0⟩, ⟨%fo1, Hc1⟩, Hbufs⟩, ⟨Hs0, Hs1, Hs2, Hs3, Hs4, Hs5⟩, HO⟩
  ihave Hmw := ((K (F := F)).mayWaits_none (thr := thr d L) hO) $$ Hlv
  ihave Ht' := (Entails.of_eq (pts_t (F := F) d L _ _).symm) $$ Ht
  ihave Hb0' := (Entails.of_eq (pts_xb0 (F := F) d L _).symm) $$ Hb0
  ihave Hb1' := (Entails.of_eq (pts_xb1 (F := F) d L _).symm) $$ Hb1
  ihave Hc0' := (Entails.of_eq (pts_ob0 (F := F) d L _).symm) $$ Hc0
  ihave Hc1' := (Entails.of_eq (pts_ob1 (F := F) d L _).symm) $$ Hc1
  sl_exec
  rw [bind_assoc]
  sl_for (inv d L O W X Tm f0) $$ [Hmw Hxr Ho Hs0 Hs1 Hc0' Hc1' Hs2 Hs3 HO]
  case region =>
    intro k acc
    rcases Nat.eq_zero_or_pos k.val with hk0 | hk1
    · exact step_first d L O W X Tm f0 h0 k hk0 _
    · by_cases hk2 : k.val ≤ 62
      · exact step_mid d L O W X Tm f0 hm k hk1 hk2 _
      · exact step_last d L O W X Tm f0 hl k (by have h := k.isLt; have ht : Scf.trips k0_t1_loop.lb k0_t1_loop.ub k0_t1_loop.st = 64 := trips_eq; omega) _
  · unfold inv
    rw [inPart_lt d L X (show 0 < 64 by omega), outPart_zero d L X Tm f0 rfl]
    unfold inFly outHand
    isplitr; · iexact Hmw
    isplitr; · rw [x_none d X (baseRow L) (baseRow L + 2 * 0) (by omega)]; iempintro
    isplitl [Hxr]; · iexact Hxr
    isplitr; · rw [o_none d (Spec.Gout X Tm : Buf (Elt F) (oLoc d)) (baseRow L) (baseRow L + 2 * (0 - 1)) (by omega)]; iempintro
    isplitl [Ho]; · iexact Ho
    isplitl [Hs0 Hs1]
    · iexists (k0_off1 L)
      iexists (k0_off1_inb L)
      iexists (landedX d L xb0 (k0_off1 L) (k0_off1_inb L) X fx0)
      iexists (k0_off2 L)
      iexists (k0_off2_inb L)
      iexists (landedX d L xb1 (k0_off2 L) (k0_off2_inb L) X fx1)
      isplitr
      · ipureintro
        have e1 : k0_off1 L = ![baseRow L + 2 * 0, 0] := (k0_off1_eq L).trans (vec2_eq (by unfold baseRow; omega))
        have e2 : k0_off2 L = ![baseRow L + 2 * 0 + 1, 0] := (k0_off2_eq L).trans (vec2_eq (by unfold baseRow; omega))
        exact ⟨e1, e2, fun hr => xrow_landed xb0 fx0 X _ _ _ hr e1, fun hr => xrow_landed xb1 fx1 X _ _ _ hr e2⟩
      isplitl [Hs0]; · iexact Hs0
      iexact Hs1
    isplitl [Hc0' Hc1' Hs2 Hs3]
    · iexists _
      iexists _
      isplitr
      · ipureintro; exact ⟨template_landed ob0 fo0 Tm, template_landed ob1 fo1 Tm⟩
      isplitl [Hc0']; · iexact Hc0'
      isplitl [Hc1']; · iexact Hc1'
      isplitl [Hs2]; · iexact Hs2
      iexact Hs3
    iexists _; isplitr
    rotate_left
    · iexact HO
    · ipureintro; intro p hp
      rcases Finset.mem_insert.mp hp with hp | hp
      · exact .inr (by subst hp; rfl)
      rcases Finset.mem_insert.mp hp with hp | hp
      · exact .inr (by subst hp; rfl)
      · exact .inl hp
  iintro %acc HI
  have ht : Scf.trips k0_t1_loop.lb k0_t1_loop.ub k0_t1_loop.st = 64 := trips_eq
  rw [ht]
  unfold inv
  rw [inPart_ge d L X (show ¬ 64 < 64 by omega), outPart_pos d L X Tm f0 (show ¬ 64 = 0 by omega)]
  unfold inHand outFly
  icases HI with ⟨-, Hxd, -, Hod, -, ⟨⟨%cA, HbA⟩, ⟨%cB, HbB⟩, HsA, HsB⟩, ⟨%off0, %h0', %c0, %off1, %h1', %c1, %hout, Hf0, Hf1⟩, %W1, %hW1, HO⟩
  obtain ⟨e0, e1, hI0, hI1, hT0, hT1⟩ := hout
  sl_exec
  rw [wp_ret]; imodintro
  isplitl [Hxd Ht' Hod Hf0_dst Hf1_dst]
  · isplitl [Hxd]
    · iapply (Entails.of_eq (xBlock_carve (F := F) d L X))
      iexact Hxd
    isplitl [Ht']
    · iapply (Entails.of_eq (pts_t (F := F) d L _ _)); iexact Ht'
    · iapply (Entails.of_eq (o_give (F := F) d L 64 (by omega) (by omega) X Tm f0 off0 h0' c0 off1 h1' c1 e0 e1 hI0 hI1))
      isplitl [Hod]; · iexact Hod
      isplitl [Hf0_dst]; · iexact Hf0_dst
      iexact Hf1_dst
  isplitl [HbA HbB Hf0_src Hf1_src Hbufs]
  · isplitl [HbA]; · iexists cA; iexact HbA
    isplitl [HbB]; · iexists cB; iexact HbB
    isplitl [Hf0_src]
    · iexists c0; iapply (Entails.of_eq (pts_ob0_set (F := F) d L _)); iexact Hf0_src
    isplitl [Hf1_src]
    · iexists c1; iapply (Entails.of_eq (pts_ob1_set (F := F) d L _)); iexact Hf1_src
    iexact Hbufs
  isplitl [HsA HsB Hf0 Hf1 Hs4 Hs5]
  · isplitl [HsA]; · iexact HsA
    isplitl [HsB]; · iexact HsB
    isplitl [Hf0]; · iexact Hf0
    isplitl [Hf1]; · iexact Hf1
    isplitl [Hs4]; · iexact Hs4
    iexact Hs5
  iexists _; isplitr
  rotate_left
  · iexact HO
  · ipureintro; intro p hp
    rcases Finset.mem_insert.mp hp with hp | hp
    · exact .inr (by subst hp; rfl)
    rcases Finset.mem_insert.mp hp with hp | hp
    · exact .inr (by subst hp; rfl)
    · exact hW1 p hp

end Cert.Proof.KernelIdealP

end
-- ==== Proof.TripFirst.lean ====
/-
  The first trip of the loop: the two output buffers are in hand (they hold the template), so there is no copy-out to
  wait for; otherwise as a middle trip.
-/
import proofs.«204673_g16922171147058_cont_7to1_1063_26_alg».proof.Proof.Trips

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v3_scv : Memref Cert.KernelIdeal.sig Kind.scVector Space.hbm Cert.KernelIdeal.S4096x12800 EltTy.f32)
local notation "tV" => (Memref.whole Cert.KernelIdeal.main_v2_scv : Memref Cert.KernelIdeal.sig Kind.scVector Space.hbm Cert.KernelIdeal.S200x128 EltTy.f32)
local notation "oV" => (Memref.whole Cert.KernelIdeal.main_v4_scv : Memref Cert.KernelIdeal.sig Kind.scVector Space.hbm Cert.KernelIdeal.S4096x200x128 EltTy.f32)
local notation "xb0" => (Memref.whole Cert.KernelIdeal.cc0_scratch0 : Memref Cert.KernelIdeal.sig Kind.scVector Space.vmem Cert.KernelIdeal.S12800 EltTy.f32)
local notation "xb1" => (Memref.whole Cert.KernelIdeal.cc0_scratch1 : Memref Cert.KernelIdeal.sig Kind.scVector Space.vmem Cert.KernelIdeal.S12800 EltTy.f32)
local notation "ob0" => (Memref.whole Cert.KernelIdeal.cc0_scratch2 : Memref Cert.KernelIdeal.sig Kind.scVector Space.vmem Cert.KernelIdeal.S200x128 EltTy.f32)
local notation "ob1" => (Memref.whole Cert.KernelIdeal.cc0_scratch3 : Memref Cert.KernelIdeal.sig Kind.scVector Space.vmem Cert.KernelIdeal.S200x128 EltTy.f32)

variable [FloatOps F]

theorem trip_first : TripFirst (F := F) := by
  intro d L O W X f0 k hk v2 offA hA cA offB hB cB c0 c1
  have k0_h1 : ¬ k0_cond1 k = 1#1 := cond1_zero k hk
  have k0_h3 : ¬ k0_cond3 k = 1#1 := cond3_zero k hk
  have k0_h2 : k0_cond2 k = 1#1 := cond2_pos k (by omega)
  have k0_h4 : k0_cond4 k = 1#1 := cond4_pos k (by omega)
  delta tripProg outgoing incoming
  delta xFlight oFlight
  delta xRowPts oRowPts
  beta_reduce
  unfold k0_t1_body
  iintro ⟨#Hmw, HfA, HfB, Hc0, Hc1, Hs2, Hs3, Ho0, Ho1, Hx0, Hx1, HO⟩
  sl_exec_parts
  sl_step
  iclear Hc0
  iclear Hc1
  isplitl [HfA_src]; · iexact HfA_src
  isplitl [HfB_src]; · iexact HfB_src
  isplitl [Hs2 Hs3]
  · iexists _; iexists _
    isplitl [Hs2 Hs3]
    · isplitl [Hs2]; · iexact Hs2
      iexact Hs3
    isplitr
    · ipureintro; sl_kernel_rfl
    · ipureintro; sl_kernel_rfl
  isplitl [HfA HfB]
  · isplitl [HfA]; · iexact HfA
    iexact HfB
  iexists _; isplitr
  swap
  · iexact HO
  · ipureintro; intro p hp
    simp only [Finset.mem_insert] at hp
    rcases hp with rfl | rfl | hp
    · exact .inr rfl
    · exact .inr rfl
    · exact .inl hp

end Cert.Proof.KernelIdealP

end
-- ==== Proof.TripMid.lean ====
/-
  A middle trip of the loop (trips 1 to 62): both pairs of buffers wait for their row of `x` and for their previous
  copy-out, are overwritten on the left 64 columns by the 800 stores, start their copy-out and the prefetch of the row
  after next.  The 800 stores each buffer received are, read off the run, the list `piecesTo` names.
-/
import proofs.«204673_g16922171147058_cont_7to1_1063_26_alg».proof.Proof.Trips

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v3_scv : Memref Cert.KernelIdeal.sig Kind.scVector Space.hbm Cert.KernelIdeal.S4096x12800 EltTy.f32)
local notation "tV" => (Memref.whole Cert.KernelIdeal.main_v2_scv : Memref Cert.KernelIdeal.sig Kind.scVector Space.hbm Cert.KernelIdeal.S200x128 EltTy.f32)
local notation "oV" => (Memref.whole Cert.KernelIdeal.main_v4_scv : Memref Cert.KernelIdeal.sig Kind.scVector Space.hbm Cert.KernelIdeal.S4096x200x128 EltTy.f32)
local notation "xb0" => (Memref.whole Cert.KernelIdeal.cc0_scratch0 : Memref Cert.KernelIdeal.sig Kind.scVector Space.vmem Cert.KernelIdeal.S12800 EltTy.f32)
local notation "xb1" => (Memref.whole Cert.KernelIdeal.cc0_scratch1 : Memref Cert.KernelIdeal.sig Kind.scVector Space.vmem Cert.KernelIdeal.S12800 EltTy.f32)
local notation "ob0" => (Memref.whole Cert.KernelIdeal.cc0_scratch2 : Memref Cert.KernelIdeal.sig Kind.scVector Space.vmem Cert.KernelIdeal.S200x128 EltTy.f32)
local notation "ob1" => (Memref.whole Cert.KernelIdeal.cc0_scratch3 : Memref Cert.KernelIdeal.sig Kind.scVector Space.vmem Cert.KernelIdeal.S200x128 EltTy.f32)

variable [FloatOps F]

theorem trip_mid : TripMid (F := F) := by
  intro d L O W X f0 k hk1 hk2 v2 offA hA cA offB hB cB off0 h0 c0 off1 h1 c1
  have k0_h1 : k0_cond1 k = 1#1 := cond1_pos k hk1
  have k0_h3 : k0_cond3 k = 1#1 := cond3_pos k hk1
  have k0_h2 : k0_cond2 k = 1#1 := cond2_pos k hk2
  have k0_h4 : k0_cond4 k = 1#1 := cond4_pos k hk2
  delta tripProg outgoing incoming
  delta xFlight oFlight
  delta xRowPts oRowPts
  beta_reduce
  unfold k0_t1_body
  iintro ⟨#Hmw, HfA, HfB, Hf0, Hf1, Ho0, Ho1, Hx0, Hx1, HO⟩
  sl_exec_parts
  sl_step
  isplitl [HfA_src]; · iexact HfA_src
  isplitl [HfB_src]; · iexact HfB_src
  isplitl [Hf0_dst]; · iexact Hf0_dst
  isplitl [Hf1_dst]; · iexact Hf1_dst
  isplitl [Hf0 Hf1]
  · iexists _; iexists _
    isplitl [Hf0 Hf1]
    · isplitl [Hf0]; · iexact Hf0
      iexact Hf1
    isplitr
    · ipureintro; sl_kernel_rfl
    · ipureintro; sl_kernel_rfl
  isplitl [HfA HfB]
  · isplitl [HfA]; · iexact HfA
    iexact HfB
  iexists _; isplitr
  swap
  · iexact HO
  · ipureintro; intro p hp
    simp only [Finset.mem_insert] at hp
    rcases hp with rfl | rfl | rfl | rfl | hp
    · exact .inr rfl
    · exact .inr rfl
    · exact .inr rfl
    · exact .inr rfl
    · exact .inl hp

end Cert.Proof.KernelIdealP

end
-- ==== Proof.TripLast.lean ====
/-
  The last trip of the loop: as a middle trip, except that no row is left to prefetch, so the two flat buffers and their
  semaphores end the trip in hand.
-/
import proofs.«204673_g16922171147058_cont_7to1_1063_26_alg».proof.Proof.Trips

noncomputable section

namespace Cert.Proof.KernelIdealP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v3_scv : Memref Cert.KernelIdeal.sig Kind.scVector Space.hbm Cert.KernelIdeal.S4096x12800 EltTy.f32)
local notation "tV" => (Memref.whole Cert.KernelIdeal.main_v2_scv : Memref Cert.KernelIdeal.sig Kind.scVector Space.hbm Cert.KernelIdeal.S200x128 EltTy.f32)
local notation "oV" => (Memref.whole Cert.KernelIdeal.main_v4_scv : Memref Cert.KernelIdeal.sig Kind.scVector Space.hbm Cert.KernelIdeal.S4096x200x128 EltTy.f32)
local notation "xb0" => (Memref.whole Cert.KernelIdeal.cc0_scratch0 : Memref Cert.KernelIdeal.sig Kind.scVector Space.vmem Cert.KernelIdeal.S12800 EltTy.f32)
local notation "xb1" => (Memref.whole Cert.KernelIdeal.cc0_scratch1 : Memref Cert.KernelIdeal.sig Kind.scVector Space.vmem Cert.KernelIdeal.S12800 EltTy.f32)
local notation "ob0" => (Memref.whole Cert.KernelIdeal.cc0_scratch2 : Memref Cert.KernelIdeal.sig Kind.scVector Space.vmem Cert.KernelIdeal.S200x128 EltTy.f32)
local notation "ob1" => (Memref.whole Cert.KernelIdeal.cc0_scratch3 : Memref Cert.KernelIdeal.sig Kind.scVector Space.vmem Cert.KernelIdeal.S200x128 EltTy.f32)

variable [FloatOps F]

theorem trip_last : TripLast (F := F) := by
  intro d L O W X f0 k hk v2 offA hA cA offB hB cB off0 h0 c0 off1 h1 c1
  have k0_h1 : k0_cond1 k = 1#1 := cond1_pos k (by omega)
  have k0_h3 : k0_cond3 k = 1#1 := cond3_pos k (by omega)
  have k0_h2 : ¬ k0_cond2 k = 1#1 := cond2_last k hk
  have k0_h4 : ¬ k0_cond4 k = 1#1 := cond4_last k hk
  delta tripProg outgoing
  delta xFlight oFlight
  delta xRowPts oRowPts
  beta_reduce
  unfold k0_t1_body
  iintro ⟨#Hmw, HfA, HfB, Hf0, Hf1, Ho0, Ho1, HO⟩
  sl_exec_parts
  sl_step
  isplitl [HfA_src]; · iexact HfA_src
  isplitl [HfB_src]; · iexact HfB_src
  isplitl [Hf0_dst]; · iexact Hf0_dst
  isplitl [Hf1_dst]; · iexact Hf1_dst
  isplitl [Hf0 Hf1]
  · iexists _; iexists _
    isplitl [Hf0 Hf1]
    · isplitl [Hf0]; · iexact Hf0
      iexact Hf1
    isplitr
    · ipureintro; sl_kernel_rfl
    · ipureintro; sl_kernel_rfl
  isplitl [HfA_dst]; · iexact HfA_dst
  isplitl [HfB_dst]; · iexact HfB_dst
  isplitl [HfA]; · iexact HfA
  isplitl [HfB]; · iexact HfB
  iexists _; isplitr
  swap
  · iexact HO
  · ipureintro; intro p hp
    simp only [Finset.mem_insert] at hp
    rcases hp with rfl | rfl | rfl | rfl | hp
    · exact .inr rfl
    · exact .inr rfl
    · exact .inr rfl
    · exact .inr rfl
    · exact .inl hp

end Cert.Proof.KernelIdealP

end
-- ==== Proof.BodyAll.lean ====
/-
  One vector subcore's task, proved: the three kinds of trip, put together by the loop's invariant.
-/
import proofs.«204673_g16922171147058_cont_7to1_1063_26_alg».proof.Proof.Body
import proofs.«204673_g16922171147058_cont_7to1_1063_26_alg».proof.Proof.TripFirst
import proofs.«204673_g16922171147058_cont_7to1_1063_26_alg».proof.Proof.TripMid
import proofs.«204673_g16922171147058_cont_7to1_1063_26_alg».proof.Proof.TripLast

noncomputable section

namespace Cert.Proof.KernelIdealP

open Idealize.ShloMosaic

variable {F : FTy → Type} [FloatOps F]

/-- Every subcore of the grid leaves its 128 batch rows of the result at the value function. -/
theorem tile_body : TileBody (F := F) := tile_body_of facts trip_first trip_mid trip_last

end Cert.Proof.KernelIdealP

end
-- ==== Proof.Bits.Common.lean ====
/-
  The kernel, as printed at the word level, as the SparseCore launch theorem reads it, and the vocabulary of its proof.

  The kernel runs on the 2 × 16 vector subcores of the device.  Subcore (c, s) owns the 128 consecutive
  batch rows starting at row 256·s + 128·c.  It first copies the 200 × 128 template (zeros on the left
  64 columns, the first 200 rows of the position table on the right 64) into both of its output buffers;
  then, for each of its batch rows in turn, alternating between two pairs of buffers, it waits for the row
  of `x` (12800 numbers, prefetched two rows ahead), overwrites the left 64 columns of the output buffer
  with it (row l of the buffer receives numbers 64·l … 64·l + 63), and copies the buffer out to that batch
  row of the result.  So entry (b, l, j) of the result is x(b, 64·l + j) for j < 64 and the template's
  (l, j) otherwise.
-/
import proofs.«204673_g16922171147058_cont_7to1_1063_26_alg».proof.Defs
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.Writes
import proofs.«204673_g16922171147058_cont_7to1_1063_26_alg».proof.Proof.Gen.Kernel
import proofs.«204673_g16922171147058_cont_7to1_1063_26_alg».proof.Proof.Gen.Kernel.Skeleton

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds beside the local copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flattened `x` (4096 rows of 12800), the template (200 × 128) and the result (4096 × 200 × 128), as
    locations of device `d`. -/
abbrev xLoc (d : Dev nD) : Loc nD τ sig := (SparseCore.T d).loc main_v3
abbrev tLoc (d : Dev nD) : Loc nD τ sig := (SparseCore.T d).loc main_v2
abbrev oLoc (d : Dev nD) : Loc nD τ sig := (SparseCore.T d).loc main_v4

end Cert.Proof.KernelP

end
-- ==== Proof.Bits.TileSpec.lean ====
/-
  What one vector subcore's task does, as a statement: handed its own 128 rows of the flattened `x`, a read
  share of the template and its own 128 batch rows of the result, it gives them back and leaves in
  each of its result rows b the 200 × 128 matrix whose entry (l, j) is x(b, 64·l + j) for j < 64 and the
  template's (l, j) for j ≥ 64.
-/
import proofs.«204673_g16922171147058_cont_7to1_1063_26_alg».proof.Proof.Bits.Common
import proofs.«204673_g16922171147058_cont_7to1_1063_26_alg».proof.Proof.Spec

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v3_scv : Memref Cert.Kernel.sig Kind.scVector Space.hbm Cert.Kernel.S4096x12800 EltTy.f32)
local notation "tV" => (Memref.whole Cert.Kernel.main_v2_scv : Memref Cert.Kernel.sig Kind.scVector Space.hbm Cert.Kernel.S200x128 EltTy.f32)
local notation "oV" => (Memref.whole Cert.Kernel.main_v4_scv : Memref Cert.Kernel.sig Kind.scVector Space.hbm Cert.Kernel.S4096x200x128 EltTy.f32)
local notation "xb0" => (Memref.whole Cert.Kernel.cc0_scratch0 : Memref Cert.Kernel.sig Kind.scVector Space.vmem Cert.Kernel.S12800 EltTy.f32)
local notation "xb1" => (Memref.whole Cert.Kernel.cc0_scratch1 : Memref Cert.Kernel.sig Kind.scVector Space.vmem Cert.Kernel.S12800 EltTy.f32)
local notation "ob0" => (Memref.whole Cert.Kernel.cc0_scratch2 : Memref Cert.Kernel.sig Kind.scVector Space.vmem Cert.Kernel.S200x128 EltTy.f32)
local notation "ob1" => (Memref.whole Cert.Kernel.cc0_scratch3 : Memref Cert.Kernel.sig Kind.scVector Space.vmem Cert.Kernel.S200x128 EltTy.f32)

/-- The vector subcore a grid point names. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The first batch row of the subcore at grid point `L`: subcore s of SparseCore c starts at row 256·s + 128·c. -/
def baseRow (L : grid0.Coords) : ℕ := 256 * (L 1).val + 128 * (L 0).val

/-- The entries of the result that lie in batch row `r`. -/
def rowAt (r : ℕ) : Finset S4096x200x128.Idx := Finset.univ.filter fun i => (i 0).val = r

/-- The entries of the result in the 128 batch rows of the subcore at `L`. -/
def blockSet (L : grid0.Coords) : Finset S4096x200x128.Idx :=
  Finset.univ.filter fun i => baseRow L ≤ (i 0).val ∧ (i 0).val < baseRow L + 128

/-- The entries of the flattened `x` in the 128 batch rows of the subcore at `L`. -/
def xBlockSet (L : grid0.Coords) : Finset S4096x12800.Idx :=
  Finset.univ.filter fun i => baseRow L ≤ (i 0).val ∧ (i 0).val < baseRow L + 128

/-- The entries of the flattened `x` that lie in batch row `r`. -/
def xRowAt (r : ℕ) : Finset S4096x12800.Idx := Finset.univ.filter fun i => (i 0).val = r

/-- What the subcore at `L` is handed: its 128 rows of the flattened `x`, a read share of the template, and its block
    of the result at the launch contents `f0`. -/
def tileGo (d : Dev nD) (L : grid0.Coords) (X : Buf (Elt F) (xLoc d)) (Tm : Buf (Elt F) (tLoc d)) (f0 : Buf (Elt F) (oLoc d))
    (qt : PosShare TreeShare) : sProp 𝕄 :=
  iprop((xLoc d ↦[xBlockSet L]{fullShare} X) ∗ (tLoc d ↦{qt} Tm) ∗ (oLoc d ↦[blockSet L]{fullShare} f0))

/-- What it gives back: its rows of `x`, the share, and its block of the result at `Spec.Gout`. -/
def tileTd (d : Dev nD) (L : grid0.Coords) (X : Buf (Elt F) (xLoc d)) (Tm : Buf (Elt F) (tLoc d))
    (qt : PosShare TreeShare) : sProp 𝕄 :=
  iprop((xLoc d ↦[xBlockSet L]{fullShare} X) ∗ (tLoc d ↦{qt} Tm) ∗ (oLoc d ↦[blockSet L]{fullShare} (Spec.Gout X Tm : Buf (Elt F) (oLoc d))))

variable [FloatOps F]

/-- The kernel's function at grid point `L`, on the whole arrays and the subcore's own scratch: the term the body
    table passes. -/
abbrev tileProg (L : grid0.Coords) :=
  cc0_run (F := F) L xV (Memref.isWhole_whole _) tV (Memref.isWhole_whole _) oV (Memref.isWhole_whole _)
    xb0 (Memref.isWhole_whole _) xb1 (Memref.isWhole_whole _) ob0 (Memref.isWhole_whole _) ob1 (Memref.isWhole_whole _)
    cc0_scratch4 cc0_scratch5 cc0_scoped0 cc0_scoped1

/-- The task's obligation, at every subcore of the grid. -/
def TileBody : Prop :=
  ∀ (d : Dev nD) (L : grid0.Coords) (O : CellTallies nD τ sig (HIx 1)) (W : Waits sig (HIx 1)), (∀ g, O g none = 0) →
    ∀ (X : Buf (Elt F) (xLoc d)) (Tm : Buf (Elt F) (tLoc d)) (f0 : Buf (Elt F) (oLoc d)) (qt : PosShare TreeShare),
    iprop(levAts (K (F := F)).L (K (F := F)).lev ∗ emp ∗ tileGo d L X Tm f0 qt
        ∗ scopedBufs (thr d L) ∗ scopedSems0 (thr d L) ∗ owes (thr d L) O W)
      ⊢ wp frame (wpE (defs₀ (F := F)) 𝒱₀ (thr d L) none) Set.univ (tileProg (F := F) L)
          fun _ => iprop(tileTd d L X Tm qt ∗ scopedBufs (thr d L) ∗ scopedSems0 (thr d L)
            ∗ ∃ W', ⌜∀ p ∈ W', p ∈ W ∨ p.2 = none⌝ ∗ owes (thr d L) O W')

end Cert.Proof.KernelP

end
-- ==== Proof.Bits.HostVals.lean ====
/-
  The two operands of the kernel as @main computes them from its arguments: the flattened `x` is the reshape of
  the first argument, the template is the zero matrix joined (along the columns) with the first 200 rows of the
  position table.
-/
import proofs.«204673_g16922171147058_cont_7to1_1063_26_alg».proof.Kernel
import proofs.«204673_g16922171147058_cont_7to1_1063_26_alg».proof.Proof.Gen.Kernel

noncomputable section

namespace Cert.Proof.KernelP

open Cert.Kernel Idealize.ShloMosaic
open Cert.Kernel.Facts Cert.Kernel.Shapes2.Facts₀ Cert.Kernel.Shapes1.Facts₀

variable {F : FTy → Type} [FloatOps F]

/-- The flattened `x`: the first argument's numbers in row-major order at shape 4096 × 12800. -/
def Xof (x0 : (⟨S4096x200x64, .f32⟩ : BufTy).Contents (Elt F)) : (⟨S4096x12800, .f32⟩ : BufTy).Contents (Elt F) :=
  shapeCast S4096x12800 x0 shapeCasts_S4096x200x64_S4096x12800

/-- The template: 200 × 64 zeros on the left, rows 0 … 199 of the position table on the right. -/
def Tof (x1 : (⟨S202x64, .f32⟩ : BufTy).Contents (Elt F)) : (⟨S200x128, .f32⟩ : BufTy).Contents (Elt F) :=
  concatenate S200x128 1
    [⟨S200x64, broadcastInDim S200x64 ![] bcast_S_S200x64 (constant (F := F) S_ .f32 0x00000000#32)⟩,
     ⟨S200x64, extractStridedSlice S200x64 ![0, 0] x1 slices_S202x64_S200x64_0_0⟩]
    concatenates_S200x64_S200x64_S200x128_d1

end Cert.Proof.KernelP

end
-- ==== Proof.Bits.Launch.lean ====
/-
  From "every vector subcore's task is proved" to the run of the whole program.

  The TensorCore computes the two operands (the flattened `x` and the template), hands each of the 2 × 16 vector
  subcores its own 128 batch rows of the flattened `x`, a read share of the template and its own 128 batch rows of
  the result, and takes them back with every batch row of the result at `Spec.Gout`.  Batch row b belongs to
  subcore s = b / 256 of SparseCore c = (b % 256) / 128: the 32 blocks of rows are pairwise disjoint and cover all
  4096 rows.  The template is read by all of them at once: its full share is cut into one token per SparseCore and
  each of those into one token per subcore; the remainders stay with the TensorCore during the call.
-/
import proofs.«204673_g16922171147058_cont_7to1_1063_26_alg».proof.Proof.Bits.TileSpec
import proofs.«204673_g16922171147058_cont_7to1_1063_26_alg».proof.Proof.Bits.HostVals
import Idealize.ShloMosaic.Lib.Transfers

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq seq after)
open Idealize.ShloMosaic.Transfers (shareDrop shareTokN shareTok pointsTo_toks)
open Idealize.ShloMosaic.Tactic

variable {F : FTy → Type}

local notation "𝕄" => MT nD τ sig (HIx 1) (Elt F) ℕ UU ℕ

/-! ## The grid points, the read shares, the payloads -/

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The grid point of task `i` of SparseCore `c` of the call. -/
abbrev gp (c : Fin ((K (F := F)).nCore 0)) (i : Fin ((K (F := F)).nSub 0)) : grid0.Coords :=
  coordsV ⟨((K (F := F)).core 0 c).val, c.isLt⟩ ⟨((K (F := F)).sub 0 i).val, i.isLt⟩

/-- The read share of the template for SparseCore `c`, and of it the one for its subcore `i`. -/
abbrev qc (c : ℕ) : PosShare TreeShare := shareTokN fullShare c
abbrev qt (c i : ℕ) : PosShare TreeShare := shareTokN (qc c) i

variable (m : (ℓ : Loc nD τ sig) → Buf (Elt F) ℓ) (ρ : Dev nD → PrngReg)

/-- The two arguments and the result of @main, as locations of device `d`. -/
abbrev a0Loc (d : Dev nD) : Loc nD τ sig := (SparseCore.T d).loc main_arg0
abbrev a1Loc (d : Dev nD) : Loc nD τ sig := (SparseCore.T d).loc main_arg1

variable [FloatOps F]

/-- The operands of the call on device `d`: the flattened `x` and the template, as @main computes them. -/
abbrev XX (d : Dev nD) : Buf (Elt F) (xLoc d) := (Xof (m (a0Loc d)) : Buf (Elt F) (xLoc d))
abbrev TT (d : Dev nD) : Buf (Elt F) (tLoc d) := (Tof (m (a1Loc d)) : Buf (Elt F) (tLoc d))
/-- The result. -/
abbrev GG (d : Dev nD) : Buf (Elt F) (oLoc d) := (Spec.Gout (XX m d) (TT m d) : Buf (Elt F) (oLoc d))

/-- What task `(c, i)` is handed, and what it hands back. -/
abbrev goA (d : Dev nD) (c : Fin ((K (F := F)).nCore 0)) (i : Fin ((K (F := F)).nSub 0)) : sProp 𝕄 :=
  tileGo d (gp c i) (XX m d) (TT m d) (m (oLoc d)) (qt c.val i.val)
abbrev tdA (d : Dev nD) (c : Fin ((K (F := F)).nCore 0)) (i : Fin ((K (F := F)).nSub 0)) : sProp 𝕄 :=
  tileTd d (gp c i) (XX m d) (TT m d) (qt c.val i.val)

/-- The call hands each SparseCore its sixteen tasks' operands and takes their results back. -/
def P : (K (F := F)).Pay (nD := nD) (Val := Elt F) (Name := ℕ) (U := UU) where
  st := fun q d c => match q with | 0 => bigSep Finset.univ fun i : Fin ((K (F := F)).nSub 0) => goA m d c i
  dn := fun q d c => match q with | 0 => bigSep Finset.univ fun i : Fin ((K (F := F)).nSub 0) => tdA m d c i
  go := fun q d c i => match q with | 0 => goA m d c i
  td := fun q d c i => match q with | 0 => tdA m d c i
  x := fun _ _ => iprop(emp)

omit [FloatOps F] in
instance tileGo_storable (d : Dev nD) (L : grid0.Coords) (X : Buf (Elt F) (xLoc d)) (Tm : Buf (Elt F) (tLoc d)) (f0 : Buf (Elt F) (oLoc d))
    (q : PosShare TreeShare) : BI.Storable (upEmb : UEmb _ 𝕄) (tileGo d L X Tm f0 q) := by
  unfold tileGo; infer_instance
omit [FloatOps F] in
instance tileTd_storable (d : Dev nD) (L : grid0.Coords) (X : Buf (Elt F) (xLoc d)) (Tm : Buf (Elt F) (tLoc d))
    (q : PosShare TreeShare) : BI.Storable (upEmb : UEmb _ 𝕄) (tileTd d L X Tm q) := by
  unfold tileTd; infer_instance

instance P_storable : (P (F := F) m).IsStorable where
  st q d c := match q with
    | 0 => (inferInstance : BI.Storable (upEmb : UEmb _ 𝕄) (bigSep Finset.univ fun i : Fin ((K (F := F)).nSub 0) => goA m d c i))
  dn q d c := match q with
    | 0 => (inferInstance : BI.Storable (upEmb : UEmb _ 𝕄) (bigSep Finset.univ fun i : Fin ((K (F := F)).nSub 0) => tdA m d c i))
  go q d c i := match q with
    | 0 => (inferInstance : BI.Storable (upEmb : UEmb _ 𝕄) (goA m d c i))
  td q d c i := match q with
    | 0 => (inferInstance : BI.Storable (upEmb : UEmb _ 𝕄) (tdA m d c i))

/-! ## The launch theorem's obligations -/

theorem defs₀_vector (c : Fin τ.nSC) (s : Fin τ.nSub) :
    defs₀ (F := F) (.scVector c s) 0 ()
      = SparseCore.onTile hcore0 hsub0 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileBody (F := F)) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO (XX m d) (TT m d) (m (oLoc d)) (qt c.val i.val)).trans (wp_mono frame _ _ fun _ => obl_post)

theorem vecSplit : (K (F := F)).VecSplit' (P m) 0 := by
  intro d c
  show (bigSep Finset.univ fun i : Fin ((K (F := F)).nSub 0) => goA m d c i) ⊢ |={Set.univ}=> iprop(
      (bigSep Finset.univ fun i : Fin ((K (F := F)).nSub 0) => goA m d c i)
      ∗ ((bigSep Finset.univ fun i : Fin ((K (F := F)).nSub 0) => tdA m d c i)
          -∗ (bigSep Finset.univ fun i : Fin ((K (F := F)).nSub 0) => tdA m d c i)))
  iintro H; imodintro
  isplitl [H]; · iexact H
  iintro H; iexact H

/-! ## The launch element: the handshakes' rounds; the kernel's own transfers need no schedule -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The 32 blocks of batch rows -/

omit [FloatOps F] in
theorem baseRow_gp (c : Fin ((K (F := F)).nCore 0)) (i : Fin ((K (F := F)).nSub 0)) :
    baseRow (gp (F := F) c i) = 256 * i.val + 128 * c.val := rfl

/-- Two different subcores' blocks of rows share no row. -/
theorem rows_apart {c i c' i' b : ℕ} (hc : c < 2) (hc' : c' < 2) (hne : c ≠ c' ∨ i ≠ i')
    (h : 256 * i + 128 * c ≤ b ∧ b < 256 * i + 128 * c + 128) (h' : 256 * i' + 128 * c' ≤ b ∧ b < 256 * i' + 128 * c' + 128) : False := by
  omega

/-- Row b lies in the block of subcore b / 256 of SparseCore (b % 256) / 128. -/
theorem row_owner {b : ℕ} (hb : b < 4096) :
    (256 * (b / 256) + 128 * (b % 256 / 128) ≤ b ∧ b < 256 * (b / 256) + 128 * (b % 256 / 128) + 128) ∧ b % 256 / 128 < 2 ∧ b / 256 < 16 := by
  omega

omit [FloatOps F] in
theorem tasks_ne {t t' : Fin ((K (F := F)).nCore 0) × Fin ((K (F := F)).nSub 0)} (hne : t ≠ t') :
    t.1.val ≠ t'.1.val ∨ t.2.val ≠ t'.2.val := by
  by_contra h
  rcases not_or.mp h with ⟨h1, h2⟩
  exact hne (Prod.ext (Fin.ext (not_not.mp h1)) (Fin.ext (not_not.mp h2)))

omit [FloatOps F] in
theorem blocks_disjoint :
    ∀ t ∈ (Finset.univ : Finset (Fin ((K (F := F)).nCore 0) × Fin ((K (F := F)).nSub 0))),
    ∀ t' ∈ (Finset.univ : Finset (Fin ((K (F := F)).nCore 0) × Fin ((K (F := F)).nSub 0))), t ≠ t' →
      Disjoint (blockSet (gp (F := F) t.1 t.2)) (blockSet (gp (F := F) t'.1 t'.2)) := by
  intro t _ t' _ hne
  refine Finset.disjoint_left.mpr fun x hx hx' => ?_
  exact rows_apart (show t.1.val < 2 from t.1.isLt) (show t'.1.val < 2 from t'.1.isLt) (tasks_ne hne)
    (Finset.mem_filter.mp hx).2 (Finset.mem_filter.mp hx').2

omit [FloatOps F] in
theorem xblocks_disjoint :
    ∀ t ∈ (Finset.univ : Finset (Fin ((K (F := F)).nCore 0) × Fin ((K (F := F)).nSub 0))),
    ∀ t' ∈ (Finset.univ : Finset (Fin ((K (F := F)).nCore 0) × Fin ((K (F := F)).nSub 0))), t ≠ t' →
      Disjoint (xBlockSet (gp (F := F) t.1 t.2)) (xBlockSet (gp (F := F) t'.1 t'.2)) := by
  intro t _ t' _ hne
  refine Finset.disjoint_left.mpr fun x hx hx' => ?_
  exact rows_apart (show t.1.val < 2 from t.1.isLt) (show t'.1.val < 2 from t'.1.isLt) (tasks_ne hne)
    (Finset.mem_filter.mp hx).2 (Finset.mem_filter.mp hx').2

omit [FloatOps F] in
theorem blocks_cover :
    (Finset.univ : Finset (Fin ((K (F := F)).nCore 0) × Fin ((K (F := F)).nSub 0))).biUnion (fun t => blockSet (gp (F := F) t.1 t.2)) = Finset.univ := by
  refine Finset.eq_univ_iff_forall.mpr fun x => Finset.mem_biUnion.mpr ?_
  obtain ⟨h1, h3, h4⟩ := row_owner (show (x 0).val < 4096 from (x 0).isLt)
  refine ⟨(⟨_, h3⟩, ⟨_, h4⟩), Finset.mem_univ _, ?_⟩
  exact Finset.mem_filter.mpr ⟨Finset.mem_univ _, h1⟩

omit [FloatOps F] in
theorem xblocks_cover :
    (Finset.univ : Finset (Fin ((K (F := F)).nCore 0) × Fin ((K (F := F)).nSub 0))).biUnion (fun t => xBlockSet (gp (F := F) t.1 t.2)) = Finset.univ := by
  refine Finset.eq_univ_iff_forall.mpr fun x => Finset.mem_biUnion.mpr ?_
  obtain ⟨h1, h3, h4⟩ := row_owner (show (x 0).val < 4096 from (x 0).isLt)
  refine ⟨(⟨_, h3⟩, ⟨_, h4⟩), Finset.mem_univ _, ?_⟩
  exact Finset.mem_filter.mpr ⟨Finset.mem_univ _, h1⟩

omit [FloatOps F] in
/-- The flattened `x` whole is its 32 blocks of rows. -/
theorem xPts_blocks (d : Dev nD) (f : Buf (Elt F) (xLoc d)) :
    (xLoc d ↦{fullShare} f : sProp 𝕄)
      = bigSep Finset.univ fun c : Fin ((K (F := F)).nCore 0) => bigSep Finset.univ fun i : Fin ((K (F := F)).nSub 0) =>
          xLoc d ↦[xBlockSet (gp (F := F) c i)]{fullShare} f := by
  rw [← BI.bigSep_univ_prod (fun t : Fin ((K (F := F)).nCore 0) × Fin ((K (F := F)).nSub 0) => (xLoc d ↦[xBlockSet (gp (F := F) t.1 t.2)]{fullShare} f : sProp 𝕄)),
    ← pointsTo_biUnion Finset.univ (ℓ := xLoc d) (fun t : Fin ((K (F := F)).nCore 0) × Fin ((K (F := F)).nSub 0) => xBlockSet (gp (F := F) t.1 t.2)) xblocks_disjoint,
    xblocks_cover]

omit [FloatOps F] in
/-- The result whole is its 32 blocks of rows. -/
theorem oPts_blocks (d : Dev nD) (f : Buf (Elt F) (oLoc d)) :
    (oLoc d ↦{fullShare} f : sProp 𝕄)
      = bigSep Finset.univ fun c : Fin ((K (F := F)).nCore 0) => bigSep Finset.univ fun i : Fin ((K (F := F)).nSub 0) =>
          oLoc d ↦[blockSet (gp (F := F) c i)]{fullShare} f := by
  rw [← BI.bigSep_univ_prod (fun t : Fin ((K (F := F)).nCore 0) × Fin ((K (F := F)).nSub 0) => (oLoc d ↦[blockSet (gp (F := F) t.1 t.2)]{fullShare} f : sProp 𝕄)),
    ← pointsTo_biUnion Finset.univ (ℓ := oLoc d) (fun t : Fin ((K (F := F)).nCore 0) × Fin ((K (F := F)).nSub 0) => blockSet (gp (F := F) t.1 t.2)) blocks_disjoint,
    blocks_cover]

/-! ## The template's read shares -/

omit [FloatOps F] in
/-- The template whole is: what the TensorCore keeps (the remainder of the full share after one token per SparseCore,
    and of each of those after one token per subcore), and one token per subcore. -/
theorem tPts_shares (d : Dev nD) (f : Buf (Elt F) (tLoc d)) :
    (tLoc d ↦{fullShare} f : sProp 𝕄)
      = iprop((tLoc d ↦{shareDrop fullShare ((K (F := F)).nCore 0)} f)
          ∗ (bigSep Finset.univ fun c : Fin ((K (F := F)).nCore 0) => tLoc d ↦{shareDrop (qc c.val) ((K (F := F)).nSub 0)} f)
          ∗ bigSep Finset.univ fun c : Fin ((K (F := F)).nCore 0) => bigSep Finset.univ fun i : Fin ((K (F := F)).nSub 0) =>
              tLoc d ↦{qt c.val i.val} f) := by
  have h1 : (tLoc d ↦{fullShare} f : sProp 𝕄)
      = iprop((tLoc d ↦{shareDrop fullShare ((K (F := F)).nCore 0)} f)
          ∗ bigSep Finset.univ fun c : Fin ((K (F := F)).nCore 0) => tLoc d ↦{qc c.val} f) :=
    BI.equiv_iff.mp ⟨(pointsTo_toks fullShare ((K (F := F)).nCore 0)).1, (pointsTo_toks fullShare ((K (F := F)).nCore 0)).2⟩
  have h2 : ∀ c : Fin ((K (F := F)).nCore 0), (tLoc d ↦{qc c.val} f : sProp 𝕄)
      = iprop((tLoc d ↦{shareDrop (qc c.val) ((K (F := F)).nSub 0)} f)
          ∗ bigSep Finset.univ fun i : Fin ((K (F := F)).nSub 0) => tLoc d ↦{qt c.val i.val} f) := fun c =>
    BI.equiv_iff.mp ⟨(pointsTo_toks (qc c.val) ((K (F := F)).nSub 0)).1, (pointsTo_toks (qc c.val) ((K (F := F)).nSub 0)).2⟩
  rw [h1, bigSep_congr fun c _ => h2 c, bigSep_sep']

/-! ## @main's five operations before the call -/

section Host

abbrev opSlice : HloOp τ sig (Elt F) :=
  StableHlo.unary main_arg1 main_v0 ((extractStridedSlice S200x64 ![0, 0] · Shapes1.Facts₀.slices_S202x64_S200x64_0_0) : (⟨S202x64, .f32⟩ : BufTy).Contents (Elt F) → (⟨S200x64, .f32⟩ : BufTy).Contents (Elt F))
abbrev opZero : HloOp τ sig (Elt F) := StableHlo.nullary main_cst (constant S_ .f32 0x00000000#32)
abbrev opBcast : HloOp τ sig (Elt F) :=
  StableHlo.unary main_cst main_v1 (broadcastInDim S200x64 ![] Shapes1.Facts₀.bcast_S_S200x64 : (⟨S_, .f32⟩ : BufTy).Contents (Elt F) → (⟨S200x64, .f32⟩ : BufTy).Contents (Elt F))
abbrev opConcat : HloOp τ sig (Elt F) :=
  StableHlo.binary main_v1 main_v0 main_v2 ((fun a b => concatenate S200x128 1 [⟨S200x64, a⟩, ⟨S200x64, b⟩] Shapes1.Facts₀.concatenates_S200x64_S200x64_S200x128_d1) : (⟨S200x64, .f32⟩ : BufTy).Contents (Elt F) → (⟨S200x64, .f32⟩ : BufTy).Contents (Elt F) → (⟨S200x128, .f32⟩ : BufTy).Contents (Elt F))
abbrev opReshape : HloOp τ sig (Elt F) := StableHlo.reshape main_arg0 main_v3 rfl Shapes1.Facts₀.shapeCasts_S4096x200x64_S4096x12800

/-- The operations of @main before the call, in order. -/
abbrev hostOps : List (HloOp τ sig (Elt F)) := [opSlice, opZero, opBcast, opConcat, opReshape]

theorem main_eq (d : Dev nD) :
    main (F := F) d = (seq (hostOps (F := F)) >>= fun _ => ((K (F := F)).run d 0 >>= fun _ => pure ⟨⟩)) := rfl

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev cst' : DevRef τ sig := Proc.devRef .tc (main_cst : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The TensorCore's arrays, all unscoped. -/
abbrev S8 : Finset (DevRef τ sig) := {a0', a1', v0', cst', v1', v2', v3', v4'}

omit [FloatOps F] in
theorem held_S8 (d : Dev nD) (W : Valuation τ sig (Elt F)) :
    (held (T d) S8 W : sProp 𝕄)
      = iprop((a0Loc d ↦{fullShare} W a0') ∗ (a1Loc d ↦{fullShare} W a1') ∗ ((SparseCore.T d).loc main_v0 ↦{fullShare} W v0')
          ∗ ((SparseCore.T d).loc main_cst ↦{fullShare} W cst') ∗ ((SparseCore.T d).loc main_v1 ↦{fullShare} W v1')
          ∗ (tLoc d ↦{fullShare} W v2') ∗ (xLoc d ↦{fullShare} W v3') ∗ (oLoc d ↦{fullShare} W v4')) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ ((SparseCore.T d).loc main_v0 ↦{fullShare} W main_v0)
          ∗ ((SparseCore.T d).loc main_cst ↦{fullShare} W main_cst) ∗ ((SparseCore.T d).loc main_v1 ↦{fullShare} W main_v1)
          ∗ (tLoc d ↦{fullShare} W main_v2) ∗ (xLoc d ↦{fullShare} W main_v3) ∗ (oLoc d ↦{fullShare} W main_v4)) := by
  unfold unscopedBufs
  rw [show (Finset.univ.filter fun b : Ref sig .tc => ¬ b.isScoped) = {main_arg0, main_arg1, main_v0, main_cst, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch contents of device `d`'s arrays. -/
def V0 (d : Dev nD) : Valuation τ sig (Elt F) := fun b => m (d, b)

theorem unscoped_held (d : Dev nD) : (unscopedBufs d (fun b => m ((SparseCore.T d).loc b)) : sProp 𝕄) = held (T d) S8 (V0 m d) := by
  rw [unscopedBufs_eq, held_S8]; rfl

theorem hostOps_sub : ∀ op ∈ hostOps (F := F), op.bufs ⊆ S8 := by
  intro op hop
  simp only [List.mem_cons, List.mem_nil_iff, or_false] at hop
  rcases hop with rfl | rfl | rfl | rfl | rfl
  · show ({a1', v0'} : Finset (DevRef τ sig)) ⊆ S8; decide
  · show ({cst'} : Finset (DevRef τ sig)) ⊆ S8; decide
  · show ({cst', v1'} : Finset (DevRef τ sig)) ⊆ S8; decide
  · show ({v1', v0', v2'} : Finset (DevRef τ sig)) ⊆ S8; decide
  · show ({a0', v3'} : Finset (DevRef τ sig)) ⊆ S8; decide

theorem hostOps_fresh : ∀ op ∈ hostOps (F := F), op.fresh = ∅ := by
  intro _ h; (repeat (cases h with | head => rfl | tail _ h => ?_)); exact nomatch h

/-- What the arrays hold when the call starts. -/
theorem after_a0 (d : Dev nD) : after (hostOps (F := F)) (V0 m d) a0' = m (a0Loc d) := by
  after_results; rfl
theorem after_a1 (d : Dev nD) : after (hostOps (F := F)) (V0 m d) a1' = m (a1Loc d) := by
  after_results; rfl
theorem after_v4 (d : Dev nD) : after (hostOps (F := F)) (V0 m d) v4' = m (oLoc d) := by
  after_results; rfl
theorem after_v3 (d : Dev nD) : after (hostOps (F := F)) (V0 m d) v3' = XX m d := by
  after_results; rfl
theorem after_v2 (d : Dev nD) : after (hostOps (F := F)) (V0 m d) v2' = TT m d := by
  after_results; rfl

end Host

/-! ## @main on the TensorCore -/

omit [FloatOps F] in
theorem bigSep2_sep3 (A B C : Fin ((K (F := F)).nCore 0) → Fin ((K (F := F)).nSub 0) → sProp 𝕄) :
    (bigSep Finset.univ fun c => bigSep Finset.univ fun i => iprop(A c i ∗ B c i ∗ C c i))
      = iprop((bigSep Finset.univ fun c => bigSep Finset.univ fun i => A c i) ∗ (bigSep Finset.univ fun c => bigSep Finset.univ fun i => B c i)
          ∗ (bigSep Finset.univ fun c => bigSep Finset.univ fun i => C c i)) := by
  simp only [bigSep_sep']

/-- What the call takes for the two SparseCores, and what it hands back. -/
theorem st_all (d : Dev nD) :
    (bigSep Finset.univ fun c : Fin ((K (F := F)).nCore 0) => (P m).st 0 d c)
      = iprop((bigSep Finset.univ fun c : Fin ((K (F := F)).nCore 0) => bigSep Finset.univ fun i : Fin ((K (F := F)).nSub 0) => xLoc d ↦[xBlockSet (gp (F := F) c i)]{fullShare} XX m d)
          ∗ (bigSep Finset.univ fun c : Fin ((K (F := F)).nCore 0) => bigSep Finset.univ fun i : Fin ((K (F := F)).nSub 0) => tLoc d ↦{qt c.val i.val} TT m d)
          ∗ (bigSep Finset.univ fun c : Fin ((K (F := F)).nCore 0) => bigSep Finset.univ fun i : Fin ((K (F := F)).nSub 0) => oLoc d ↦[blockSet (gp (F := F) c i)]{fullShare} m (oLoc d))) :=
  bigSep2_sep3 (fun c i => xLoc d ↦[xBlockSet (gp (F := F) c i)]{fullShare} XX m d) (fun c i => tLoc d ↦{qt c.val i.val} TT m d)
    (fun c i => oLoc d ↦[blockSet (gp (F := F) c i)]{fullShare} m (oLoc d))
theorem dn_all (d : Dev nD) :
    (bigSep Finset.univ fun c : Fin ((K (F := F)).nCore 0) => (P m).dn 0 d c)
      = iprop((bigSep Finset.univ fun c : Fin ((K (F := F)).nCore 0) => bigSep Finset.univ fun i : Fin ((K (F := F)).nSub 0) => xLoc d ↦[xBlockSet (gp (F := F) c i)]{fullShare} XX m d)
          ∗ (bigSep Finset.univ fun c : Fin ((K (F := F)).nCore 0) => bigSep Finset.univ fun i : Fin ((K (F := F)).nSub 0) => tLoc d ↦{qt c.val i.val} TT m d)
          ∗ (bigSep Finset.univ fun c : Fin ((K (F := F)).nCore 0) => bigSep Finset.univ fun i : Fin ((K (F := F)).nSub 0) => oLoc d ↦[blockSet (gp (F := F) c i)]{fullShare} GG m d)) :=
  bigSep2_sep3 (fun c i => xLoc d ↦[xBlockSet (gp (F := F) c i)]{fullShare} XX m d) (fun c i => tLoc d ↦{qt c.val i.val} TT m d)
    (fun c i => oLoc d ↦[blockSet (gp (F := F) c i)]{fullShare} GG m d)

/-- The arrays when the call starts: the arguments unchanged, the template and the flattened `x` computed, the result's
    array at its launch contents. -/
theorem held_after (d : Dev nD) :
    (held (T d) S8 (after (hostOps (F := F)) (V0 m d)) : sProp 𝕄)
      = iprop((a0Loc d ↦{fullShare} m (a0Loc d)) ∗ (a1Loc d ↦{fullShare} m (a1Loc d))
          ∗ ((SparseCore.T d).loc main_v0 ↦{fullShare} after (hostOps (F := F)) (V0 m d) v0')
          ∗ ((SparseCore.T d).loc main_cst ↦{fullShare} after (hostOps (F := F)) (V0 m d) cst')
          ∗ ((SparseCore.T d).loc main_v1 ↦{fullShare} after (hostOps (F := F)) (V0 m d) v1')
          ∗ (tLoc d ↦{fullShare} TT m d) ∗ (xLoc d ↦{fullShare} XX m d) ∗ (oLoc d ↦{fullShare} m (oLoc d))) := by
  rw [held_S8, after_a0, after_a1, after_v2, after_v3, after_v4]

/-- What @main leaves the claim: the arguments at their launch contents, the result at `Spec.Gout` of the operands. -/
abbrev FIN (d : Dev nD) : sProp 𝕄 :=
  iprop((a0Loc d ↦{fullShare} m (a0Loc d)) ∗ (a1Loc d ↦{fullShare} m (a1Loc d)) ∗ (oLoc d ↦{fullShare} GG m d))

/-- @main on device `d`'s TensorCore: the five operations, the call — every subcore handed its rows and its read share
    of the template, the remainders of the share kept —, the return. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (wp_seq 𝒱 none Set.univ d S8 (fun _ => ((K (F := F)).run d 0 >>= fun _ => pure ⟨⟩)) (hostOps (F := F)) hostOps_sub hostOps_fresh (V0 m d)) $$ [Hb Hheld]
  · isplitl [Hb]; · iexact Hb
    iexact Hheld
  iintro ⟨Hb, Hheld⟩
  ihave Hh := (Entails.of_eq (held_after m d)) $$ Hheld
  icases Hh with ⟨Ha0, Ha1, -, -, -, Hv2, Hv3, Hv4⟩
  ihave Hx := (Entails.of_eq (xPts_blocks (F := F) d _)) $$ Hv3
  ihave Ht := (Entails.of_eq (tPts_shares (F := F) d _)) $$ Hv2
  icases Ht with ⟨Htd, Htc, Htt⟩
  ihave Ho := (Entails.of_eq (oPts_blocks (F := F) d _)) $$ Hv4
  rw [wp_bind]
  iapply ((K (F := F)).wp_run (D (F := F)) 𝒱 (EH := EH) (P := P m) κ d 0) $$ [Hst Hx Htt Ho Ha0 Ha1 Htd Htc]
  isplitr; · iexact Hctx
  isplitl [Hst]; · iexact Hst
  isplitl [Hx Htt Ho]
  · rw [st_all]
    isplitl [Hx]; · iexact Hx
    isplitl [Htt]; · iexact Htt
    iexact Ho
  iintro ⟨Hst, Hdn⟩
  ihave Hdn' := (Entails.of_eq (dn_all m d)) $$ Hdn
  icases Hdn' with ⟨Hx, Htt, Ho⟩
  ihave Hv4 := (Entails.of_eq (oPts_blocks (F := F) d (GG m d)).symm) $$ Ho
  rw [wp_pure]; imodintro
  isplitl [Hst]; · iexact Hst
  isplitl [Ha0]; · iexact Ha0
  isplitl [Ha1]; · iexact Ha1
  iexact Hv4

def fq (d : Dev nD) (s' : Phys nD τ sig (Elt F)) : Prop :=
  s'.mem.mem (oLoc d) = GG m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Ha0, Ha1, Ho⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h2, HSI, -⟩
  ihave H := (SI_pointsTo_agree (st := s') (ℓ := oLoc d) (I := Finset.univ) (q := fullShare) (f := GG m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC (m : (ℓ : Loc nD τ sig) → Buf (Elt F) ℓ) : PUnit × MemSt nD τ sig (Elt F) → Prop := fun r => ∀ c : Dev nD,
    r.2.mem ((c.tc : Thread nD τ).loc main_v4) = (Spec.Gout (Xof (m ((c.tc : Thread nD τ).loc main_arg0))) (Tof (m ((c.tc : Thread nD τ).loc main_arg1))) : Buf (Elt F) ((c.tc : Thread nD τ).loc main_v4))
    ∧ r.2.mem ((c.tc : Thread nD τ).loc main_arg0) = m ((c.tc : Thread nD τ).loc main_arg0)
    ∧ r.2.mem ((c.tc : Thread nD τ).loc main_arg1) = m ((c.tc : Thread nD τ).loc main_arg1)

theorem run_main [∀ e, Nonempty (Elt F e)] (hbody : TileBody (F := F)) (m : (ℓ : Loc nD τ sig) → Buf (Elt F) ℓ) (ρ : Dev nD → PrngReg) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelP

end
-- ==== Proof.Bits.Rows.lean ====
/-
  Rows of the two big arrays as element sets.

  The result (4096 × 200 × 128) and the flattened `x` (4096 × 12800) are handled a batch row at a time: a row, and a
  range of consecutive rows, are the entries whose first coordinate lies in a range.  A range splits at any
  point between its ends; the one-row slice a copy names (the array sliced at offsets (r, 0, …), the leading
  axis of extent one dropped) covers exactly row r.
-/
import proofs.«204673_g16922171147058_cont_7to1_1063_26_alg».proof.Proof.Bits.TileSpec

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v3_scv : Memref Cert.Kernel.sig Kind.scVector Space.hbm Cert.Kernel.S4096x12800 EltTy.f32)
local notation "tV" => (Memref.whole Cert.Kernel.main_v2_scv : Memref Cert.Kernel.sig Kind.scVector Space.hbm Cert.Kernel.S200x128 EltTy.f32)
local notation "oV" => (Memref.whole Cert.Kernel.main_v4_scv : Memref Cert.Kernel.sig Kind.scVector Space.hbm Cert.Kernel.S4096x200x128 EltTy.f32)
local notation "xb0" => (Memref.whole Cert.Kernel.cc0_scratch0 : Memref Cert.Kernel.sig Kind.scVector Space.vmem Cert.Kernel.S12800 EltTy.f32)
local notation "xb1" => (Memref.whole Cert.Kernel.cc0_scratch1 : Memref Cert.Kernel.sig Kind.scVector Space.vmem Cert.Kernel.S12800 EltTy.f32)
local notation "ob0" => (Memref.whole Cert.Kernel.cc0_scratch2 : Memref Cert.Kernel.sig Kind.scVector Space.vmem Cert.Kernel.S200x128 EltTy.f32)
local notation "ob1" => (Memref.whole Cert.Kernel.cc0_scratch3 : Memref Cert.Kernel.sig Kind.scVector Space.vmem Cert.Kernel.S200x128 EltTy.f32)

/-- The entries of the result whose batch row lies in [a, b). -/
def oRows (a b : ℕ) : Finset S4096x200x128.Idx := Finset.univ.filter fun i => a ≤ (i 0).val ∧ (i 0).val < b
/-- The entries of the flattened `x` whose row lies in [a, b). -/
def xRows (a b : ℕ) : Finset S4096x12800.Idx := Finset.univ.filter fun i => a ≤ (i 0).val ∧ (i 0).val < b

theorem blockSet_eq (L : grid0.Coords) : blockSet L = oRows (baseRow L) (baseRow L + 128) := rfl
theorem xBlockSet_eq (L : grid0.Coords) : xBlockSet L = xRows (baseRow L) (baseRow L + 128) := rfl

theorem mem_oRows {a b : ℕ} {i : S4096x200x128.Idx} : i ∈ oRows a b ↔ a ≤ (i 0).val ∧ (i 0).val < b := by
  unfold oRows; rw [Finset.mem_filter]; exact ⟨fun h => h.2, fun h => ⟨Finset.mem_univ _, h⟩⟩
theorem mem_xRows {a b : ℕ} {i : S4096x12800.Idx} : i ∈ xRows a b ↔ a ≤ (i 0).val ∧ (i 0).val < b := by
  unfold xRows; rw [Finset.mem_filter]; exact ⟨fun h => h.2, fun h => ⟨Finset.mem_univ _, h⟩⟩

theorem oRows_union {a m b : ℕ} (h1 : a ≤ m) (h2 : m ≤ b) : oRows a m ∪ oRows m b = oRows a b := by
  ext i; rw [Finset.mem_union, mem_oRows, mem_oRows, mem_oRows]; omega
theorem oRows_disjoint (a m b : ℕ) : Disjoint (oRows a m) (oRows m b) := by
  rw [Finset.disjoint_left]; intro i h1 h2; rw [mem_oRows] at h1 h2; omega
theorem xRows_union {a m b : ℕ} (h1 : a ≤ m) (h2 : m ≤ b) : xRows a m ∪ xRows m b = xRows a b := by
  ext i; rw [Finset.mem_union, mem_xRows, mem_xRows, mem_xRows]; omega
theorem xRows_disjoint (a m b : ℕ) : Disjoint (xRows a m) (xRows m b) := by
  rw [Finset.disjoint_left]; intro i h1 h2; rw [mem_xRows] at h1 h2; omega

/-- A range of result rows held at one function splits at any point between its ends. -/
theorem oRows_split (d : Dev nD) (q : PosShare TreeShare) (f : Buf (Elt F) (oLoc d)) {a m b : ℕ} (h1 : a ≤ m) (h2 : m ≤ b) :
    (oLoc d ↦[oRows a b]{q} f : sProp 𝕄) ⊣⊢ iprop((oLoc d ↦[oRows a m]{q} f) ∗ oLoc d ↦[oRows m b]{q} f) := by
  rw [← oRows_union h1 h2]; exact pointsTo_union (oRows_disjoint a m b)
theorem xRows_split (d : Dev nD) (q : PosShare TreeShare) (f : Buf (Elt F) (xLoc d)) {a m b : ℕ} (h1 : a ≤ m) (h2 : m ≤ b) :
    (xLoc d ↦[xRows a b]{q} f : sProp 𝕄) ⊣⊢ iprop((xLoc d ↦[xRows a m]{q} f) ∗ xLoc d ↦[xRows m b]{q} f) := by
  rw [← xRows_union h1 h2]; exact pointsTo_union (xRows_disjoint a m b)

/-- No rows: nothing held. -/
theorem oRows_empty (d : Dev nD) (q : PosShare TreeShare) (f : Buf (Elt F) (oLoc d)) (a : ℕ) :
    (oLoc d ↦[oRows a a]{q} f : sProp 𝕄) = iprop(emp) := by
  rw [show oRows a a = ∅ from Finset.eq_empty_of_forall_notMem fun i hi => by rw [mem_oRows] at hi; omega]; exact pointsTo_empty
theorem xRows_empty (d : Dev nD) (q : PosShare TreeShare) (f : Buf (Elt F) (xLoc d)) (a : ℕ) :
    (xLoc d ↦[xRows a a]{q} f : sProp 𝕄) = iprop(emp) := by
  rw [show xRows a a = ∅ from Finset.eq_empty_of_forall_notMem fun i hi => by rw [mem_xRows] at hi; omega]; exact pointsTo_empty

/-! ## The one-row slices the copies name -/

/-- Row `off 0` of the flattened `x` as a copy slices it: the array at offsets `off`, one row, the leading axis dropped. -/
abbrev xRowM (off : Fin 2 → Nat) (h : ∀ a, off a + S1x12800.size a ≤ S4096x12800.size a) : Memref sig .scVector .hbm S12800 .f32 :=
  ((xV).slice (Rect.unit (s := S4096x12800) off S1x12800.size h) (fun _ => rfl)).squeeze S12800 squeezes_S1x12800_S12800
/-- Batch row `off 0` of the result as a copy slices it. -/
abbrev oRowM (off : Fin 3 → Nat) (h : ∀ a, off a + S1x200x128.size a ≤ S4096x200x128.size a) : Memref sig .scVector .hbm S200x128 .f32 :=
  ((oV).slice (Rect.unit (s := S4096x200x128) off S1x200x128.size h) (fun _ => rfl)).squeeze S200x128 squeezes_S1x200x128_S200x128

theorem set_xRowM (off : Fin 2 → Nat) (h : ∀ a, off a + S1x12800.size a ≤ S4096x12800.size a) (r : ℕ) (hr : off = ![r, 0]) :
    (xRowM off h).view.set = xRows r (r + 1) := by
  subst hr
  show (((xV).view.slice (Rect.unit (s := S4096x12800) ![r, 0] S1x12800.size h)).reshape S12800 squeezes_S1x12800_S12800.numel_eq).set = _
  rw [View.set_reshape]
  show ((View.whole (main_v3_scv : Ref sig .scVector)).slice (Rect.unit (s := S4096x12800) ![r, 0] S1x12800.size h)).set = _
  rw [View.set_slice_whole]
  ext i
  rw [Rect.mem_set_unit, mem_xRows]
  constructor
  · intro hi; have h0 := hi 0; simp at h0; omega
  · intro hi a
    match a with
    | ⟨0, _⟩ => simp; omega
    | ⟨1, _⟩ => simp; exact (i 1).isLt

theorem set_oRowM (off : Fin 3 → Nat) (h : ∀ a, off a + S1x200x128.size a ≤ S4096x200x128.size a) (r : ℕ) (hr : off = ![r, 0, 0]) :
    (oRowM off h).view.set = oRows r (r + 1) := by
  subst hr
  show (((oV).view.slice (Rect.unit (s := S4096x200x128) ![r, 0, 0] S1x200x128.size h)).reshape S200x128 squeezes_S1x200x128_S200x128.numel_eq).set = _
  rw [View.set_reshape]
  show ((View.whole (main_v4_scv : Ref sig .scVector)).slice (Rect.unit (s := S4096x200x128) ![r, 0, 0] S1x200x128.size h)).set = _
  rw [View.set_slice_whole]
  ext i
  rw [Rect.mem_set_unit, mem_oRows]
  constructor
  · intro hi; have h0 := hi 0; simp at h0; omega
  · intro hi a
    match a with
    | ⟨0, _⟩ => simp; omega
    | ⟨1, _⟩ => simp; exact (i 1).isLt
    | ⟨2, _⟩ => simp; exact (i 2).isLt

end Cert.Proof.KernelP

end
-- ==== Proof.Bits.SkelEq.lean ====
/-
  Each printed window of the kernel's loop body is, by unfolding alone, its restatement as a sequence of loads,
  stores and copies over named payloads.  The windows move data only, so the equations hold for every float
  instance.  One line per window.
-/
import proofs.«204673_g16922171147058_cont_7to1_1063_26_alg».proof.Proof.Gen.Kernel.Skeleton

set_option maxRecDepth 65536

noncomputable section

namespace Cert.Kernel

open Idealize.ShloMosaic

theorem k0_part1_eq_skeleton {F : FTy → Type} : k0_part1 (F := F) = Gen.k0_part1_skel (F := F) := rfl
theorem k0_part2_eq_skeleton {F : FTy → Type} : k0_part2 (F := F) = Gen.k0_part2_skel (F := F) := rfl
theorem k0_part3_eq_skeleton {F : FTy → Type} : k0_part3 (F := F) = Gen.k0_part3_skel (F := F) := rfl
theorem k0_part4_eq_skeleton {F : FTy → Type} : k0_part4 (F := F) = Gen.k0_part4_skel (F := F) := rfl
theorem k0_part5_eq_skeleton {F : FTy → Type} : k0_part5 (F := F) = Gen.k0_part5_skel (F := F) := rfl
theorem k0_part6_eq_skeleton {F : FTy → Type} : k0_part6 (F := F) = Gen.k0_part6_skel (F := F) := rfl
theorem k0_part7_eq_skeleton {F : FTy → Type} : k0_part7 (F := F) = Gen.k0_part7_skel (F := F) := rfl
theorem k0_part8_eq_skeleton {F : FTy → Type} : k0_part8 (F := F) = Gen.k0_part8_skel (F := F) := rfl
theorem k0_part9_eq_skeleton {F : FTy → Type} : k0_part9 (F := F) = Gen.k0_part9_skel (F := F) := rfl
theorem k0_part10_eq_skeleton {F : FTy → Type} : k0_part10 (F := F) = Gen.k0_part10_skel (F := F) := rfl
theorem k0_part11_eq_skeleton {F : FTy → Type} : k0_part11 (F := F) = Gen.k0_part11_skel (F := F) := rfl
theorem k0_part12_eq_skeleton {F : FTy → Type} : k0_part12 (F := F) = Gen.k0_part12_skel (F := F) := rfl
theorem k0_part13_eq_skeleton {F : FTy → Type} : k0_part13 (F := F) = Gen.k0_part13_skel (F := F) := rfl
theorem k0_part14_eq_skeleton {F : FTy → Type} : k0_part14 (F := F) = Gen.k0_part14_skel (F := F) := rfl
theorem k0_part15_eq_skeleton {F : FTy → Type} : k0_part15 (F := F) = Gen.k0_part15_skel (F := F) := rfl
theorem k0_part16_eq_skeleton {F : FTy → Type} : k0_part16 (F := F) = Gen.k0_part16_skel (F := F) := rfl
theorem k0_part17_eq_skeleton {F : FTy → Type} : k0_part17 (F := F) = Gen.k0_part17_skel (F := F) := rfl
theorem k0_part18_eq_skeleton {F : FTy → Type} : k0_part18 (F := F) = Gen.k0_part18_skel (F := F) := rfl
theorem k0_part19_eq_skeleton {F : FTy → Type} : k0_part19 (F := F) = Gen.k0_part19_skel (F := F) := rfl
theorem k0_part20_eq_skeleton {F : FTy → Type} : k0_part20 (F := F) = Gen.k0_part20_skel (F := F) := rfl
theorem k0_part21_eq_skeleton {F : FTy → Type} : k0_part21 (F := F) = Gen.k0_part21_skel (F := F) := rfl
theorem k0_part22_eq_skeleton {F : FTy → Type} : k0_part22 (F := F) = Gen.k0_part22_skel (F := F) := rfl
theorem k0_part23_eq_skeleton {F : FTy → Type} : k0_part23 (F := F) = Gen.k0_part23_skel (F := F) := rfl
theorem k0_part24_eq_skeleton {F : FTy → Type} : k0_part24 (F := F) = Gen.k0_part24_skel (F := F) := rfl
theorem k0_part25_eq_skeleton {F : FTy → Type} : k0_part25 (F := F) = Gen.k0_part25_skel (F := F) := rfl
theorem k0_part26_eq_skeleton {F : FTy → Type} : k0_part26 (F := F) = Gen.k0_part26_skel (F := F) := rfl
theorem k0_part27_eq_skeleton {F : FTy → Type} : k0_part27 (F := F) = Gen.k0_part27_skel (F := F) := rfl
theorem k0_part28_eq_skeleton {F : FTy → Type} : k0_part28 (F := F) = Gen.k0_part28_skel (F := F) := rfl
theorem k0_part29_eq_skeleton {F : FTy → Type} : k0_part29 (F := F) = Gen.k0_part29_skel (F := F) := rfl
theorem k0_part30_eq_skeleton {F : FTy → Type} : k0_part30 (F := F) = Gen.k0_part30_skel (F := F) := rfl
theorem k0_part31_eq_skeleton {F : FTy → Type} : k0_part31 (F := F) = Gen.k0_part31_skel (F := F) := rfl
theorem k0_part32_eq_skeleton {F : FTy → Type} : k0_part32 (F := F) = Gen.k0_part32_skel (F := F) := rfl
theorem k0_part33_eq_skeleton {F : FTy → Type} : k0_part33 (F := F) = Gen.k0_part33_skel (F := F) := rfl
theorem k0_part34_eq_skeleton {F : FTy → Type} : k0_part34 (F := F) = Gen.k0_part34_skel (F := F) := rfl
theorem k0_part35_eq_skeleton {F : FTy → Type} : k0_part35 (F := F) = Gen.k0_part35_skel (F := F) := rfl
theorem k0_part36_eq_skeleton {F : FTy → Type} : k0_part36 (F := F) = Gen.k0_part36_skel (F := F) := rfl
theorem k0_part37_eq_skeleton {F : FTy → Type} : k0_part37 (F := F) = Gen.k0_part37_skel (F := F) := rfl
theorem k0_part38_eq_skeleton {F : FTy → Type} : k0_part38 (F := F) = Gen.k0_part38_skel (F := F) := rfl
theorem k0_part39_eq_skeleton {F : FTy → Type} : k0_part39 (F := F) = Gen.k0_part39_skel (F := F) := rfl
theorem k0_part40_eq_skeleton {F : FTy → Type} : k0_part40 (F := F) = Gen.k0_part40_skel (F := F) := rfl
theorem k0_part41_eq_skeleton {F : FTy → Type} : k0_part41 (F := F) = Gen.k0_part41_skel (F := F) := rfl
theorem k0_part42_eq_skeleton {F : FTy → Type} : k0_part42 (F := F) = Gen.k0_part42_skel (F := F) := rfl
theorem k0_part43_eq_skeleton {F : FTy → Type} : k0_part43 (F := F) = Gen.k0_part43_skel (F := F) := rfl
theorem k0_part44_eq_skeleton {F : FTy → Type} : k0_part44 (F := F) = Gen.k0_part44_skel (F := F) := rfl
theorem k0_part45_eq_skeleton {F : FTy → Type} : k0_part45 (F := F) = Gen.k0_part45_skel (F := F) := rfl
theorem k0_part46_eq_skeleton {F : FTy → Type} : k0_part46 (F := F) = Gen.k0_part46_skel (F := F) := rfl
theorem k0_part47_eq_skeleton {F : FTy → Type} : k0_part47 (F := F) = Gen.k0_part47_skel (F := F) := rfl
theorem k0_part48_eq_skeleton {F : FTy → Type} : k0_part48 (F := F) = Gen.k0_part48_skel (F := F) := rfl
theorem k0_part49_eq_skeleton {F : FTy → Type} : k0_part49 (F := F) = Gen.k0_part49_skel (F := F) := rfl
theorem k0_part50_eq_skeleton {F : FTy → Type} : k0_part50 (F := F) = Gen.k0_part50_skel (F := F) := rfl
theorem k0_part51_eq_skeleton {F : FTy → Type} : k0_part51 (F := F) = Gen.k0_part51_skel (F := F) := rfl
theorem k0_part52_eq_skeleton {F : FTy → Type} : k0_part52 (F := F) = Gen.k0_part52_skel (F := F) := rfl
theorem k0_part53_eq_skeleton {F : FTy → Type} : k0_part53 (F := F) = Gen.k0_part53_skel (F := F) := rfl
theorem k0_part54_eq_skeleton {F : FTy → Type} : k0_part54 (F := F) = Gen.k0_part54_skel (F := F) := rfl
theorem k0_part55_eq_skeleton {F : FTy → Type} : k0_part55 (F := F) = Gen.k0_part55_skel (F := F) := rfl
theorem k0_part56_eq_skeleton {F : FTy → Type} : k0_part56 (F := F) = Gen.k0_part56_skel (F := F) := rfl
theorem k0_part57_eq_skeleton {F : FTy → Type} : k0_part57 (F := F) = Gen.k0_part57_skel (F := F) := rfl
theorem k0_part58_eq_skeleton {F : FTy → Type} : k0_part58 (F := F) = Gen.k0_part58_skel (F := F) := rfl
theorem k0_part59_eq_skeleton {F : FTy → Type} : k0_part59 (F := F) = Gen.k0_part59_skel (F := F) := rfl
theorem k0_part60_eq_skeleton {F : FTy → Type} : k0_part60 (F := F) = Gen.k0_part60_skel (F := F) := rfl
theorem k0_part61_eq_skeleton {F : FTy → Type} : k0_part61 (F := F) = Gen.k0_part61_skel (F := F) := rfl
theorem k0_part62_eq_skeleton {F : FTy → Type} : k0_part62 (F := F) = Gen.k0_part62_skel (F := F) := rfl
theorem k0_part63_eq_skeleton {F : FTy → Type} : k0_part63 (F := F) = Gen.k0_part63_skel (F := F) := rfl
theorem k0_part64_eq_skeleton {F : FTy → Type} : k0_part64 (F := F) = Gen.k0_part64_skel (F := F) := rfl
theorem k0_part65_eq_skeleton {F : FTy → Type} : k0_part65 (F := F) = Gen.k0_part65_skel (F := F) := rfl
theorem k0_part66_eq_skeleton {F : FTy → Type} : k0_part66 (F := F) = Gen.k0_part66_skel (F := F) := rfl
theorem k0_part67_eq_skeleton {F : FTy → Type} : k0_part67 (F := F) = Gen.k0_part67_skel (F := F) := rfl
theorem k0_part68_eq_skeleton {F : FTy → Type} : k0_part68 (F := F) = Gen.k0_part68_skel (F := F) := rfl
theorem k0_part69_eq_skeleton {F : FTy → Type} : k0_part69 (F := F) = Gen.k0_part69_skel (F := F) := rfl
theorem k0_part70_eq_skeleton {F : FTy → Type} : k0_part70 (F := F) = Gen.k0_part70_skel (F := F) := rfl
theorem k0_part71_eq_skeleton {F : FTy → Type} : k0_part71 (F := F) = Gen.k0_part71_skel (F := F) := rfl
theorem k0_part72_eq_skeleton {F : FTy → Type} : k0_part72 (F := F) = Gen.k0_part72_skel (F := F) := rfl
theorem k0_part73_eq_skeleton {F : FTy → Type} : k0_part73 (F := F) = Gen.k0_part73_skel (F := F) := rfl
theorem k0_part74_eq_skeleton {F : FTy → Type} : k0_part74 (F := F) = Gen.k0_part74_skel (F := F) := rfl
theorem k0_part75_eq_skeleton {F : FTy → Type} : k0_part75 (F := F) = Gen.k0_part75_skel (F := F) := rfl
theorem k0_part76_eq_skeleton {F : FTy → Type} : k0_part76 (F := F) = Gen.k0_part76_skel (F := F) := rfl
theorem k0_part77_eq_skeleton {F : FTy → Type} : k0_part77 (F := F) = Gen.k0_part77_skel (F := F) := rfl
theorem k0_part78_eq_skeleton {F : FTy → Type} : k0_part78 (F := F) = Gen.k0_part78_skel (F := F) := rfl
theorem k0_part79_eq_skeleton {F : FTy → Type} : k0_part79 (F := F) = Gen.k0_part79_skel (F := F) := rfl
theorem k0_part80_eq_skeleton {F : FTy → Type} : k0_part80 (F := F) = Gen.k0_part80_skel (F := F) := rfl
theorem k0_part81_eq_skeleton {F : FTy → Type} : k0_part81 (F := F) = Gen.k0_part81_skel (F := F) := rfl
theorem k0_part82_eq_skeleton {F : FTy → Type} : k0_part82 (F := F) = Gen.k0_part82_skel (F := F) := rfl
theorem k0_part83_eq_skeleton {F : FTy → Type} : k0_part83 (F := F) = Gen.k0_part83_skel (F := F) := rfl
theorem k0_part84_eq_skeleton {F : FTy → Type} : k0_part84 (F := F) = Gen.k0_part84_skel (F := F) := rfl
theorem k0_part85_eq_skeleton {F : FTy → Type} : k0_part85 (F := F) = Gen.k0_part85_skel (F := F) := rfl
theorem k0_part86_eq_skeleton {F : FTy → Type} : k0_part86 (F := F) = Gen.k0_part86_skel (F := F) := rfl
theorem k0_part87_eq_skeleton {F : FTy → Type} : k0_part87 (F := F) = Gen.k0_part87_skel (F := F) := rfl
theorem k0_part88_eq_skeleton {F : FTy → Type} : k0_part88 (F := F) = Gen.k0_part88_skel (F := F) := rfl
theorem k0_part89_eq_skeleton {F : FTy → Type} : k0_part89 (F := F) = Gen.k0_part89_skel (F := F) := rfl
theorem k0_part90_eq_skeleton {F : FTy → Type} : k0_part90 (F := F) = Gen.k0_part90_skel (F := F) := rfl
theorem k0_part91_eq_skeleton {F : FTy → Type} : k0_part91 (F := F) = Gen.k0_part91_skel (F := F) := rfl
theorem k0_part92_eq_skeleton {F : FTy → Type} : k0_part92 (F := F) = Gen.k0_part92_skel (F := F) := rfl
theorem k0_part93_eq_skeleton {F : FTy → Type} : k0_part93 (F := F) = Gen.k0_part93_skel (F := F) := rfl
theorem k0_part94_eq_skeleton {F : FTy → Type} : k0_part94 (F := F) = Gen.k0_part94_skel (F := F) := rfl
theorem k0_part95_eq_skeleton {F : FTy → Type} : k0_part95 (F := F) = Gen.k0_part95_skel (F := F) := rfl
theorem k0_part96_eq_skeleton {F : FTy → Type} : k0_part96 (F := F) = Gen.k0_part96_skel (F := F) := rfl
theorem k0_part97_eq_skeleton {F : FTy → Type} : k0_part97 (F := F) = Gen.k0_part97_skel (F := F) := rfl
theorem k0_part98_eq_skeleton {F : FTy → Type} : k0_part98 (F := F) = Gen.k0_part98_skel (F := F) := rfl
theorem k0_part99_eq_skeleton {F : FTy → Type} : k0_part99 (F := F) = Gen.k0_part99_skel (F := F) := rfl
theorem k0_part100_eq_skeleton {F : FTy → Type} : k0_part100 (F := F) = Gen.k0_part100_skel (F := F) := rfl
theorem k0_part101_eq_skeleton {F : FTy → Type} : k0_part101 (F := F) = Gen.k0_part101_skel (F := F) := rfl
theorem k0_part102_eq_skeleton {F : FTy → Type} : k0_part102 (F := F) = Gen.k0_part102_skel (F := F) := rfl
theorem k0_part103_eq_skeleton {F : FTy → Type} : k0_part103 (F := F) = Gen.k0_part103_skel (F := F) := rfl
theorem k0_part104_eq_skeleton {F : FTy → Type} : k0_part104 (F := F) = Gen.k0_part104_skel (F := F) := rfl
theorem k0_part105_eq_skeleton {F : FTy → Type} : k0_part105 (F := F) = Gen.k0_part105_skel (F := F) := rfl
theorem k0_part106_eq_skeleton {F : FTy → Type} : k0_part106 (F := F) = Gen.k0_part106_skel (F := F) := rfl
theorem k0_part107_eq_skeleton {F : FTy → Type} : k0_part107 (F := F) = Gen.k0_part107_skel (F := F) := rfl
theorem k0_part108_eq_skeleton {F : FTy → Type} : k0_part108 (F := F) = Gen.k0_part108_skel (F := F) := rfl
theorem k0_part109_eq_skeleton {F : FTy → Type} : k0_part109 (F := F) = Gen.k0_part109_skel (F := F) := rfl
theorem k0_part110_eq_skeleton {F : FTy → Type} : k0_part110 (F := F) = Gen.k0_part110_skel (F := F) := rfl
theorem k0_part111_eq_skeleton {F : FTy → Type} : k0_part111 (F := F) = Gen.k0_part111_skel (F := F) := rfl
theorem k0_part112_eq_skeleton {F : FTy → Type} : k0_part112 (F := F) = Gen.k0_part112_skel (F := F) := rfl
theorem k0_part113_eq_skeleton {F : FTy → Type} : k0_part113 (F := F) = Gen.k0_part113_skel (F := F) := rfl
theorem k0_part114_eq_skeleton {F : FTy → Type} : k0_part114 (F := F) = Gen.k0_part114_skel (F := F) := rfl
theorem k0_part115_eq_skeleton {F : FTy → Type} : k0_part115 (F := F) = Gen.k0_part115_skel (F := F) := rfl
theorem k0_part116_eq_skeleton {F : FTy → Type} : k0_part116 (F := F) = Gen.k0_part116_skel (F := F) := rfl
theorem k0_part117_eq_skeleton {F : FTy → Type} : k0_part117 (F := F) = Gen.k0_part117_skel (F := F) := rfl
theorem k0_part118_eq_skeleton {F : FTy → Type} : k0_part118 (F := F) = Gen.k0_part118_skel (F := F) := rfl
theorem k0_part119_eq_skeleton {F : FTy → Type} : k0_part119 (F := F) = Gen.k0_part119_skel (F := F) := rfl
theorem k0_part120_eq_skeleton {F : FTy → Type} : k0_part120 (F := F) = Gen.k0_part120_skel (F := F) := rfl
theorem k0_part121_eq_skeleton {F : FTy → Type} : k0_part121 (F := F) = Gen.k0_part121_skel (F := F) := rfl
theorem k0_part122_eq_skeleton {F : FTy → Type} : k0_part122 (F := F) = Gen.k0_part122_skel (F := F) := rfl
theorem k0_part123_eq_skeleton {F : FTy → Type} : k0_part123 (F := F) = Gen.k0_part123_skel (F := F) := rfl
theorem k0_part124_eq_skeleton {F : FTy → Type} : k0_part124 (F := F) = Gen.k0_part124_skel (F := F) := rfl
theorem k0_part125_eq_skeleton {F : FTy → Type} : k0_part125 (F := F) = Gen.k0_part125_skel (F := F) := rfl
theorem k0_part126_eq_skeleton {F : FTy → Type} : k0_part126 (F := F) = Gen.k0_part126_skel (F := F) := rfl
theorem k0_part127_eq_skeleton {F : FTy → Type} : k0_part127 (F := F) = Gen.k0_part127_skel (F := F) := rfl
theorem k0_part128_eq_skeleton {F : FTy → Type} : k0_part128 (F := F) = Gen.k0_part128_skel (F := F) := rfl
theorem k0_part129_eq_skeleton {F : FTy → Type} : k0_part129 (F := F) = Gen.k0_part129_skel (F := F) := rfl
theorem k0_part130_eq_skeleton {F : FTy → Type} : k0_part130 (F := F) = Gen.k0_part130_skel (F := F) := rfl
theorem k0_part131_eq_skeleton {F : FTy → Type} : k0_part131 (F := F) = Gen.k0_part131_skel (F := F) := rfl
theorem k0_part132_eq_skeleton {F : FTy → Type} : k0_part132 (F := F) = Gen.k0_part132_skel (F := F) := rfl
theorem k0_part133_eq_skeleton {F : FTy → Type} : k0_part133 (F := F) = Gen.k0_part133_skel (F := F) := rfl
theorem k0_part134_eq_skeleton {F : FTy → Type} : k0_part134 (F := F) = Gen.k0_part134_skel (F := F) := rfl
theorem k0_part135_eq_skeleton {F : FTy → Type} : k0_part135 (F := F) = Gen.k0_part135_skel (F := F) := rfl
theorem k0_part136_eq_skeleton {F : FTy → Type} : k0_part136 (F := F) = Gen.k0_part136_skel (F := F) := rfl
theorem k0_part137_eq_skeleton {F : FTy → Type} : k0_part137 (F := F) = Gen.k0_part137_skel (F := F) := rfl
theorem k0_part138_eq_skeleton {F : FTy → Type} : k0_part138 (F := F) = Gen.k0_part138_skel (F := F) := rfl
theorem k0_part139_eq_skeleton {F : FTy → Type} : k0_part139 (F := F) = Gen.k0_part139_skel (F := F) := rfl
theorem k0_part140_eq_skeleton {F : FTy → Type} : k0_part140 (F := F) = Gen.k0_part140_skel (F := F) := rfl
theorem k0_part141_eq_skeleton {F : FTy → Type} : k0_part141 (F := F) = Gen.k0_part141_skel (F := F) := rfl
theorem k0_part142_eq_skeleton {F : FTy → Type} : k0_part142 (F := F) = Gen.k0_part142_skel (F := F) := rfl
theorem k0_part143_eq_skeleton {F : FTy → Type} : k0_part143 (F := F) = Gen.k0_part143_skel (F := F) := rfl
theorem k0_part144_eq_skeleton {F : FTy → Type} : k0_part144 (F := F) = Gen.k0_part144_skel (F := F) := rfl
theorem k0_part145_eq_skeleton {F : FTy → Type} : k0_part145 (F := F) = Gen.k0_part145_skel (F := F) := rfl
theorem k0_part146_eq_skeleton {F : FTy → Type} : k0_part146 (F := F) = Gen.k0_part146_skel (F := F) := rfl
theorem k0_part147_eq_skeleton {F : FTy → Type} : k0_part147 (F := F) = Gen.k0_part147_skel (F := F) := rfl
theorem k0_part148_eq_skeleton {F : FTy → Type} : k0_part148 (F := F) = Gen.k0_part148_skel (F := F) := rfl
theorem k0_part149_eq_skeleton {F : FTy → Type} : k0_part149 (F := F) = Gen.k0_part149_skel (F := F) := rfl
theorem k0_part150_eq_skeleton {F : FTy → Type} : k0_part150 (F := F) = Gen.k0_part150_skel (F := F) := rfl
theorem k0_part151_eq_skeleton {F : FTy → Type} : k0_part151 (F := F) = Gen.k0_part151_skel (F := F) := rfl
theorem k0_part152_eq_skeleton {F : FTy → Type} : k0_part152 (F := F) = Gen.k0_part152_skel (F := F) := rfl
theorem k0_part153_eq_skeleton {F : FTy → Type} : k0_part153 (F := F) = Gen.k0_part153_skel (F := F) := rfl
theorem k0_part154_eq_skeleton {F : FTy → Type} : k0_part154 (F := F) = Gen.k0_part154_skel (F := F) := rfl
theorem k0_part155_eq_skeleton {F : FTy → Type} : k0_part155 (F := F) = Gen.k0_part155_skel (F := F) := rfl
theorem k0_part156_eq_skeleton {F : FTy → Type} : k0_part156 (F := F) = Gen.k0_part156_skel (F := F) := rfl
theorem k0_part157_eq_skeleton {F : FTy → Type} : k0_part157 (F := F) = Gen.k0_part157_skel (F := F) := rfl
theorem k0_part158_eq_skeleton {F : FTy → Type} : k0_part158 (F := F) = Gen.k0_part158_skel (F := F) := rfl
theorem k0_part159_eq_skeleton {F : FTy → Type} : k0_part159 (F := F) = Gen.k0_part159_skel (F := F) := rfl
theorem k0_part160_eq_skeleton {F : FTy → Type} : k0_part160 (F := F) = Gen.k0_part160_skel (F := F) := rfl
theorem k0_part161_eq_skeleton {F : FTy → Type} : k0_part161 (F := F) = Gen.k0_part161_skel (F := F) := rfl
theorem k0_part162_eq_skeleton {F : FTy → Type} : k0_part162 (F := F) = Gen.k0_part162_skel (F := F) := rfl
theorem k0_part163_eq_skeleton {F : FTy → Type} : k0_part163 (F := F) = Gen.k0_part163_skel (F := F) := rfl
theorem k0_part164_eq_skeleton {F : FTy → Type} : k0_part164 (F := F) = Gen.k0_part164_skel (F := F) := rfl
theorem k0_part165_eq_skeleton {F : FTy → Type} : k0_part165 (F := F) = Gen.k0_part165_skel (F := F) := rfl
theorem k0_part166_eq_skeleton {F : FTy → Type} : k0_part166 (F := F) = Gen.k0_part166_skel (F := F) := rfl
theorem k0_part167_eq_skeleton {F : FTy → Type} : k0_part167 (F := F) = Gen.k0_part167_skel (F := F) := rfl
theorem k0_part168_eq_skeleton {F : FTy → Type} : k0_part168 (F := F) = Gen.k0_part168_skel (F := F) := rfl
theorem k0_part169_eq_skeleton {F : FTy → Type} : k0_part169 (F := F) = Gen.k0_part169_skel (F := F) := rfl
theorem k0_part170_eq_skeleton {F : FTy → Type} : k0_part170 (F := F) = Gen.k0_part170_skel (F := F) := rfl
theorem k0_part171_eq_skeleton {F : FTy → Type} : k0_part171 (F := F) = Gen.k0_part171_skel (F := F) := rfl
theorem k0_part172_eq_skeleton {F : FTy → Type} : k0_part172 (F := F) = Gen.k0_part172_skel (F := F) := rfl
theorem k0_part173_eq_skeleton {F : FTy → Type} : k0_part173 (F := F) = Gen.k0_part173_skel (F := F) := rfl
theorem k0_part174_eq_skeleton {F : FTy → Type} : k0_part174 (F := F) = Gen.k0_part174_skel (F := F) := rfl
theorem k0_part175_eq_skeleton {F : FTy → Type} : k0_part175 (F := F) = Gen.k0_part175_skel (F := F) := rfl
theorem k0_part176_eq_skeleton {F : FTy → Type} : k0_part176 (F := F) = Gen.k0_part176_skel (F := F) := rfl
theorem k0_part177_eq_skeleton {F : FTy → Type} : k0_part177 (F := F) = Gen.k0_part177_skel (F := F) := rfl
theorem k0_part178_eq_skeleton {F : FTy → Type} : k0_part178 (F := F) = Gen.k0_part178_skel (F := F) := rfl
theorem k0_part179_eq_skeleton {F : FTy → Type} : k0_part179 (F := F) = Gen.k0_part179_skel (F := F) := rfl
theorem k0_part180_eq_skeleton {F : FTy → Type} : k0_part180 (F := F) = Gen.k0_part180_skel (F := F) := rfl
theorem k0_part181_eq_skeleton {F : FTy → Type} : k0_part181 (F := F) = Gen.k0_part181_skel (F := F) := rfl
theorem k0_part182_eq_skeleton {F : FTy → Type} : k0_part182 (F := F) = Gen.k0_part182_skel (F := F) := rfl
theorem k0_part183_eq_skeleton {F : FTy → Type} : k0_part183 (F := F) = Gen.k0_part183_skel (F := F) := rfl
theorem k0_part184_eq_skeleton {F : FTy → Type} : k0_part184 (F := F) = Gen.k0_part184_skel (F := F) := rfl
theorem k0_part185_eq_skeleton {F : FTy → Type} : k0_part185 (F := F) = Gen.k0_part185_skel (F := F) := rfl
theorem k0_part186_eq_skeleton {F : FTy → Type} : k0_part186 (F := F) = Gen.k0_part186_skel (F := F) := rfl
theorem k0_part187_eq_skeleton {F : FTy → Type} : k0_part187 (F := F) = Gen.k0_part187_skel (F := F) := rfl
theorem k0_part188_eq_skeleton {F : FTy → Type} : k0_part188 (F := F) = Gen.k0_part188_skel (F := F) := rfl
theorem k0_part189_eq_skeleton {F : FTy → Type} : k0_part189 (F := F) = Gen.k0_part189_skel (F := F) := rfl
theorem k0_part190_eq_skeleton {F : FTy → Type} : k0_part190 (F := F) = Gen.k0_part190_skel (F := F) := rfl
theorem k0_part191_eq_skeleton {F : FTy → Type} : k0_part191 (F := F) = Gen.k0_part191_skel (F := F) := rfl
theorem k0_part192_eq_skeleton {F : FTy → Type} : k0_part192 (F := F) = Gen.k0_part192_skel (F := F) := rfl
theorem k0_part193_eq_skeleton {F : FTy → Type} : k0_part193 (F := F) = Gen.k0_part193_skel (F := F) := rfl
theorem k0_part194_eq_skeleton {F : FTy → Type} : k0_part194 (F := F) = Gen.k0_part194_skel (F := F) := rfl
theorem k0_part195_eq_skeleton {F : FTy → Type} : k0_part195 (F := F) = Gen.k0_part195_skel (F := F) := rfl
theorem k0_part196_eq_skeleton {F : FTy → Type} : k0_part196 (F := F) = Gen.k0_part196_skel (F := F) := rfl
theorem k0_part197_eq_skeleton {F : FTy → Type} : k0_part197 (F := F) = Gen.k0_part197_skel (F := F) := rfl
theorem k0_part198_eq_skeleton {F : FTy → Type} : k0_part198 (F := F) = Gen.k0_part198_skel (F := F) := rfl
theorem k0_part199_eq_skeleton {F : FTy → Type} : k0_part199 (F := F) = Gen.k0_part199_skel (F := F) := rfl
theorem k0_part200_eq_skeleton {F : FTy → Type} : k0_part200 (F := F) = Gen.k0_part200_skel (F := F) := rfl
theorem k0_part201_eq_skeleton {F : FTy → Type} : k0_part201 (F := F) = Gen.k0_part201_skel (F := F) := rfl
theorem k0_part202_eq_skeleton {F : FTy → Type} : k0_part202 (F := F) = Gen.k0_part202_skel (F := F) := rfl
theorem k0_part203_eq_skeleton {F : FTy → Type} : k0_part203 (F := F) = Gen.k0_part203_skel (F := F) := rfl
theorem k0_part204_eq_skeleton {F : FTy → Type} : k0_part204 (F := F) = Gen.k0_part204_skel (F := F) := rfl
theorem k0_part205_eq_skeleton {F : FTy → Type} : k0_part205 (F := F) = Gen.k0_part205_skel (F := F) := rfl
theorem k0_part206_eq_skeleton {F : FTy → Type} : k0_part206 (F := F) = Gen.k0_part206_skel (F := F) := rfl
theorem k0_part207_eq_skeleton {F : FTy → Type} : k0_part207 (F := F) = Gen.k0_part207_skel (F := F) := rfl
theorem k0_part208_eq_skeleton {F : FTy → Type} : k0_part208 (F := F) = Gen.k0_part208_skel (F := F) := rfl
theorem k0_part209_eq_skeleton {F : FTy → Type} : k0_part209 (F := F) = Gen.k0_part209_skel (F := F) := rfl
theorem k0_part210_eq_skeleton {F : FTy → Type} : k0_part210 (F := F) = Gen.k0_part210_skel (F := F) := rfl
theorem k0_part211_eq_skeleton {F : FTy → Type} : k0_part211 (F := F) = Gen.k0_part211_skel (F := F) := rfl
theorem k0_part212_eq_skeleton {F : FTy → Type} : k0_part212 (F := F) = Gen.k0_part212_skel (F := F) := rfl
theorem k0_part213_eq_skeleton {F : FTy → Type} : k0_part213 (F := F) = Gen.k0_part213_skel (F := F) := rfl
theorem k0_part214_eq_skeleton {F : FTy → Type} : k0_part214 (F := F) = Gen.k0_part214_skel (F := F) := rfl
theorem k0_part215_eq_skeleton {F : FTy → Type} : k0_part215 (F := F) = Gen.k0_part215_skel (F := F) := rfl
theorem k0_part216_eq_skeleton {F : FTy → Type} : k0_part216 (F := F) = Gen.k0_part216_skel (F := F) := rfl
theorem k0_part217_eq_skeleton {F : FTy → Type} : k0_part217 (F := F) = Gen.k0_part217_skel (F := F) := rfl
theorem k0_part218_eq_skeleton {F : FTy → Type} : k0_part218 (F := F) = Gen.k0_part218_skel (F := F) := rfl
theorem k0_part219_eq_skeleton {F : FTy → Type} : k0_part219 (F := F) = Gen.k0_part219_skel (F := F) := rfl
theorem k0_part220_eq_skeleton {F : FTy → Type} : k0_part220 (F := F) = Gen.k0_part220_skel (F := F) := rfl
theorem k0_part221_eq_skeleton {F : FTy → Type} : k0_part221 (F := F) = Gen.k0_part221_skel (F := F) := rfl
theorem k0_part222_eq_skeleton {F : FTy → Type} : k0_part222 (F := F) = Gen.k0_part222_skel (F := F) := rfl
theorem k0_part223_eq_skeleton {F : FTy → Type} : k0_part223 (F := F) = Gen.k0_part223_skel (F := F) := rfl
theorem k0_part224_eq_skeleton {F : FTy → Type} : k0_part224 (F := F) = Gen.k0_part224_skel (F := F) := rfl
theorem k0_part225_eq_skeleton {F : FTy → Type} : k0_part225 (F := F) = Gen.k0_part225_skel (F := F) := rfl
theorem k0_part226_eq_skeleton {F : FTy → Type} : k0_part226 (F := F) = Gen.k0_part226_skel (F := F) := rfl
theorem k0_part227_eq_skeleton {F : FTy → Type} : k0_part227 (F := F) = Gen.k0_part227_skel (F := F) := rfl
theorem k0_part228_eq_skeleton {F : FTy → Type} : k0_part228 (F := F) = Gen.k0_part228_skel (F := F) := rfl
theorem k0_part229_eq_skeleton {F : FTy → Type} : k0_part229 (F := F) = Gen.k0_part229_skel (F := F) := rfl
theorem k0_part230_eq_skeleton {F : FTy → Type} : k0_part230 (F := F) = Gen.k0_part230_skel (F := F) := rfl
theorem k0_part231_eq_skeleton {F : FTy → Type} : k0_part231 (F := F) = Gen.k0_part231_skel (F := F) := rfl
theorem k0_part232_eq_skeleton {F : FTy → Type} : k0_part232 (F := F) = Gen.k0_part232_skel (F := F) := rfl
theorem k0_part233_eq_skeleton {F : FTy → Type} : k0_part233 (F := F) = Gen.k0_part233_skel (F := F) := rfl
theorem k0_part234_eq_skeleton {F : FTy → Type} : k0_part234 (F := F) = Gen.k0_part234_skel (F := F) := rfl
theorem k0_part235_eq_skeleton {F : FTy → Type} : k0_part235 (F := F) = Gen.k0_part235_skel (F := F) := rfl
theorem k0_part236_eq_skeleton {F : FTy → Type} : k0_part236 (F := F) = Gen.k0_part236_skel (F := F) := rfl
theorem k0_part237_eq_skeleton {F : FTy → Type} : k0_part237 (F := F) = Gen.k0_part237_skel (F := F) := rfl
theorem k0_part238_eq_skeleton {F : FTy → Type} : k0_part238 (F := F) = Gen.k0_part238_skel (F := F) := rfl
theorem k0_part239_eq_skeleton {F : FTy → Type} : k0_part239 (F := F) = Gen.k0_part239_skel (F := F) := rfl
theorem k0_part240_eq_skeleton {F : FTy → Type} : k0_part240 (F := F) = Gen.k0_part240_skel (F := F) := rfl
theorem k0_part241_eq_skeleton {F : FTy → Type} : k0_part241 (F := F) = Gen.k0_part241_skel (F := F) := rfl
theorem k0_part242_eq_skeleton {F : FTy → Type} : k0_part242 (F := F) = Gen.k0_part242_skel (F := F) := rfl
theorem k0_part243_eq_skeleton {F : FTy → Type} : k0_part243 (F := F) = Gen.k0_part243_skel (F := F) := rfl
theorem k0_part244_eq_skeleton {F : FTy → Type} : k0_part244 (F := F) = Gen.k0_part244_skel (F := F) := rfl
theorem k0_part245_eq_skeleton {F : FTy → Type} : k0_part245 (F := F) = Gen.k0_part245_skel (F := F) := rfl
theorem k0_part246_eq_skeleton {F : FTy → Type} : k0_part246 (F := F) = Gen.k0_part246_skel (F := F) := rfl
theorem k0_part247_eq_skeleton {F : FTy → Type} : k0_part247 (F := F) = Gen.k0_part247_skel (F := F) := rfl
theorem k0_part248_eq_skeleton {F : FTy → Type} : k0_part248 (F := F) = Gen.k0_part248_skel (F := F) := rfl
theorem k0_part249_eq_skeleton {F : FTy → Type} : k0_part249 (F := F) = Gen.k0_part249_skel (F := F) := rfl
theorem k0_part250_eq_skeleton {F : FTy → Type} : k0_part250 (F := F) = Gen.k0_part250_skel (F := F) := rfl
theorem k0_part251_eq_skeleton {F : FTy → Type} : k0_part251 (F := F) = Gen.k0_part251_skel (F := F) := rfl
theorem k0_part252_eq_skeleton {F : FTy → Type} : k0_part252 (F := F) = Gen.k0_part252_skel (F := F) := rfl
theorem k0_part253_eq_skeleton {F : FTy → Type} : k0_part253 (F := F) = Gen.k0_part253_skel (F := F) := rfl
theorem k0_part254_eq_skeleton {F : FTy → Type} : k0_part254 (F := F) = Gen.k0_part254_skel (F := F) := rfl
theorem k0_part255_eq_skeleton {F : FTy → Type} : k0_part255 (F := F) = Gen.k0_part255_skel (F := F) := rfl
theorem k0_part256_eq_skeleton {F : FTy → Type} : k0_part256 (F := F) = Gen.k0_part256_skel (F := F) := rfl
theorem k0_part257_eq_skeleton {F : FTy → Type} : k0_part257 (F := F) = Gen.k0_part257_skel (F := F) := rfl
theorem k0_part258_eq_skeleton {F : FTy → Type} : k0_part258 (F := F) = Gen.k0_part258_skel (F := F) := rfl
theorem k0_part259_eq_skeleton {F : FTy → Type} : k0_part259 (F := F) = Gen.k0_part259_skel (F := F) := rfl
theorem k0_part260_eq_skeleton {F : FTy → Type} : k0_part260 (F := F) = Gen.k0_part260_skel (F := F) := rfl
theorem k0_part261_eq_skeleton {F : FTy → Type} : k0_part261 (F := F) = Gen.k0_part261_skel (F := F) := rfl
theorem k0_part262_eq_skeleton {F : FTy → Type} : k0_part262 (F := F) = Gen.k0_part262_skel (F := F) := rfl
theorem k0_part263_eq_skeleton {F : FTy → Type} : k0_part263 (F := F) = Gen.k0_part263_skel (F := F) := rfl
theorem k0_part264_eq_skeleton {F : FTy → Type} : k0_part264 (F := F) = Gen.k0_part264_skel (F := F) := rfl
theorem k0_part265_eq_skeleton {F : FTy → Type} : k0_part265 (F := F) = Gen.k0_part265_skel (F := F) := rfl
theorem k0_part266_eq_skeleton {F : FTy → Type} : k0_part266 (F := F) = Gen.k0_part266_skel (F := F) := rfl
theorem k0_part267_eq_skeleton {F : FTy → Type} : k0_part267 (F := F) = Gen.k0_part267_skel (F := F) := rfl
theorem k0_part268_eq_skeleton {F : FTy → Type} : k0_part268 (F := F) = Gen.k0_part268_skel (F := F) := rfl
theorem k0_part269_eq_skeleton {F : FTy → Type} : k0_part269 (F := F) = Gen.k0_part269_skel (F := F) := rfl
theorem k0_part270_eq_skeleton {F : FTy → Type} : k0_part270 (F := F) = Gen.k0_part270_skel (F := F) := rfl
theorem k0_part271_eq_skeleton {F : FTy → Type} : k0_part271 (F := F) = Gen.k0_part271_skel (F := F) := rfl
theorem k0_part272_eq_skeleton {F : FTy → Type} : k0_part272 (F := F) = Gen.k0_part272_skel (F := F) := rfl

end Cert.Kernel

end
-- ==== Proof.Bits.Inv.lean ====
/-
  The vocabulary of one trip of the subcore's loop.

  Trip k (k = 0 … 63) handles the subcore's batch rows 2k and 2k + 1, one per pair of buffers.  For each pair it
  waits for the row of `x` prefetched into the flat buffer, waits (from the second trip on) for the output buffer's
  previous copy-out, overwrites the output buffer's left 64 columns with the row, starts the copy-out of the output
  buffer to the result's row, and (up to the last trip but one) starts the prefetch of the row after next.
  Between trips four copies are in flight: two rows of `x` coming in, two result rows going out.
-/
import proofs.«204673_g16922171147058_cont_7to1_1063_26_alg».proof.Proof.Bits.Rows
import proofs.«204673_g16922171147058_cont_7to1_1063_26_alg».proof.Proof.Bits.SkelEq
import Idealize.ShloMosaic.Lib.Transfers

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v3_scv : Memref Cert.Kernel.sig Kind.scVector Space.hbm Cert.Kernel.S4096x12800 EltTy.f32)
local notation "tV" => (Memref.whole Cert.Kernel.main_v2_scv : Memref Cert.Kernel.sig Kind.scVector Space.hbm Cert.Kernel.S200x128 EltTy.f32)
local notation "oV" => (Memref.whole Cert.Kernel.main_v4_scv : Memref Cert.Kernel.sig Kind.scVector Space.hbm Cert.Kernel.S4096x200x128 EltTy.f32)
local notation "xb0" => (Memref.whole Cert.Kernel.cc0_scratch0 : Memref Cert.Kernel.sig Kind.scVector Space.vmem Cert.Kernel.S12800 EltTy.f32)
local notation "xb1" => (Memref.whole Cert.Kernel.cc0_scratch1 : Memref Cert.Kernel.sig Kind.scVector Space.vmem Cert.Kernel.S12800 EltTy.f32)
local notation "ob0" => (Memref.whole Cert.Kernel.cc0_scratch2 : Memref Cert.Kernel.sig Kind.scVector Space.vmem Cert.Kernel.S200x128 EltTy.f32)
local notation "ob1" => (Memref.whole Cert.Kernel.cc0_scratch3 : Memref Cert.Kernel.sig Kind.scVector Space.vmem Cert.Kernel.S200x128 EltTy.f32)

/-- The four semaphores of the loop: one per incoming row buffer, one per outgoing result buffer. -/
abbrev sIn0 : DmaSems sig S_ := (cc0_scratch4.slice (Rect.unit (s := S2) ![0] S1.size inb_S2_S1_0)).squeeze S_ squeezes_S1_S_
abbrev sIn1 : DmaSems sig S_ := (cc0_scratch4.slice (Rect.unit (s := S2) ![1] S1.size inb_S2_S1_1)).squeeze S_ squeezes_S1_S_
abbrev sOut0 : DmaSems sig S_ := (cc0_scratch5.slice (Rect.unit (s := S2) ![0] S1.size inb_S2_S1_0)).squeeze S_ squeezes_S1_S_
abbrev sOut1 : DmaSems sig S_ := (cc0_scratch5.slice (Rect.unit (s := S2) ![1] S1.size inb_S2_S1_1)).squeeze S_ squeezes_S1_S_

theorem trips_eq : k0_t1_loop.trips = 64 := by decide

/-! ## The trip's four conditions, by the trip number -/

theorem cond1_pos : ∀ k : Fin k0_t1_loop.trips, 1 ≤ k.val → k0_cond1 k = 1#1 := by decide +kernel
theorem cond1_zero : ∀ k : Fin k0_t1_loop.trips, k.val = 0 → ¬ k0_cond1 k = 1#1 := by decide +kernel
theorem cond3_pos : ∀ k : Fin k0_t1_loop.trips, 1 ≤ k.val → k0_cond3 k = 1#1 := by decide +kernel
theorem cond3_zero : ∀ k : Fin k0_t1_loop.trips, k.val = 0 → ¬ k0_cond3 k = 1#1 := by decide +kernel
theorem cond2_pos : ∀ k : Fin k0_t1_loop.trips, k.val ≤ 62 → k0_cond2 k = 1#1 := by decide +kernel
theorem cond2_last : ∀ k : Fin k0_t1_loop.trips, k.val = 63 → ¬ k0_cond2 k = 1#1 := by decide +kernel
theorem cond4_pos : ∀ k : Fin k0_t1_loop.trips, k.val ≤ 62 → k0_cond4 k = 1#1 := by decide +kernel
theorem cond4_last : ∀ k : Fin k0_t1_loop.trips, k.val = 63 → ¬ k0_cond4 k = 1#1 := by decide +kernel

/-! ## The rows the two conditional waits name: the rows copied out one trip earlier -/

theorem off4_eq : ∀ (i : grid0.Coords) (k : Fin k0_t1_loop.trips), 1 ≤ k.val →
    k0_off4 i k = ![256 * (i 1).val + 128 * (i 0).val + 2 * k.val - 2, 0, 0] := by decide +kernel
theorem off8_eq : ∀ (i : grid0.Coords) (k : Fin k0_t1_loop.trips), 1 ≤ k.val →
    k0_off8 i k = ![256 * (i 1).val + 128 * (i 0).val + 2 * k.val - 1, 0, 0] := by decide +kernel

section Tile

variable (d : Dev nD) (L : grid0.Coords)

/-- A row of the flattened `x`, held by exactly the elements of its one-row slice. -/
abbrev xRowPts (off : Fin 2 → Nat) (h : ∀ a, off a + S1x12800.size a ≤ S4096x12800.size a) (X : Buf (Elt F) (xLoc d)) : sProp 𝕄 :=
  (xRowM off h).view.loc (thr d L) ↦[(xRowM off h).view.set]{fullShare} X
/-- A batch row of the result, held by exactly the elements of its one-row slice. -/
abbrev oRowPts (off : Fin 3 → Nat) (h : ∀ a, off a + S1x200x128.size a ≤ S4096x200x128.size a) (f : Buf (Elt F) (oLoc d)) : sProp 𝕄 :=
  (oRowM off h).view.loc (thr d L) ↦[(oRowM off h).view.set]{fullShare} f

/-- The result after the output buffer `ob` (holding `c`) has landed in the row at `off`, over contents `f0`. -/
abbrev landedRow (ob : Memref sig .scVector .vmem S200x128 .f32) (off : Fin 3 → Nat) (h : ∀ a, off a + S1x200x128.size a ≤ S4096x200x128.size a)
    (f0 : Buf (Elt F) (oLoc d)) (c : Buf (Elt F) (ob.view.loc (thr d L))) : Buf (Elt F) (oLoc d) :=
  (oRowM off h).view.writes (Elt F) f0 [⟨Rect.whole S200x128, ReadAs.same.apply (View.read (Elt F) ob.view c)⟩]

/-- The flat buffer `xb` after the row at `off` of the flattened `x` has landed in it. -/
abbrev landedX (xb : Memref sig .scVector .vmem S12800 .f32) (off : Fin 2 → Nat) (h : ∀ a, off a + S1x12800.size a ≤ S4096x12800.size a)
    (X : Buf (Elt F) (xLoc d)) (c : Buf (Elt F) (xb.view.loc (thr d L))) : Buf (Elt F) (xb.view.loc (thr d L)) :=
  View.write (Elt F) xb.view c (ReadAs.same.apply (View.read (Elt F) (xRowM off h).view X)) Finset.univ

/-- A row of `x` on its way into the flat buffer `xb`: when it lands the buffer holds `c`, and the row comes back. -/
abbrev xFlight (xb : Memref sig .scVector .vmem S12800 .f32) (sm : DmaSem sig) (X : Buf (Elt F) (xLoc d))
    (off : Fin 2 → Nat) (h : ∀ a, off a + S1x12800.size a ≤ S4096x12800.size a) (c : Buf (Elt F) (xb.view.loc (thr d L))) : sProp 𝕄 :=
  Transfers.Flight (countersEmb (U := UU)) (thr d L) (SemLoc.dma sm) default 409600
    iprop((xb.view.loc (thr d L) ↦{fullShare} c) ∗ xRowPts d L off h X)

/-- The output buffer `ob` (holding `c`) on its way out to the result's row at `off`. -/
abbrev oFlight (ob : Memref sig .scVector .vmem S200x128 .f32) (sm : DmaSem sig) (f0 : Buf (Elt F) (oLoc d))
    (off : Fin 3 → Nat) (h : ∀ a, off a + S1x200x128.size a ≤ S4096x200x128.size a) (c : Buf (Elt F) (ob.view.loc (thr d L))) : sProp 𝕄 :=
  Transfers.Flight (countersEmb (U := UU)) (thr d L) (SemLoc.dma sm) default 819200
    iprop(oRowPts d L off h (landedRow d L ob off h f0 c) ∗ (ob.view.loc (thr d L) ↦[ob.view.set]{fullShare} c))

end Tile

end Cert.Proof.KernelP

end
-- ==== Proof.Bits.Pieces.lean ====
/-
  The stores of one batch row as a list of pieces, and what the two scratch buffers hold.

  For each batch row the task reads the flat buffer (12800 numbers) sixteen at a time and stores read n
  (n = 0 … 799) into the 200 × 128 buffer at row n / 4, columns 16·(n % 4) … 16·(n % 4) + 15: entry (l, j), j < 64,
  receives position 64·l + j of the flat buffer.  The stores are kept as a list, the last one first.
-/
import proofs.«204673_g16922171147058_cont_7to1_1063_26_alg».proof.Proof.Bits.Rows
import Idealize.ShloMosaic.Lib.Writes
import Idealize.ShloMosaic.Lib.ValueIdx

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v3_scv : Memref Cert.Kernel.sig Kind.scVector Space.hbm Cert.Kernel.S4096x12800 EltTy.f32)
local notation "tV" => (Memref.whole Cert.Kernel.main_v2_scv : Memref Cert.Kernel.sig Kind.scVector Space.hbm Cert.Kernel.S200x128 EltTy.f32)
local notation "oV" => (Memref.whole Cert.Kernel.main_v4_scv : Memref Cert.Kernel.sig Kind.scVector Space.hbm Cert.Kernel.S4096x200x128 EltTy.f32)
local notation "xb0" => (Memref.whole Cert.Kernel.cc0_scratch0 : Memref Cert.Kernel.sig Kind.scVector Space.vmem Cert.Kernel.S12800 EltTy.f32)
local notation "xb1" => (Memref.whole Cert.Kernel.cc0_scratch1 : Memref Cert.Kernel.sig Kind.scVector Space.vmem Cert.Kernel.S12800 EltTy.f32)
local notation "ob0" => (Memref.whole Cert.Kernel.cc0_scratch2 : Memref Cert.Kernel.sig Kind.scVector Space.vmem Cert.Kernel.S200x128 EltTy.f32)
local notation "ob1" => (Memref.whole Cert.Kernel.cc0_scratch3 : Memref Cert.Kernel.sig Kind.scVector Space.vmem Cert.Kernel.S200x128 EltTy.f32)

/-! ## The stores of one batch row as a list of pieces -/

/-- What a store writes: the 16 numbers read, viewed as one row of 16. -/
def pay (v : Vec F S16 .f32) : FVec F S1x16 .f32 :=
  shapeCast S1x16 (shapeCast S16 v shapeCasts_S16_S16) shapeCasts_S16_S1x16

/-- Store `n` lands inside the 200 × 128 buffer: row n / 4, columns 16·(n % 4) … 16·(n % 4) + 15. -/
theorem piece_inb (n : ℕ) (hn : n < 800) :
    ∀ a, (![n / 4, 16 * (n % 4)] : Fin 2 → Nat) a + S1x16.size a ≤ S200x128.size a :=
  Rect.inb₂ (by show n / 4 + 1 ≤ 200; omega) (by show 16 * (n % 4) + 16 ≤ 128; omega)

/-- Load `n` reads inside the flat buffer: positions 16·n … 16·n + 15. -/
theorem load_inb (n : ℕ) (hn : n < 800) : ∀ a, (![16 * n] : Fin 1 → Nat) a + S16.size a ≤ S12800.size a :=
  Rect.inb₁ (by show 16 * n + 16 ≤ 12800; omega)

/-- Store `n` of a batch row: the 1 × 16 rectangle at (n / 4, 16·(n % 4)) receives positions 16·n … 16·n + 15 of the
    flat buffer. -/
def piece (xb : Memref sig .scVector .vmem S12800 .f32) (cx : xb.view.ty.Contents (Elt F)) (n : ℕ) (hn : n < 800) :
    View.Piece (Elt F) S200x128 .f32 :=
  ⟨Rect.unit (s := S200x128) ![n / 4, 16 * (n % 4)] S1x16.size (piece_inb n hn),
    pay (View.readAt (Elt F) xb.view (Rect.unit (s := S12800) ![16 * n] S16.size (load_inb n hn)).toLoadRect cx)⟩

/-- The first `k` stores of a batch row, the last one first. -/
def piecesTo (xb : Memref sig .scVector .vmem S12800 .f32) (cx : xb.view.ty.Contents (Elt F)) :
    (k : ℕ) → k ≤ 800 → List (View.Piece (Elt F) S200x128 .f32)
  | 0, _ => []
  | k + 1, h => piece xb cx k (by omega) :: piecesTo xb cx k (by omega)

/-! ## What the buffers hold, batch row by batch row -/

/-- The flat buffer holds row `r` of the flattened `x`. -/
def XRow {d : Dev nD} (xb : Memref sig .scVector .vmem S12800 .f32) (cx : xb.view.ty.Contents (Elt F))
    (X : Buf (Elt F) (xLoc d)) (r : ℕ) (hr : r < 4096) : Prop :=
  ∀ j : S12800.Idx, xb.view.read (Elt F) cx j = X (ValueIdx.ix2 (⟨r, hr⟩ : Fin 4096) (j 0))

/-- The 200 × 128 buffer holds batch row `r` of the result. -/
def IsRow {d : Dev nD} (ob : Memref sig .scVector .vmem S200x128 .f32) (c : ob.view.ty.Contents (Elt F))
    (X : Buf (Elt F) (xLoc d)) (Tm : Buf (Elt F) (tLoc d)) (r : ℕ) (hr : r < 4096) : Prop :=
  ∀ y : S200x128.Idx, ob.view.read (Elt F) c y = Spec.Gout X Tm (ValueIdx.ix3 (⟨r, hr⟩ : Fin 4096) (y 0) (y 1))

/-- The right 64 columns of the 200 × 128 buffer hold the template's. -/
def RightT {d : Dev nD} (ob : Memref sig .scVector .vmem S200x128 .f32) (c : ob.view.ty.Contents (Elt F))
    (Tm : Buf (Elt F) (tLoc d)) : Prop :=
  ∀ y : S200x128.Idx, 64 ≤ (y 1).val → ob.view.read (Elt F) c y = Tm y

end Cert.Proof.KernelP

end
-- ==== Proof.Bits.Trips.lean ====
/-
  One trip of the loop, as three statements: the first trip (no copy-out to wait for yet), a middle trip, and the
  last trip (no row left to prefetch).  Each says what the trip needs and what it leaves: the rows of `x` it waited
  for come back; each output buffer, its left 64 columns overwritten by 800 stores with the row just landed, is on
  its way out to this trip's result row; the rows copied out one trip earlier have landed.
-/
import proofs.«204673_g16922171147058_cont_7to1_1063_26_alg».proof.Proof.Bits.Inv
import proofs.«204673_g16922171147058_cont_7to1_1063_26_alg».proof.Proof.Bits.Pieces

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v3_scv : Memref Cert.Kernel.sig Kind.scVector Space.hbm Cert.Kernel.S4096x12800 EltTy.f32)
local notation "tV" => (Memref.whole Cert.Kernel.main_v2_scv : Memref Cert.Kernel.sig Kind.scVector Space.hbm Cert.Kernel.S200x128 EltTy.f32)
local notation "oV" => (Memref.whole Cert.Kernel.main_v4_scv : Memref Cert.Kernel.sig Kind.scVector Space.hbm Cert.Kernel.S4096x200x128 EltTy.f32)
local notation "xb0" => (Memref.whole Cert.Kernel.cc0_scratch0 : Memref Cert.Kernel.sig Kind.scVector Space.vmem Cert.Kernel.S12800 EltTy.f32)
local notation "xb1" => (Memref.whole Cert.Kernel.cc0_scratch1 : Memref Cert.Kernel.sig Kind.scVector Space.vmem Cert.Kernel.S12800 EltTy.f32)
local notation "ob0" => (Memref.whole Cert.Kernel.cc0_scratch2 : Memref Cert.Kernel.sig Kind.scVector Space.vmem Cert.Kernel.S200x128 EltTy.f32)
local notation "ob1" => (Memref.whole Cert.Kernel.cc0_scratch3 : Memref Cert.Kernel.sig Kind.scVector Space.vmem Cert.Kernel.S200x128 EltTy.f32)

variable [FloatOps F]

/-- Trip `k` of the loop at grid point `L`, on the whole arrays and the subcore's scratch. -/
abbrev tripProg (L : grid0.Coords) (v2 : BitVec 32) (k : Fin k0_t1_loop.trips) :=
  k0_t1_body (F := F) L xV (Memref.isWhole_whole _) tV (Memref.isWhole_whole _) oV (Memref.isWhole_whole _)
    xb0 (Memref.isWhole_whole _) xb1 (Memref.isWhole_whole _) ob0 (Memref.isWhole_whole _) ob1 (Memref.isWhole_whole _)
    cc0_scratch4 cc0_scratch5 cc0_scoped0 cc0_scoped1 v2 k ()

/-- Both output buffers on their way out to trip `k`'s two rows, each holding its earlier contents overwritten by a list of stores
    that is the 800 stores of the row that had landed in its flat buffer. -/
abbrev outgoing (d : Dev nD) (L : grid0.Coords) (k : Fin k0_t1_loop.trips) (f0 : Buf (Elt F) (oLoc d))
    (cA : Buf (Elt F) ((xb0).view.loc (thr d L))) (cB : Buf (Elt F) ((xb1).view.loc (thr d L)))
    (c0 : Buf (Elt F) ((ob0).view.loc (thr d L))) (c1 : Buf (Elt F) ((ob1).view.loc (thr d L))) : sProp 𝕄 :=
  iprop(∃ (LA LB : List (View.Piece (Elt F) S200x128 .f32)),
    (oFlight d L ob0 (sOut0).sem f0 (k0_off5 L k) (k0_off5_inb L k) ((ob0).view.writes (Elt F) c0 LA)
      ∗ oFlight d L ob1 (sOut1).sem f0 (k0_off9 L k) (k0_off9_inb L k) ((ob1).view.writes (Elt F) c1 LB))
    ∗ ⌜LA = piecesTo xb0 cA 800 le_rfl⌝ ∗ ⌜LB = piecesTo xb1 cB 800 le_rfl⌝)

/-- The two rows after next on their way into the flat buffers. -/
abbrev incoming (d : Dev nD) (L : grid0.Coords) (k : Fin k0_t1_loop.trips) (h2 : k0_cond2 k = 1#1) (h4 : k0_cond4 k = 1#1) (X : Buf (Elt F) (xLoc d))
    (cA : Buf (Elt F) ((xb0).view.loc (thr d L))) (cB : Buf (Elt F) ((xb1).view.loc (thr d L))) : sProp 𝕄 :=
  iprop(xFlight d L xb0 (sIn0).sem X (k0_off6 L k) (k0_off6_inb L k h2) (landedX d L xb0 (k0_off6 L k) (k0_off6_inb L k h2) X cA)
    ∗ xFlight d L xb1 (sIn1).sem X (k0_off10 L k) (k0_off10_inb L k h4) (landedX d L xb1 (k0_off10 L k) (k0_off10_inb L k h4) X cB))

/-- The first trip: the output buffers are in hand, their semaphores at zero. -/
def TripFirst : Prop :=
  ∀ (d : Dev nD) (L : grid0.Coords) (O : CellTallies nD τ sig (HIx 1)) (W : Waits sig (HIx 1)) (X : Buf (Elt F) (xLoc d)) (f0 : Buf (Elt F) (oLoc d))
    (k : Fin k0_t1_loop.trips) (hk : k.val = 0) (v2 : BitVec 32)
    (offA : Fin 2 → Nat) (hA : ∀ a, offA a + S1x12800.size a ≤ S4096x12800.size a) (cA : Buf (Elt F) ((xb0).view.loc (thr d L)))
    (offB : Fin 2 → Nat) (hB : ∀ a, offB a + S1x12800.size a ≤ S4096x12800.size a) (cB : Buf (Elt F) ((xb1).view.loc (thr d L)))
    (c0 : Buf (Elt F) ((ob0).view.loc (thr d L))) (c1 : Buf (Elt F) ((ob1).view.loc (thr d L))),
    (iprop(Transfers.MayWaits (thr d L) (none : HIx 1) O
        ∗ xFlight d L xb0 (sIn0).sem X offA hA cA ∗ xFlight d L xb1 (sIn1).sem X offB hB cB
        ∗ ((ob0).view.loc (thr d L) ↦{fullShare} c0) ∗ ((ob1).view.loc (thr d L) ↦{fullShare} c1)
        ∗ semVal (thr d L, SemLoc.dma (sOut0).sem) 0 ∗ semVal (thr d L, SemLoc.dma (sOut1).sem) 0
        ∗ oRowPts d L (k0_off5 L k) (k0_off5_inb L k) f0 ∗ oRowPts d L (k0_off9 L k) (k0_off9_inb L k) f0
        ∗ xRowPts d L (k0_off6 L k) (k0_off6_inb L k (cond2_pos k (by omega))) X ∗ xRowPts d L (k0_off10 L k) (k0_off10_inb L k (cond4_pos k (by omega))) X
        ∗ owes (thr d L) O W) : sProp 𝕄)
      ⊢ wp frame (wpE (defs₀ (F := F)) 𝒱₀ (thr d L) none) Set.univ (tripProg (F := F) L v2 k)
          fun _ => iprop(xRowPts d L offA hA X ∗ xRowPts d L offB hB X
            ∗ outgoing d L k f0 cA cB c0 c1
            ∗ incoming d L k (cond2_pos k (by omega)) (cond4_pos k (by omega)) X cA cB
            ∗ ∃ W', ⌜∀ p ∈ W', p ∈ W ∨ p.2 = none⌝ ∗ owes (thr d L) O W')

/-- A middle trip: four copies in flight at its start, four at its end. -/
def TripMid : Prop :=
  ∀ (d : Dev nD) (L : grid0.Coords) (O : CellTallies nD τ sig (HIx 1)) (W : Waits sig (HIx 1)) (X : Buf (Elt F) (xLoc d)) (f0 : Buf (Elt F) (oLoc d))
    (k : Fin k0_t1_loop.trips) (hk1 : 1 ≤ k.val) (hk2 : k.val ≤ 62) (v2 : BitVec 32)
    (offA : Fin 2 → Nat) (hA : ∀ a, offA a + S1x12800.size a ≤ S4096x12800.size a) (cA : Buf (Elt F) ((xb0).view.loc (thr d L)))
    (offB : Fin 2 → Nat) (hB : ∀ a, offB a + S1x12800.size a ≤ S4096x12800.size a) (cB : Buf (Elt F) ((xb1).view.loc (thr d L)))
    (off0 : Fin 3 → Nat) (h0 : ∀ a, off0 a + S1x200x128.size a ≤ S4096x200x128.size a) (c0 : Buf (Elt F) ((ob0).view.loc (thr d L)))
    (off1 : Fin 3 → Nat) (h1 : ∀ a, off1 a + S1x200x128.size a ≤ S4096x200x128.size a) (c1 : Buf (Elt F) ((ob1).view.loc (thr d L))),
    (iprop(Transfers.MayWaits (thr d L) (none : HIx 1) O
        ∗ xFlight d L xb0 (sIn0).sem X offA hA cA ∗ xFlight d L xb1 (sIn1).sem X offB hB cB
        ∗ oFlight d L ob0 (sOut0).sem f0 off0 h0 c0 ∗ oFlight d L ob1 (sOut1).sem f0 off1 h1 c1
        ∗ oRowPts d L (k0_off5 L k) (k0_off5_inb L k) f0 ∗ oRowPts d L (k0_off9 L k) (k0_off9_inb L k) f0
        ∗ xRowPts d L (k0_off6 L k) (k0_off6_inb L k (cond2_pos k hk2)) X ∗ xRowPts d L (k0_off10 L k) (k0_off10_inb L k (cond4_pos k hk2)) X
        ∗ owes (thr d L) O W) : sProp 𝕄)
      ⊢ wp frame (wpE (defs₀ (F := F)) 𝒱₀ (thr d L) none) Set.univ (tripProg (F := F) L v2 k)
          fun _ => iprop(xRowPts d L offA hA X ∗ xRowPts d L offB hB X
            ∗ oRowPts d L off0 h0 (landedRow d L ob0 off0 h0 f0 c0) ∗ oRowPts d L off1 h1 (landedRow d L ob1 off1 h1 f0 c1)
            ∗ outgoing d L k f0 cA cB c0 c1
            ∗ incoming d L k (cond2_pos k hk2) (cond4_pos k hk2) X cA cB
            ∗ ∃ W', ⌜∀ p ∈ W', p ∈ W ∨ p.2 = none⌝ ∗ owes (thr d L) O W')

/-- The last trip: nothing left to prefetch; the flat buffers and their semaphores come back in hand. -/
def TripLast : Prop :=
  ∀ (d : Dev nD) (L : grid0.Coords) (O : CellTallies nD τ sig (HIx 1)) (W : Waits sig (HIx 1)) (X : Buf (Elt F) (xLoc d)) (f0 : Buf (Elt F) (oLoc d))
    (k : Fin k0_t1_loop.trips) (hk : k.val = 63) (v2 : BitVec 32)
    (offA : Fin 2 → Nat) (hA : ∀ a, offA a + S1x12800.size a ≤ S4096x12800.size a) (cA : Buf (Elt F) ((xb0).view.loc (thr d L)))
    (offB : Fin 2 → Nat) (hB : ∀ a, offB a + S1x12800.size a ≤ S4096x12800.size a) (cB : Buf (Elt F) ((xb1).view.loc (thr d L)))
    (off0 : Fin 3 → Nat) (h0 : ∀ a, off0 a + S1x200x128.size a ≤ S4096x200x128.size a) (c0 : Buf (Elt F) ((ob0).view.loc (thr d L)))
    (off1 : Fin 3 → Nat) (h1 : ∀ a, off1 a + S1x200x128.size a ≤ S4096x200x128.size a) (c1 : Buf (Elt F) ((ob1).view.loc (thr d L))),
    (iprop(Transfers.MayWaits (thr d L) (none : HIx 1) O
        ∗ xFlight d L xb0 (sIn0).sem X offA hA cA ∗ xFlight d L xb1 (sIn1).sem X offB hB cB
        ∗ oFlight d L ob0 (sOut0).sem f0 off0 h0 c0 ∗ oFlight d L ob1 (sOut1).sem f0 off1 h1 c1
        ∗ oRowPts d L (k0_off5 L k) (k0_off5_inb L k) f0 ∗ oRowPts d L (k0_off9 L k) (k0_off9_inb L k) f0
        ∗ owes (thr d L) O W) : sProp 𝕄)
      ⊢ wp frame (wpE (defs₀ (F := F)) 𝒱₀ (thr d L) none) Set.univ (tripProg (F := F) L v2 k)
          fun _ => iprop(xRowPts d L offA hA X ∗ xRowPts d L offB hB X
            ∗ oRowPts d L off0 h0 (landedRow d L ob0 off0 h0 f0 c0) ∗ oRowPts d L off1 h1 (landedRow d L ob1 off1 h1 f0 c1)
            ∗ outgoing d L k f0 cA cB c0 c1
            ∗ ((xb0).view.loc (thr d L) ↦{fullShare} cA) ∗ ((xb1).view.loc (thr d L) ↦{fullShare} cB)
            ∗ semVal (thr d L, SemLoc.dma (sIn0).sem) 0 ∗ semVal (thr d L, SemLoc.dma (sIn1).sem) 0
            ∗ ∃ W', ⌜∀ p ∈ W', p ∈ W ∨ p.2 = none⌝ ∗ owes (thr d L) O W')

end Cert.Proof.KernelP

end
-- ==== Proof.Bits.Value.lean ====
/-
  What the stores and copies of one batch row leave in the buffers, read entry by entry.

  The 800 stores of a batch row write the flat buffer's 12800 numbers into the left 64 columns of the 200 × 128
  buffer: store n covers row n / 4, columns 16·(n % 4) … 16·(n % 4) + 15, with positions 16·n … 16·n + 15, so entry
  (l, j), j < 64, is covered by exactly the store n = 4·l + j / 16 and receives position 16·n + j % 16 = 64·l + j; no
  store touches a column j ≥ 64.  A copy of a whole row (of the flattened `x` into the flat buffer, of the template
  into the 200 × 128 buffer, of that buffer into a batch row of the result) leaves the source's numbers at the
  same row-major positions; the one-row slices of the big arrays place entry (l, j) at (r, l, j) and position p at (r, p).
-/
import proofs.«204673_g16922171147058_cont_7to1_1063_26_alg».proof.Proof.Bits.Pieces
import Idealize.ShloMosaic.Lib.Writes
import Idealize.ShloMosaic.Lib.Pipeline.Value
import Idealize.ShloMosaic.Lib.ValueIdx
import Idealize.ShloMosaic.Lib.Tactic

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v3_scv : Memref Cert.Kernel.sig Kind.scVector Space.hbm Cert.Kernel.S4096x12800 EltTy.f32)
local notation "tV" => (Memref.whole Cert.Kernel.main_v2_scv : Memref Cert.Kernel.sig Kind.scVector Space.hbm Cert.Kernel.S200x128 EltTy.f32)
local notation "oV" => (Memref.whole Cert.Kernel.main_v4_scv : Memref Cert.Kernel.sig Kind.scVector Space.hbm Cert.Kernel.S4096x200x128 EltTy.f32)
local notation "xb0" => (Memref.whole Cert.Kernel.cc0_scratch0 : Memref Cert.Kernel.sig Kind.scVector Space.vmem Cert.Kernel.S12800 EltTy.f32)
local notation "xb1" => (Memref.whole Cert.Kernel.cc0_scratch1 : Memref Cert.Kernel.sig Kind.scVector Space.vmem Cert.Kernel.S12800 EltTy.f32)
local notation "ob0" => (Memref.whole Cert.Kernel.cc0_scratch2 : Memref Cert.Kernel.sig Kind.scVector Space.vmem Cert.Kernel.S200x128 EltTy.f32)
local notation "ob1" => (Memref.whole Cert.Kernel.cc0_scratch3 : Memref Cert.Kernel.sig Kind.scVector Space.vmem Cert.Kernel.S200x128 EltTy.f32)

/-- The pieces of `piecesTo … k` are the stores 0 … k − 1. -/
theorem mem_piecesTo (xb : Memref sig .scVector .vmem S12800 .f32) (cx : xb.view.ty.Contents (Elt F)) :
    ∀ (k : ℕ) (h : k ≤ 800) (p : View.Piece (Elt F) S200x128 .f32),
      p ∈ piecesTo xb cx k h ↔ ∃ n, ∃ hn : n < k, p = piece xb cx n (by omega)
  | 0, _, p => by
    rw [piecesTo]
    exact ⟨fun hp => absurd hp List.not_mem_nil, fun ⟨n, hn, _⟩ => absurd hn (Nat.not_lt_zero n)⟩
  | k + 1, h, p => by
    rw [piecesTo, List.mem_cons, mem_piecesTo xb cx k (by omega) p]
    constructor
    · rintro (rfl | ⟨n, hn, rfl⟩)
      · exact ⟨k, by omega, rfl⟩
      · exact ⟨n, by omega, rfl⟩
    · rintro ⟨n, hn, rfl⟩
      by_cases e : n = k
      · subst e; exact Or.inl rfl
      · exact Or.inr ⟨n, by omega, rfl⟩

/-- Position 64·l + j % 64 of the flat buffer, for an entry (l, j) of the 200 × 128 buffer. -/
abbrev flatIx (y : S200x128.Idx) : S12800.Idx :=
  ValueIdx.ix1 (⟨64 * (y 0).val + (y 1).val % 64, by
    have h200 : (y 0).val < 200 := (y 0).isLt
    have := Nat.mod_lt (y 1).val (show 0 < 64 by decide)
    omega⟩ : Fin 12800)

/-- What the 800 stores leave, as one function of the entry: the flat buffer's number on the left 64 columns. -/
def leftG (ob : Memref sig .scVector .vmem S200x128 .f32) (c0 : ob.view.ty.Contents (Elt F))
    (xb : Memref sig .scVector .vmem S12800 .f32) (cx : xb.view.ty.Contents (Elt F)) : S200x128.Idx → Elt F .f32 :=
  fun y => if (y 1).val < 64 then xb.view.read (Elt F) cx (flatIx y) else ob.view.read (Elt F) c0 y

/-- Store `n`'s payload at its own index is the flat buffer's number at position 16·n + (the column within the 16). -/
theorem piece_apply (xb : Memref sig .scVector .vmem S12800 .f32) (cx : xb.view.ty.Contents (Elt F)) (n : ℕ) (hn : n < 800)
    (x : S1x16.Idx) :
    (piece xb cx n hn).2 x = xb.view.read (Elt F) cx (ValueIdx.ix1 (⟨16 * n + (x 1).val, by
      have : (x 1).val < 16 := (x 1).isLt
      omega⟩ : Fin 12800)) := by
  have hx0 : (x 0).val < 1 := (x 0).isLt
  have hx1 : (x 1).val < 16 := (x 1).isLt
  show pay (View.readAt (Elt F) xb.view (Rect.unit (s := S12800) ![16 * n] S16.size (load_inb n hn)).toLoadRect cx) x = _
  unfold pay
  rw [shapeCast_self]
  refine (shapeCast_apply _ shapeCasts_S16_S1x16 x (ValueIdx.ix1 (⟨(x 1).val, hx1⟩ : Fin 16)) ?_).trans ?_
  · have h1 : ((⟨1, ![16]⟩ : Shape).rowMajor (ValueIdx.ix1 (⟨(x 1).val, hx1⟩ : Fin 16))).val = (x 1).val :=
      Shape.rowMajor_val_one _
    have h2 : ((⟨2, ![1, 16]⟩ : Shape).rowMajor x).val = (x 0).val * 16 + (x 1).val := Shape.rowMajor_val_two x
    show ((⟨1, ![16]⟩ : Shape).rowMajor (ValueIdx.ix1 (⟨(x 1).val, hx1⟩ : Fin 16))).val = ((⟨2, ![1, 16]⟩ : Shape).rowMajor x).val
    rw [h1, h2]
    omega
  · show View.read (Elt F) xb.view cx ((Rect.unit (s := S12800) ![16 * n] S16.size (load_inb n hn)).toLoadRect.idx
        (ValueIdx.ix1 (⟨(x 1).val, hx1⟩ : Fin 16))) = _
    refine congrArg (xb.view.read (Elt F) cx) (funext fun a => Fin.ext ?_)
    match a with
    | ⟨0, _⟩ =>
      show 16 * n + 1 * (x 1).val = 16 * n + (x 1).val
      omega

/-- Every store's payload agrees with `leftG` on the store's rectangle. -/
theorem piece_agrees (ob : Memref sig .scVector .vmem S200x128 .f32) (c0 : ob.view.ty.Contents (Elt F))
    (xb : Memref sig .scVector .vmem S12800 .f32) (cx : xb.view.ty.Contents (Elt F)) (n : ℕ) (hn : n < 800)
    (x : S1x16.Idx) :
    (piece xb cx n hn).2 x = leftG ob c0 xb cx ((piece xb cx n hn).1.emb x) := by
  rw [piece_apply]
  have hx0 : (x 0).val < 1 := (x 0).isLt
  have hx1 : (x 1).val < 16 := (x 1).isLt
  have e0 : (((piece xb cx n hn).1.emb x) 0).val = n / 4 + 1 * (x 0).val := rfl
  have e1 : (((piece xb cx n hn).1.emb x) 1).val = 16 * (n % 4) + 1 * (x 1).val := rfl
  unfold leftG
  rw [if_pos (by rw [e1]; omega)]
  refine congrArg (xb.view.read (Elt F) cx) (funext fun a => Fin.ext ?_)
  match a with
  | ⟨0, _⟩ =>
    show 16 * n + (x 1).val = 64 * (((piece xb cx n hn).1.emb x) 0).val + (((piece xb cx n hn).1.emb x) 1).val % 64
    rw [e0, e1]
    omega

/-- THE BUFFER AFTER THE 800 STORES: on the left 64 columns entry (l, j) holds the flat buffer's number at
    position 64·l + j; the right 64 columns keep what they held. -/
theorem read_after (ob : Memref sig .scVector .vmem S200x128 .f32) (c0 : ob.view.ty.Contents (Elt F))
    (xb : Memref sig .scVector .vmem S12800 .f32) (cx : xb.view.ty.Contents (Elt F)) (y : S200x128.Idx) :
    ob.view.read (Elt F) (ob.view.writes (Elt F) c0 (piecesTo xb cx 800 le_rfl)) y
      = if (y 1).val < 64 then xb.view.read (Elt F) cx (flatIx y) else ob.view.read (Elt F) c0 y := by
  have hy0 : (y 0).val < 200 := (y 0).isLt
  have hy1 : (y 1).val < 128 := (y 1).isLt
  by_cases hy : (y 1).val < 64
  · have hn : 4 * (y 0).val + (y 1).val / 16 < 800 := by omega
    refine View.read_writes_apply_of_pieces ob.view c0 (leftG ob c0 xb cx) (piecesTo xb cx 800 le_rfl) ?_ y ?_
    · intro p hp x
      obtain ⟨n, hn', rfl⟩ := (mem_piecesTo xb cx 800 le_rfl p).1 hp
      exact piece_agrees ob c0 xb cx n hn' x
    · refine ⟨piece xb cx _ hn, (mem_piecesTo xb cx 800 le_rfl _).2 ⟨_, hn, rfl⟩, ?_⟩
      show y ∈ (Rect.unit (s := S200x128) ![(4 * (y 0).val + (y 1).val / 16) / 4, 16 * ((4 * (y 0).val + (y 1).val / 16) % 4)] S1x16.size (piece_inb _ hn)).set
      rw [Rect.mem_set_unit]
      intro a
      match a with
      | ⟨0, _⟩ =>
        show (4 * (y 0).val + (y 1).val / 16) / 4 ≤ (y 0).val ∧ (y 0).val < (4 * (y 0).val + (y 1).val / 16) / 4 + 1
        omega
      | ⟨1, _⟩ =>
        show 16 * ((4 * (y 0).val + (y 1).val / 16) % 4) ≤ (y 1).val ∧ (y 1).val < 16 * ((4 * (y 0).val + (y 1).val / 16) % 4) + 16
        omega
  · rw [if_neg hy]
    refine View.read_writes_apply_of_forall_not_mem ob.view c0 y (piecesTo xb cx 800 le_rfl) ?_
    intro p hp
    obtain ⟨n, hn', rfl⟩ := (mem_piecesTo xb cx 800 le_rfl p).1 hp
    show y ∉ (Rect.unit (s := S200x128) ![n / 4, 16 * (n % 4)] S1x16.size (piece_inb n hn')).set
    rw [Rect.mem_set_unit]
    intro hm
    have h1 := hm ⟨1, by decide⟩
    have h1' : 16 * (n % 4) ≤ (y 1).val ∧ (y 1).val < 16 * (n % 4) + 16 := h1
    omega

/-! ## Row facts -/

/-- After the 800 stores the buffer holds batch row `r` of the result, given that the flat buffer held row `r` of
    the flattened `x` and the right 64 columns held the template's; and the right columns still do. -/
theorem isRow_after {d : Dev nD} {ob : Memref sig .scVector .vmem S200x128 .f32} {c0 : ob.view.ty.Contents (Elt F)}
    {xb : Memref sig .scVector .vmem S12800 .f32} {cx : xb.view.ty.Contents (Elt F)}
    {X : Buf (Elt F) (xLoc d)} {Tm : Buf (Elt F) (tLoc d)} {r : ℕ} {hr : r < 4096}
    (hX : XRow xb cx X r hr) (hT : RightT ob c0 Tm) :
    IsRow ob (ob.view.writes (Elt F) c0 (piecesTo xb cx 800 le_rfl)) X Tm r hr
      ∧ RightT ob (ob.view.writes (Elt F) c0 (piecesTo xb cx 800 le_rfl)) Tm := by
  constructor
  · intro y
    have hy1 : (y 1).val < 128 := (y 1).isLt
    rw [read_after]
    by_cases hy : (y 1).val < 64
    · rw [if_pos hy]
      refine (hX (flatIx y)).trans ?_
      unfold Spec.Gout
      exact (if_pos hy).symm
    · rw [if_neg hy, hT y (by omega)]
      unfold Spec.Gout
      exact (congrArg Tm (ValueIdx.eq_ix2 y)).trans (if_neg hy).symm
  · intro y hy
    rw [read_after, if_neg (by omega)]
    exact hT y hy

/-- A row of the flattened `x` copied whole into the flat buffer: the buffer holds that row. -/
theorem xrow_landed {d : Dev nD} (xb : Memref sig .scVector .vmem S12800 .f32) (cprev : xb.view.ty.Contents (Elt F))
    (X : Buf (Elt F) (xLoc d)) (off : Fin 2 → Nat) (h : ∀ a, off a + S1x12800.size a ≤ S4096x12800.size a)
    (r : ℕ) (hr : r < 4096) (hoff : off = ![r, 0]) :
    XRow xb (View.write (Elt F) xb.view cprev (ReadAs.same.apply (View.read (Elt F) (xRowM off h).view X)) Finset.univ) X r hr := by
  subst hoff
  intro j
  have hj : (j 0).val < 12800 := (j 0).isLt
  rw [View.read_write_univ]
  show X ((Rect.unit (s := S4096x12800) ![r, 0] S1x12800.size h).emb
      (Shape.reshapeEquiv squeezes_S1x12800_S12800.numel_eq j)) = _
  have e : Shape.reshapeEquiv squeezes_S1x12800_S12800.numel_eq j
      = (ValueIdx.ix2 (⟨0, Nat.one_pos⟩ : Fin 1) (⟨(j 0).val, hj⟩ : Fin 12800) : S1x12800.Idx) := by
    refine Shape.reshapeEquiv_eq_of_rowMajor _ ?_
    have h2 : ((⟨2, ![1, 12800]⟩ : Shape).rowMajor (ValueIdx.ix2 (⟨0, Nat.one_pos⟩ : Fin 1) (⟨(j 0).val, hj⟩ : Fin 12800))).val
        = 0 * 12800 + (j 0).val := Shape.rowMajor_val_two _
    have h1 : ((⟨1, ![12800]⟩ : Shape).rowMajor j).val = (j 0).val := Shape.rowMajor_val_one j
    show ((⟨2, ![1, 12800]⟩ : Shape).rowMajor (ValueIdx.ix2 (⟨0, Nat.one_pos⟩ : Fin 1) (⟨(j 0).val, hj⟩ : Fin 12800))).val
      = ((⟨1, ![12800]⟩ : Shape).rowMajor j).val
    rw [h2, h1]; omega
  rw [e]
  refine congrArg X (funext fun a => Fin.ext ?_)
  match a with
  | ⟨0, _⟩ => show r + 1 * 0 = r; omega
  | ⟨1, _⟩ => show 0 + 1 * (j 0).val = (j 0).val; omega

/-- The template copied whole into a 200 × 128 buffer: the buffer reads as the template (in particular on the right
    64 columns). -/
theorem template_landed_read {d : Dev nD} (ob : Memref sig .scVector .vmem S200x128 .f32) (fo : ob.view.ty.Contents (Elt F))
    (Tm : Buf (Elt F) (tLoc d)) (y : S200x128.Idx) :
    ob.view.read (Elt F) (View.write (Elt F) ob.view fo (ReadAs.same.apply (View.read (Elt F) (tV).view Tm)) Finset.univ) y = Tm y := by
  rw [View.read_write_univ]
  rfl

theorem template_landed {d : Dev nD} (ob : Memref sig .scVector .vmem S200x128 .f32) (fo : ob.view.ty.Contents (Elt F))
    (Tm : Buf (Elt F) (tLoc d)) :
    RightT ob (View.write (Elt F) ob.view fo (ReadAs.same.apply (View.read (Elt F) (tV).view Tm)) Finset.univ) Tm :=
  fun y _ => template_landed_read ob fo Tm y

/-- Where the one-row slice of the result places entry (l, j): at (r, l, j). -/
theorem oRowM_emb (off : Fin 3 → Nat) (h : ∀ a, off a + S1x200x128.size a ≤ S4096x200x128.size a) (r : ℕ) (hr : r < 4096)
    (hoff : off = ![r, 0, 0]) (y : S200x128.Idx) :
    (oRowM off h).view.emb y = (ValueIdx.ix3 (⟨r, hr⟩ : Fin 4096) (y 0) (y 1) : S4096x200x128.Idx) := by
  subst hoff
  have hy0 : (y 0).val < 200 := (y 0).isLt
  have hy1 : (y 1).val < 128 := (y 1).isLt
  have e : Shape.reshapeEquiv squeezes_S1x200x128_S200x128.numel_eq y
      = (ValueIdx.ix3 (⟨0, Nat.one_pos⟩ : Fin 1) (⟨(y 0).val, hy0⟩ : Fin 200) (⟨(y 1).val, hy1⟩ : Fin 128) : S1x200x128.Idx) := by
    refine Shape.reshapeEquiv_eq_of_rowMajor _ ?_
    have h3 : ((⟨3, ![1, 200, 128]⟩ : Shape).rowMajor
        (ValueIdx.ix3 (⟨0, Nat.one_pos⟩ : Fin 1) (⟨(y 0).val, hy0⟩ : Fin 200) (⟨(y 1).val, hy1⟩ : Fin 128))).val
        = (0 * 200 + (y 0).val) * 128 + (y 1).val := Shape.rowMajor_val_three _
    have h2 : ((⟨2, ![200, 128]⟩ : Shape).rowMajor y).val = (y 0).val * 128 + (y 1).val := Shape.rowMajor_val_two y
    show ((⟨3, ![1, 200, 128]⟩ : Shape).rowMajor
        (ValueIdx.ix3 (⟨0, Nat.one_pos⟩ : Fin 1) (⟨(y 0).val, hy0⟩ : Fin 200) (⟨(y 1).val, hy1⟩ : Fin 128))).val
      = ((⟨2, ![200, 128]⟩ : Shape).rowMajor y).val
    rw [h3, h2]; omega
  show (Rect.unit (s := S4096x200x128) ![r, 0, 0] S1x200x128.size h).emb
      (Shape.reshapeEquiv squeezes_S1x200x128_S200x128.numel_eq y) = _
  rw [e]
  funext a
  refine Fin.ext ?_
  match a with
  | ⟨0, _⟩ => show r + 1 * 0 = r; omega
  | ⟨1, _⟩ => show 0 + 1 * (y 0).val = (y 0).val; omega
  | ⟨2, _⟩ => show 0 + 1 * (y 1).val = (y 1).val; omega

/-- A buffer holding batch row `r` of the result, copied whole to batch row `r` of the result array: every entry of
    that row then holds the result's. -/
theorem row_landed {d : Dev nD} (ob : Memref sig .scVector .vmem S200x128 .f32) (c : ob.view.ty.Contents (Elt F))
    (X : Buf (Elt F) (xLoc d)) (Tm : Buf (Elt F) (tLoc d)) (f0 : Buf (Elt F) (oLoc d))
    (off : Fin 3 → Nat) (h : ∀ a, off a + S1x200x128.size a ≤ S4096x200x128.size a) (r : ℕ) (hr : r < 4096)
    (hoff : off = ![r, 0, 0]) (hc : IsRow ob c X Tm r hr) :
    ∀ i ∈ oRows r (r + 1),
      ((oRowM off h).view.writes (Elt F) f0 [⟨Rect.whole S200x128, ReadAs.same.apply (View.read (Elt F) ob.view c)⟩]
        : Buf (Elt F) (oLoc d)) i = (Spec.Gout X Tm : Buf (Elt F) (oLoc d)) i := by
  intro i hi
  rw [← set_oRowM off h r hoff] at hi
  obtain ⟨y, rfl⟩ := View.exists_emb_of_mem_set _ hi
  have hw := View.read_writes_cons_emb (oRowM off h).view f0 (Rect.whole S200x128)
    (ReadAs.same.apply (View.read (Elt F) ob.view c)) [] y
  rw [Rect.emb_whole_apply] at hw
  refine Eq.trans (show _ = View.read (Elt F) ob.view c y from hw) ?_
  exact (hc y).trans (congrArg (Spec.Gout X Tm) (oRowM_emb off h r hr hoff y).symm)

end Cert.Proof.KernelP

end
-- ==== Proof.Bits.Body.lean ====
/-
  One vector subcore's task, from three statements about one trip of its loop.

  The task copies the template into both output buffers, prefetches its first two rows of the flattened `x`, runs
  64 trips — trip k waits for rows 2k and 2k + 1 of its block, overwrites the left 64 columns of the two output
  buffers with them, sends the buffers out to result rows 2k and 2k + 1, and prefetches rows 2k + 2 and 2k + 3 —
  and waits for the last two result rows to land.  Before trip k the result rows below 2k − 2 have landed at the
  specified function, rows 2k − 2 and 2k − 1 are on their way, and the rows from 2k on are untouched; the rows of
  `x` below 2k have come back, rows 2k and 2k + 1 are on their way in, the rows from 2k + 2 on are still held.
-/
import proofs.«204673_g16922171147058_cont_7to1_1063_26_alg».proof.Proof.Bits.Trips
import proofs.«204673_g16922171147058_cont_7to1_1063_26_alg».proof.Proof.Bits.Value

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v3_scv : Memref Cert.Kernel.sig Kind.scVector Space.hbm Cert.Kernel.S4096x12800 EltTy.f32)
local notation "tV" => (Memref.whole Cert.Kernel.main_v2_scv : Memref Cert.Kernel.sig Kind.scVector Space.hbm Cert.Kernel.S200x128 EltTy.f32)
local notation "oV" => (Memref.whole Cert.Kernel.main_v4_scv : Memref Cert.Kernel.sig Kind.scVector Space.hbm Cert.Kernel.S4096x200x128 EltTy.f32)
local notation "xb0" => (Memref.whole Cert.Kernel.cc0_scratch0 : Memref Cert.Kernel.sig Kind.scVector Space.vmem Cert.Kernel.S12800 EltTy.f32)
local notation "xb1" => (Memref.whole Cert.Kernel.cc0_scratch1 : Memref Cert.Kernel.sig Kind.scVector Space.vmem Cert.Kernel.S12800 EltTy.f32)
local notation "ob0" => (Memref.whole Cert.Kernel.cc0_scratch2 : Memref Cert.Kernel.sig Kind.scVector Space.vmem Cert.Kernel.S200x128 EltTy.f32)
local notation "ob1" => (Memref.whole Cert.Kernel.cc0_scratch3 : Memref Cert.Kernel.sig Kind.scVector Space.vmem Cert.Kernel.S200x128 EltTy.f32)

section Tile

variable (d : Dev nD) (L : grid0.Coords)

theorem pts_t (q : PosShare TreeShare) (f : Buf (Elt F) (tLoc d)) :
    ((tV).view.loc (thr d L) ↦{q} f : sProp 𝕄) = tLoc d ↦{q} f := by
  simp only [Memref.view_whole, View.set_whole]
theorem pts_xb0 (f : Buf (Elt F) ((thr d L).loc cc0_scratch0)) :
    ((xb0).view.loc (thr d L) ↦{fullShare} f : sProp 𝕄) = (thr d L).loc cc0_scratch0 ↦{fullShare} f := rfl
theorem pts_xb1 (f : Buf (Elt F) ((thr d L).loc cc0_scratch1)) :
    ((xb1).view.loc (thr d L) ↦{fullShare} f : sProp 𝕄) = (thr d L).loc cc0_scratch1 ↦{fullShare} f := rfl
theorem pts_ob0 (f : Buf (Elt F) ((thr d L).loc cc0_scratch2)) :
    ((ob0).view.loc (thr d L) ↦{fullShare} f : sProp 𝕄) = (thr d L).loc cc0_scratch2 ↦{fullShare} f := rfl
theorem pts_ob1 (f : Buf (Elt F) ((thr d L).loc cc0_scratch3)) :
    ((ob1).view.loc (thr d L) ↦{fullShare} f : sProp 𝕄) = (thr d L).loc cc0_scratch3 ↦{fullShare} f := rfl

theorem pts_ob0_set (f : Buf (Elt F) ((thr d L).loc cc0_scratch2)) :
    ((ob0).view.loc (thr d L) ↦[(ob0).view.set]{fullShare} f : sProp 𝕄) = (thr d L).loc cc0_scratch2 ↦{fullShare} f := by
  simp only [Memref.view_whole, View.set_whole]
theorem pts_ob1_set (f : Buf (Elt F) ((thr d L).loc cc0_scratch3)) :
    ((ob1).view.loc (thr d L) ↦[(ob1).view.set]{fullShare} f : sProp 𝕄) = (thr d L).loc cc0_scratch3 ↦{fullShare} f := by
  simp only [Memref.view_whole, View.set_whole]

theorem scopedV_list : (Finset.univ.filter fun sm : SemLoc sig => sm.isScoped .scVector)
    = {SemLoc.dma (sIn0).sem, SemLoc.dma (sIn1).sem, SemLoc.dma (sOut0).sem, SemLoc.dma (sOut1).sem, SemLoc.dma cc0_scoped0.sem, SemLoc.dma cc0_scoped1.sem} := by
  decide

/-- The subcore's own semaphores: the loop's four, the prologue's two. -/
theorem ownSems0_thr :
    (ownSems0 (thr d L) : sProp 𝕄)
      = iprop(semVal (thr d L, SemLoc.dma (sIn0).sem) 0 ∗ semVal (thr d L, SemLoc.dma (sIn1).sem) 0
          ∗ semVal (thr d L, SemLoc.dma (sOut0).sem) 0 ∗ semVal (thr d L, SemLoc.dma (sOut1).sem) 0
          ∗ semVal (thr d L, SemLoc.dma cc0_scoped0.sem) 0 ∗ semVal (thr d L, SemLoc.dma cc0_scoped1.sem) 0) := by
  rw [SparseCore.Cfg.ownSems0_eq]
  show (bigSep (Finset.univ.filter fun sm : SemLoc sig => sm.isScoped .scVector) fun sm => semVal (thr d L, sm) 0) = _
  rw [scopedV_list, SparseCore.bigSep_insert' (by decide), SparseCore.bigSep_insert' (by decide), SparseCore.bigSep_insert' (by decide),
    SparseCore.bigSep_insert' (by decide), SparseCore.bigSep_insert' (by decide), bigSep_singleton]

/-- The subcore's own buffers: the two flat buffers, the two output buffers, at some contents, and the rest. -/
theorem ownBufs_thr :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

/-! ## Rows and ranges of rows -/

theorem baseRow_le : baseRow L + 128 ≤ 4096 := by
  have h0 : (L 0).val < 2 := (L 0).isLt
  have h1 : (L 1).val < 16 := (L 1).isLt
  unfold baseRow; omega

theorem vec2_eq {a b : ℕ} (h : a = b) : (![a, 0] : Fin 2 → ℕ) = ![b, 0] := by subst h; rfl
theorem vec3_eq {a b : ℕ} (h : a = b) : (![a, 0, 0] : Fin 3 → ℕ) = ![b, 0, 0] := by subst h; rfl

/-- The one-row slice at offsets (r, 0) holds exactly row r. -/
theorem xRowPts_eq (off : Fin 2 → Nat) (h : ∀ a, off a + S1x12800.size a ≤ S4096x12800.size a) (X : Buf (Elt F) (xLoc d))
    {r r1 : ℕ} (hoff : off = ![r, 0]) (h1 : r1 = r + 1) :
    (xRowPts d L off h X : sProp 𝕄) = xLoc d ↦[xRows r r1]{fullShare} X := by
  subst h1
  show (xLoc d ↦[(xRowM off h).view.set]{fullShare} X : sProp 𝕄) = _
  rw [set_xRowM off h r hoff]
theorem oRowPts_eq (off : Fin 3 → Nat) (h : ∀ a, off a + S1x200x128.size a ≤ S4096x200x128.size a) (f : Buf (Elt F) (oLoc d))
    {r r1 : ℕ} (hoff : off = ![r, 0, 0]) (h1 : r1 = r + 1) :
    (oRowPts d L off h f : sProp 𝕄) = oLoc d ↦[oRows r r1]{fullShare} f := by
  subst h1
  show (oLoc d ↦[(oRowM off h).view.set]{fullShare} f : sProp 𝕄) = _
  rw [set_oRowM off h r hoff]

theorem x_none (X : Buf (Elt F) (xLoc d)) (a e : ℕ) (h : e ≤ a) : (xLoc d ↦[xRows a e]{fullShare} X : sProp 𝕄) = iprop(emp) := by
  rw [show xRows a e = ∅ from Finset.eq_empty_of_forall_notMem fun i hi => by rw [mem_xRows] at hi; omega]; exact pointsTo_empty
theorem o_none (f : Buf (Elt F) (oLoc d)) (a e : ℕ) (h : e ≤ a) : (oLoc d ↦[oRows a e]{fullShare} f : sProp 𝕄) = iprop(emp) := by
  rw [show oRows a e = ∅ from Finset.eq_empty_of_forall_notMem fun i hi => by rw [mem_oRows] at hi; omega]; exact pointsTo_empty

/-- The first two rows of a range, and the rest. -/
theorem x_front (X : Buf (Elt F) (xLoc d)) {r r1 r2 e : ℕ} (h1 : r1 = r + 1) (h2 : r2 = r + 2) (h : r2 ≤ e) :
    (xLoc d ↦[xRows r e]{fullShare} X : sProp 𝕄)
      = iprop((xLoc d ↦[xRows r r1]{fullShare} X) ∗ (xLoc d ↦[xRows r1 r2]{fullShare} X) ∗ xLoc d ↦[xRows r2 e]{fullShare} X) := by
  subst h1 h2
  have s1 := xRows_split (F := F) d fullShare X (a := r) (m := r + 1) (b := e) (by omega) (by omega)
  have s2 := xRows_split (F := F) d fullShare X (a := r + 1) (m := r + 2) (b := e) (by omega) (by omega)
  rw [BI.equiv_iff.mp ⟨s1.1, s1.2⟩, BI.equiv_iff.mp ⟨s2.1, s2.2⟩]
theorem o_front (f : Buf (Elt F) (oLoc d)) {r r1 r2 e : ℕ} (h1 : r1 = r + 1) (h2 : r2 = r + 2) (h : r2 ≤ e) :
    (oLoc d ↦[oRows r e]{fullShare} f : sProp 𝕄)
      = iprop((oLoc d ↦[oRows r r1]{fullShare} f) ∗ (oLoc d ↦[oRows r1 r2]{fullShare} f) ∗ oLoc d ↦[oRows r2 e]{fullShare} f) := by
  subst h1 h2
  have s1 := oRows_split (F := F) d fullShare f (a := r) (m := r + 1) (b := e) (by omega) (by omega)
  have s2 := oRows_split (F := F) d fullShare f (a := r + 1) (m := r + 2) (b := e) (by omega) (by omega)
  rw [BI.equiv_iff.mp ⟨s1.1, s1.2⟩, BI.equiv_iff.mp ⟨s2.1, s2.2⟩]
/-- A range and the two rows after it. -/
theorem x_back (X : Buf (Elt F) (xLoc d)) {a r r1 r2 : ℕ} (h1 : r1 = r + 1) (h2 : r2 = r + 2) (h : a ≤ r) :
    iprop((xLoc d ↦[xRows a r]{fullShare} X) ∗ (xLoc d ↦[xRows r r1]{fullShare} X) ∗ xLoc d ↦[xRows r1 r2]{fullShare} X)
      = (xLoc d ↦[xRows a r2]{fullShare} X : sProp 𝕄) := by
  subst h1 h2
  have s1 := xRows_split (F := F) d fullShare X (a := a) (m := r) (b := r + 2) (by omega) (by omega)
  have s2 := xRows_split (F := F) d fullShare X (a := r) (m := r + 1) (b := r + 2) (by omega) (by omega)
  rw [BI.equiv_iff.mp ⟨s1.1, s1.2⟩, BI.equiv_iff.mp ⟨s2.1, s2.2⟩]
theorem o_back (f : Buf (Elt F) (oLoc d)) {a r r1 r2 : ℕ} (h1 : r1 = r + 1) (h2 : r2 = r + 2) (h : a ≤ r) :
    iprop((oLoc d ↦[oRows a r]{fullShare} f) ∗ (oLoc d ↦[oRows r r1]{fullShare} f) ∗ oLoc d ↦[oRows r1 r2]{fullShare} f)
      = (oLoc d ↦[oRows a r2]{fullShare} f : sProp 𝕄) := by
  subst h1 h2
  have s1 := oRows_split (F := F) d fullShare f (a := a) (m := r) (b := r + 2) (by omega) (by omega)
  have s2 := oRows_split (F := F) d fullShare f (a := r) (m := r + 1) (b := r + 2) (by omega) (by omega)
  rw [BI.equiv_iff.mp ⟨s1.1, s1.2⟩, BI.equiv_iff.mp ⟨s2.1, s2.2⟩]

/-- The first two rows of the subcore's block of `x`, as the prologue's two prefetches slice them, and the rest. -/
theorem xBlock_carve (X : Buf (Elt F) (xLoc d)) :
    (xLoc d ↦[xBlockSet L]{fullShare} X : sProp 𝕄)
      = iprop(xRowPts d L (k0_off1 L) (k0_off1_inb L) X ∗ xRowPts d L (k0_off2 L) (k0_off2_inb L) X
          ∗ xLoc d ↦[xRows (baseRow L + 2) (baseRow L + 128)]{fullShare} X) := by
  rw [xRowPts_eq d L _ _ X (r := baseRow L) (r1 := baseRow L + 1) (k0_off1_eq L) rfl,
    xRowPts_eq d L _ _ X (r := baseRow L + 1) (r1 := baseRow L + 2) (k0_off2_eq L) rfl, xBlockSet_eq]
  exact x_front d X rfl rfl (by omega)

/-- Trip k's two result rows out of the rows not yet sent. -/
theorem o_take (k : Fin k0_t1_loop.trips) (f0 : Buf (Elt F) (oLoc d)) :
    (oLoc d ↦[oRows (baseRow L + 2 * k.val) (baseRow L + 128)]{fullShare} f0 : sProp 𝕄)
      = iprop(oRowPts d L (k0_off5 L k) (k0_off5_inb L k) f0 ∗ oRowPts d L (k0_off9 L k) (k0_off9_inb L k) f0
          ∗ oLoc d ↦[oRows (baseRow L + 2 * (k.val + 1)) (baseRow L + 128)]{fullShare} f0) := by
  have hk : k.val < 64 := trips_eq ▸ k.isLt
  rw [oRowPts_eq d L _ _ f0 (r := baseRow L + 2 * k.val) (r1 := baseRow L + 2 * k.val + 1) (k0_off5_eq L k) rfl,
    oRowPts_eq d L _ _ f0 (r := baseRow L + 2 * k.val + 1) (r1 := baseRow L + 2 * (k.val + 1)) (k0_off9_eq L k) (by omega)]
  exact o_front d f0 rfl (by omega) (by omega)

/-- The two rows of `x` trip k prefetches out of the rows not yet prefetched. -/
theorem x_take (k : Fin k0_t1_loop.trips) (hk : k.val ≤ 62) (X : Buf (Elt F) (xLoc d)) :
    (xLoc d ↦[xRows (baseRow L + 2 * k.val + 2) (baseRow L + 128)]{fullShare} X : sProp 𝕄)
      = iprop(xRowPts d L (k0_off6 L k) (k0_off6_inb L k (cond2_pos k hk)) X ∗ xRowPts d L (k0_off10 L k) (k0_off10_inb L k (cond4_pos k hk)) X
          ∗ xLoc d ↦[xRows (baseRow L + 2 * (k.val + 1) + 2) (baseRow L + 128)]{fullShare} X) := by
  rw [xRowPts_eq d L _ _ X (r := baseRow L + 2 * k.val + 2) (r1 := baseRow L + 2 * k.val + 3) (k0_off6_eq L k) rfl,
    xRowPts_eq d L _ _ X (r := baseRow L + 2 * k.val + 3) (r1 := baseRow L + 2 * (k.val + 1) + 2) (k0_off10_eq L k) (by omega)]
  exact x_front d X rfl (by omega) (by omega)

/-- The two rows of `x` trip k waited for join the rows that have come back. -/
theorem x_give (k : ℕ) (X : Buf (Elt F) (xLoc d))
    (offA : Fin 2 → Nat) (hA : ∀ a, offA a + S1x12800.size a ≤ S4096x12800.size a)
    (offB : Fin 2 → Nat) (hB : ∀ a, offB a + S1x12800.size a ≤ S4096x12800.size a)
    (eA : offA = ![baseRow L + 2 * k, 0]) (eB : offB = ![baseRow L + 2 * k + 1, 0]) :
    iprop((xLoc d ↦[xRows (baseRow L) (baseRow L + 2 * k)]{fullShare} X) ∗ xRowPts d L offA hA X ∗ xRowPts d L offB hB X)
      = (xLoc d ↦[xRows (baseRow L) (baseRow L + 2 * (k + 1))]{fullShare} X : sProp 𝕄) := by
  rw [xRowPts_eq d L offA hA X (r := baseRow L + 2 * k) (r1 := baseRow L + 2 * k + 1) eA rfl,
    xRowPts_eq d L offB hB X (r := baseRow L + 2 * k + 1) (r1 := baseRow L + 2 * (k + 1)) eB (by omega)]
  exact x_back d X rfl (by omega) (by omega)

/-! ## The loop's invariant -/

theorem XRow_cast {xb : Memref sig .scVector .vmem S12800 .f32} {cx : xb.view.ty.Contents (Elt F)} {X : Buf (Elt F) (xLoc d)} {r r' : ℕ}
    (e : r = r') (h : ∀ hr, XRow xb cx X r hr) : ∀ hr, XRow xb cx X r' hr := by subst e; exact h
theorem IsRow_cast {ob : Memref sig .scVector .vmem S200x128 .f32} {c : ob.view.ty.Contents (Elt F)} {X : Buf (Elt F) (xLoc d)}
    {Tm : Buf (Elt F) (tLoc d)} {r r' : ℕ} (e : r = r') (h : ∀ hr, IsRow ob c X Tm r hr) : ∀ hr, IsRow ob c X Tm r' hr := by subst e; exact h

/-- A landed result row is the specified row. -/
theorem oRow_landed (ob : Memref sig .scVector .vmem S200x128 .f32) (c : Buf (Elt F) (ob.view.loc (thr d L)))
    (X : Buf (Elt F) (xLoc d)) (Tm : Buf (Elt F) (tLoc d)) (f0 : Buf (Elt F) (oLoc d))
    (off : Fin 3 → Nat) (h : ∀ a, off a + S1x200x128.size a ≤ S4096x200x128.size a) {r r1 : ℕ} (hr : r < 4096)
    (hoff : off = ![r, 0, 0]) (h1 : r1 = r + 1) (hc : IsRow ob c X Tm r hr) :
    (oRowPts d L off h (landedRow d L ob off h f0 c) : sProp 𝕄) = oLoc d ↦[oRows r r1]{fullShare} (Spec.Gout X Tm : Buf (Elt F) (oLoc d)) := by
  rw [oRowPts_eq d L off h _ hoff h1]
  subst h1
  exact pointsTo_congr (row_landed ob c X Tm f0 off h r hr hoff hc)

/-- The two result rows trip k waited for (sent one trip earlier) join the rows that have landed. -/
theorem o_give (k : ℕ) (hk1 : 1 ≤ k) (hk2 : k ≤ 64) (X : Buf (Elt F) (xLoc d)) (Tm : Buf (Elt F) (tLoc d)) (f0 : Buf (Elt F) (oLoc d))
    (off0 : Fin 3 → Nat) (h0 : ∀ a, off0 a + S1x200x128.size a ≤ S4096x200x128.size a) (c0 : Buf (Elt F) ((ob0).view.loc (thr d L)))
    (off1 : Fin 3 → Nat) (h1 : ∀ a, off1 a + S1x200x128.size a ≤ S4096x200x128.size a) (c1 : Buf (Elt F) ((ob1).view.loc (thr d L)))
    (e0 : off0 = ![baseRow L + 2 * k - 2, 0, 0]) (e1 : off1 = ![baseRow L + 2 * k - 1, 0, 0])
    (hI0 : ∀ hr, IsRow ob0 c0 X Tm (baseRow L + 2 * k - 2) hr) (hI1 : ∀ hr, IsRow ob1 c1 X Tm (baseRow L + 2 * k - 1) hr) :
    iprop((oLoc d ↦[oRows (baseRow L) (baseRow L + 2 * (k - 1))]{fullShare} (Spec.Gout X Tm : Buf (Elt F) (oLoc d)))
        ∗ oRowPts d L off0 h0 (landedRow d L ob0 off0 h0 f0 c0) ∗ oRowPts d L off1 h1 (landedRow d L ob1 off1 h1 f0 c1))
      = (oLoc d ↦[oRows (baseRow L) (baseRow L + 2 * (k + 1 - 1))]{fullShare} (Spec.Gout X Tm : Buf (Elt F) (oLoc d)) : sProp 𝕄) := by
  have hb := baseRow_le L
  rw [oRow_landed d L ob0 c0 X Tm f0 off0 h0 (r := baseRow L + 2 * k - 2) (r1 := baseRow L + 2 * k - 1) (by omega) e0 (by omega) (hI0 _),
    oRow_landed d L ob1 c1 X Tm f0 off1 h1 (r := baseRow L + 2 * k - 1) (r1 := baseRow L + 2 * (k + 1 - 1)) (by omega) e1 (by omega) (hI1 _),
    show baseRow L + 2 * (k - 1) = baseRow L + 2 * k - 2 by omega]
  exact o_back d _ (by omega) (by omega) (by omega)

variable (O : CellTallies nD τ sig (HIx 1)) (W : Waits sig (HIx 1))
variable (X : Buf (Elt F) (xLoc d)) (Tm : Buf (Elt F) (tLoc d)) (f0 : Buf (Elt F) (oLoc d))

/-- Before trip k < 64: rows 2k and 2k + 1 of the block of `x` are on their way into the flat buffers. -/
def inFly (k : ℕ) : sProp 𝕄 :=
  iprop(∃ offA : Fin 2 → Nat, ∃ hA : ∀ a, offA a + S1x12800.size a ≤ S4096x12800.size a, ∃ cA : Buf (Elt F) ((xb0).view.loc (thr d L)),
    ∃ offB : Fin 2 → Nat, ∃ hB : ∀ a, offB a + S1x12800.size a ≤ S4096x12800.size a, ∃ cB : Buf (Elt F) ((xb1).view.loc (thr d L)),
      ⌜offA = ![baseRow L + 2 * k, 0] ∧ offB = ![baseRow L + 2 * k + 1, 0]
        ∧ (∀ hr, XRow xb0 cA X (baseRow L + 2 * k) hr) ∧ (∀ hr, XRow xb1 cB X (baseRow L + 2 * k + 1) hr)⌝
      ∗ xFlight d L xb0 (sIn0).sem X offA hA cA ∗ xFlight d L xb1 (sIn1).sem X offB hB cB)
/-- After the last trip: the flat buffers and their semaphores in hand. -/
def inHand : sProp 𝕄 :=
  iprop((∃ c, (xb0).view.loc (thr d L) ↦{fullShare} c) ∗ (∃ c, (xb1).view.loc (thr d L) ↦{fullShare} c)
    ∗ semVal (thr d L, SemLoc.dma (sIn0).sem) 0 ∗ semVal (thr d L, SemLoc.dma (sIn1).sem) 0)
def inPart (k : ℕ) : sProp 𝕄 := if k < 64 then inFly d L X k else inHand (F := F) d L

/-- Before the first trip: the output buffers in hand, their right halves the template's. -/
def outHand : sProp 𝕄 :=
  iprop(∃ c0 : Buf (Elt F) ((ob0).view.loc (thr d L)), ∃ c1 : Buf (Elt F) ((ob1).view.loc (thr d L)),
    ⌜RightT ob0 c0 Tm ∧ RightT ob1 c1 Tm⌝
    ∗ ((ob0).view.loc (thr d L) ↦{fullShare} c0) ∗ ((ob1).view.loc (thr d L) ↦{fullShare} c1)
    ∗ semVal (thr d L, SemLoc.dma (sOut0).sem) 0 ∗ semVal (thr d L, SemLoc.dma (sOut1).sem) 0)
/-- Before trip k ≥ 1: the output buffers, holding result rows 2k − 2 and 2k − 1, are on their way out to them. -/
def outFly (k : ℕ) : sProp 𝕄 :=
  iprop(∃ off0 : Fin 3 → Nat, ∃ h0 : ∀ a, off0 a + S1x200x128.size a ≤ S4096x200x128.size a, ∃ c0 : Buf (Elt F) ((ob0).view.loc (thr d L)),
    ∃ off1 : Fin 3 → Nat, ∃ h1 : ∀ a, off1 a + S1x200x128.size a ≤ S4096x200x128.size a, ∃ c1 : Buf (Elt F) ((ob1).view.loc (thr d L)),
      ⌜off0 = ![baseRow L + 2 * k - 2, 0, 0] ∧ off1 = ![baseRow L + 2 * k - 1, 0, 0]
        ∧ (∀ hr, IsRow ob0 c0 X Tm (baseRow L + 2 * k - 2) hr) ∧ (∀ hr, IsRow ob1 c1 X Tm (baseRow L + 2 * k - 1) hr)
        ∧ RightT ob0 c0 Tm ∧ RightT ob1 c1 Tm⌝
      ∗ oFlight d L ob0 (sOut0).sem f0 off0 h0 c0 ∗ oFlight d L ob1 (sOut1).sem f0 off1 h1 c1)
def outPart (k : ℕ) : sProp 𝕄 := if k = 0 then outHand (F := F) d L Tm else outFly d L X Tm f0 k

theorem inPart_lt {k : ℕ} (h : k < 64) : inPart d L X k = inFly d L X k := if_pos h
theorem inPart_ge {k : ℕ} (h : ¬ k < 64) : inPart d L X k = inHand (F := F) d L := if_neg h
theorem outPart_zero {k : ℕ} (h : k = 0) : outPart d L X Tm f0 k = outHand (F := F) d L Tm := if_pos h
theorem outPart_pos {k : ℕ} (h : ¬ k = 0) : outPart d L X Tm f0 k = outFly d L X Tm f0 k := if_neg h

/-- Before trip k. -/
def inv (k : ℕ) (_ : Unit) : sProp 𝕄 :=
  iprop(Transfers.MayWaits (thr d L) (none : HIx 1) O
    ∗ (xLoc d ↦[xRows (baseRow L) (baseRow L + 2 * k)]{fullShare} X)
    ∗ (xLoc d ↦[xRows (baseRow L + 2 * k + 2) (baseRow L + 128)]{fullShare} X)
    ∗ (oLoc d ↦[oRows (baseRow L) (baseRow L + 2 * (k - 1))]{fullShare} (Spec.Gout X Tm : Buf (Elt F) (oLoc d)))
    ∗ (oLoc d ↦[oRows (baseRow L + 2 * k) (baseRow L + 128)]{fullShare} f0)
    ∗ inPart d L X k ∗ outPart d L X Tm f0 k
    ∗ ∃ W', ⌜∀ p ∈ W', p ∈ W ∨ p.2 = none⌝ ∗ owes (thr d L) O W')

variable [FloatOps F]

theorem W_trans {W W1 W2 : Waits sig (HIx 1)} (h1 : ∀ p ∈ W1, p ∈ W ∨ p.2 = none) (h2 : ∀ p ∈ W2, p ∈ W1 ∨ p.2 = none) :
    ∀ p ∈ W2, p ∈ W ∨ p.2 = none :=
  fun p hp => (h2 p hp).elim (h1 p) Or.inr

/-- A middle trip keeps the invariant. -/
theorem step_mid (hm : TripMid (F := F)) (k : Fin k0_t1_loop.trips) (hk1 : 1 ≤ k.val) (hk2 : k.val ≤ 62) (v2 : BitVec 32) :
    inv d L O W X Tm f0 k.val () ⊢ wp frame (wpE (defs₀ (F := F)) 𝒱₀ (thr d L) none) Set.univ (tripProg (F := F) L v2 k)
      (inv d L O W X Tm f0 (k.val + 1)) := by
  have hb := baseRow_le L
  unfold inv
  rw [inPart_lt d L X (show k.val < 64 by omega), inPart_lt d L X (show k.val + 1 < 64 by omega),
    outPart_pos d L X Tm f0 (show ¬ k.val = 0 by omega), outPart_pos d L X Tm f0 (show ¬ k.val + 1 = 0 by omega)]
  unfold inFly outFly
  iintro ⟨#Hmw, Hxd, Hxl, Hod, Hol, ⟨%offA, %hA, %cA, %offB, %hB, %cB, %hin, HfA, HfB⟩, ⟨%off0, %h0, %c0, %off1, %h1, %c1, %hout, Hf0, Hf1⟩, %W1, %hW1, HO⟩
  obtain ⟨eA, eB, hXA, hXB⟩ := hin
  obtain ⟨e0, e1, hI0, hI1, hT0, hT1⟩ := hout
  ihave Hol' := (Entails.of_eq (o_take (F := F) d L k f0)) $$ Hol
  icases Hol' with ⟨Ho5, Ho9, Hol⟩
  ihave Hxl' := (Entails.of_eq (x_take (F := F) d L k hk2 X)) $$ Hxl
  icases Hxl' with ⟨Hx6, Hx10, Hxl⟩
  ihave Hwp := (hm d L O W1 X f0 k hk1 hk2 v2 offA hA cA offB hB cB off0 h0 c0 off1 h1 c1) $$ [HfA HfB Hf0 Hf1 Ho5 Ho9 Hx6 Hx10 HO]
  · isplitr; · iexact Hmw
    isplitl [HfA]; · iexact HfA
    isplitl [HfB]; · iexact HfB
    isplitl [Hf0]; · iexact Hf0
    isplitl [Hf1]; · iexact Hf1
    isplitl [Ho5]; · iexact Ho5
    isplitl [Ho9]; · iexact Ho9
    isplitl [Hx6]; · iexact Hx6
    isplitl [Hx10]; · iexact Hx10
    iexact HO
  iapply (wp_wand_r frame _ _) $$ [Hwp Hxd Hxl Hod Hol]
  isplitl [Hwp]; · iexact Hwp
  iintro %a ⟨HxA, HxB, Hl0, Hl1, ⟨%LA, %LB, ⟨Hg0, Hg1⟩, %eLA, %eLB⟩, ⟨HgA, HgB⟩, %W2, %hW2, HO⟩
  subst eLA eLB
  isplitr; · iexact Hmw
  isplitl [Hxd HxA HxB]
  · iapply (Entails.of_eq (x_give (F := F) d L k.val X offA hA offB hB eA eB))
    isplitl [Hxd]; · iexact Hxd
    isplitl [HxA]; · iexact HxA
    iexact HxB
  isplitl [Hxl]; · iexact Hxl
  isplitl [Hod Hl0 Hl1]
  · iapply (Entails.of_eq (o_give (F := F) d L k.val hk1 (by omega) X Tm f0 off0 h0 c0 off1 h1 c1 e0 e1 hI0 hI1))
    isplitl [Hod]; · iexact Hod
    isplitl [Hl0]; · iexact Hl0
    iexact Hl1
  isplitl [Hol]; · iexact Hol
  isplitl [HgA HgB]
  · iexists (k0_off6 L k)
    iexists (k0_off6_inb L k (cond2_pos k hk2))
    iexists (landedX d L xb0 (k0_off6 L k) (k0_off6_inb L k (cond2_pos k hk2)) X cA)
    iexists (k0_off10 L k)
    iexists (k0_off10_inb L k (cond4_pos k hk2))
    iexists (landedX d L xb1 (k0_off10 L k) (k0_off10_inb L k (cond4_pos k hk2)) X cB)
    isplitr
    · ipureintro
      have e6 : k0_off6 L k = ![baseRow L + 2 * (k.val + 1), 0] := (k0_off6_eq L k).trans (vec2_eq (by unfold baseRow; omega))
      have e10 : k0_off10 L k = ![baseRow L + 2 * (k.val + 1) + 1, 0] := (k0_off10_eq L k).trans (vec2_eq (by unfold baseRow; omega))
      exact ⟨e6, e10, fun hr => xrow_landed xb0 cA X _ _ _ hr e6, fun hr => xrow_landed xb1 cB X _ _ _ hr e10⟩
    isplitl [HgA]; · iexact HgA
    iexact HgB
  isplitl [Hg0 Hg1]
  · iexists (k0_off5 L k)
    iexists (k0_off5_inb L k)
    iexists ((ob0).view.writes (Elt F) c0 (piecesTo xb0 cA 800 le_rfl))
    iexists (k0_off9 L k)
    iexists (k0_off9_inb L k)
    iexists ((ob1).view.writes (Elt F) c1 (piecesTo xb1 cB 800 le_rfl))
    isplitr
    · ipureintro
      have e5 : k0_off5 L k = ![baseRow L + 2 * (k.val + 1) - 2, 0, 0] := (k0_off5_eq L k).trans (vec3_eq (by unfold baseRow; omega))
      have e9 : k0_off9 L k = ![baseRow L + 2 * (k.val + 1) - 1, 0, 0] := (k0_off9_eq L k).trans (vec3_eq (by unfold baseRow; omega))
      have rA : baseRow L + 2 * k.val = baseRow L + 2 * (k.val + 1) - 2 := by omega
      have rB : baseRow L + 2 * k.val + 1 = baseRow L + 2 * (k.val + 1) - 1 := by omega
      exact ⟨e5, e9, IsRow_cast d rA (fun hr => (isRow_after (hXA hr) hT0).1), IsRow_cast d rB (fun hr => (isRow_after (hXB hr) hT1).1),
        (isRow_after (hXA (by omega)) hT0).2, (isRow_after (hXB (by omega)) hT1).2⟩
    isplitl [Hg0]; · iexact Hg0
    iexact Hg1
  iexists W2; isplitr
  · ipureintro; exact W_trans hW1 hW2
  · iexact HO

/-- The first trip sets the invariant's copies-out going. -/
theorem step_first (h0 : TripFirst (F := F)) (k : Fin k0_t1_loop.trips) (hk : k.val = 0) (v2 : BitVec 32) :
    inv d L O W X Tm f0 k.val () ⊢ wp frame (wpE (defs₀ (F := F)) 𝒱₀ (thr d L) none) Set.univ (tripProg (F := F) L v2 k)
      (inv d L O W X Tm f0 (k.val + 1)) := by
  have hb := baseRow_le L
  have hk2 : k.val ≤ 62 := by omega
  unfold inv
  rw [inPart_lt d L X (show k.val < 64 by omega), inPart_lt d L X (show k.val + 1 < 64 by omega),
    outPart_zero d L X Tm f0 hk, outPart_pos d L X Tm f0 (show ¬ k.val + 1 = 0 by omega)]
  unfold inFly outFly outHand
  iintro ⟨#Hmw, Hxd, Hxl, Hod, Hol, ⟨%offA, %hA, %cA, %offB, %hB, %cB, %hin, HfA, HfB⟩, ⟨%c0, %c1, %hout, Hc0, Hc1, Hs2, Hs3⟩, %W1, %hW1, HO⟩
  obtain ⟨eA, eB, hXA, hXB⟩ := hin
  obtain ⟨hT0, hT1⟩ := hout
  ihave Hol' := (Entails.of_eq (o_take (F := F) d L k f0)) $$ Hol
  icases Hol' with ⟨Ho5, Ho9, Hol⟩
  ihave Hxl' := (Entails.of_eq (x_take (F := F) d L k hk2 X)) $$ Hxl
  icases Hxl' with ⟨Hx6, Hx10, Hxl⟩
  ihave Hwp := (h0 d L O W1 X f0 k hk v2 offA hA cA offB hB cB c0 c1) $$ [HfA HfB Hc0 Hc1 Hs2 Hs3 Ho5 Ho9 Hx6 Hx10 HO]
  · isplitr; · iexact Hmw
    isplitl [HfA]; · iexact HfA
    isplitl [HfB]; · iexact HfB
    isplitl [Hc0]; · iexact Hc0
    isplitl [Hc1]; · iexact Hc1
    isplitl [Hs2]; · iexact Hs2
    isplitl [Hs3]; · iexact Hs3
    isplitl [Ho5]; · iexact Ho5
    isplitl [Ho9]; · iexact Ho9
    isplitl [Hx6]; · iexact Hx6
    isplitl [Hx10]; · iexact Hx10
    iexact HO
  iapply (wp_wand_r frame _ _) $$ [Hwp Hxd Hxl Hod Hol]
  isplitl [Hwp]; · iexact Hwp
  iintro %a ⟨HxA, HxB, ⟨%LA, %LB, ⟨Hg0, Hg1⟩, %eLA, %eLB⟩, ⟨HgA, HgB⟩, %W2, %hW2, HO⟩
  subst eLA eLB
  isplitr; · iexact Hmw
  isplitl [Hxd HxA HxB]
  · iapply (Entails.of_eq (x_give (F := F) d L k.val X offA hA offB hB eA eB))
    isplitl [Hxd]; · iexact Hxd
    isplitl [HxA]; · iexact HxA
    iexact HxB
  isplitl [Hxl]; · iexact Hxl
  isplitl [Hod]
  · iapply (Entails.of_eq (congrArg (fun e => (oLoc d ↦[oRows (baseRow L) e]{fullShare} (Spec.Gout X Tm : Buf (Elt F) (oLoc d)) : sProp 𝕄))
      (show baseRow L + 2 * (k.val - 1) = baseRow L + 2 * (k.val + 1 - 1) by omega)))
    iexact Hod
  isplitl [Hol]; · iexact Hol
  isplitl [HgA HgB]
  · iexists (k0_off6 L k)
    iexists (k0_off6_inb L k (cond2_pos k hk2))
    iexists (landedX d L xb0 (k0_off6 L k) (k0_off6_inb L k (cond2_pos k hk2)) X cA)
    iexists (k0_off10 L k)
    iexists (k0_off10_inb L k (cond4_pos k hk2))
    iexists (landedX d L xb1 (k0_off10 L k) (k0_off10_inb L k (cond4_pos k hk2)) X cB)
    isplitr
    · ipureintro
      have e6 : k0_off6 L k = ![baseRow L + 2 * (k.val + 1), 0] := (k0_off6_eq L k).trans (vec2_eq (by unfold baseRow; omega))
      have e10 : k0_off10 L k = ![baseRow L + 2 * (k.val + 1) + 1, 0] := (k0_off10_eq L k).trans (vec2_eq (by unfold baseRow; omega))
      exact ⟨e6, e10, fun hr => xrow_landed xb0 cA X _ _ _ hr e6, fun hr => xrow_landed xb1 cB X _ _ _ hr e10⟩
    isplitl [HgA]; · iexact HgA
    iexact HgB
  isplitl [Hg0 Hg1]
  · iexists (k0_off5 L k)
    iexists (k0_off5_inb L k)
    iexists ((ob0).view.writes (Elt F) c0 (piecesTo xb0 cA 800 le_rfl))
    iexists (k0_off9 L k)
    iexists (k0_off9_inb L k)
    iexists ((ob1).view.writes (Elt F) c1 (piecesTo xb1 cB 800 le_rfl))
    isplitr
    · ipureintro
      have e5 : k0_off5 L k = ![baseRow L + 2 * (k.val + 1) - 2, 0, 0] := (k0_off5_eq L k).trans (vec3_eq (by unfold baseRow; omega))
      have e9 : k0_off9 L k = ![baseRow L + 2 * (k.val + 1) - 1, 0, 0] := (k0_off9_eq L k).trans (vec3_eq (by unfold baseRow; omega))
      have rA : baseRow L + 2 * k.val = baseRow L + 2 * (k.val + 1) - 2 := by omega
      have rB : baseRow L + 2 * k.val + 1 = baseRow L + 2 * (k.val + 1) - 1 := by omega
      exact ⟨e5, e9, IsRow_cast d rA (fun hr => (isRow_after (hXA hr) hT0).1), IsRow_cast d rB (fun hr => (isRow_after (hXB hr) hT1).1),
        (isRow_after (hXA (by omega)) hT0).2, (isRow_after (hXB (by omega)) hT1).2⟩
    isplitl [Hg0]; · iexact Hg0
    iexact Hg1
  iexists W2; isplitr
  · ipureintro; exact W_trans hW1 hW2
  · iexact HO

/-- The last trip leaves nothing on its way in. -/
theorem step_last (hl : TripLast (F := F)) (k : Fin k0_t1_loop.trips) (hk : k.val = 63) (v2 : BitVec 32) :
    inv d L O W X Tm f0 k.val () ⊢ wp frame (wpE (defs₀ (F := F)) 𝒱₀ (thr d L) none) Set.univ (tripProg (F := F) L v2 k)
      (inv d L O W X Tm f0 (k.val + 1)) := by
  have hb := baseRow_le L
  have hk1 : 1 ≤ k.val := by omega
  unfold inv
  rw [inPart_lt d L X (show k.val < 64 by omega), inPart_ge d L X (show ¬ k.val + 1 < 64 by omega),
    outPart_pos d L X Tm f0 (show ¬ k.val = 0 by omega), outPart_pos d L X Tm f0 (show ¬ k.val + 1 = 0 by omega)]
  unfold inFly outFly inHand
  iintro ⟨#Hmw, Hxd, Hxl, Hod, Hol, ⟨%offA, %hA, %cA, %offB, %hB, %cB, %hin, HfA, HfB⟩, ⟨%off0, %h0, %c0, %off1, %h1, %c1, %hout, Hf0, Hf1⟩, %W1, %hW1, HO⟩
  obtain ⟨eA, eB, hXA, hXB⟩ := hin
  obtain ⟨e0, e1, hI0, hI1, hT0, hT1⟩ := hout
  icases Hxl with -
  ihave Hol' := (Entails.of_eq (o_take (F := F) d L k f0)) $$ Hol
  icases Hol' with ⟨Ho5, Ho9, Hol⟩
  ihave Hwp := (hl d L O W1 X f0 k hk v2 offA hA cA offB hB cB off0 h0 c0 off1 h1 c1) $$ [HfA HfB Hf0 Hf1 Ho5 Ho9 HO]
  · isplitr; · iexact Hmw
    isplitl [HfA]; · iexact HfA
    isplitl [HfB]; · iexact HfB
    isplitl [Hf0]; · iexact Hf0
    isplitl [Hf1]; · iexact Hf1
    isplitl [Ho5]; · iexact Ho5
    isplitl [Ho9]; · iexact Ho9
    iexact HO
  iapply (wp_wand_r frame _ _) $$ [Hwp Hxd Hod Hol]
  isplitl [Hwp]; · iexact Hwp
  iintro %a ⟨HxA, HxB, Hl0, Hl1, ⟨%LA, %LB, ⟨Hg0, Hg1⟩, %eLA, %eLB⟩, HbA, HbB, HsA, HsB, %W2, %hW2, HO⟩
  subst eLA eLB
  isplitr; · iexact Hmw
  isplitl [Hxd HxA HxB]
  · iapply (Entails.of_eq (x_give (F := F) d L k.val X offA hA offB hB eA eB))
    isplitl [Hxd]; · iexact Hxd
    isplitl [HxA]; · iexact HxA
    iexact HxB
  isplitr
  · rw [x_none d X (baseRow L + 2 * (k.val + 1) + 2) (baseRow L + 128) (by omega)]; iempintro
  isplitl [Hod Hl0 Hl1]
  · iapply (Entails.of_eq (o_give (F := F) d L k.val hk1 (by omega) X Tm f0 off0 h0 c0 off1 h1 c1 e0 e1 hI0 hI1))
    isplitl [Hod]; · iexact Hod
    isplitl [Hl0]; · iexact Hl0
    iexact Hl1
  isplitl [Hol]; · iexact Hol
  isplitl [HbA HbB HsA HsB]
  · isplitl [HbA]; · iexists cA; iexact HbA
    isplitl [HbB]; · iexists cB; iexact HbB
    isplitl [HsA]; · iexact HsA
    iexact HsB
  isplitl [Hg0 Hg1]
  · iexists (k0_off5 L k)
    iexists (k0_off5_inb L k)
    iexists ((ob0).view.writes (Elt F) c0 (piecesTo xb0 cA 800 le_rfl))
    iexists (k0_off9 L k)
    iexists (k0_off9_inb L k)
    iexists ((ob1).view.writes (Elt F) c1 (piecesTo xb1 cB 800 le_rfl))
    isplitr
    · ipureintro
      have e5 : k0_off5 L k = ![baseRow L + 2 * (k.val + 1) - 2, 0, 0] := (k0_off5_eq L k).trans (vec3_eq (by unfold baseRow; omega))
      have e9 : k0_off9 L k = ![baseRow L + 2 * (k.val + 1) - 1, 0, 0] := (k0_off9_eq L k).trans (vec3_eq (by unfold baseRow; omega))
      have rA : baseRow L + 2 * k.val = baseRow L + 2 * (k.val + 1) - 2 := by omega
      have rB : baseRow L + 2 * k.val + 1 = baseRow L + 2 * (k.val + 1) - 1 := by omega
      exact ⟨e5, e9, IsRow_cast d rA (fun hr => (isRow_after (hXA hr) hT0).1), IsRow_cast d rB (fun hr => (isRow_after (hXB hr) hT1).1),
        (isRow_after (hXA (by omega)) hT0).2, (isRow_after (hXB (by omega)) hT1).2⟩
    isplitl [Hg0]; · iexact Hg0
    iexact Hg1
  iexists W2; isplitr
  · ipureintro; exact W_trans hW1 hW2
  · iexact HO

end Tile

variable [FloatOps F]

/-- One vector subcore's task, from the three statements about one trip. -/
theorem tile_body_of (hF : (K (F := F)).Facts) (h0 : TripFirst (F := F)) (hm : TripMid (F := F)) (hl : TripLast (F := F)) :
    TileBody (F := F) := by
  intro d L O W hO X Tm f0 qt
  have hb := baseRow_le L
  simp only [tileProg, cc0_run_eq_skeleton]; unfold cc0_run_skel
  simp only [k0_part273_eq_skeleton]; unfold k0_part273_skel
  rw [(K (F := F)).scopedBufs_V hF d (cV L) (jV L), SparseCore.Cfg.scopedSems0_V (Val := Elt F) d (cV L) (jV L), ownSems0_thr, ownBufs_thr]
  unfold tileGo tileTd
  rw [xBlock_carve]
  iintro ⟨#Hlv, -, ⟨⟨Hxa, Hxb, Hxr⟩, Ht, Ho⟩, ⟨⟨%fx0, Hb0⟩, ⟨%fx1, Hb1⟩, ⟨%fo0, Hc0⟩, ⟨%fo1, Hc1⟩, Hbufs⟩, ⟨Hs0, Hs1, Hs2, Hs3, Hs4, Hs5⟩, HO⟩
  ihave Hmw := ((K (F := F)).mayWaits_none (thr := thr d L) hO) $$ Hlv
  ihave Ht' := (Entails.of_eq (pts_t (F := F) d L _ _).symm) $$ Ht
  ihave Hb0' := (Entails.of_eq (pts_xb0 (F := F) d L _).symm) $$ Hb0
  ihave Hb1' := (Entails.of_eq (pts_xb1 (F := F) d L _).symm) $$ Hb1
  ihave Hc0' := (Entails.of_eq (pts_ob0 (F := F) d L _).symm) $$ Hc0
  ihave Hc1' := (Entails.of_eq (pts_ob1 (F := F) d L _).symm) $$ Hc1
  sl_exec
  rw [bind_assoc]
  sl_for (inv d L O W X Tm f0) $$ [Hmw Hxr Ho Hs0 Hs1 Hc0' Hc1' Hs2 Hs3 HO]
  case region =>
    intro k acc
    rcases Nat.eq_zero_or_pos k.val with hk0 | hk1
    · exact step_first d L O W X Tm f0 h0 k hk0 _
    · by_cases hk2 : k.val ≤ 62
      · exact step_mid d L O W X Tm f0 hm k hk1 hk2 _
      · exact step_last d L O W X Tm f0 hl k (by have h := k.isLt; have ht : Scf.trips k0_t1_loop.lb k0_t1_loop.ub k0_t1_loop.st = 64 := trips_eq; omega) _
  · unfold inv
    rw [inPart_lt d L X (show 0 < 64 by omega), outPart_zero d L X Tm f0 rfl]
    unfold inFly outHand
    isplitr; · iexact Hmw
    isplitr; · rw [x_none d X (baseRow L) (baseRow L + 2 * 0) (by omega)]; iempintro
    isplitl [Hxr]; · iexact Hxr
    isplitr; · rw [o_none d (Spec.Gout X Tm : Buf (Elt F) (oLoc d)) (baseRow L) (baseRow L + 2 * (0 - 1)) (by omega)]; iempintro
    isplitl [Ho]; · iexact Ho
    isplitl [Hs0 Hs1]
    · iexists (k0_off1 L)
      iexists (k0_off1_inb L)
      iexists (landedX d L xb0 (k0_off1 L) (k0_off1_inb L) X fx0)
      iexists (k0_off2 L)
      iexists (k0_off2_inb L)
      iexists (landedX d L xb1 (k0_off2 L) (k0_off2_inb L) X fx1)
      isplitr
      · ipureintro
        have e1 : k0_off1 L = ![baseRow L + 2 * 0, 0] := (k0_off1_eq L).trans (vec2_eq (by unfold baseRow; omega))
        have e2 : k0_off2 L = ![baseRow L + 2 * 0 + 1, 0] := (k0_off2_eq L).trans (vec2_eq (by unfold baseRow; omega))
        exact ⟨e1, e2, fun hr => xrow_landed xb0 fx0 X _ _ _ hr e1, fun hr => xrow_landed xb1 fx1 X _ _ _ hr e2⟩
      isplitl [Hs0]; · iexact Hs0
      iexact Hs1
    isplitl [Hc0' Hc1' Hs2 Hs3]
    · iexists _
      iexists _
      isplitr
      · ipureintro; exact ⟨template_landed ob0 fo0 Tm, template_landed ob1 fo1 Tm⟩
      isplitl [Hc0']; · iexact Hc0'
      isplitl [Hc1']; · iexact Hc1'
      isplitl [Hs2]; · iexact Hs2
      iexact Hs3
    iexists _; isplitr
    rotate_left
    · iexact HO
    · ipureintro; intro p hp
      rcases Finset.mem_insert.mp hp with hp | hp
      · exact .inr (by subst hp; rfl)
      rcases Finset.mem_insert.mp hp with hp | hp
      · exact .inr (by subst hp; rfl)
      · exact .inl hp
  iintro %acc HI
  have ht : Scf.trips k0_t1_loop.lb k0_t1_loop.ub k0_t1_loop.st = 64 := trips_eq
  rw [ht]
  unfold inv
  rw [inPart_ge d L X (show ¬ 64 < 64 by omega), outPart_pos d L X Tm f0 (show ¬ 64 = 0 by omega)]
  unfold inHand outFly
  icases HI with ⟨-, Hxd, -, Hod, -, ⟨⟨%cA, HbA⟩, ⟨%cB, HbB⟩, HsA, HsB⟩, ⟨%off0, %h0', %c0, %off1, %h1', %c1, %hout, Hf0, Hf1⟩, %W1, %hW1, HO⟩
  obtain ⟨e0, e1, hI0, hI1, hT0, hT1⟩ := hout
  sl_exec
  rw [wp_ret]; imodintro
  isplitl [Hxd Ht' Hod Hf0_dst Hf1_dst]
  · isplitl [Hxd]
    · iapply (Entails.of_eq (xBlock_carve (F := F) d L X))
      iexact Hxd
    isplitl [Ht']
    · iapply (Entails.of_eq (pts_t (F := F) d L _ _)); iexact Ht'
    · iapply (Entails.of_eq (o_give (F := F) d L 64 (by omega) (by omega) X Tm f0 off0 h0' c0 off1 h1' c1 e0 e1 hI0 hI1))
      isplitl [Hod]; · iexact Hod
      isplitl [Hf0_dst]; · iexact Hf0_dst
      iexact Hf1_dst
  isplitl [HbA HbB Hf0_src Hf1_src Hbufs]
  · isplitl [HbA]; · iexists cA; iexact HbA
    isplitl [HbB]; · iexists cB; iexact HbB
    isplitl [Hf0_src]
    · iexists c0; iapply (Entails.of_eq (pts_ob0_set (F := F) d L _)); iexact Hf0_src
    isplitl [Hf1_src]
    · iexists c1; iapply (Entails.of_eq (pts_ob1_set (F := F) d L _)); iexact Hf1_src
    iexact Hbufs
  isplitl [HsA HsB Hf0 Hf1 Hs4 Hs5]
  · isplitl [HsA]; · iexact HsA
    isplitl [HsB]; · iexact HsB
    isplitl [Hf0]; · iexact Hf0
    isplitl [Hf1]; · iexact Hf1
    isplitl [Hs4]; · iexact Hs4
    iexact Hs5
  iexists _; isplitr
  rotate_left
  · iexact HO
  · ipureintro; intro p hp
    rcases Finset.mem_insert.mp hp with hp | hp
    · exact .inr (by subst hp; rfl)
    rcases Finset.mem_insert.mp hp with hp | hp
    · exact .inr (by subst hp; rfl)
    · exact hW1 p hp

end Cert.Proof.KernelP

end
-- ==== Proof.Bits.TripFirst.lean ====
/-
  The first trip of the loop: the two output buffers are in hand (they hold the template), so there is no copy-out to
  wait for; otherwise as a middle trip.
-/
import proofs.«204673_g16922171147058_cont_7to1_1063_26_alg».proof.Proof.Bits.Trips

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v3_scv : Memref Cert.Kernel.sig Kind.scVector Space.hbm Cert.Kernel.S4096x12800 EltTy.f32)
local notation "tV" => (Memref.whole Cert.Kernel.main_v2_scv : Memref Cert.Kernel.sig Kind.scVector Space.hbm Cert.Kernel.S200x128 EltTy.f32)
local notation "oV" => (Memref.whole Cert.Kernel.main_v4_scv : Memref Cert.Kernel.sig Kind.scVector Space.hbm Cert.Kernel.S4096x200x128 EltTy.f32)
local notation "xb0" => (Memref.whole Cert.Kernel.cc0_scratch0 : Memref Cert.Kernel.sig Kind.scVector Space.vmem Cert.Kernel.S12800 EltTy.f32)
local notation "xb1" => (Memref.whole Cert.Kernel.cc0_scratch1 : Memref Cert.Kernel.sig Kind.scVector Space.vmem Cert.Kernel.S12800 EltTy.f32)
local notation "ob0" => (Memref.whole Cert.Kernel.cc0_scratch2 : Memref Cert.Kernel.sig Kind.scVector Space.vmem Cert.Kernel.S200x128 EltTy.f32)
local notation "ob1" => (Memref.whole Cert.Kernel.cc0_scratch3 : Memref Cert.Kernel.sig Kind.scVector Space.vmem Cert.Kernel.S200x128 EltTy.f32)

variable [FloatOps F]

theorem trip_first : TripFirst (F := F) := by
  intro d L O W X f0 k hk v2 offA hA cA offB hB cB c0 c1
  have k0_h1 : ¬ k0_cond1 k = 1#1 := cond1_zero k hk
  have k0_h3 : ¬ k0_cond3 k = 1#1 := cond3_zero k hk
  have k0_h2 : k0_cond2 k = 1#1 := cond2_pos k (by omega)
  have k0_h4 : k0_cond4 k = 1#1 := cond4_pos k (by omega)
  delta tripProg outgoing incoming
  delta xFlight oFlight
  delta xRowPts oRowPts
  beta_reduce
  unfold k0_t1_body
  iintro ⟨#Hmw, HfA, HfB, Hc0, Hc1, Hs2, Hs3, Ho0, Ho1, Hx0, Hx1, HO⟩
  sl_exec_parts
  sl_step
  iclear Hc0
  iclear Hc1
  isplitl [HfA_src]; · iexact HfA_src
  isplitl [HfB_src]; · iexact HfB_src
  isplitl [Hs2 Hs3]
  · iexists _; iexists _
    isplitl [Hs2 Hs3]
    · isplitl [Hs2]; · iexact Hs2
      iexact Hs3
    isplitr
    · ipureintro; sl_kernel_rfl
    · ipureintro; sl_kernel_rfl
  isplitl [HfA HfB]
  · isplitl [HfA]; · iexact HfA
    iexact HfB
  iexists _; isplitr
  swap
  · iexact HO
  · ipureintro; intro p hp
    simp only [Finset.mem_insert] at hp
    rcases hp with rfl | rfl | hp
    · exact .inr rfl
    · exact .inr rfl
    · exact .inl hp

end Cert.Proof.KernelP

end
-- ==== Proof.Bits.TripMid.lean ====
/-
  A middle trip of the loop (trips 1 to 62): both pairs of buffers wait for their row of `x` and for their previous
  copy-out, are overwritten on the left 64 columns by the 800 stores, start their copy-out and the prefetch of the row
  after next.  The 800 stores each buffer received are, read off the run, the list `piecesTo` names.
-/
import proofs.«204673_g16922171147058_cont_7to1_1063_26_alg».proof.Proof.Bits.Trips

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v3_scv : Memref Cert.Kernel.sig Kind.scVector Space.hbm Cert.Kernel.S4096x12800 EltTy.f32)
local notation "tV" => (Memref.whole Cert.Kernel.main_v2_scv : Memref Cert.Kernel.sig Kind.scVector Space.hbm Cert.Kernel.S200x128 EltTy.f32)
local notation "oV" => (Memref.whole Cert.Kernel.main_v4_scv : Memref Cert.Kernel.sig Kind.scVector Space.hbm Cert.Kernel.S4096x200x128 EltTy.f32)
local notation "xb0" => (Memref.whole Cert.Kernel.cc0_scratch0 : Memref Cert.Kernel.sig Kind.scVector Space.vmem Cert.Kernel.S12800 EltTy.f32)
local notation "xb1" => (Memref.whole Cert.Kernel.cc0_scratch1 : Memref Cert.Kernel.sig Kind.scVector Space.vmem Cert.Kernel.S12800 EltTy.f32)
local notation "ob0" => (Memref.whole Cert.Kernel.cc0_scratch2 : Memref Cert.Kernel.sig Kind.scVector Space.vmem Cert.Kernel.S200x128 EltTy.f32)
local notation "ob1" => (Memref.whole Cert.Kernel.cc0_scratch3 : Memref Cert.Kernel.sig Kind.scVector Space.vmem Cert.Kernel.S200x128 EltTy.f32)

variable [FloatOps F]

theorem trip_mid : TripMid (F := F) := by
  intro d L O W X f0 k hk1 hk2 v2 offA hA cA offB hB cB off0 h0 c0 off1 h1 c1
  have k0_h1 : k0_cond1 k = 1#1 := cond1_pos k hk1
  have k0_h3 : k0_cond3 k = 1#1 := cond3_pos k hk1
  have k0_h2 : k0_cond2 k = 1#1 := cond2_pos k hk2
  have k0_h4 : k0_cond4 k = 1#1 := cond4_pos k hk2
  delta tripProg outgoing incoming
  delta xFlight oFlight
  delta xRowPts oRowPts
  beta_reduce
  unfold k0_t1_body
  iintro ⟨#Hmw, HfA, HfB, Hf0, Hf1, Ho0, Ho1, Hx0, Hx1, HO⟩
  sl_exec_parts
  sl_step
  isplitl [HfA_src]; · iexact HfA_src
  isplitl [HfB_src]; · iexact HfB_src
  isplitl [Hf0_dst]; · iexact Hf0_dst
  isplitl [Hf1_dst]; · iexact Hf1_dst
  isplitl [Hf0 Hf1]
  · iexists _; iexists _
    isplitl [Hf0 Hf1]
    · isplitl [Hf0]; · iexact Hf0
      iexact Hf1
    isplitr
    · ipureintro; sl_kernel_rfl
    · ipureintro; sl_kernel_rfl
  isplitl [HfA HfB]
  · isplitl [HfA]; · iexact HfA
    iexact HfB
  iexists _; isplitr
  swap
  · iexact HO
  · ipureintro; intro p hp
    simp only [Finset.mem_insert] at hp
    rcases hp with rfl | rfl | rfl | rfl | hp
    · exact .inr rfl
    · exact .inr rfl
    · exact .inr rfl
    · exact .inr rfl
    · exact .inl hp

end Cert.Proof.KernelP

end
-- ==== Proof.Bits.TripLast.lean ====
/-
  The last trip of the loop: as a middle trip, except that no row is left to prefetch, so the two flat buffers and their
  semaphores end the trip in hand.
-/
import proofs.«204673_g16922171147058_cont_7to1_1063_26_alg».proof.Proof.Bits.Trips

noncomputable section

namespace Cert.Proof.KernelP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v3_scv : Memref Cert.Kernel.sig Kind.scVector Space.hbm Cert.Kernel.S4096x12800 EltTy.f32)
local notation "tV" => (Memref.whole Cert.Kernel.main_v2_scv : Memref Cert.Kernel.sig Kind.scVector Space.hbm Cert.Kernel.S200x128 EltTy.f32)
local notation "oV" => (Memref.whole Cert.Kernel.main_v4_scv : Memref Cert.Kernel.sig Kind.scVector Space.hbm Cert.Kernel.S4096x200x128 EltTy.f32)
local notation "xb0" => (Memref.whole Cert.Kernel.cc0_scratch0 : Memref Cert.Kernel.sig Kind.scVector Space.vmem Cert.Kernel.S12800 EltTy.f32)
local notation "xb1" => (Memref.whole Cert.Kernel.cc0_scratch1 : Memref Cert.Kernel.sig Kind.scVector Space.vmem Cert.Kernel.S12800 EltTy.f32)
local notation "ob0" => (Memref.whole Cert.Kernel.cc0_scratch2 : Memref Cert.Kernel.sig Kind.scVector Space.vmem Cert.Kernel.S200x128 EltTy.f32)
local notation "ob1" => (Memref.whole Cert.Kernel.cc0_scratch3 : Memref Cert.Kernel.sig Kind.scVector Space.vmem Cert.Kernel.S200x128 EltTy.f32)

variable [FloatOps F]

theorem trip_last : TripLast (F := F) := by
  intro d L O W X f0 k hk v2 offA hA cA offB hB cB off0 h0 c0 off1 h1 c1
  have k0_h1 : k0_cond1 k = 1#1 := cond1_pos k (by omega)
  have k0_h3 : k0_cond3 k = 1#1 := cond3_pos k (by omega)
  have k0_h2 : ¬ k0_cond2 k = 1#1 := cond2_last k hk
  have k0_h4 : ¬ k0_cond4 k = 1#1 := cond4_last k hk
  delta tripProg outgoing
  delta xFlight oFlight
  delta xRowPts oRowPts
  beta_reduce
  unfold k0_t1_body
  iintro ⟨#Hmw, HfA, HfB, Hf0, Hf1, Ho0, Ho1, HO⟩
  sl_exec_parts
  sl_step
  isplitl [HfA_src]; · iexact HfA_src
  isplitl [HfB_src]; · iexact HfB_src
  isplitl [Hf0_dst]; · iexact Hf0_dst
  isplitl [Hf1_dst]; · iexact Hf1_dst
  isplitl [Hf0 Hf1]
  · iexists _; iexists _
    isplitl [Hf0 Hf1]
    · isplitl [Hf0]; · iexact Hf0
      iexact Hf1
    isplitr
    · ipureintro; sl_kernel_rfl
    · ipureintro; sl_kernel_rfl
  isplitl [HfA_dst]; · iexact HfA_dst
  isplitl [HfB_dst]; · iexact HfB_dst
  isplitl [HfA]; · iexact HfA
  isplitl [HfB]; · iexact HfB
  iexists _; isplitr
  swap
  · iexact HO
  · ipureintro; intro p hp
    simp only [Finset.mem_insert] at hp
    rcases hp with rfl | rfl | rfl | rfl | hp
    · exact .inr rfl
    · exact .inr rfl
    · exact .inr rfl
    · exact .inr rfl
    · exact .inl hp

end Cert.Proof.KernelP

end
-- ==== Proof.Bits.BodyAll.lean ====
/-
  One vector subcore's task, proved: the three kinds of trip, put together by the loop's invariant.
-/
import proofs.«204673_g16922171147058_cont_7to1_1063_26_alg».proof.Proof.Bits.Body
import proofs.«204673_g16922171147058_cont_7to1_1063_26_alg».proof.Proof.Bits.TripFirst
import proofs.«204673_g16922171147058_cont_7to1_1063_26_alg».proof.Proof.Bits.TripMid
import proofs.«204673_g16922171147058_cont_7to1_1063_26_alg».proof.Proof.Bits.TripLast

noncomputable section

namespace Cert.Proof.KernelP

open Idealize.ShloMosaic

variable {F : FTy → Type} [FloatOps F]

/-- Every subcore of the grid leaves its 128 batch rows of the result at the value function. -/
theorem tile_body : TileBody (F := F) := tile_body_of facts trip_first trip_mid trip_last

end Cert.Proof.KernelP

end
-- ==== Proof.lean ====
/-
  The certificate's five claims, assembled.

  On each of its 2 × 16 vector subcores the kernel copies, batch row by batch row, the flattened `x` into the left
  64 columns of a 200 × 128 buffer already holding the template (zeros, then the first 200 rows of the position
  table) and sends the buffer to that batch row of the result: entry (b, l, j) ends at x(b, 64·l + j) for j < 64 and
  at the table's (l, j − 64) for j ≥ 64.  The reference joins `x` with the broadcast table rows along the last axis,
  which is the same function of the two arguments; nothing is computed on the numbers, so the exact instance
  and the printed one move the same data.
-/
import proofs.«204673_g16922171147058_cont_7to1_1063_26_alg».proof.Defs
import proofs.«204673_g16922171147058_cont_7to1_1063_26_alg».proof.Proof.Gen.Kernel
import proofs.«204673_g16922171147058_cont_7to1_1063_26_alg».proof.Proof.Gen.KernelIdeal
import proofs.«204673_g16922171147058_cont_7to1_1063_26_alg».proof.Proof.Gen.ReferenceIdeal
import proofs.«204673_g16922171147058_cont_7to1_1063_26_alg».proof.Proof.Gen.Pre_finite_inputs
import proofs.«204673_g16922171147058_cont_7to1_1063_26_alg».proof.Proof.Launch
import proofs.«204673_g16922171147058_cont_7to1_1063_26_alg».proof.Proof.RefValue
import proofs.«204673_g16922171147058_cont_7to1_1063_26_alg».proof.Proof.BodyAll
import proofs.«204673_g16922171147058_cont_7to1_1063_26_alg».proof.Proof.Bits.Launch
import proofs.«204673_g16922171147058_cont_7to1_1063_26_alg».proof.Proof.Bits.BodyAll
import Idealize.ShloMosaic.Adequacy
import Idealize.ShloMosaic.Init

noncomputable section

namespace Cert.Proof

open Idealize.ShloMosaic Idealize.SL.Sem

/-- The five claims. The two kernel frames are the launch theorem's run with the result dropped; the reference's
    frame is its generated run; the idealization rewrote nothing; and at the exact instance both programs end with
    the same array, `Spec.Gout` of the kernel's two operands computed from arguments that agree. -/
theorem claim : Cert.Claim :=
  ⟨Cert.Kernel.Gen.facts, Cert.KernelIdeal.Gen.facts, Cert.ReferenceIdeal.Gen.facts, Cert.Pre_finite_inputs.Gen.facts,
    -- the kernel as printed runs and leaves its arguments unchanged
    fun m ρ _ => (θ_run (Cert.Kernel.defs (F := Bits)) _ _).mono (fun _ h c => ⟨(h c).2.1, (h c).2.2⟩)
      (Cert.Proof.KernelP.run_main (F := Bits) Cert.Proof.KernelP.tile_body m ρ),
    -- so does the kernel at the exact instance
    fun m ρ _ => (θ_run (Cert.KernelIdeal.defs (F := Ideal)) _ _).mono (fun _ h c => ⟨(h c).2.1, (h c).2.2⟩)
      (Cert.Proof.KernelIdealP.run_main (F := Ideal) Cert.Proof.KernelIdealP.tile_body m ρ),
    -- and the reference
    Cert.Proof.RefValue.frame_ri,
    -- the idealization rewrote no operation
    trivial,
    -- at the exact instance the two results are one function of the arguments
    by
      intro m g m' g' _ hagree
      refine ⟨fun c => (Cert.Proof.Spec.Gout
          (Cert.Proof.KernelIdealP.Xof (F := Ideal) (m ((c.tc : Thread Cert.KernelIdeal.nD Cert.KernelIdeal.τ).loc Cert.KernelIdeal.main_arg0)))
          (Cert.Proof.KernelIdealP.Tof (F := Ideal) (m ((c.tc : Thread Cert.KernelIdeal.nD Cert.KernelIdeal.τ).loc Cert.KernelIdeal.main_arg1)))
          : Buf (Elt Ideal) ((c.tc : Thread Cert.KernelIdeal.nD Cert.KernelIdeal.τ).loc Cert.KernelIdeal.main_v4)),
        Cert.Proof.KernelIdealP.run_main (F := Ideal) Cert.Proof.KernelIdealP.tile_body m g, ?_⟩
      refine (θ_run (Cert.ReferenceIdeal.defs (F := Ideal)) _ _).mono (fun _ h c => ⟨(h c).1.trans ?_, (h c).2⟩)
        (Cert.Proof.RefValue.ref_run m' g')
      rw [(hagree c).1, (hagree c).2]⟩

end Cert.Proof

end
